-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v187)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v187) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v237) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S300000 : Shape := ⟨1, ![300000]⟩
abbrev S2x300000 : Shape := ⟨2, ![2, 300000]⟩
abbrev S300000x1 : Shape := ⟨2, ![300000, 1]⟩
abbrev S1024 : Shape := ⟨1, ![1024]⟩
abbrev S100x256 : Shape := ⟨2, ![100, 256]⟩
abbrev S1x256 : Shape := ⟨2, ![1, 256]⟩
abbrev S256 : Shape := ⟨1, ![256]⟩
abbrev S256x256 : Shape := ⟨2, ![256, 256]⟩
abbrev S128 : Shape := ⟨1, ![128]⟩
abbrev S256x1 : Shape := ⟨2, ![256, 1]⟩
abbrev S1 : Shape := ⟨1, ![1]⟩
abbrev S4x256x256 : Shape := ⟨3, ![4, 256, 256]⟩
abbrev S4x256 : Shape := ⟨2, ![4, 256]⟩
abbrev S512x256 : Shape := ⟨2, ![512, 256]⟩
abbrev S256x128 : Shape := ⟨2, ![256, 128]⟩
abbrev S128x1 : Shape := ⟨2, ![128, 1]⟩
abbrev S_ : Shape := ⟨0, ![]⟩

class Facts : Prop where
  bcast_S_S300000x1 : S_.BroadcastsInDim S300000x1 (![] : Fin 0 → Fin S300000x1.rank)
  reducesTo_S300000x1_S_d0_1 : S300000x1.ReducesTo [0, 1] S_
  h_S_ : 0 < S_.numel
  bcast_S_S1024 : S_.BroadcastsInDim S1024 (![] : Fin 0 → Fin S1024.rank)
  reducesTo_S1024_S_d0 : S1024.ReducesTo [0] S_
  bcast_S_S100x256 : S_.BroadcastsInDim S100x256 (![] : Fin 0 → Fin S100x256.rank)
  reducesTo_S100x256_S_d0_1 : S100x256.ReducesTo [0, 1] S_
  bcast_S_S1x256 : S_.BroadcastsInDim S1x256 (![] : Fin 0 → Fin S1x256.rank)
  reducesTo_S1x256_S_d0_1 : S1x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_

variable [Facts]

def fn_part6 {F : FTy → Type} [FloatOps F] (main_arg5 : FVec F S1024 .f32) (main_arg25 : FVec F S128x1 .f32) (main_arg26 : FVec F S1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x1 .f32 := Host.absf main_arg25
  let main_cst_40 : FVec F S_ .f32 := constant S_ .f32 0x7F800000#32
  let main_v105 : FVec F S128x1 .f32 := broadcastInDim S128x1 ![] bcast_S_S128x1 main_cst_40
  let main_v106 : IVec S128x1 1 := cmpf .olt main_v104 main_v105
  let main_c_41 : IVec S_ 1 := constantI S_ 1 1#1
  let main_v107 : IVec S_ 1 := (fun x v => Host.reduce IntOp.andi x v reducesTo_S128x1_S_d0_1 h_S_) main_v106 main_c_41
  let main_v108 : IVec S_ 1 := andi main_v103 main_v107
  let main_v109 : FVec F S1 .f32 := Host.absf main_arg26
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  let main_cst_44 : FVec F S_ .f32 := constant S_ .f32 0x00000000#32
  let main_v114 : FVec F S1024 .f32 := broadcastInDim S1024 ![] bcast_S_S1024 main_cst_44
  let main_v115 : IVec S1024 1 := cmpf .ogt main_arg5 main_v114
  let main_c_45 : IVec S_ 1 := constantI S_ 1 1#1
  let main_v116 : IVec S_ 1 := (fun x v => Host.reduce IntOp.andi x v reducesTo_S1024_S_d0 h_S_) main_v115 main_c_45
  let main_v117 : IVec S_ 1 := andi main_v113 main_v116
  main_v117

def fn_part5 {F : FTy → Type} [FloatOps F] (main_arg5 : FVec F S1024 .f32) (main_arg22 : FVec F S256 .f32) (main_arg23 : FVec F S256x128 .f32) (main_arg24 : FVec F S128 .f32) (main_arg25 : FVec F S128x1 .f32) (main_arg26 : FVec F S1 .f32) (main_v83 : IVec S_ 1) (main_v84 : FVec F S512x256 .f32) (main_cst_32 : FVec F S_ .f32) : IVec S_ 1 :=
  let main_v85 : FVec F S512x256 .f32 := broadcastInDim S512x256 ![] bcast_S_S512x256 main_cst_32
  let main_v86 : IVec S512x256 1 := cmpf .olt main_v84 main_v85
  let main_c_33 : IVec S_ 1 := constantI S_ 1 1#1
  let main_v87 : IVec S_ 1 := (fun x v => Host.reduce IntOp.andi x v reducesTo_S512x256_S_d0_1 h_S_) main_v86 main_c_33
  let main_v88 : IVec S_ 1 := andi main_v83 main_v87
  let main_v89 : FVec F S256 .f32 := Host.absf main_arg22
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x128 .f32 := Host.absf main_arg23
  let main_cst_36 : FVec F S_ .f32 := constant S_ .f32 0x7F800000#32
  let main_v95 : FVec F S256x128 .f32 := broadcastInDim S256x128 ![] bcast_S_S256x128 main_cst_36
  let main_v96 : IVec S256x128 1 := cmpf .olt main_v94 main_v95
  let main_c_37 : IVec S_ 1 := constantI S_ 1 1#1
  let main_v97 : IVec S_ 1 := (fun x v => Host.reduce IntOp.andi x v reducesTo_S256x128_S_d0_1 h_S_) main_v96 main_c_37
  let main_v98 : IVec S_ 1 := andi main_v93 main_v97
  let main_v99 : FVec F S128 .f32 := Host.absf main_arg24
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg5 main_arg25 main_arg26 main_v98 main_v101 main_c_39

def fn_part4 {F : FTy → Type} [FloatOps F] (main_arg5 : FVec F S1024 .f32) (main_arg18 : FVec F S4x256 .f32) (main_arg19 : FVec F S4x256x256 .f32) (main_arg20 : FVec F S4x256 .f32) (main_arg21 : FVec F S512x256 .f32) (main_arg22 : FVec F S256 .f32) (main_arg23 : FVec F S256x128 .f32) (main_arg24 : FVec F S128 .f32) (main_arg25 : FVec F S128x1 .f32) (main_arg26 : FVec F S1 .f32) (main_v63 : IVec S_ 1) (main_v67 : IVec S_ 1) : IVec S_ 1 :=
  let main_v68 : IVec S_ 1 := andi main_v63 main_v67
  let main_v69 : FVec F S4x256 .f32 := Host.absf main_arg18
  let main_cst_26 : FVec F S_ .f32 := constant S_ .f32 0x7F800000#32
  let main_v70 : FVec F S4x256 .f32 := broadcastInDim S4x256 ![] bcast_S_S4x256 main_cst_26
  let main_v71 : IVec S4x256 1 := cmpf .olt main_v69 main_v70
  let main_c_27 : IVec S_ 1 := constantI S_ 1 1#1
  let main_v72 : IVec S_ 1 := (fun x v => Host.reduce IntOp.andi x v reducesTo_S4x256_S_d0_1 h_S_) main_v71 main_c_27
  let main_v73 : IVec S_ 1 := andi main_v68 main_v72
  let main_v74 : FVec F S4x256x256 .f32 := Host.absf main_arg19
  let main_cst_28 : FVec F S_ .f32 := constant S_ .f32 0x7F800000#32
  let main_v75 : FVec F S4x256x256 .f32 := broadcastInDim S4x256x256 ![] bcast_S_S4x256x256 main_cst_28
  let main_v76 : IVec S4x256x256 1 := cmpf .olt main_v74 main_v75
  let main_c_29 : IVec S_ 1 := constantI S_ 1 1#1
  let main_v77 : IVec S_ 1 := (fun x v => Host.reduce IntOp.andi x v reducesTo_S4x256x256_S_d0_1_2 h_S_) main_v76 main_c_29
  let main_v78 : IVec S_ 1 := andi main_v73 main_v77
  let main_v79 : FVec F S4x256 .f32 := Host.absf main_arg20
  let main_cst_30 : FVec F S_ .f32 := constant S_ .f32 0x7F800000#32
  let main_v80 : FVec F S4x256 .f32 := broadcastInDim S4x256 ![] bcast_S_S4x256 main_cst_30
  let main_v81 : IVec S4x256 1 := cmpf .olt main_v79 main_v80
  let main_c_31 : IVec S_ 1 := constantI S_ 1 1#1
  let main_v82 : IVec S_ 1 := (fun x v => Host.reduce IntOp.andi x v reducesTo_S4x256_S_d0_1 h_S_) main_v81 main_c_31
  let main_v83 : IVec S_ 1 := andi main_v78 main_v82
  let main_v84 : FVec F S512x256 .f32 := Host.absf main_arg21
  let main_cst_32 : FVec F S_ .f32 := constant S_ .f32 0x7F800000#32
  fn_part5 (F := F) main_arg5 main_arg22 main_arg23 main_arg24 main_arg25 main_arg26 main_v83 main_v84 main_cst_32

def fn_part3 {F : FTy → Type} [FloatOps F] (main_arg5 : FVec F S1024 .f32) (main_arg15 : FVec F S256x1 .f32) (main_arg16 : FVec F S1 .f32) (main_arg17 : FVec F S4x256x256 .f32) (main_arg18 : FVec F S4x256 .f32) (main_arg19 : FVec F S4x256x256 .f32) (main_arg20 : FVec F S4x256 .f32) (main_arg21 : FVec F S512x256 .f32) (main_arg22 : FVec F S256 .f32) (main_arg23 : FVec F S256x128 .f32) (main_arg24 : FVec F S128 .f32) (main_arg25 : FVec F S128x1 .f32) (main_arg26 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x1 .f32 := Host.absf main_arg15
  let main_cst_20 : FVec F S_ .f32 := constant S_ .f32 0x7F800000#32
  let main_v55 : FVec F S256x1 .f32 := broadcastInDim S256x1 ![] bcast_S_S256x1 main_cst_20
  let main_v56 : IVec S256x1 1 := cmpf .olt main_v54 main_v55
  let main_c_21 : IVec S_ 1 := constantI S_ 1 1#1
  let main_v57 : IVec S_ 1 := (fun x v => Host.reduce IntOp.andi x v reducesTo_S256x1_S_d0_1 h_S_) main_v56 main_c_21
  let main_v58 : IVec S_ 1 := andi main_v53 main_v57
  let main_v59 : FVec F S1 .f32 := Host.absf main_arg16
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S4x256x256 .f32 := Host.absf main_arg17
  let main_cst_24 : FVec F S_ .f32 := constant S_ .f32 0x7F800000#32
  let main_v65 : FVec F S4x256x256 .f32 := broadcastInDim S4x256x256 ![] bcast_S_S4x256x256 main_cst_24
  let main_v66 : IVec S4x256x256 1 := cmpf .olt main_v64 main_v65
  let main_c_25 : IVec S_ 1 := constantI S_ 1 1#1
  let main_v67 : IVec S_ 1 := (fun x v => Host.reduce IntOp.andi x v reducesTo_S4x256x256_S_d0_1_2 h_S_) main_v66 main_c_25
  fn_part4 (F := F) main_arg5 main_arg18 main_arg19 main_arg20 main_arg21 main_arg22 main_arg23 main_arg24 main_arg25 main_arg26 main_v63 main_v67

def fn_part2 {F : FTy → Type} [FloatOps F] (main_arg5 : FVec F S1024 .f32) (main_arg11 : FVec F S256 .f32) (main_arg12 : FVec F S128 .f32) (main_arg13 : FVec F S256x256 .f32) (main_arg14 : FVec F S256 .f32) (main_arg15 : FVec F S256x1 .f32) (main_arg16 : FVec F S1 .f32) (main_arg17 : FVec F S4x256x256 .f32) (main_arg18 : FVec F S4x256 .f32) (main_arg19 : FVec F S4x256x256 .f32) (main_arg20 : FVec F S4x256 .f32) (main_arg21 : FVec F S512x256 .f32) (main_arg22 : FVec F S256 .f32) (main_arg23 : FVec F S256x128 .f32) (main_arg24 : FVec F S128 .f32) (main_arg25 : FVec F S128x1 .f32) (main_arg26 : FVec F S1 .f32) (main_v33 : IVec S_ 1) : IVec S_ 1 :=
  let main_v34 : FVec F S256 .f32 := Host.absf main_arg11
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x256 .f32 := Host.absf main_arg13
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg14
  let main_cst_18 : FVec F S_ .f32 := constant S_ .f32 0x7F800000#32
  let main_v50 : FVec F S256 .f32 := broadcastInDim S256 ![] bcast_S_S256 main_cst_18
  fn_part3 (F := F) main_arg5 main_arg15 main_arg16 main_arg17 main_arg18 main_arg19 main_arg20 main_arg21 main_arg22 main_arg23 main_arg24 main_arg25 main_arg26 main_v48 main_v49 main_v50

def fn_part1 {F : FTy → Type} [FloatOps F] (main_arg5 : FVec F S1024 .f32) (main_arg8 : FVec F S1x256 .f32) (main_arg9 : FVec F S256 .f32) (main_arg10 : FVec F S256x256 .f32) (main_arg11 : FVec F S256 .f32) (main_arg12 : FVec F S128 .f32) (main_arg13 : FVec F S256x256 .f32) (main_arg14 : FVec F S256 .f32) (main_arg15 : FVec F S256x1 .f32) (main_arg16 : FVec F S1 .f32) (main_arg17 : FVec F S4x256x256 .f32) (main_arg18 : FVec F S4x256 .f32) (main_arg19 : FVec F S4x256x256 .f32) (main_arg20 : FVec F S4x256 .f32) (main_arg21 : FVec F S512x256 .f32) (main_arg22 : FVec F S256 .f32) (main_arg23 : FVec F S256x128 .f32) (main_arg24 : FVec F S128 .f32) (main_arg25 : FVec F S128x1 .f32) (main_arg26 : FVec F S1 .f32) (main_v13 : IVec S_ 1) (main_v16 : IVec S100x256 1) : IVec S_ 1 :=
  let main_c_5 : IVec S_ 1 := constantI S_ 1 1#1
  let main_v17 : IVec S_ 1 := (fun x v => Host.reduce IntOp.andi x v reducesTo_S100x256_S_d0_1 h_S_) main_v16 main_c_5
  let main_v18 : IVec S_ 1 := andi main_v13 main_v17
  let main_v19 : FVec F S1x256 .f32 := Host.absf main_arg8
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S256 .f32 := Host.absf main_arg9
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg10
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg5 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : IVec S50000 32) (main_arg1 : IVec S300000 32) (main_arg2 : IVec S2x300000 32) (main_arg3 : IVec S50000 32) (main_arg4 : FVec F S300000x1 .f32) (main_arg5 : FVec F S1024 .f32) (main_arg6 : FVec F S100x256 .f32) (main_arg7 : FVec F S100x256 .f32) (main_arg8 : FVec F S1x256 .f32) (main_arg9 : FVec F S256 .f32) (main_arg10 : FVec F S256x256 .f32) (main_arg11 : FVec F S256 .f32) (main_arg12 : FVec F S128 .f32) (main_arg13 : FVec F S256x256 .f32) (main_arg14 : FVec F S256 .f32) (main_arg15 : FVec F S256x1 .f32) (main_arg16 : FVec F S1 .f32) (main_arg17 : FVec F S4x256x256 .f32) (main_arg18 : FVec F S4x256 .f32) (main_arg19 : FVec F S4x256x256 .f32) (main_arg20 : FVec F S4x256 .f32) (main_arg21 : FVec F S512x256 .f32) (main_arg22 : FVec F S256 .f32) (main_arg23 : FVec F S256x128 .f32) (main_arg24 : FVec F S128 .f32) (main_arg25 : FVec F S128x1 .f32) (main_arg26 : FVec F S1 .f32) : IVec S_ 1 :=
  let main_v0 : FVec F S300000x1 .f32 := Host.absf main_arg4
  let main_cst : FVec F S_ .f32 := constant S_ .f32 0x7F800000#32
  let main_v1 : FVec F S300000x1 .f32 := broadcastInDim S300000x1 ![] bcast_S_S300000x1 main_cst
  let main_v2 : IVec S300000x1 1 := cmpf .olt main_v0 main_v1
  let main_c : IVec S_ 1 := constantI S_ 1 1#1
  let main_v3 : IVec S_ 1 := (fun x v => Host.reduce IntOp.andi x v reducesTo_S300000x1_S_d0_1 h_S_) main_v2 main_c
  let main_v4 : FVec F S1024 .f32 := Host.absf main_arg5
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S100x256 .f32 := Host.absf main_arg6
  let main_cst_2 : FVec F S_ .f32 := constant S_ .f32 0x7F800000#32
  let main_v10 : FVec F S100x256 .f32 := broadcastInDim S100x256 ![] bcast_S_S100x256 main_cst_2
  let main_v11 : IVec S100x256 1 := cmpf .olt main_v9 main_v10
  let main_c_3 : IVec S_ 1 := constantI S_ 1 1#1
  let main_v12 : IVec S_ 1 := (fun x v => Host.reduce IntOp.andi x v reducesTo_S100x256_S_d0_1 h_S_) main_v11 main_c_3
  let main_v13 : IVec S_ 1 := andi main_v8 main_v12
  let main_v14 : FVec F S100x256 .f32 := Host.absf main_arg7
  let main_cst_4 : FVec F S_ .f32 := constant S_ .f32 0x7F800000#32
  let main_v15 : FVec F S100x256 .f32 := broadcastInDim S100x256 ![] bcast_S_S100x256 main_cst_4
  let main_v16 : IVec S100x256 1 := cmpf .olt main_v14 main_v15
  fn_part1 (F := F) main_arg5 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S50000 : Shape := ⟨1, ![50000]⟩
abbrev S300000 : Shape := ⟨1, ![300000]⟩
abbrev S2x300000 : Shape := ⟨2, ![2, 300000]⟩
abbrev S300000x1 : Shape := ⟨2, ![300000, 1]⟩
abbrev S1024 : Shape := ⟨1, ![1024]⟩
abbrev S100x256 : Shape := ⟨2, ![100, 256]⟩
abbrev S1x256 : Shape := ⟨2, ![1, 256]⟩
abbrev S256 : Shape := ⟨1, ![256]⟩
abbrev S256x256 : Shape := ⟨2, ![256, 256]⟩
abbrev S128 : Shape := ⟨1, ![128]⟩
abbrev S256x1 : Shape := ⟨2, ![256, 1]⟩
abbrev S1 : Shape := ⟨1, ![1]⟩
abbrev S4x256x256 : Shape := ⟨3, ![4, 256, 256]⟩
abbrev S4x256 : Shape := ⟨2, ![4, 256]⟩
abbrev S512x256 : Shape := ⟨2, ![512, 256]⟩
abbrev S256x128 : Shape := ⟨2, ![256, 128]⟩
abbrev S128x1 : Shape := ⟨2, ![128, 1]⟩
abbrev S1x300000 : Shape := ⟨2, ![1, 300000]⟩
abbrev S_ : Shape := ⟨0, ![]⟩
abbrev S1024x1 : Shape := ⟨2, ![1024, 1]⟩
abbrev S1x128 : Shape := ⟨2, ![1, 128]⟩
abbrev S1024x128 : Shape := ⟨2, ![1024, 128]⟩
abbrev S1024x256 : Shape := ⟨2, ![1024, 256]⟩
abbrev S1x1 : Shape := ⟨2, ![1, 1]⟩
abbrev S50000x1 : Shape := ⟨2, ![50000, 1]⟩
abbrev S50000x256 : Shape := ⟨2, ![50000, 256]⟩
abbrev S300000x256 : Shape := ⟨2, ![300000, 256]⟩
abbrev S300000x2 : Shape := ⟨2, ![300000, 2]⟩
abbrev S4000x2 : Shape := ⟨2, ![4000, 2]⟩
abbrev S4000x256 : Shape := ⟨2, ![4000, 256]⟩
abbrev S4000x1 : Shape := ⟨2, ![4000, 1]⟩
abbrev S1x256x256 : Shape := ⟨3, ![1, 256, 256]⟩
abbrev S2000x256 : Shape := ⟨2, ![2000, 256]⟩
abbrev S3000x256 : Shape := ⟨2, ![3000, 256]⟩
abbrev S3000x1 : Shape := ⟨2, ![3000, 1]⟩
abbrev S3000x128 : Shape := ⟨2, ![3000, 128]⟩

abbrev nBuf : Space → Nat
  | .hbm => 255
  | .vmem => 65
  | .smem => 0
  | _ => 0

abbrev hbmTy0_0 (i : Nat) : BufTy := match i % 128 with
  | 0 => ⟨S50000, .i32⟩
  | 1 => ⟨S300000, .i32⟩
  | 2 => ⟨S2x300000, .i32⟩
  | 3 => ⟨S50000, .i32⟩
  | 4 => ⟨S300000x1, .f32⟩
  | 5 => ⟨S1024, .f32⟩
  | 6 => ⟨S100x256, .f32⟩
  | 7 => ⟨S100x256, .f32⟩
  | 8 => ⟨S1x256, .f32⟩
  | 9 => ⟨S256, .f32⟩
  | 10 => ⟨S256x256, .f32⟩
  | 11 => ⟨S256, .f32⟩
  | 12 => ⟨S128, .f32⟩
  | 13 => ⟨S256x256, .f32⟩
  | 14 => ⟨S256, .f32⟩
  | 15 => ⟨S256x1, .f32⟩
  | 16 => ⟨S1, .f32⟩
  | 17 => ⟨S4x256x256, .f32⟩
  | 18 => ⟨S4x256, .f32⟩
  | 19 => ⟨S4x256x256, .f32⟩
  | 20 => ⟨S4x256, .f32⟩
  | 21 => ⟨S512x256, .f32⟩
  | 22 => ⟨S256, .f32⟩
  | 23 => ⟨S256x128, .f32⟩
  | 24 => ⟨S128, .f32⟩
  | 25 => ⟨S128x1, .f32⟩
  | 26 => ⟨S1, .f32⟩
  | 27 => ⟨S1x300000, .i32⟩
  | 28 => ⟨S300000, .i32⟩
  | 29 => ⟨S1x300000, .i32⟩
  | 30 => ⟨S300000, .i32⟩
  | 31 => ⟨S_, .i32⟩
  | 32 => ⟨S300000, .i32⟩
  | 33 => ⟨S300000, .i1⟩
  | 34 => ⟨S_, .i32⟩
  | 35 => ⟨S300000, .i32⟩
  | 36 => ⟨S300000, .i32⟩
  | 37 => ⟨S300000, .i32⟩
  | 38 => ⟨S300000x1, .i32⟩
  | 39 => ⟨S300000, .i32⟩
  | 40 => ⟨S1024x1, .f32⟩
  | 41 => ⟨S1x128, .f32⟩
  | 42 => ⟨S1024x128, .f32⟩
  | 43 => ⟨S1024x128, .f32⟩
  | 44 => ⟨S1024x128, .f32⟩
  | 45 => ⟨S_, .f32⟩
  | 46 => ⟨S1024x128, .f32⟩
  | 47 => ⟨S1024x128, .f32⟩
  | 48 => ⟨S1024x128, .f32⟩
  | 49 => ⟨S1024x128, .f32⟩
  | 50 => ⟨S1024x256, .f32⟩
  | 51 => ⟨S1024x256, .f32⟩
  | 52 => ⟨S1x256, .f32⟩
  | 53 => ⟨S1024x256, .f32⟩
  | 54 => ⟨S1024x256, .f32⟩
  | 55 => ⟨S1024x1, .f32⟩
  | 56 => ⟨S1x1, .f32⟩
  | 57 => ⟨S1024x1, .f32⟩
  | 58 => ⟨S1024x1, .f32⟩
  | 59 => ⟨S_, .i32⟩
  | 60 => ⟨S300000, .i32⟩
  | 61 => ⟨S300000, .i1⟩
  | 62 => ⟨S_, .i32⟩
  | 63 => ⟨S300000, .i32⟩
  | 64 => ⟨S300000, .i32⟩
  | 65 => ⟨S300000, .i32⟩
  | 66 => ⟨S300000x1, .i32⟩
  | 67 => ⟨S300000x1, .f32⟩
  | 68 => ⟨S_, .i32⟩
  | 69 => ⟨S50000, .i32⟩
  | 70 => ⟨S50000, .i1⟩
  | 71 => ⟨S_, .i32⟩
  | 72 => ⟨S50000, .i32⟩
  | 73 => ⟨S50000, .i32⟩
  | 74 => ⟨S50000, .i32⟩
  | 75 => ⟨S50000x1, .i32⟩
  | 76 => ⟨S50000x256, .f32⟩
  | 77 => ⟨S_, .i32⟩
  | 78 => ⟨S300000, .i32⟩
  | 79 => ⟨S300000, .i1⟩
  | 80 => ⟨S_, .i32⟩
  | 81 => ⟨S300000, .i32⟩
  | 82 => ⟨S300000, .i32⟩
  | 83 => ⟨S300000, .i32⟩
  | 84 => ⟨S300000x1, .i32⟩
  | 85 => ⟨S300000x256, .f32⟩
  | 86 => ⟨S300000x2, .f32⟩
  | 87 => ⟨S1x256, .f32⟩
  | 88 => ⟨S1x256, .f32⟩
  | 89 => ⟨S300000x256, .f32⟩
  | 90 => ⟨S_, .i32⟩
  | 91 => ⟨S300000, .i32⟩
  | 92 => ⟨S300000, .i1⟩
  | 93 => ⟨S_, .i32⟩
  | 94 => ⟨S300000, .i32⟩
  | 95 => ⟨S300000, .i32⟩
  | 96 => ⟨S300000, .i32⟩
  | 97 => ⟨S300000x1, .i32⟩
  | 98 => ⟨S300000x256, .f32⟩
  | 99 => ⟨S300000x256, .f32⟩
  | 100 => ⟨S_, .f32⟩
  | 101 => ⟨S300000x256, .f32⟩
  | 102 => ⟨S300000x256, .f32⟩
  | 103 => ⟨S_, .f32⟩
  | 104 => ⟨S50000x256, .f32⟩
  | 105 => ⟨S300000x1, .i32⟩
  | 106 => ⟨S50000x256, .f32⟩
  | 107 => ⟨S1x256x256, .f32⟩
  | 108 => ⟨S256x256, .f32⟩
  | 109 => ⟨S1x256, .f32⟩
  | 110 => ⟨S256, .f32⟩
  | 111 => ⟨S1x256x256, .f32⟩
  | 112 => ⟨S256x256, .f32⟩
  | 113 => ⟨S1x256, .f32⟩
  | 114 => ⟨S256, .f32⟩
  | 115 => ⟨S1x256, .f32⟩
  | 116 => ⟨S1x256, .f32⟩
  | 117 => ⟨S50000x256, .f32⟩
  | 118 => ⟨S_, .i32⟩
  | 119 => ⟨S300000, .i32⟩
  | 120 => ⟨S300000, .i1⟩
  | 121 => ⟨S_, .i32⟩
  | 122 => ⟨S300000, .i32⟩
  | 123 => ⟨S300000, .i32⟩
  | 124 => ⟨S300000, .i32⟩
  | 125 => ⟨S300000x1, .i32⟩
  | 126 => ⟨S300000x256, .f32⟩
  | 127 => ⟨S300000x256, .f32⟩
  | _ => ⟨S50000, .i32⟩

abbrev hbmTy0_1 (i : Nat) : BufTy := match i % 128 with
  | 0 => ⟨S_, .f32⟩
  | 1 => ⟨S300000x256, .f32⟩
  | 2 => ⟨S300000x256, .f32⟩
  | 3 => ⟨S_, .f32⟩
  | 4 => ⟨S50000x256, .f32⟩
  | 5 => ⟨S300000x1, .i32⟩
  | 6 => ⟨S50000x256, .f32⟩
  | 7 => ⟨S1x256x256, .f32⟩
  | 8 => ⟨S256x256, .f32⟩
  | 9 => ⟨S1x256, .f32⟩
  | 10 => ⟨S256, .f32⟩
  | 11 => ⟨S1x256x256, .f32⟩
  | 12 => ⟨S256x256, .f32⟩
  | 13 => ⟨S1x256, .f32⟩
  | 14 => ⟨S256, .f32⟩
  | 15 => ⟨S1x256, .f32⟩
  | 16 => ⟨S1x256, .f32⟩
  | 17 => ⟨S50000x256, .f32⟩
  | 18 => ⟨S_, .i32⟩
  | 19 => ⟨S300000, .i32⟩
  | 20 => ⟨S300000, .i1⟩
  | 21 => ⟨S_, .i32⟩
  | 22 => ⟨S300000, .i32⟩
  | 23 => ⟨S300000, .i32⟩
  | 24 => ⟨S300000, .i32⟩
  | 25 => ⟨S300000x1, .i32⟩
  | 26 => ⟨S300000x256, .f32⟩
  | 27 => ⟨S300000x256, .f32⟩
  | 28 => ⟨S_, .f32⟩
  | 29 => ⟨S300000x256, .f32⟩
  | 30 => ⟨S300000x256, .f32⟩
  | 31 => ⟨S_, .f32⟩
  | 32 => ⟨S50000x256, .f32⟩
  | 33 => ⟨S300000x1, .i32⟩
  | 34 => ⟨S50000x256, .f32⟩
  | 35 => ⟨S1x256x256, .f32⟩
  | 36 => ⟨S256x256, .f32⟩
  | 37 => ⟨S1x256, .f32⟩
  | 38 => ⟨S256, .f32⟩
  | 39 => ⟨S1x256x256, .f32⟩
  | 40 => ⟨S256x256, .f32⟩
  | 41 => ⟨S1x256, .f32⟩
  | 42 => ⟨S256, .f32⟩
  | 43 => ⟨S1x256, .f32⟩
  | 44 => ⟨S1x256, .f32⟩
  | 45 => ⟨S50000x256, .f32⟩
  | 46 => ⟨S_, .i32⟩
  | 47 => ⟨S300000, .i32⟩
  | 48 => ⟨S300000, .i1⟩
  | 49 => ⟨S_, .i32⟩
  | 50 => ⟨S300000, .i32⟩
  | 51 => ⟨S300000, .i32⟩
  | 52 => ⟨S300000, .i32⟩
  | 53 => ⟨S300000x1, .i32⟩
  | 54 => ⟨S300000x256, .f32⟩
  | 55 => ⟨S300000x256, .f32⟩
  | 56 => ⟨S_, .f32⟩
  | 57 => ⟨S300000x256, .f32⟩
  | 58 => ⟨S300000x256, .f32⟩
  | 59 => ⟨S_, .f32⟩
  | 60 => ⟨S50000x256, .f32⟩
  | 61 => ⟨S300000x1, .i32⟩
  | 62 => ⟨S50000x256, .f32⟩
  | 63 => ⟨S1x256x256, .f32⟩
  | 64 => ⟨S256x256, .f32⟩
  | 65 => ⟨S1x256, .f32⟩
  | 66 => ⟨S256, .f32⟩
  | 67 => ⟨S1x256x256, .f32⟩
  | 68 => ⟨S256x256, .f32⟩
  | 69 => ⟨S1x256, .f32⟩
  | 70 => ⟨S256, .f32⟩
  | 71 => ⟨S1x256, .f32⟩
  | 72 => ⟨S1x256, .f32⟩
  | 73 => ⟨S50000x256, .f32⟩
  | 74 => ⟨S_, .i32⟩
  | 75 => ⟨S300000, .i32⟩
  | 76 => ⟨S300000, .i1⟩
  | 77 => ⟨S_, .i32⟩
  | 78 => ⟨S300000, .i32⟩
  | 79 => ⟨S300000, .i32⟩
  | 80 => ⟨S300000, .i32⟩
  | 81 => ⟨S300000x1, .i32⟩
  | 82 => ⟨S300000x256, .f32⟩
  | 83 => ⟨S_, .i32⟩
  | 84 => ⟨S300000, .i32⟩
  | 85 => ⟨S300000, .i1⟩
  | 86 => ⟨S_, .i32⟩
  | 87 => ⟨S300000, .i32⟩
  | 88 => ⟨S300000, .i32⟩
  | 89 => ⟨S300000, .i32⟩
  | 90 => ⟨S300000x1, .i32⟩
  | 91 => ⟨S300000x256, .f32⟩
  | 92 => ⟨S300000x256, .f32⟩
  | 93 => ⟨S_, .i32⟩
  | 94 => ⟨S300000, .i32⟩
  | 95 => ⟨S300000, .i1⟩
  | 96 => ⟨S_, .i32⟩
  | 97 => ⟨S300000, .i32⟩
  | 98 => ⟨S300000, .i32⟩
  | 99 => ⟨S300000, .i32⟩
  | 100 => ⟨S300000x1, .i32⟩
  | 101 => ⟨S300000, .f32⟩
  | 102 => ⟨S_, .f32⟩
  | 103 => ⟨S300000, .f32⟩
  | 104 => ⟨S300000, .f32⟩
  | 105 => ⟨S_, .f32⟩
  | 106 => ⟨S300000, .f32⟩
  | 107 => ⟨S300000, .f32⟩
  | 108 => ⟨S300000, .f32⟩
  | 109 => ⟨S_, .f32⟩
  | 110 => ⟨S300000, .f32⟩
  | 111 => ⟨S300000, .f32⟩
  | 112 => ⟨S_, .f32⟩
  | 113 => ⟨S300000, .f32⟩
  | 114 => ⟨S300000, .f32⟩
  | 115 => ⟨S300000, .f32⟩
  | 116 => ⟨S_, .f32⟩
  | 117 => ⟨S300000, .f32⟩
  | 118 => ⟨S300000, .f32⟩
  | 119 => ⟨S300000x1, .f32⟩
  | 120 => ⟨S256x256, .f32⟩
  | 121 => ⟨S256x256, .f32⟩
  | 122 => ⟨S1x256, .f32⟩
  | 123 => ⟨S1x128, .f32⟩
  | 124 => ⟨S1x1, .f32⟩
  | 125 => ⟨S300000x1, .f32⟩
  | 126 => ⟨S300000, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | .local _ .vmem, ⟨0, _⟩ => ⟨S4000x2, .f32⟩
  | .local _ .vmem, ⟨1, _⟩ => ⟨S4000x2, .f32⟩
  | .local _ .vmem, ⟨2, _⟩ => ⟨S4000x256, .f32⟩
  | .local _ .vmem, ⟨3, _⟩ => ⟨S4000x256, .f32⟩
  | .local _ .vmem, ⟨4, _⟩ => ⟨S1x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S4000x256, .f32⟩
  | .local _ .vmem, ⟨9, _⟩ => ⟨S4000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S256x256, .f32⟩
  | .local _ .vmem, ⟨25, _⟩ => ⟨S1x256, .f32⟩
  | .local _ .vmem, ⟨26, _⟩ => ⟨S256x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S256x256, .f32⟩
  | .local _ .vmem, ⟨35, _⟩ => ⟨S1x256, .f32⟩
  | .local _ .vmem, ⟨36, _⟩ => ⟨S256x256, .f32⟩
  | .local _ .vmem, ⟨37, _⟩ => ⟨S1x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S2000x256, .f32⟩
  | .local _ .vmem, ⟨43, _⟩ => ⟨S2000x256, .f32⟩
  | .local _ .vmem, ⟨44, _⟩ => ⟨S256x256, .f32⟩
  | .local _ .vmem, ⟨45, _⟩ => ⟨S1x256, .f32⟩
  | .local _ .vmem, ⟨46, _⟩ => ⟨S256x256, .f32⟩
  | .local _ .vmem, ⟨47, _⟩ => ⟨S1x256, .f32⟩
  | .local _ .vmem, ⟨48, _⟩ => ⟨S2000x256, .f32⟩
  | .local _ .vmem, ⟨49, _⟩ => ⟨S2000x256, .f32⟩
  | .local _ .vmem, ⟨50, _⟩ => ⟨S3000x256, .f32⟩
  | .local _ .vmem, ⟨51, _⟩ => ⟨S3000x256, .f32⟩
  | .local _ .vmem, ⟨52, _⟩ => ⟨S3000x256, .f32⟩
  | .local _ .vmem, ⟨53, _⟩ => ⟨S3000x256, .f32⟩
  | .local _ .vmem, ⟨54, _⟩ => ⟨S3000x1, .f32⟩
  | .local _ .vmem, ⟨55, _⟩ => ⟨S3000x1, .f32⟩
  | .local _ .vmem, ⟨56, _⟩ => ⟨S256x256, .f32⟩
  | .local _ .vmem, ⟨57, _⟩ => ⟨S256x256, .f32⟩
  | .local _ .vmem, ⟨58, _⟩ => ⟨S1x256, .f32⟩
  | .local _ .vmem, ⟨59, _⟩ => ⟨S256x128, .f32⟩
  | .local _ .vmem, ⟨60, _⟩ => ⟨S1x128, .f32⟩
  | .local _ .vmem, ⟨61, _⟩ => ⟨S128x1, .f32⟩
  | .local _ .vmem, ⟨62, _⟩ => ⟨S1x1, .f32⟩
  | .local _ .vmem, ⟨63, _⟩ => ⟨S3000x1, .f32⟩
  | .local _ .vmem, ⟨64, _⟩ => ⟨S3000x1, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c_1 : Ref sig .tc := ⟨.hbm, 59, rfl⟩
abbrev main_v29 : Ref sig .tc := ⟨.hbm, 60, rfl⟩
abbrev main_v30 : Ref sig .tc := ⟨.hbm, 61, rfl⟩
abbrev main_c_2 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_3 : Ref sig .tc := ⟨.hbm, 68, rfl⟩
abbrev main_v36 : Ref sig .tc := ⟨.hbm, 69, rfl⟩
abbrev main_v37 : Ref sig .tc := ⟨.hbm, 70, rfl⟩
abbrev main_c_4 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_c_5 : Ref sig .tc := ⟨.hbm, 77, rfl⟩
abbrev main_v43 : Ref sig .tc := ⟨.hbm, 78, rfl⟩
abbrev main_v44 : Ref sig .tc := ⟨.hbm, 79, rfl⟩
abbrev main_c_6 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_c_7 : Ref sig .tc := ⟨.hbm, 90, rfl⟩
abbrev main_v54 : Ref sig .tc := ⟨.hbm, 91, rfl⟩
abbrev main_v55 : Ref sig .tc := ⟨.hbm, 92, rfl⟩
abbrev main_c_8 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_call0_cst : Ref sig .tc := ⟨.hbm, 100, rfl⟩
abbrev main_call0_v0 : Ref sig .tc := ⟨.hbm, 101, rfl⟩
abbrev main_v62 : Ref sig .tc := ⟨.hbm, 102, rfl⟩
abbrev main_cst_9 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_c_10 : Ref sig .tc := ⟨.hbm, 118, rfl⟩
abbrev main_v77 : Ref sig .tc := ⟨.hbm, 119, rfl⟩
abbrev main_v78 : Ref sig .tc := ⟨.hbm, 120, rfl⟩
abbrev main_c_11 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_call1_cst : Ref sig .tc := ⟨.hbm, 128, rfl⟩
abbrev main_call1_v0 : Ref sig .tc := ⟨.hbm, 129, rfl⟩
abbrev main_v85 : Ref sig .tc := ⟨.hbm, 130, rfl⟩
abbrev main_cst_12 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_c_13 : Ref sig .tc := ⟨.hbm, 146, rfl⟩
abbrev main_v100 : Ref sig .tc := ⟨.hbm, 147, rfl⟩
abbrev main_v101 : Ref sig .tc := ⟨.hbm, 148, rfl⟩
abbrev main_c_14 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_call2_cst : Ref sig .tc := ⟨.hbm, 156, rfl⟩
abbrev main_call2_v0 : Ref sig .tc := ⟨.hbm, 157, rfl⟩
abbrev main_v108 : Ref sig .tc := ⟨.hbm, 158, rfl⟩
abbrev main_cst_15 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_c_16 : Ref sig .tc := ⟨.hbm, 174, rfl⟩
abbrev main_v123 : Ref sig .tc := ⟨.hbm, 175, rfl⟩
abbrev main_v124 : Ref sig .tc := ⟨.hbm, 176, rfl⟩
abbrev main_c_17 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_call3_cst : Ref sig .tc := ⟨.hbm, 184, rfl⟩
abbrev main_call3_v0 : Ref sig .tc := ⟨.hbm, 185, rfl⟩
abbrev main_v131 : Ref sig .tc := ⟨.hbm, 186, rfl⟩
abbrev main_cst_18 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_c_19 : Ref sig .tc := ⟨.hbm, 202, rfl⟩
abbrev main_v146 : Ref sig .tc := ⟨.hbm, 203, rfl⟩
abbrev main_v147 : Ref sig .tc := ⟨.hbm, 204, rfl⟩
abbrev main_c_20 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_c_21 : Ref sig .tc := ⟨.hbm, 211, rfl⟩
abbrev main_v153 : Ref sig .tc := ⟨.hbm, 212, rfl⟩
abbrev main_v154 : Ref sig .tc := ⟨.hbm, 213, rfl⟩
abbrev main_c_22 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_c_23 : Ref sig .tc := ⟨.hbm, 221, rfl⟩
abbrev main_v161 : Ref sig .tc := ⟨.hbm, 222, rfl⟩
abbrev main_v162 : Ref sig .tc := ⟨.hbm, 223, rfl⟩
abbrev main_c_24 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_cst_25 : Ref sig .tc := ⟨.hbm, 230, rfl⟩
abbrev main_v168 : Ref sig .tc := ⟨.hbm, 231, rfl⟩
abbrev main_v169 : Ref sig .tc := ⟨.hbm, 232, rfl⟩
abbrev main_cst_26 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_cst_27 : Ref sig .tc := ⟨.hbm, 237, rfl⟩
abbrev main_v173 : Ref sig .tc := ⟨.hbm, 238, rfl⟩
abbrev main_v174 : Ref sig .tc := ⟨.hbm, 239, rfl⟩
abbrev main_cst_28 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_cst_29 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg2_1 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg6_0 : Ref sig .tc := ⟨.vmem, 59, rfl⟩
abbrev cc5_stg7_0 : Ref sig .tc := ⟨.vmem, 60, rfl⟩
abbrev cc5_stg8_0 : Ref sig .tc := ⟨.vmem, 61, rfl⟩
abbrev cc5_stg9_0 : Ref sig .tc := ⟨.vmem, 62, rfl⟩
abbrev cc5_stg10_0 : Ref sig .tc := ⟨.vmem, 63, rfl⟩
abbrev cc5_stg10_1 : Ref sig .tc := ⟨.vmem, 64, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem2_1 : DmaSem sig := 55
abbrev cc5_sem3_0 : DmaSem sig := 56
abbrev cc5_sem4_0 : DmaSem sig := 57
abbrev cc5_sem5_0 : DmaSem sig := 58
abbrev cc5_sem6_0 : DmaSem sig := 59
abbrev cc5_sem7_0 : DmaSem sig := 60
abbrev cc5_sem8_0 : DmaSem sig := 61
abbrev cc5_sem9_0 : DmaSem sig := 62
abbrev cc5_sem10_0 : DmaSem sig := 63
abbrev cc5_sem10_1 : DmaSem sig := 64

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S3000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S3000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S3000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S256x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S128x1 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x1 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 2 → Memref sig .tc .vmem S3000x1 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S1024_S1024x1_0 : S1024.BroadcastsInDim S1024x1 (![0] : Fin 1 → Fin S1024x1.rank)
  bcast_S128_S1x128_1 : S128.BroadcastsInDim S1x128 (![1] : Fin 1 → Fin S1x128.rank)
  bcast_S1024x1_S1024x128_0_1 : S1024x1.BroadcastsInDim S1024x128 (![0, 1] : Fin 2 → Fin S1024x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  concatenates_S1024x128_S1024x128_S1024x256_d1 : Shape.Concatenates [S1024x128, S1024x128] S1024x256 1
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S_S50000 : S_.BroadcastsInDim S50000 (![] : Fin 0 → Fin S50000.rank)
  bcast_S50000_S50000x1_0 : S50000.BroadcastsInDim S50000x1 (![0] : Fin 1 → Fin S50000x1.rank)
  concatenates_S300000x1_S300000x1_S300000x2_d1 : Shape.Concatenates [S300000x1, S300000x1] S300000x2 1
  shapeCasts_S256_S1x256 : S256.ShapeCasts S1x256
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  slices_S4000x2_o0_0_S4000x1 : S4000x2.Slices ![0, 0] S4000x1
  slices_S4000x2_o0_1_S4000x1 : S4000x2.Slices ![0, 1] S4000x1
  inb_S1x256_S1x256_0_0 : ∀ a, (![0, 0] : Fin 2 → Nat) a + S1x256.size a ≤ S1x256.size a
  h_S1x256 : 0 < S1x256.numel
  broadcasts_S4000x1_S4000x256 : S4000x1.Broadcasts S4000x256
  broadcasts_S1x256_S4000x256 : S1x256.Broadcasts S4000x256
  shapeCasts_S1x256_S1x256 : S1x256.ShapeCasts S1x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  bcast_S_S300000x256 : S_.BroadcastsInDim S300000x256 (![] : Fin 0 → Fin S300000x256.rank)
  bcast_S_S50000x256 : S_.BroadcastsInDim S50000x256 (![] : Fin 0 → Fin S50000x256.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  shapeCasts_S256x256_S256x256 : S256x256.ShapeCasts S256x256
  broadcasts_S1x256_S2000x256 : S1x256.Broadcasts S2000x256
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  shapeCasts_S300000_S300000x1 : S300000.ShapeCasts S300000x1
  slices_S512x256_S256x256_0_0 : S512x256.Slices ![0, 0] S256x256
  slices_S512x256_S256x256_256_0 : S512x256.Slices ![256, 0] S256x256
  shapeCasts_S128_S1x128 : S128.ShapeCasts S1x128
  shapeCasts_S1_S1x1 : S1.ShapeCasts S1x1
  inb_S3000x256_S3000x256_0_0 : ∀ a, (![0, 0] : Fin 2 → Nat) a + S3000x256.size a ≤ S3000x256.size a
  h_S3000x256 : 0 < S3000x256.numel
  shapeCasts_S3000x256_S3000x256 : S3000x256.ShapeCasts S3000x256
  broadcasts_S1x256_S3000x256 : S1x256.Broadcasts S3000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3000x128 : S1x128.Broadcasts S3000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S3000x1 : S1x1.Broadcasts S3000x1
  inb_S3000x1_S3000x1_0_0 : ∀ a, (![0, 0] : Fin 2 → Nat) a + S3000x1.size a ≤ S3000x1.size a
  h_S3000x1 : 0 < S3000x1.numel
  shapeCasts_S3000x1_S3000x1 : S3000x1.ShapeCasts S3000x1
  shapeCasts_S300000x1_S300000 : S300000x1.ShapeCasts S300000
  gather_S50000_S300000x1_S300000_n_0_n_n_0_1_1_wf : GatherDims.WF S50000 S300000x1 S300000 [] [0] [] [0] [] 1 ![1]
  dot_S1024x256_S256x256_S1024x256_1_0_0_1_n_n_wf : DotDims.WF S1024x256 S256x256 S1024x256 [1] [0] [0] [1] [] []
  dot_S1024x256_S256x1_S1024x1_1_0_0_1_n_n_wf : DotDims.WF S1024x256 S256x1 S1024x1 [1] [0] [0] [1] [] []
  gather_S1024x1_S300000x1_S300000x1_1_0_n_n_0_1_11_wf : GatherDims.WF S1024x1 S300000x1 S300000x1 [1] [0] [] [0] [] 1 ![1, 1]
  gather_S100x256_S50000x1_S50000x256_1_0_n_n_0_1_1256_wf : GatherDims.WF S100x256 S50000x1 S50000x256 [1] [0] [] [0] [] 1 ![1, 256]
  gather_S100x256_S300000x1_S300000x256_1_0_n_n_0_1_1256_wf : GatherDims.WF S100x256 S300000x1 S300000x256 [1] [0] [] [0] [] 1 ![1, 256]
  dot_S4000x256_S256x256_S4000x256_1_0_0_1_n_n_wf : DotDims.WF S4000x256 S256x256 S4000x256 [1] [0] [0] [1] [] []
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  dot_S2000x256_S256x256_S2000x256_1_0_0_1_n_n_wf : DotDims.WF S2000x256 S256x256 S2000x256 [1] [0] [0] [1] [] []
  gather_S1024_S300000x1_S300000_n_0_n_n_0_1_1_wf : GatherDims.WF S1024 S300000x1 S300000 [] [0] [] [0] [] 1 ![1]
  dot_S3000x256_S256x256_S3000x256_1_0_0_1_n_n_wf : DotDims.WF S3000x256 S256x256 S3000x256 [1] [0] [0] [1] [] []
  dot_S3000x256_S256x128_S3000x128_1_0_0_1_n_n_wf : DotDims.WF S3000x256 S256x128 S3000x128 [1] [0] [0] [1] [] []
  dot_S3000x128_S128x1_S3000x1_1_0_0_1_n_n_wf : DotDims.WF S3000x128 S128x1 S3000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x2.size a ≤ S300000x2.size a
  hwx0_0 : ∀ i : grid0.Coords, EltTy.bits .f32 = 32 ∨ (Rect.block (s := S300000x2) S4000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S300000x256.size a
  hwx0_1 : ∀ i : grid0.Coords, EltTy.bits .f32 = 32 ∨ (Rect.block (s := S300000x256) S4000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x256.size a ≤ S300000x256.size a
  hwx0_6 : ∀ i : grid0.Coords, EltTy.bits .f32 = 32 ∨ (Rect.block (s := S300000x256) S4000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S50000x256.size a
  hwx2_6 : ∀ i : grid2.Coords, EltTy.bits .f32 = 32 ∨ (Rect.block (s := S50000x256) S2000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S50000x256.size a
  hwx3_6 : ∀ i : grid3.Coords, EltTy.bits .f32 = 32 ∨ (Rect.block (s := S50000x256) S2000x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .f32 = 32 ∨ (Rect.block (s := S256x256) S256x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x256.size a ≤ S50000x256.size a
  hwx4_6 : ∀ i : grid4.Coords, EltTy.bits .f32 = 32 ∨ (Rect.block (s := S50000x256) S2000x256.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S3000x256.size a ≤ S300000x256.size a
  hwx5_0 : ∀ i : grid5.Coords, EltTy.bits .f32 = 32 ∨ (Rect.block (s := S300000x256) S3000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S3000x256.size a ≤ S300000x256.size a
  hwx5_1 : ∀ i : grid5.Coords, EltTy.bits .f32 = 32 ∨ (Rect.block (s := S300000x256) S3000x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S3000x1.size a ≤ S300000x1.size a
  hwx5_2 : ∀ i : grid5.Coords, EltTy.bits .f32 = 32 ∨ (Rect.block (s := S300000x1) S3000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .f32 = 32 ∨ (Rect.block (s := S256x256) S256x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x256.size a ≤ S256x256.size a
  hwx5_4 : ∀ i : grid5.Coords, EltTy.bits .f32 = 32 ∨ (Rect.block (s := S256x256) S256x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S256x128.size a ≤ S256x128.size a
  hwx5_6 : ∀ i : grid5.Coords, EltTy.bits .f32 = 32 ∨ (Rect.block (s := S256x128) S256x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S128x1.size a ≤ S128x1.size a
  hwx5_8 : ∀ i : grid5.Coords, EltTy.bits .f32 = 32 ∨ (Rect.block (s := S128x1) S128x1.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x1.size a ≤ S1x1.size a
  hwx5_9 : ∀ i : grid5.Coords, EltTy.bits .f32 = 32 ∨ (Rect.block (s := S1x1) S1x1.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S3000x1.size a ≤ S300000x1.size a
  hwx5_10 : ∀ i : grid5.Coords, EltTy.bits .f32 = 32 ∨ (Rect.block (s := S300000x1) S3000x1.size (cc5_transform_10 i) (hinb5_10 i)).WholeWords (EltTy.packing .f32)

variable [Facts₀]

def gather_S50000_S300000x1_S300000_n_0_n_n_0_1_1 : GatherDims S50000 S300000x1 S300000 where
  offsetDims := []
  collapsedSliceDims := [0]
  operandBatchingDims := []
  startIndicesBatchingDims := []
  startIndexMap := [0]
  indexVectorDim := 1
  sliceSizes := ![1]
  wf := gather_S50000_S300000x1_S300000_n_0_n_n_0_1_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf
def gather_S1024x1_S300000x1_S300000x1_1_0_n_n_0_1_11 : GatherDims S1024x1 S300000x1 S300000x1 where
  offsetDims := [1]
  collapsedSliceDims := [0]
  operandBatchingDims := []
  startIndicesBatchingDims := []
  startIndexMap := [0]
  indexVectorDim := 1
  sliceSizes := ![1, 1]
  wf := gather_S1024x1_S300000x1_S300000x1_1_0_n_n_0_1_11_wf
def gather_S100x256_S50000x1_S50000x256_1_0_n_n_0_1_1256 : GatherDims S100x256 S50000x1 S50000x256 where
  offsetDims := [1]
  collapsedSliceDims := [0]
  operandBatchingDims := []
  startIndicesBatchingDims := []
  startIndexMap := [0]
  indexVectorDim := 1
  sliceSizes := ![1, 256]
  wf := gather_S100x256_S50000x1_S50000x256_1_0_n_n_0_1_1256_wf
def gather_S100x256_S300000x1_S300000x256_1_0_n_n_0_1_1256 : GatherDims S100x256 S300000x1 S300000x256 where
  offsetDims := [1]
  collapsedSliceDims := [0]
  operandBatchingDims := []
  startIndicesBatchingDims := []
  startIndexMap := [0]
  indexVectorDim := 1
  sliceSizes := ![1, 256]
  wf := gather_S100x256_S300000x1_S300000x256_1_0_n_n_0_1_1256_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S1024_S300000x1_S300000_n_0_n_n_0_1_1 : GatherDims S1024 S300000x1 S300000 where
  offsetDims := []
  collapsedSliceDims := [0]
  operandBatchingDims := []
  startIndicesBatchingDims := []
  startIndexMap := [0]
  indexVectorDim := 1
  sliceSizes := ![1]
  wf := gather_S1024_S300000x1_S300000_n_0_n_n_0_1_1_wf
def dot_S3000x256_S256x256_S3000x256_1_0_0_1_n_n : DotDims S3000x256 S256x256 S3000x256 where
  lhsContracting := [1]
  rhsContracting := [0]
  lhsNonContracting := [0]
  rhsNonContracting := [1]
  lhsBatch := []
  rhsBatch := []
  wf := dot_S3000x256_S256x256_S3000x256_1_0_0_1_n_n_wf
def dot_S3000x256_S256x128_S3000x128_1_0_0_1_n_n : DotDims S3000x256 S256x128 S3000x128 where
  lhsContracting := [1]
  rhsContracting := [0]
  lhsNonContracting := [0]
  rhsNonContracting := [1]
  lhsBatch := []
  rhsBatch := []
  wf := dot_S3000x256_S256x128_S3000x128_1_0_0_1_n_n_wf
def dot_S3000x128_S128x1_S3000x1_1_0_0_1_n_n : DotDims S3000x128 S128x1 S3000x1 where
  lhsContracting := [1]
  rhsContracting := [0]
  lhsNonContracting := [0]
  rhsNonContracting := [1]
  lhsBatch := []
  rhsBatch := []
  wf := dot_S3000x128_S128x1_S3000x1_1_0_0_1_n_n_wf

abbrev win0_0 : Pipeline.Window sig grid0 :=
  Pipeline.Window.ofSpec (Memref.whole main_v50) S4000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v51) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v52) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v53) S4000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v42) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v67) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v74) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v71) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v75) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v76) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v76) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v88) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v90) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v97) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v94) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v98) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v99) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v99) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v111) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v113) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v120) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v117) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v121) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v122) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v122) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v134) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v136) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v143) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v140) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v144) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v145) S2000x256.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v160) S3000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v53) S3000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v180) S3000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v181) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v182) S256x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v183) S1x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg23) S256x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v184) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_arg25) S128x1.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v185) S1x1.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v186) S3000x1.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

class Facts : Prop extends Facts₀ where

variable [Facts]
-- ==== ReferenceIdeal.lean ====
abbrev S50000 : Shape := ⟨1, ![50000]⟩
abbrev S300000 : Shape := ⟨1, ![300000]⟩
abbrev S2x300000 : Shape := ⟨2, ![2, 300000]⟩
abbrev S300000x1 : Shape := ⟨2, ![300000, 1]⟩
abbrev S1024 : Shape := ⟨1, ![1024]⟩
abbrev S100x256 : Shape := ⟨2, ![100, 256]⟩
abbrev S1x256 : Shape := ⟨2, ![1, 256]⟩
abbrev S256 : Shape := ⟨1, ![256]⟩
abbrev S256x256 : Shape := ⟨2, ![256, 256]⟩
abbrev S128 : Shape := ⟨1, ![128]⟩
abbrev S256x1 : Shape := ⟨2, ![256, 1]⟩
abbrev S1 : Shape := ⟨1, ![1]⟩
abbrev S4x256x256 : Shape := ⟨3, ![4, 256, 256]⟩
abbrev S4x256 : Shape := ⟨2, ![4, 256]⟩
abbrev S512x256 : Shape := ⟨2, ![512, 256]⟩
abbrev S256x128 : Shape := ⟨2, ![256, 128]⟩
abbrev S128x1 : Shape := ⟨2, ![128, 1]⟩
abbrev S1x300000 : Shape := ⟨2, ![1, 300000]⟩
abbrev S_ : Shape := ⟨0, ![]⟩
abbrev S1024x1 : Shape := ⟨2, ![1024, 1]⟩
abbrev S1x128 : Shape := ⟨2, ![1, 128]⟩
abbrev S1024x128 : Shape := ⟨2, ![1024, 128]⟩
abbrev S1024x256 : Shape := ⟨2, ![1024, 256]⟩
abbrev S1x1 : Shape := ⟨2, ![1, 1]⟩
abbrev S50000x1 : Shape := ⟨2, ![50000, 1]⟩
abbrev S50000x256 : Shape := ⟨2, ![50000, 256]⟩
abbrev S300000x256 : Shape := ⟨2, ![300000, 256]⟩
abbrev S1x256x256 : Shape := ⟨3, ![1, 256, 256]⟩
abbrev S300000x512 : Shape := ⟨2, ![300000, 512]⟩
abbrev S300000x128 : Shape := ⟨2, ![300000, 128]⟩

abbrev nBuf : Space → Nat
  | .hbm => 324
  | .vmem => 0
  | .smem => 0
  | _ => 0

abbrev hbmTy0_0 (i : Nat) : BufTy := match i % 128 with
  | 0 => ⟨S50000, .i32⟩
  | 1 => ⟨S300000, .i32⟩
  | 2 => ⟨S2x300000, .i32⟩
  | 3 => ⟨S50000, .i32⟩
  | 4 => ⟨S300000x1, .f32⟩
  | 5 => ⟨S1024, .f32⟩
  | 6 => ⟨S100x256, .f32⟩
  | 7 => ⟨S100x256, .f32⟩
  | 8 => ⟨S1x256, .f32⟩
  | 9 => ⟨S256, .f32⟩
  | 10 => ⟨S256x256, .f32⟩
  | 11 => ⟨S256, .f32⟩
  | 12 => ⟨S128, .f32⟩
  | 13 => ⟨S256x256, .f32⟩
  | 14 => ⟨S256, .f32⟩
  | 15 => ⟨S256x1, .f32⟩
  | 16 => ⟨S1, .f32⟩
  | 17 => ⟨S4x256x256, .f32⟩
  | 18 => ⟨S4x256, .f32⟩
  | 19 => ⟨S4x256x256, .f32⟩
  | 20 => ⟨S4x256, .f32⟩
  | 21 => ⟨S512x256, .f32⟩
  | 22 => ⟨S256, .f32⟩
  | 23 => ⟨S256x128, .f32⟩
  | 24 => ⟨S128, .f32⟩
  | 25 => ⟨S128x1, .f32⟩
  | 26 => ⟨S1, .f32⟩
  | 27 => ⟨S1x300000, .i32⟩
  | 28 => ⟨S300000, .i32⟩
  | 29 => ⟨S1x300000, .i32⟩
  | 30 => ⟨S300000, .i32⟩
  | 31 => ⟨S_, .i32⟩
  | 32 => ⟨S300000, .i32⟩
  | 33 => ⟨S300000, .i1⟩
  | 34 => ⟨S_, .i32⟩
  | 35 => ⟨S300000, .i32⟩
  | 36 => ⟨S300000, .i32⟩
  | 37 => ⟨S300000, .i32⟩
  | 38 => ⟨S300000x1, .i32⟩
  | 39 => ⟨S300000, .i32⟩
  | 40 => ⟨S1024x1, .f32⟩
  | 41 => ⟨S1x128, .f32⟩
  | 42 => ⟨S1024x128, .f32⟩
  | 43 => ⟨S1024x128, .f32⟩
  | 44 => ⟨S1024x128, .f32⟩
  | 45 => ⟨S_, .f32⟩
  | 46 => ⟨S1024x128, .f32⟩
  | 47 => ⟨S1024x128, .f32⟩
  | 48 => ⟨S1024x128, .f32⟩
  | 49 => ⟨S1024x128, .f32⟩
  | 50 => ⟨S1024x256, .f32⟩
  | 51 => ⟨S1024x256, .f32⟩
  | 52 => ⟨S1x256, .f32⟩
  | 53 => ⟨S1024x256, .f32⟩
  | 54 => ⟨S1024x256, .f32⟩
  | 55 => ⟨S1024x1, .f32⟩
  | 56 => ⟨S1x1, .f32⟩
  | 57 => ⟨S1024x1, .f32⟩
  | 58 => ⟨S1024x1, .f32⟩
  | 59 => ⟨S_, .i32⟩
  | 60 => ⟨S50000, .i32⟩
  | 61 => ⟨S50000, .i1⟩
  | 62 => ⟨S_, .i32⟩
  | 63 => ⟨S50000, .i32⟩
  | 64 => ⟨S50000, .i32⟩
  | 65 => ⟨S50000, .i32⟩
  | 66 => ⟨S50000x1, .i32⟩
  | 67 => ⟨S50000x256, .f32⟩
  | 68 => ⟨S_, .i32⟩
  | 69 => ⟨S300000, .i32⟩
  | 70 => ⟨S300000, .i1⟩
  | 71 => ⟨S_, .i32⟩
  | 72 => ⟨S300000, .i32⟩
  | 73 => ⟨S300000, .i32⟩
  | 74 => ⟨S300000, .i32⟩
  | 75 => ⟨S300000x1, .i32⟩
  | 76 => ⟨S300000x256, .f32⟩
  | 77 => ⟨S300000x256, .f32⟩
  | 78 => ⟨S1x256, .f32⟩
  | 79 => ⟨S300000x256, .f32⟩
  | 80 => ⟨S300000x256, .f32⟩
  | 81 => ⟨S_, .f32⟩
  | 82 => ⟨S300000x256, .f32⟩
  | 83 => ⟨S300000x256, .f32⟩
  | 84 => ⟨S300000x256, .f32⟩
  | 85 => ⟨S1x256, .f32⟩
  | 86 => ⟨S300000x256, .f32⟩
  | 87 => ⟨S300000x256, .f32⟩
  | 88 => ⟨S_, .i32⟩
  | 89 => ⟨S300000, .i32⟩
  | 90 => ⟨S300000, .i1⟩
  | 91 => ⟨S_, .i32⟩
  | 92 => ⟨S300000, .i32⟩
  | 93 => ⟨S300000, .i32⟩
  | 94 => ⟨S300000, .i32⟩
  | 95 => ⟨S300000x1, .i32⟩
  | 96 => ⟨S300000x1, .f32⟩
  | 97 => ⟨S300000x256, .f32⟩
  | 98 => ⟨S300000x256, .f32⟩
  | 99 => ⟨S300000x256, .f32⟩
  | 100 => ⟨S_, .i32⟩
  | 101 => ⟨S300000, .i32⟩
  | 102 => ⟨S300000, .i1⟩
  | 103 => ⟨S_, .i32⟩
  | 104 => ⟨S300000, .i32⟩
  | 105 => ⟨S300000, .i32⟩
  | 106 => ⟨S300000, .i32⟩
  | 107 => ⟨S300000x1, .i32⟩
  | 108 => ⟨S300000x256, .f32⟩
  | 109 => ⟨S300000x256, .f32⟩
  | 110 => ⟨S_, .f32⟩
  | 111 => ⟨S300000x256, .f32⟩
  | 112 => ⟨S300000x256, .f32⟩
  | 113 => ⟨S_, .f32⟩
  | 114 => ⟨S50000x256, .f32⟩
  | 115 => ⟨S300000x1, .i32⟩
  | 116 => ⟨S50000x256, .f32⟩
  | 117 => ⟨S50000x256, .f32⟩
  | 118 => ⟨S1x256x256, .f32⟩
  | 119 => ⟨S256x256, .f32⟩
  | 120 => ⟨S1x256x256, .f32⟩
  | 121 => ⟨S256x256, .f32⟩
  | 122 => ⟨S1x256, .f32⟩
  | 123 => ⟨S256, .f32⟩
  | 124 => ⟨S1x256, .f32⟩
  | 125 => ⟨S256, .f32⟩
  | 126 => ⟨S50000x256, .f32⟩
  | 127 => ⟨S1x256, .f32⟩
  | _ => ⟨S50000, .i32⟩

abbrev hbmTy0_1 (i : Nat) : BufTy := match i % 128 with
  | 0 => ⟨S50000x256, .f32⟩
  | 1 => ⟨S50000x256, .f32⟩
  | 2 => ⟨S_, .f32⟩
  | 3 => ⟨S50000x256, .f32⟩
  | 4 => ⟨S50000x256, .f32⟩
  | 5 => ⟨S50000x256, .f32⟩
  | 6 => ⟨S1x256, .f32⟩
  | 7 => ⟨S50000x256, .f32⟩
  | 8 => ⟨S50000x256, .f32⟩
  | 9 => ⟨S_, .f32⟩
  | 10 => ⟨S50000x256, .f32⟩
  | 11 => ⟨S50000x256, .f32⟩
  | 12 => ⟨S50000x256, .f32⟩
  | 13 => ⟨S_, .i32⟩
  | 14 => ⟨S300000, .i32⟩
  | 15 => ⟨S300000, .i1⟩
  | 16 => ⟨S_, .i32⟩
  | 17 => ⟨S300000, .i32⟩
  | 18 => ⟨S300000, .i32⟩
  | 19 => ⟨S300000, .i32⟩
  | 20 => ⟨S300000x1, .i32⟩
  | 21 => ⟨S300000x256, .f32⟩
  | 22 => ⟨S300000x256, .f32⟩
  | 23 => ⟨S_, .f32⟩
  | 24 => ⟨S300000x256, .f32⟩
  | 25 => ⟨S300000x256, .f32⟩
  | 26 => ⟨S_, .f32⟩
  | 27 => ⟨S50000x256, .f32⟩
  | 28 => ⟨S300000x1, .i32⟩
  | 29 => ⟨S50000x256, .f32⟩
  | 30 => ⟨S50000x256, .f32⟩
  | 31 => ⟨S1x256x256, .f32⟩
  | 32 => ⟨S256x256, .f32⟩
  | 33 => ⟨S1x256x256, .f32⟩
  | 34 => ⟨S256x256, .f32⟩
  | 35 => ⟨S1x256, .f32⟩
  | 36 => ⟨S256, .f32⟩
  | 37 => ⟨S1x256, .f32⟩
  | 38 => ⟨S256, .f32⟩
  | 39 => ⟨S50000x256, .f32⟩
  | 40 => ⟨S1x256, .f32⟩
  | 41 => ⟨S50000x256, .f32⟩
  | 42 => ⟨S50000x256, .f32⟩
  | 43 => ⟨S_, .f32⟩
  | 44 => ⟨S50000x256, .f32⟩
  | 45 => ⟨S50000x256, .f32⟩
  | 46 => ⟨S50000x256, .f32⟩
  | 47 => ⟨S1x256, .f32⟩
  | 48 => ⟨S50000x256, .f32⟩
  | 49 => ⟨S50000x256, .f32⟩
  | 50 => ⟨S_, .f32⟩
  | 51 => ⟨S50000x256, .f32⟩
  | 52 => ⟨S50000x256, .f32⟩
  | 53 => ⟨S50000x256, .f32⟩
  | 54 => ⟨S_, .i32⟩
  | 55 => ⟨S300000, .i32⟩
  | 56 => ⟨S300000, .i1⟩
  | 57 => ⟨S_, .i32⟩
  | 58 => ⟨S300000, .i32⟩
  | 59 => ⟨S300000, .i32⟩
  | 60 => ⟨S300000, .i32⟩
  | 61 => ⟨S300000x1, .i32⟩
  | 62 => ⟨S300000x256, .f32⟩
  | 63 => ⟨S300000x256, .f32⟩
  | 64 => ⟨S_, .f32⟩
  | 65 => ⟨S300000x256, .f32⟩
  | 66 => ⟨S300000x256, .f32⟩
  | 67 => ⟨S_, .f32⟩
  | 68 => ⟨S50000x256, .f32⟩
  | 69 => ⟨S300000x1, .i32⟩
  | 70 => ⟨S50000x256, .f32⟩
  | 71 => ⟨S50000x256, .f32⟩
  | 72 => ⟨S1x256x256, .f32⟩
  | 73 => ⟨S256x256, .f32⟩
  | 74 => ⟨S1x256x256, .f32⟩
  | 75 => ⟨S256x256, .f32⟩
  | 76 => ⟨S1x256, .f32⟩
  | 77 => ⟨S256, .f32⟩
  | 78 => ⟨S1x256, .f32⟩
  | 79 => ⟨S256, .f32⟩
  | 80 => ⟨S50000x256, .f32⟩
  | 81 => ⟨S1x256, .f32⟩
  | 82 => ⟨S50000x256, .f32⟩
  | 83 => ⟨S50000x256, .f32⟩
  | 84 => ⟨S_, .f32⟩
  | 85 => ⟨S50000x256, .f32⟩
  | 86 => ⟨S50000x256, .f32⟩
  | 87 => ⟨S50000x256, .f32⟩
  | 88 => ⟨S1x256, .f32⟩
  | 89 => ⟨S50000x256, .f32⟩
  | 90 => ⟨S50000x256, .f32⟩
  | 91 => ⟨S_, .f32⟩
  | 92 => ⟨S50000x256, .f32⟩
  | 93 => ⟨S50000x256, .f32⟩
  | 94 => ⟨S50000x256, .f32⟩
  | 95 => ⟨S_, .i32⟩
  | 96 => ⟨S300000, .i32⟩
  | 97 => ⟨S300000, .i1⟩
  | 98 => ⟨S_, .i32⟩
  | 99 => ⟨S300000, .i32⟩
  | 100 => ⟨S300000, .i32⟩
  | 101 => ⟨S300000, .i32⟩
  | 102 => ⟨S300000x1, .i32⟩
  | 103 => ⟨S300000x256, .f32⟩
  | 104 => ⟨S300000x256, .f32⟩
  | 105 => ⟨S_, .f32⟩
  | 106 => ⟨S300000x256, .f32⟩
  | 107 => ⟨S300000x256, .f32⟩
  | 108 => ⟨S_, .f32⟩
  | 109 => ⟨S50000x256, .f32⟩
  | 110 => ⟨S300000x1, .i32⟩
  | 111 => ⟨S50000x256, .f32⟩
  | 112 => ⟨S50000x256, .f32⟩
  | 113 => ⟨S1x256x256, .f32⟩
  | 114 => ⟨S256x256, .f32⟩
  | 115 => ⟨S1x256x256, .f32⟩
  | 116 => ⟨S256x256, .f32⟩
  | 117 => ⟨S1x256, .f32⟩
  | 118 => ⟨S256, .f32⟩
  | 119 => ⟨S1x256, .f32⟩
  | 120 => ⟨S256, .f32⟩
  | 121 => ⟨S50000x256, .f32⟩
  | 122 => ⟨S1x256, .f32⟩
  | 123 => ⟨S50000x256, .f32⟩
  | 124 => ⟨S50000x256, .f32⟩
  | 125 => ⟨S_, .f32⟩
  | 126 => ⟨S50000x256, .f32⟩
  | 127 => ⟨S50000x256, .f32⟩
  | _ => ⟨S50000, .i32⟩

abbrev hbmTy0_2 (i : Nat) : BufTy := match i % 128 with
  | 0 => ⟨S50000x256, .f32⟩
  | 1 => ⟨S1x256, .f32⟩
  | 2 => ⟨S50000x256, .f32⟩
  | 3 => ⟨S50000x256, .f32⟩
  | 4 => ⟨S50000x256, .f32⟩
  | 5 => ⟨S_, .i32⟩
  | 6 => ⟨S300000, .i32⟩
  | 7 => ⟨S300000, .i1⟩
  | 8 => ⟨S_, .i32⟩
  | 9 => ⟨S300000, .i32⟩
  | 10 => ⟨S300000, .i32⟩
  | 11 => ⟨S300000, .i32⟩
  | 12 => ⟨S300000x1, .i32⟩
  | 13 => ⟨S300000x256, .f32⟩
  | 14 => ⟨S_, .i32⟩
  | 15 => ⟨S300000, .i32⟩
  | 16 => ⟨S300000, .i1⟩
  | 17 => ⟨S_, .i32⟩
  | 18 => ⟨S300000, .i32⟩
  | 19 => ⟨S300000, .i32⟩
  | 20 => ⟨S300000, .i32⟩
  | 21 => ⟨S300000x1, .i32⟩
  | 22 => ⟨S300000x256, .f32⟩
  | 23 => ⟨S300000x256, .f32⟩
  | 24 => ⟨S300000x512, .f32⟩
  | 25 => ⟨S300000x256, .f32⟩
  | 26 => ⟨S1x256, .f32⟩
  | 27 => ⟨S300000x256, .f32⟩
  | 28 => ⟨S300000x256, .f32⟩
  | 29 => ⟨S_, .f32⟩
  | 30 => ⟨S300000x256, .f32⟩
  | 31 => ⟨S300000x256, .f32⟩
  | 32 => ⟨S300000x128, .f32⟩
  | 33 => ⟨S1x128, .f32⟩
  | 34 => ⟨S300000x128, .f32⟩
  | 35 => ⟨S300000x128, .f32⟩
  | 36 => ⟨S_, .f32⟩
  | 37 => ⟨S300000x128, .f32⟩
  | 38 => ⟨S300000x128, .f32⟩
  | 39 => ⟨S300000x1, .f32⟩
  | 40 => ⟨S1x1, .f32⟩
  | 41 => ⟨S300000x1, .f32⟩
  | 42 => ⟨S300000x1, .f32⟩
  | 43 => ⟨S300000, .f32⟩
  | 44 => ⟨S_, .i32⟩
  | 45 => ⟨S300000, .i32⟩
  | 46 => ⟨S300000, .i1⟩
  | 47 => ⟨S_, .i32⟩
  | 48 => ⟨S300000, .i32⟩
  | 49 => ⟨S300000, .i32⟩
  | 50 => ⟨S300000, .i32⟩
  | 51 => ⟨S300000x1, .i32⟩
  | 52 => ⟨S300000, .f32⟩
  | 53 => ⟨S_, .f32⟩
  | 54 => ⟨S300000, .f32⟩
  | 55 => ⟨S300000, .f32⟩
  | 56 => ⟨S_, .f32⟩
  | 57 => ⟨S300000, .f32⟩
  | 58 => ⟨S300000, .f32⟩
  | 59 => ⟨S300000, .f32⟩
  | 60 => ⟨S_, .f32⟩
  | 61 => ⟨S300000, .f32⟩
  | 62 => ⟨S300000, .f32⟩
  | 63 => ⟨S_, .f32⟩
  | 64 => ⟨S300000, .f32⟩
  | 65 => ⟨S300000, .f32⟩
  | 66 => ⟨S300000, .f32⟩
  | 67 => ⟨S300000, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c_1 : Ref sig .tc := ⟨.hbm, 59, rfl⟩
abbrev main_v29 : Ref sig .tc := ⟨.hbm, 60, rfl⟩
abbrev main_v30 : Ref sig .tc := ⟨.hbm, 61, rfl⟩
abbrev main_c_2 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_3 : Ref sig .tc := ⟨.hbm, 68, rfl⟩
abbrev main_v36 : Ref sig .tc := ⟨.hbm, 69, rfl⟩
abbrev main_v37 : Ref sig .tc := ⟨.hbm, 70, rfl⟩
abbrev main_c_4 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_call0_cst : Ref sig .tc := ⟨.hbm, 81, rfl⟩
abbrev main_call0_v0 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_c_5 : Ref sig .tc := ⟨.hbm, 88, rfl⟩
abbrev main_v52 : Ref sig .tc := ⟨.hbm, 89, rfl⟩
abbrev main_v53 : Ref sig .tc := ⟨.hbm, 90, rfl⟩
abbrev main_c_6 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_c_7 : Ref sig .tc := ⟨.hbm, 100, rfl⟩
abbrev main_v62 : Ref sig .tc := ⟨.hbm, 101, rfl⟩
abbrev main_v63 : Ref sig .tc := ⟨.hbm, 102, rfl⟩
abbrev main_c_8 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_call1_cst : Ref sig .tc := ⟨.hbm, 110, rfl⟩
abbrev main_call1_v0 : Ref sig .tc := ⟨.hbm, 111, rfl⟩
abbrev main_v70 : Ref sig .tc := ⟨.hbm, 112, rfl⟩
abbrev main_cst_9 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_call2_cst : Ref sig .tc := ⟨.hbm, 130, rfl⟩
abbrev main_call2_v0 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_call3_cst : Ref sig .tc := ⟨.hbm, 137, rfl⟩
abbrev main_call3_v0 : Ref sig .tc := ⟨.hbm, 138, rfl⟩
abbrev main_v92 : Ref sig .tc := ⟨.hbm, 139, rfl⟩
abbrev main_v93 : Ref sig .tc := ⟨.hbm, 140, rfl⟩
abbrev main_c_10 : Ref sig .tc := ⟨.hbm, 141, rfl⟩
abbrev main_v94 : Ref sig .tc := ⟨.hbm, 142, rfl⟩
abbrev main_v95 : Ref sig .tc := ⟨.hbm, 143, rfl⟩
abbrev main_c_11 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_call4_cst : Ref sig .tc := ⟨.hbm, 151, rfl⟩
abbrev main_call4_v0 : Ref sig .tc := ⟨.hbm, 152, rfl⟩
abbrev main_v102 : Ref sig .tc := ⟨.hbm, 153, rfl⟩
abbrev main_cst_12 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_call5_cst : Ref sig .tc := ⟨.hbm, 171, rfl⟩
abbrev main_call5_v0 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_call6_cst : Ref sig .tc := ⟨.hbm, 178, rfl⟩
abbrev main_call6_v0 : Ref sig .tc := ⟨.hbm, 179, rfl⟩
abbrev main_v124 : Ref sig .tc := ⟨.hbm, 180, rfl⟩
abbrev main_v125 : Ref sig .tc := ⟨.hbm, 181, rfl⟩
abbrev main_c_13 : Ref sig .tc := ⟨.hbm, 182, rfl⟩
abbrev main_v126 : Ref sig .tc := ⟨.hbm, 183, rfl⟩
abbrev main_v127 : Ref sig .tc := ⟨.hbm, 184, rfl⟩
abbrev main_c_14 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_call7_cst : Ref sig .tc := ⟨.hbm, 192, rfl⟩
abbrev main_call7_v0 : Ref sig .tc := ⟨.hbm, 193, rfl⟩
abbrev main_v134 : Ref sig .tc := ⟨.hbm, 194, rfl⟩
abbrev main_cst_15 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_call8_cst : Ref sig .tc := ⟨.hbm, 212, rfl⟩
abbrev main_call8_v0 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_call9_cst : Ref sig .tc := ⟨.hbm, 219, rfl⟩
abbrev main_call9_v0 : Ref sig .tc := ⟨.hbm, 220, rfl⟩
abbrev main_v156 : Ref sig .tc := ⟨.hbm, 221, rfl⟩
abbrev main_v157 : Ref sig .tc := ⟨.hbm, 222, rfl⟩
abbrev main_c_16 : Ref sig .tc := ⟨.hbm, 223, rfl⟩
abbrev main_v158 : Ref sig .tc := ⟨.hbm, 224, rfl⟩
abbrev main_v159 : Ref sig .tc := ⟨.hbm, 225, rfl⟩
abbrev main_c_17 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_call10_cst : Ref sig .tc := ⟨.hbm, 233, rfl⟩
abbrev main_call10_v0 : Ref sig .tc := ⟨.hbm, 234, rfl⟩
abbrev main_v166 : Ref sig .tc := ⟨.hbm, 235, rfl⟩
abbrev main_cst_18 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_call11_cst : Ref sig .tc := ⟨.hbm, 253, rfl⟩
abbrev main_call11_v0 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_c_19 : Ref sig .tc := ⟨.hbm, 261, rfl⟩
abbrev main_v189 : Ref sig .tc := ⟨.hbm, 262, rfl⟩
abbrev main_v190 : Ref sig .tc := ⟨.hbm, 263, rfl⟩
abbrev main_c_20 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_c_21 : Ref sig .tc := ⟨.hbm, 270, rfl⟩
abbrev main_v196 : Ref sig .tc := ⟨.hbm, 271, rfl⟩
abbrev main_v197 : Ref sig .tc := ⟨.hbm, 272, rfl⟩
abbrev main_c_22 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_call12_cst : Ref sig .tc := ⟨.hbm, 285, rfl⟩
abbrev main_call12_v0 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_call13_cst : Ref sig .tc := ⟨.hbm, 292, rfl⟩
abbrev main_call13_v0 : Ref sig .tc := ⟨.hbm, 293, rfl⟩
abbrev main_v214 : Ref sig .tc := ⟨.hbm, 294, rfl⟩
abbrev main_v215 : Ref sig .tc := ⟨.hbm, 295, rfl⟩
abbrev main_v216 : Ref sig .tc := ⟨.hbm, 296, rfl⟩
abbrev main_v217 : Ref sig .tc := ⟨.hbm, 297, rfl⟩
abbrev main_v218 : Ref sig .tc := ⟨.hbm, 298, rfl⟩
abbrev main_v219 : Ref sig .tc := ⟨.hbm, 299, rfl⟩
abbrev main_c_23 : Ref sig .tc := ⟨.hbm, 300, rfl⟩
abbrev main_v220 : Ref sig .tc := ⟨.hbm, 301, rfl⟩
abbrev main_v221 : Ref sig .tc := ⟨.hbm, 302, rfl⟩
abbrev main_c_24 : Ref sig .tc := ⟨.hbm, 303, rfl⟩
abbrev main_v222 : Ref sig .tc := ⟨.hbm, 304, rfl⟩
abbrev main_v223 : Ref sig .tc := ⟨.hbm, 305, rfl⟩
abbrev main_v224 : Ref sig .tc := ⟨.hbm, 306, rfl⟩
abbrev main_v225 : Ref sig .tc := ⟨.hbm, 307, rfl⟩
abbrev main_v226 : Ref sig .tc := ⟨.hbm, 308, rfl⟩
abbrev main_cst_25 : Ref sig .tc := ⟨.hbm, 309, rfl⟩
abbrev main_v227 : Ref sig .tc := ⟨.hbm, 310, rfl⟩
abbrev main_v228 : Ref sig .tc := ⟨.hbm, 311, rfl⟩
abbrev main_cst_26 : Ref sig .tc := ⟨.hbm, 312, rfl⟩
abbrev main_v229 : Ref sig .tc := ⟨.hbm, 313, rfl⟩
abbrev main_v230 : Ref sig .tc := ⟨.hbm, 314, rfl⟩
abbrev main_v231 : Ref sig .tc := ⟨.hbm, 315, rfl⟩
abbrev main_cst_27 : Ref sig .tc := ⟨.hbm, 316, rfl⟩
abbrev main_v232 : Ref sig .tc := ⟨.hbm, 317, rfl⟩
abbrev main_v233 : Ref sig .tc := ⟨.hbm, 318, rfl⟩
abbrev main_cst_28 : Ref sig .tc := ⟨.hbm, 319, rfl⟩
abbrev main_v234 : Ref sig .tc := ⟨.hbm, 320, rfl⟩
abbrev main_v235 : Ref sig .tc := ⟨.hbm, 321, rfl⟩
abbrev main_v236 : Ref sig .tc := ⟨.hbm, 322, rfl⟩
abbrev main_v237 : Ref sig .tc := ⟨.hbm, 323, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S1024_S1024x1_0 : S1024.BroadcastsInDim S1024x1 (![0] : Fin 1 → Fin S1024x1.rank)
  bcast_S128_S1x128_1 : S128.BroadcastsInDim S1x128 (![1] : Fin 1 → Fin S1x128.rank)
  bcast_S1024x1_S1024x128_0_1 : S1024x1.BroadcastsInDim S1024x128 (![0, 1] : Fin 2 → Fin S1024x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  concatenates_S1024x128_S1024x128_S1024x256_d1 : Shape.Concatenates [S1024x128, S1024x128] S1024x256 1
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S1x256_S300000x256_0_1 : S1x256.BroadcastsInDim S300000x256 (![0, 1] : Fin 2 → Fin S300000x256.rank)
  bcast_S_S300000x256 : S_.BroadcastsInDim S300000x256 (![] : Fin 0 → Fin S300000x256.rank)
  bcast_S300000x1_S300000x256_0_1 : S300000x1.BroadcastsInDim S300000x256 (![0, 1] : Fin 2 → Fin S300000x256.rank)
  bcast_S_S50000x256 : S_.BroadcastsInDim S50000x256 (![] : Fin 0 → Fin S50000x256.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  bcast_S1x256_S50000x256_0_1 : S1x256.BroadcastsInDim S50000x256 (![0, 1] : Fin 2 → Fin S50000x256.rank)
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  concatenates_S300000x256_S300000x256_S300000x512_d1 : Shape.Concatenates [S300000x256, S300000x256] S300000x512 1
  bcast_S1x128_S300000x128_0_1 : S1x128.BroadcastsInDim S300000x128 (![0, 1] : Fin 2 → Fin S300000x128.rank)
  bcast_S_S300000x128 : S_.BroadcastsInDim S300000x128 (![] : Fin 0 → Fin S300000x128.rank)
  bcast_S1x1_S300000x1_0_1 : S1x1.BroadcastsInDim S300000x1 (![0, 1] : Fin 2 → Fin S300000x1.rank)
  shapeCasts_S300000x1_S300000 : S300000x1.ShapeCasts S300000
  gather_S50000_S300000x1_S300000_n_0_n_n_0_1_1_wf : GatherDims.WF S50000 S300000x1 S300000 [] [0] [] [0] [] 1 ![1]
  dot_S1024x256_S256x256_S1024x256_1_0_0_1_n_n_wf : DotDims.WF S1024x256 S256x256 S1024x256 [1] [0] [0] [1] [] []
  dot_S1024x256_S256x1_S1024x1_1_0_0_1_n_n_wf : DotDims.WF S1024x256 S256x1 S1024x1 [1] [0] [0] [1] [] []
  gather_S100x256_S50000x1_S50000x256_1_0_n_n_0_1_1256_wf : GatherDims.WF S100x256 S50000x1 S50000x256 [1] [0] [] [0] [] 1 ![1, 256]
  gather_S100x256_S300000x1_S300000x256_1_0_n_n_0_1_1256_wf : GatherDims.WF S100x256 S300000x1 S300000x256 [1] [0] [] [0] [] 1 ![1, 256]
  dot_S300000x1_S1x256_S300000x256_1_0_0_1_n_n_wf : DotDims.WF S300000x1 S1x256 S300000x256 [1] [0] [0] [1] [] []
  dot_S300000x256_S256x256_S300000x256_1_0_0_1_n_n_wf : DotDims.WF S300000x256 S256x256 S300000x256 [1] [0] [0] [1] [] []
  gather_S1024x1_S300000x1_S300000x1_1_0_n_n_0_1_11_wf : GatherDims.WF S1024x1 S300000x1 S300000x1 [1] [0] [] [0] [] 1 ![1, 1]
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  dot_S50000x256_S256x256_S50000x256_1_0_0_1_n_n_wf : DotDims.WF S50000x256 S256x256 S50000x256 [1] [0] [0] [1] [] []
  dot_S300000x512_S512x256_S300000x256_1_0_0_1_n_n_wf : DotDims.WF S300000x512 S512x256 S300000x256 [1] [0] [0] [1] [] []
  dot_S300000x256_S256x128_S300000x128_1_0_0_1_n_n_wf : DotDims.WF S300000x256 S256x128 S300000x128 [1] [0] [0] [1] [] []
  dot_S300000x128_S128x1_S300000x1_1_0_0_1_n_n_wf : DotDims.WF S300000x128 S128x1 S300000x1 [1] [0] [0] [1] [] []
  gather_S1024_S300000x1_S300000_n_0_n_n_0_1_1_wf : GatherDims.WF S1024 S300000x1 S300000 [] [0] [] [0] [] 1 ![1]

variable [Facts₀]

def gather_S50000_S300000x1_S300000_n_0_n_n_0_1_1 : GatherDims S50000 S300000x1 S300000 where
  offsetDims := []
  collapsedSliceDims := [0]
  operandBatchingDims := []
  startIndicesBatchingDims := []
  startIndexMap := [0]
  indexVectorDim := 1
  sliceSizes := ![1]
  wf := gather_S50000_S300000x1_S300000_n_0_n_n_0_1_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf
def gather_S100x256_S50000x1_S50000x256_1_0_n_n_0_1_1256 : GatherDims S100x256 S50000x1 S50000x256 where
  offsetDims := [1]
  collapsedSliceDims := [0]
  operandBatchingDims := []
  startIndicesBatchingDims := []
  startIndexMap := [0]
  indexVectorDim := 1
  sliceSizes := ![1, 256]
  wf := gather_S100x256_S50000x1_S50000x256_1_0_n_n_0_1_1256_wf
def gather_S100x256_S300000x1_S300000x256_1_0_n_n_0_1_1256 : GatherDims S100x256 S300000x1 S300000x256 where
  offsetDims := [1]
  collapsedSliceDims := [0]
  operandBatchingDims := []
  startIndicesBatchingDims := []
  startIndexMap := [0]
  indexVectorDim := 1
  sliceSizes := ![1, 256]
  wf := gather_S100x256_S300000x1_S300000x256_1_0_n_n_0_1_1256_wf
def dot_S300000x1_S1x256_S300000x256_1_0_0_1_n_n : DotDims S300000x1 S1x256 S300000x256 where
  lhsContracting := [1]
  rhsContracting := [0]
  lhsNonContracting := [0]
  rhsNonContracting := [1]
  lhsBatch := []
  rhsBatch := []
  wf := dot_S300000x1_S1x256_S300000x256_1_0_0_1_n_n_wf
def dot_S300000x256_S256x256_S300000x256_1_0_0_1_n_n : DotDims S300000x256 S256x256 S300000x256 where
  lhsContracting := [1]
  rhsContracting := [0]
  lhsNonContracting := [0]
  rhsNonContracting := [1]
  lhsBatch := []
  rhsBatch := []
  wf := dot_S300000x256_S256x256_S300000x256_1_0_0_1_n_n_wf
def gather_S1024x1_S300000x1_S300000x1_1_0_n_n_0_1_11 : GatherDims S1024x1 S300000x1 S300000x1 where
  offsetDims := [1]
  collapsedSliceDims := [0]
  operandBatchingDims := []
  startIndicesBatchingDims := []
  startIndexMap := [0]
  indexVectorDim := 1
  sliceSizes := ![1, 1]
  wf := gather_S1024x1_S300000x1_S300000x1_1_0_n_n_0_1_11_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S300000x512_S512x256_S300000x256_1_0_0_1_n_n : DotDims S300000x512 S512x256 S300000x256 where
  lhsContracting := [1]
  rhsContracting := [0]
  lhsNonContracting := [0]
  rhsNonContracting := [1]
  lhsBatch := []
  rhsBatch := []
  wf := dot_S300000x512_S512x256_S300000x256_1_0_0_1_n_n_wf
def dot_S300000x256_S256x128_S300000x128_1_0_0_1_n_n : DotDims S300000x256 S256x128 S300000x128 where
  lhsContracting := [1]
  rhsContracting := [0]
  lhsNonContracting := [0]
  rhsNonContracting := [1]
  lhsBatch := []
  rhsBatch := []
  wf := dot_S300000x256_S256x128_S300000x128_1_0_0_1_n_n_wf
def dot_S300000x128_S128x1_S300000x1_1_0_0_1_n_n : DotDims S300000x128 S128x1 S300000x1 where
  lhsContracting := [1]
  rhsContracting := [0]
  lhsNonContracting := [0]
  rhsNonContracting := [1]
  lhsBatch := []
  rhsBatch := []
  wf := dot_S300000x128_S128x1_S300000x1_1_0_0_1_n_n_wf
def gather_S1024_S300000x1_S300000_n_0_n_n_0_1_1 : GatherDims S1024 S300000x1 S300000 where
  offsetDims := []
  collapsedSliceDims := [0]
  operandBatchingDims := []
  startIndicesBatchingDims := []
  startIndexMap := [0]
  indexVectorDim := 1
  sliceSizes := ![1]
  wf := gather_S1024_S300000x1_S300000_n_0_n_n_0_1_1_wf

class Facts : Prop extends Facts₀ where

variable [Facts]
-- ==== Proof.KRun.lean ====
/-
  The idealized kernel's run, with its result named.

  The program is six kernel launches among stretches of host operations. Its run is the chain of these segments from the
  launch memory; at every boundary the buffers' contents are a fold of what came before (host operations applied in
  order; a launch's output array at what its write-backs leave). Every weakly fair execution terminates, nothing faults,
  and the final memory holds that fold at every buffer that outlives the launches: here it is read at the result buffer
  and at the 27 argument arrays (which no segment writes).
-/
import proofs.«143893_j1065151889700_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the fold's value
    there, and the argument arrays end as launched. -/
theorem run : θ_run defs (onTc (τ := τ) (main (F := F))) ⟨m, fun _ => 0, ρ⟩ (fun r => ∀ c : Dev nD,
      r.2.mem ((c.tc : Thread nD τ).loc main_v187) = W21 m ρ c (Proc.devRef .tc main_v187)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v187 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c),
       (h c _ (mem_uc main_arg10 (by decide))).trans (W21_main_arg10 m ρ c),
       (h c _ (mem_uc main_arg11 (by decide))).trans (W21_main_arg11 m ρ c),
       (h c _ (mem_uc main_arg12 (by decide))).trans (W21_main_arg12 m ρ c),
       (h c _ (mem_uc main_arg13 (by decide))).trans (W21_main_arg13 m ρ c),
       (h c _ (mem_uc main_arg14 (by decide))).trans (W21_main_arg14 m ρ c),
       (h c _ (mem_uc main_arg15 (by decide))).trans (W21_main_arg15 m ρ c),
       (h c _ (mem_uc main_arg16 (by decide))).trans (W21_main_arg16 m ρ c),
       (h c _ (mem_uc main_arg17 (by decide))).trans (W21_main_arg17 m ρ c),
       (h c _ (mem_uc main_arg18 (by decide))).trans (W21_main_arg18 m ρ c),
       (h c _ (mem_uc main_arg19 (by decide))).trans (W21_main_arg19 m ρ c),
       (h c _ (mem_uc main_arg20 (by decide))).trans (W21_main_arg20 m ρ c),
       (h c _ (mem_uc main_arg21 (by decide))).trans (W21_main_arg21 m ρ c),
       (h c _ (mem_uc main_arg22 (by decide))).trans (W21_main_arg22 m ρ c),
       (h c _ (mem_uc main_arg23 (by decide))).trans (W21_main_arg23 m ρ c),
       (h c _ (mem_uc main_arg24 (by decide))).trans (W21_main_arg24 m ρ c),
       (h c _ (mem_uc main_arg25 (by decide))).trans (W21_main_arg25 m ρ c),
       (h c _ (mem_uc main_arg26 (by decide))).trans (W21_main_arg26 m ρ c)⟩)

end Cert.KernelIdeal.ResultRun

end
-- ==== Proof.RowSpec.lean ====
/-
  The network, one row at a time, on the extended reals.

  Every dense stage of this message-passing network acts on the rows of its operand independently: the entry of the
  result at row r depends on row r of the activations and on the whole weight matrices, never on another row. So the
  three dense stages are stated here as functions of ONE row:

  * `rowEdge`  — an edge's fused feature: the scalar edge length through a two-layer perceptron (the first layer has one
                 input, so it is a scaling of the first weight row), plus the edge's time embedding, times the edge's
                 bond embedding;
  * `rowLayer` — one graph-convolution update of a node: a two-layer perceptron of (state + aggregated messages), an
                 optional rectifier, plus the state (the short cut);
  * `rowOut`   — an edge's score before normalisation: a three-layer perceptron of the 512 features (the product of the
                 two endpoint states, then the fused edge feature), the first layer written as the sum of its two
                 256-row halves.

  Two laws join the two programs: a sum over 512 = 256 + 256 terms is the sum of its halves (associativity and
  commutativity of + only, valid at the infinities too), and x · (1 / s) = x / s whenever s ≠ 0 (at s = 0 the two sides
  differ at x = 0, which is why the statement keeps the diffusion time positive).
-/
import Idealize.ShloMosaic.PureOps.Ideal
import Mathlib.Algebra.BigOperators.Fin

noncomputable section

open scoped BigOperators

namespace Cert.RowSpec

open Idealize.ShloMosaic

/-- The rectifier. -/
def relu (x : EReal) : EReal := max x 0

/-- An edge's fused feature at column `c`: `el` the edge length, `tg` the edge's time embedding, `bond` its bond
    embedding row. -/
def rowEdge (el tg : EReal) (w1 b1 : Fin 256 → EReal) (W2 : Fin 256 → Fin 256 → EReal) (b2 bond : Fin 256 → EReal)
    (c : Fin 256) : EReal :=
  ((∑ k : Fin 256, relu (el * w1 k + b1 k) * W2 k c) + b2 c + tg) * bond c

/-- A node's updated state at column `c`: `h` its state row, `a` its aggregated messages; `fin` says whether the
    perceptron's output is rectified (every layer but the last). -/
def rowLayer (fin : Bool) (h a : Fin 256 → EReal) (W1 : Fin 256 → Fin 256 → EReal) (b1 : Fin 256 → EReal)
    (W2 : Fin 256 → Fin 256 → EReal) (b2 : Fin 256 → EReal) (c : Fin 256) : EReal :=
  (if fin then relu else id) ((∑ k : Fin 256, relu ((∑ j : Fin 256, (h j + a j) * W1 j k) + b1 k) * W2 k c) + b2 c) + h c

/-- An edge's score before normalisation: `rc` the product of its endpoints' states, `bond` its fused feature. -/
def rowOut (rc bond : Fin 256 → EReal) (W1a W1b : Fin 256 → Fin 256 → EReal) (b1 : Fin 256 → EReal)
    (W2 : Fin 256 → Fin 128 → EReal) (b2 : Fin 128 → EReal) (W3 : Fin 128 → EReal) (b3 : EReal) : EReal :=
  (∑ k : Fin 128, relu ((∑ j : Fin 256,
      relu ((∑ i : Fin 256, rc i * W1a i j) + (∑ i : Fin 256, bond i * W1b i j) + b1 j) * W2 j k) + b2 k) * W3 k) + b3

/-- The per-row functions depend on their rows and weights only through their entries. -/
theorem rowEdge_congr {el el' tg tg' : EReal} {w1 w1' b1 b1' : Fin 256 → EReal} {W2 W2' : Fin 256 → Fin 256 → EReal}
    {b2 b2' bond bond' : Fin 256 → EReal} (c : Fin 256) (h1 : el = el') (h2 : tg = tg') (h3 : ∀ k, w1 k = w1' k)
    (h4 : ∀ k, b1 k = b1' k) (h5 : ∀ k c, W2 k c = W2' k c) (h6 : ∀ c, b2 c = b2' c) (h7 : ∀ c, bond c = bond' c) :
    rowEdge el tg w1 b1 W2 b2 bond c = rowEdge el' tg' w1' b1' W2' b2' bond' c := by
  have e3 : w1 = w1' := funext h3
  have e4 : b1 = b1' := funext h4
  have e5 : W2 = W2' := funext fun k => funext (h5 k)
  have e6 : b2 = b2' := funext h6
  have e7 : bond = bond' := funext h7
  rw [h1, h2, e3, e4, e5, e6, e7]

theorem rowLayer_congr {fin : Bool} {h h' a a' : Fin 256 → EReal} {W1 W1' : Fin 256 → Fin 256 → EReal} {b1 b1' : Fin 256 → EReal}
    {W2 W2' : Fin 256 → Fin 256 → EReal} {b2 b2' : Fin 256 → EReal} (c : Fin 256) (h1 : ∀ j, h j = h' j) (h2 : ∀ j, a j = a' j)
    (h3 : ∀ j k, W1 j k = W1' j k) (h4 : ∀ k, b1 k = b1' k) (h5 : ∀ k c, W2 k c = W2' k c) (h6 : ∀ c, b2 c = b2' c) :
    rowLayer fin h a W1 b1 W2 b2 c = rowLayer fin h' a' W1' b1' W2' b2' c := by
  have e1 : h = h' := funext h1
  have e2 : a = a' := funext h2
  have e3 : W1 = W1' := funext fun j => funext (h3 j)
  have e4 : b1 = b1' := funext h4
  have e5 : W2 = W2' := funext fun k => funext (h5 k)
  have e6 : b2 = b2' := funext h6
  rw [e1, e2, e3, e4, e5, e6]

theorem rowOut_congr {rc rc' bond bond' : Fin 256 → EReal} {W1a W1a' W1b W1b' : Fin 256 → Fin 256 → EReal} {b1 b1' : Fin 256 → EReal}
    {W2 W2' : Fin 256 → Fin 128 → EReal} {b2 b2' : Fin 128 → EReal} {W3 W3' : Fin 128 → EReal} {b3 b3' : EReal}
    (h1 : ∀ i, rc i = rc' i) (h2 : ∀ i, bond i = bond' i) (h3 : ∀ i j, W1a i j = W1a' i j) (h4 : ∀ i j, W1b i j = W1b' i j)
    (h5 : ∀ j, b1 j = b1' j) (h6 : ∀ j k, W2 j k = W2' j k) (h7 : ∀ k, b2 k = b2' k) (h8 : ∀ k, W3 k = W3' k) (h9 : b3 = b3') :
    rowOut rc bond W1a W1b b1 W2 b2 W3 b3 = rowOut rc' bond' W1a' W1b' b1' W2' b2' W3' b3' := by
  have e1 : rc = rc' := funext h1
  have e2 : bond = bond' := funext h2
  have e3 : W1a = W1a' := funext fun i => funext (h3 i)
  have e4 : W1b = W1b' := funext fun i => funext (h4 i)
  have e5 : b1 = b1' := funext h5
  have e6 : W2 = W2' := funext fun j => funext (h6 j)
  have e7 : b2 = b2' := funext h7
  have e8 : W3 = W3' := funext h8
  rw [e1, e2, e3, e4, e5, e6, e7, e8, h9]

/-- A sum over 512 terms is the sum over the first 256 plus the sum over the last 256. -/
theorem sum_halves (f : Fin 512 → EReal) :
    (∑ i : Fin 512, f i) = (∑ i : Fin 256, f ⟨i.val, by omega⟩) + ∑ i : Fin 256, f ⟨256 + i.val, by omega⟩ :=
  Fin.sum_univ_add (M := EReal) (a := 256) (b := 256) f

/-- Multiplying by the reciprocal is dividing, away from a zero divisor. -/
theorem mul_one_div {x s : EReal} (hs : s ≠ 0) : x * Ideal.div 1 s = Ideal.div x s := by
  unfold Ideal.div
  rw [if_neg hs, if_neg hs, one_mul]

end Cert.RowSpec

end
-- ==== Proof.KerRows.lean ====
/-
  The kernels' stored values, one row at a time, on the extended reals.

  Each kernel body computes its stored block as one pure term of the blocks it loads. Read at the entry (p, q), every
  pointwise operation reads its operands at (p, q), a broadcast of a one-row block reads that row at column q, a format
  change is the identity, and a matrix product into the zero accumulator is the sum over the contracted coordinate of
  the products of the operands' entries. So the stored entry at (p, q) is the row function of `RowSpec` applied to row p of the
  activation blocks and to the whole weight blocks.
-/
import proofs.«143893_j1065151889700_2_alg».proof.Proof.Gen.KernelIdeal.Skeleton
import proofs.«143893_j1065151889700_2_alg».proof.Proof.RowSpec
import Idealize.ShloMosaic.Lib.Pipeline.Value
import Idealize.ShloMosaic.Lib.ValueIdx
import Idealize.ShloMosaic.PureOps.Ideal.Laws

noncomputable section

open scoped BigOperators

namespace Cert.KerRows

open Idealize.ShloMosaic Idealize.ShloMosaic.ValueIdx Cert.KernelIdeal Cert.KernelIdeal.Gen Cert.RowSpec

/-! ## A plain matrix product at an entry -/

section plain

variable {M K N : Nat}

/-- The one-axis contraction index of a plain M×K by K×N product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- A plain product into the zero accumulator, at (r, c): the sum over the contracted coordinate. -/
theorem plain_matmul_zero {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) := by
  refine (Ideal.matmul_constant_zero_apply (DotDims.plain M K N) prec x w (ix2 r c)).trans ?_
  rw [← Equiv.sum_comp (contrE M K N).symm]
  exact Finset.sum_congr rfl fun k _ => by rw [lhsIdx_eq, rhsIdx_eq]

end plain

/-- The 2000×256 by 256×256 product of the graph-convolution kernels, at (r, c). -/
theorem mm2000 {φ₁ φ₂ : FTy} (x : FVec Ideal S2000x256 φ₁) (w : FVec Ideal S256x256 φ₂) (r : Fin 2000) (c : Fin 256) :
    matmul dot_S2000x256_S256x256_S2000x256_1_0_0_1_n_n none x w (constant S2000x256 .f32 0x00000000#32) (ix2 r c)
      = ∑ k : Fin 256, x (ix2 r k) * w (ix2 k c) :=
  plain_matmul_zero (M := 2000) (K := 256) (N := 256) none x w r c

/-- A one-row block broadcast down the rows, at (r, c): the row's entry at column c. -/
theorem bcastRow2000 (b : FVec Ideal S1x256 .f32) (r : Fin 2000) (c : Fin 256) :
    broadcastTo S2000x256 b broadcasts_S1x256_S2000x256 (ix2 r c) = b (ix2 0 c) :=
  broadcastTo_apply b broadcasts_S1x256_S2000x256 (ix2 r c) (ix2 0 c) (fun a => by
    match a with
    | ⟨0, _⟩ => rfl
    | ⟨1, _⟩ => rfl)

/-- The zero constant of the rectifiers. -/
theorem zero32 : (FloatOps.ofBits (F := Ideal) FTy.f32 0x00000000#32) = (0 : EReal) := Ideal.ofBits_zero_f32

/-- The hidden layer of a graph-convolution update at (p, k): the rectified affine image of (state + messages). -/
theorem gin_hidden (v0 v2 : Vec Ideal S2000x256 .f32) (v6 : Vec Ideal S256x256 .f32) (v10 : Vec Ideal S1x256 .f32)
    (p : Fin 2000) (k : Fin 256) :
    maximumf (F := Ideal)
        (addf (F := Ideal)
          (matmul (F := Ideal) dot_S2000x256_S256x256_S2000x256_1_0_0_1_n_n none (truncf (F := Ideal) FTy.bf16 (addf (F := Ideal) v0 v2) bitsLt_bf16_f32)
            (truncf FTy.bf16 v6 bitsLt_bf16_f32) (constant S2000x256 FTy.f32 0x00000000#32))
          (broadcastTo S2000x256 v10 broadcasts_S1x256_S2000x256))
        (broadcast S2000x256 (FloatOps.ofBits FTy.f32 0x00000000#32)) (ix2 p k)
      = relu ((∑ j : Fin 256, (v0 (ix2 p j) + v2 (ix2 p j)) * v6 (ix2 j k)) + v10 (ix2 0 k)) := by
  rw [maximumf_apply, addf_apply, mm2000, bcastRow2000, broadcast_apply, zero32]
  rfl

/-- The output layer of a graph-convolution update at (p, q), before its rectifier: the affine image of the hidden row. -/
theorem gin_out (x : FVec Ideal S2000x256 .f32) (v17 : Vec Ideal S256x256 .f32) (v21 : Vec Ideal S1x256 .f32)
    (p : Fin 2000) (q : Fin 256) :
    addf
        (matmul dot_S2000x256_S256x256_S2000x256_1_0_0_1_n_n none (truncf FTy.bf16 x bitsLt_bf16_f32)
          (truncf FTy.bf16 v17 bitsLt_bf16_f32) (constant S2000x256 FTy.f32 0x00000000#32))
        (broadcastTo S2000x256 v21 broadcasts_S1x256_S2000x256) (ix2 p q)
      = (∑ k : Fin 256, x (ix2 p k) * v17 (ix2 k q)) + v21 (ix2 0 q) := by
  rw [addf_apply, mm2000, bcastRow2000]
  rfl

/-- The rectified graph-convolution update of kernel 1 at (p, q), the short cut read from its own load. -/
theorem k1_entry (v0 v2 : Vec Ideal S2000x256 .f32) (v6 : Vec Ideal S256x256 .f32) (v10 : Vec Ideal S1x256 .f32)
    (v17 : Vec Ideal S256x256 .f32) (v21 : Vec Ideal S1x256 .f32) (v27 : Vec Ideal S2000x256 .f32) (p : Fin 2000) (q : Fin 256) :
    k1_pay1 (F := Ideal) v0 v2 v6 v10 v17 v21 v27 (ix2 p q)
      = relu ((∑ k : Fin 256, relu ((∑ j : Fin 256, (v0 (ix2 p j) + v2 (ix2 p j)) * v6 (ix2 j k)) + v10 (ix2 0 k)) * v17 (ix2 k q))
          + v21 (ix2 0 q)) + v27 (ix2 p q) := by
  unfold k1_pay1
  simp only [shapeCast_self]
  rw [addf_apply, maximumf_apply, gin_out, broadcast_apply]
  simp only [gin_hidden]
  rw [zero32]
  rfl

/-- Kernel 1's stored entry is the row function of the rectified update, applied to row p of the state block (loaded
    twice: once for the sum with the messages, once for the short cut) and of the message block. -/
theorem layer1_row (v0 v1 : Vec Ideal S2000x256 .f32) (v2 : Vec Ideal S256x256 .f32) (v3 : Vec Ideal S1x256 .f32)
    (v4 : Vec Ideal S256x256 .f32) (v5 : Vec Ideal S1x256 .f32) (p : Fin 2000) (q : Fin 256) :
    k1_pay1 (F := Ideal) v0 v1 v2 v3 v4 v5 v0 (ix2 p q)
      = rowLayer true (fun j => v0 (ix2 p j)) (fun j => v1 (ix2 p j)) (fun j k => v2 (ix2 j k)) (fun k => v3 (ix2 0 k))
          (fun k c => v4 (ix2 k c)) (fun c => v5 (ix2 0 c)) q :=
  (k1_entry v0 v1 v2 v3 v4 v5 v0 p q).trans rfl

/-- The rectified graph-convolution update of kernel 2 at (p, q), the short cut read from its own load. -/
theorem k2_entry (v0 v2 : Vec Ideal S2000x256 .f32) (v6 : Vec Ideal S256x256 .f32) (v10 : Vec Ideal S1x256 .f32)
    (v17 : Vec Ideal S256x256 .f32) (v21 : Vec Ideal S1x256 .f32) (v27 : Vec Ideal S2000x256 .f32) (p : Fin 2000) (q : Fin 256) :
    k2_pay1 (F := Ideal) v0 v2 v6 v10 v17 v21 v27 (ix2 p q)
      = relu ((∑ k : Fin 256, relu ((∑ j : Fin 256, (v0 (ix2 p j) + v2 (ix2 p j)) * v6 (ix2 j k)) + v10 (ix2 0 k)) * v17 (ix2 k q))
          + v21 (ix2 0 q)) + v27 (ix2 p q) := by
  unfold k2_pay1
  simp only [shapeCast_self]
  rw [addf_apply, maximumf_apply, gin_out, broadcast_apply]
  simp only [gin_hidden]
  rw [zero32]
  rfl

/-- Kernel 2's stored entry is the row function of the rectified update, applied to row p of the state block (loaded
    twice: once for the sum with the messages, once for the short cut) and of the message block. -/
theorem layer2_row (v0 v1 : Vec Ideal S2000x256 .f32) (v2 : Vec Ideal S256x256 .f32) (v3 : Vec Ideal S1x256 .f32)
    (v4 : Vec Ideal S256x256 .f32) (v5 : Vec Ideal S1x256 .f32) (p : Fin 2000) (q : Fin 256) :
    k2_pay1 (F := Ideal) v0 v1 v2 v3 v4 v5 v0 (ix2 p q)
      = rowLayer true (fun j => v0 (ix2 p j)) (fun j => v1 (ix2 p j)) (fun j k => v2 (ix2 j k)) (fun k => v3 (ix2 0 k))
          (fun k c => v4 (ix2 k c)) (fun c => v5 (ix2 0 c)) q :=
  (k2_entry v0 v1 v2 v3 v4 v5 v0 p q).trans rfl

/-- The rectified graph-convolution update of kernel 3 at (p, q), the short cut read from its own load. -/
theorem k3_entry (v0 v2 : Vec Ideal S2000x256 .f32) (v6 : Vec Ideal S256x256 .f32) (v10 : Vec Ideal S1x256 .f32)
    (v17 : Vec Ideal S256x256 .f32) (v21 : Vec Ideal S1x256 .f32) (v27 : Vec Ideal S2000x256 .f32) (p : Fin 2000) (q : Fin 256) :
    k3_pay1 (F := Ideal) v0 v2 v6 v10 v17 v21 v27 (ix2 p q)
      = relu ((∑ k : Fin 256, relu ((∑ j : Fin 256, (v0 (ix2 p j) + v2 (ix2 p j)) * v6 (ix2 j k)) + v10 (ix2 0 k)) * v17 (ix2 k q))
          + v21 (ix2 0 q)) + v27 (ix2 p q) := by
  unfold k3_pay1
  simp only [shapeCast_self]
  rw [addf_apply, maximumf_apply, gin_out, broadcast_apply]
  simp only [gin_hidden]
  rw [zero32]
  rfl

/-- Kernel 3's stored entry is the row function of the rectified update, applied to row p of the state block (loaded
    twice: once for the sum with the messages, once for the short cut) and of the message block. -/
theorem layer3_row (v0 v1 : Vec Ideal S2000x256 .f32) (v2 : Vec Ideal S256x256 .f32) (v3 : Vec Ideal S1x256 .f32)
    (v4 : Vec Ideal S256x256 .f32) (v5 : Vec Ideal S1x256 .f32) (p : Fin 2000) (q : Fin 256) :
    k3_pay1 (F := Ideal) v0 v1 v2 v3 v4 v5 v0 (ix2 p q)
      = rowLayer true (fun j => v0 (ix2 p j)) (fun j => v1 (ix2 p j)) (fun j k => v2 (ix2 j k)) (fun k => v3 (ix2 0 k))
          (fun k c => v4 (ix2 k c)) (fun c => v5 (ix2 0 c)) q :=
  (k3_entry v0 v1 v2 v3 v4 v5 v0 p q).trans rfl

/-- The last graph-convolution update (no rectifier on the perceptron's output) at (p, q), the short cut read from its
    own load. -/
theorem k4_entry (v0 v2 : Vec Ideal S2000x256 .f32) (v6 : Vec Ideal S256x256 .f32) (v10 : Vec Ideal S1x256 .f32)
    (v17 : Vec Ideal S256x256 .f32) (v21 : Vec Ideal S1x256 .f32) (v25 : Vec Ideal S2000x256 .f32) (p : Fin 2000) (q : Fin 256) :
    k4_pay1 (F := Ideal) v0 v2 v6 v10 v17 v21 v25 (ix2 p q)
      = ((∑ k : Fin 256, relu ((∑ j : Fin 256, (v0 (ix2 p j) + v2 (ix2 p j)) * v6 (ix2 j k)) + v10 (ix2 0 k)) * v17 (ix2 k q))
          + v21 (ix2 0 q)) + v25 (ix2 p q) := by
  unfold k4_pay1
  simp only [shapeCast_self]
  rw [addf_apply, gin_out]
  simp only [gin_hidden]

/-- Kernel 4's stored entry is the row function of the unrectified update. -/
theorem layer4_row (v0 v1 : Vec Ideal S2000x256 .f32) (v2 : Vec Ideal S256x256 .f32) (v3 : Vec Ideal S1x256 .f32)
    (v4 : Vec Ideal S256x256 .f32) (v5 : Vec Ideal S1x256 .f32) (p : Fin 2000) (q : Fin 256) :
    k4_pay1 (F := Ideal) v0 v1 v2 v3 v4 v5 v0 (ix2 p q)
      = rowLayer false (fun j => v0 (ix2 p j)) (fun j => v1 (ix2 p j)) (fun j k => v2 (ix2 j k)) (fun k => v3 (ix2 0 k))
          (fun k c => v4 (ix2 k c)) (fun c => v5 (ix2 0 c)) q :=
  (k4_entry v0 v1 v2 v3 v4 v5 v0 p q).trans rfl

/-! ## The edge feature kernel -/

/-- The 4000×256 by 256×256 product of the edge feature kernel, at (r, c). -/
theorem mm4000 {φ₁ φ₂ : FTy} (x : FVec Ideal S4000x256 φ₁) (w : FVec Ideal S256x256 φ₂) (r : Fin 4000) (c : Fin 256) :
    matmul dot_S4000x256_S256x256_S4000x256_1_0_0_1_n_n none x w (constant S4000x256 .f32 0x00000000#32) (ix2 r c)
      = ∑ k : Fin 256, x (ix2 r k) * w (ix2 k c) :=
  plain_matmul_zero (M := 4000) (K := 256) (N := 256) none x w r c

/-- A one-row block broadcast down the 4000 rows, at (r, c): the row's entry at column c. -/
theorem bcastRow4000 (b : FVec Ideal S1x256 .f32) (r : Fin 4000) (c : Fin 256) :
    broadcastTo S4000x256 b broadcasts_S1x256_S4000x256 (ix2 r c) = b (ix2 0 c) :=
  broadcastTo_apply b broadcasts_S1x256_S4000x256 (ix2 r c) (ix2 0 c) (fun a => by
    match a with
    | ⟨0, _⟩ => rfl
    | ⟨1, _⟩ => rfl)

/-- A one-column block broadcast along the 256 columns, at (r, c): the column's entry at row r. -/
theorem bcastCol4000 (b : FVec Ideal S4000x1 .f32) (r : Fin 4000) (c : Fin 256) :
    broadcastTo S4000x256 b broadcasts_S4000x1_S4000x256 (ix2 r c) = b (ix2 r 0) :=
  broadcastTo_apply b broadcasts_S4000x1_S4000x256 (ix2 r c) (ix2 r 0) (fun a => by
    match a with
    | ⟨0, _⟩ => rfl
    | ⟨1, _⟩ => rfl)

/-- Column 0 of the two-column block, at row r. -/
theorem sliceCol0 (x : FVec Ideal S4000x2 .f32) (r : Fin 4000) :
    extractStridedSlice S4000x1 ![0, 0] x slices_S4000x2_o0_0_S4000x1 (ix2 r 0) = x (ix2 r 0) :=
  extractStridedSlice_apply ![0, 0] x slices_S4000x2_o0_0_S4000x1 (ix2 r 0) (ix2 r 0) (fun a => by
    match a with
    | ⟨0, _⟩ => exact (Nat.zero_add _).symm
    | ⟨1, _⟩ => rfl)

/-- Column 1 of the two-column block, at row r. -/
theorem sliceCol1 (x : FVec Ideal S4000x2 .f32) (r : Fin 4000) :
    extractStridedSlice S4000x1 ![0, 1] x slices_S4000x2_o0_1_S4000x1 (ix2 r 0) = x (ix2 r 1) :=
  extractStridedSlice_apply ![0, 1] x slices_S4000x2_o0_1_S4000x1 (ix2 r 0) (ix2 r 1) (fun a => by
    match a with
    | ⟨0, _⟩ => exact (Nat.zero_add _).symm
    | ⟨1, _⟩ => rfl)

/-- The hidden layer of the edge perceptron at (p, k): its one input, the edge length, scales the first weight row. -/
theorem edge_hidden (v0 : Vec Ideal S4000x2 .f32) (v4 v8 : Vec Ideal S1x256 .f32) (p : Fin 4000) (k : Fin 256) :
    maximumf (F := Ideal)
        (addf (F := Ideal)
          (mulf (F := Ideal)
            (broadcastTo S4000x256 (extractStridedSlice S4000x1 ![0, 0] v0 slices_S4000x2_o0_0_S4000x1) broadcasts_S4000x1_S4000x256)
            (broadcastTo S4000x256 v4 broadcasts_S1x256_S4000x256))
          (broadcastTo S4000x256 v8 broadcasts_S1x256_S4000x256))
        (broadcast S4000x256 (FloatOps.ofBits FTy.f32 0x00000000#32)) (ix2 p k)
      = relu (v0 (ix2 p 0) * v4 (ix2 0 k) + v8 (ix2 0 k)) := by
  rw [maximumf_apply, addf_apply, mulf_apply, bcastCol4000, sliceCol0, bcastRow4000, bcastRow4000, broadcast_apply, zero32]
  rfl

/-- The edge feature kernel's stored entry at (p, q). -/
theorem edge_row (v0 : Vec Ideal S4000x2 .f32) (v4 v8 : Vec Ideal S1x256 .f32) (v15 : Vec Ideal S256x256 .f32)
    (v18 : Vec Ideal S1x256 .f32) (v24 : Vec Ideal S4000x256 .f32) (p : Fin 4000) (q : Fin 256) :
    k0_pay1 (F := Ideal) v0 v4 v8 v15 v18 v24 (ix2 p q)
      = rowEdge (v0 (ix2 p 0)) (v0 (ix2 p 1)) (fun k => v4 (ix2 0 k)) (fun k => v8 (ix2 0 k)) (fun k c => v15 (ix2 k c))
          (fun c => v18 (ix2 0 c)) (fun c => v24 (ix2 p c)) q := by
  unfold k0_pay1
  simp only [shapeCast_self]
  rw [mulf_apply, addf_apply, addf_apply, mm4000, bcastRow4000, bcastCol4000, sliceCol1]
  simp only [truncf_apply, edge_hidden]
  rfl

/-! ## The output kernel -/

/-- The 3000×256 by 256×256 products of the output kernel's first layer, at (r, c). -/
theorem mm3000a {φ₁ φ₂ : FTy} (x : FVec Ideal S3000x256 φ₁) (w : FVec Ideal S256x256 φ₂) (r : Fin 3000) (c : Fin 256) :
    matmul dot_S3000x256_S256x256_S3000x256_1_0_0_1_n_n none x w (constant S3000x256 .f32 0x00000000#32) (ix2 r c)
      = ∑ k : Fin 256, x (ix2 r k) * w (ix2 k c) :=
  plain_matmul_zero (M := 3000) (K := 256) (N := 256) none x w r c

/-- The 3000×256 by 256×128 product of its second layer, at (r, c). -/
theorem mm3000b {φ₁ φ₂ : FTy} (x : FVec Ideal S3000x256 φ₁) (w : FVec Ideal S256x128 φ₂) (r : Fin 3000) (c : Fin 128) :
    matmul dot_S3000x256_S256x128_S3000x128_1_0_0_1_n_n none x w (constant S3000x128 .f32 0x00000000#32) (ix2 r c)
      = ∑ k : Fin 256, x (ix2 r k) * w (ix2 k c) :=
  plain_matmul_zero (M := 3000) (K := 256) (N := 128) none x w r c

/-- The 3000×128 by 128×1 product of its third layer, at (r, c). -/
theorem mm3000c {φ₁ φ₂ : FTy} (x : FVec Ideal S3000x128 φ₁) (w : FVec Ideal S128x1 φ₂) (r : Fin 3000) (c : Fin 1) :
    matmul dot_S3000x128_S128x1_S3000x1_1_0_0_1_n_n none x w (constant S3000x1 .f32 0x00000000#32) (ix2 r c)
      = ∑ k : Fin 128, x (ix2 r k) * w (ix2 k c) :=
  plain_matmul_zero (M := 3000) (K := 128) (N := 1) none x w r c

/-- A one-row block of 256 broadcast down the 3000 rows, at (r, c). -/
theorem bcastRow3000 (b : FVec Ideal S1x256 .f32) (r : Fin 3000) (c : Fin 256) :
    broadcastTo S3000x256 b broadcasts_S1x256_S3000x256 (ix2 r c) = b (ix2 0 c) :=
  broadcastTo_apply b broadcasts_S1x256_S3000x256 (ix2 r c) (ix2 0 c) (fun a => by
    match a with
    | ⟨0, _⟩ => rfl
    | ⟨1, _⟩ => rfl)

/-- A one-row block of 128 broadcast down the 3000 rows, at (r, c). -/
theorem bcastRow3000' (b : FVec Ideal S1x128 .f32) (r : Fin 3000) (c : Fin 128) :
    broadcastTo S3000x128 b broadcasts_S1x128_S3000x128 (ix2 r c) = b (ix2 0 c) :=
  broadcastTo_apply b broadcasts_S1x128_S3000x128 (ix2 r c) (ix2 0 c) (fun a => by
    match a with
    | ⟨0, _⟩ => rfl
    | ⟨1, _⟩ => rfl)

/-- The one-entry block broadcast down the 3000 rows, at (r, 0). -/
theorem bcastOne3000 (b : FVec Ideal S1x1 .f32) (r : Fin 3000) :
    broadcastTo S3000x1 b broadcasts_S1x1_S3000x1 (ix2 r 0) = b (ix2 0 0) :=
  broadcastTo_apply b broadcasts_S1x1_S3000x1 (ix2 r 0) (ix2 0 0) (fun a => by
    match a with
    | ⟨0, _⟩ => rfl
    | ⟨1, _⟩ => rfl)

/-- The first hidden layer of the output perceptron at (p, j): the two 256-row halves of its weight act on the product
    of the endpoint states and on the fused edge feature. -/
theorem out_hidden1 (v0 : Vec Ideal S3000x256 .f32) (v3 : Vec Ideal S256x256 .f32) (v7 : Vec Ideal S3000x256 .f32)
    (v10 : Vec Ideal S256x256 .f32) (v15 : Vec Ideal S1x256 .f32) (p : Fin 3000) (j : Fin 256) :
    maximumf (F := Ideal)
        (addf (F := Ideal)
          (addf (F := Ideal)
            (matmul (F := Ideal) dot_S3000x256_S256x256_S3000x256_1_0_0_1_n_n none (truncf (F := Ideal) FTy.bf16 v0 bitsLt_bf16_f32)
              (truncf (F := Ideal) FTy.bf16 v3 bitsLt_bf16_f32) (constant S3000x256 FTy.f32 0x00000000#32))
            (matmul (F := Ideal) dot_S3000x256_S256x256_S3000x256_1_0_0_1_n_n none (truncf (F := Ideal) FTy.bf16 v7 bitsLt_bf16_f32)
              (truncf (F := Ideal) FTy.bf16 v10 bitsLt_bf16_f32) (constant S3000x256 FTy.f32 0x00000000#32)))
          (broadcastTo S3000x256 v15 broadcasts_S1x256_S3000x256))
        (broadcast S3000x256 (FloatOps.ofBits FTy.f32 0x00000000#32)) (ix2 p j)
      = relu ((∑ i : Fin 256, v0 (ix2 p i) * v3 (ix2 i j)) + (∑ i : Fin 256, v7 (ix2 p i) * v10 (ix2 i j)) + v15 (ix2 0 j)) := by
  rw [maximumf_apply, addf_apply, addf_apply, mm3000a, mm3000a, bcastRow3000, broadcast_apply, zero32]
  rfl

/-- The second hidden layer at (p, k): the rectified affine image of the first hidden row. -/
theorem out_hidden2 (x : FVec Ideal S3000x256 .f32) (v22 : Vec Ideal S256x128 .f32) (v25 : Vec Ideal S1x128 .f32)
    (p : Fin 3000) (k : Fin 128) :
    maximumf (F := Ideal)
        (addf (F := Ideal)
          (matmul (F := Ideal) dot_S3000x256_S256x128_S3000x128_1_0_0_1_n_n none (truncf (F := Ideal) FTy.bf16 x bitsLt_bf16_f32)
            (truncf (F := Ideal) FTy.bf16 v22 bitsLt_bf16_f32) (constant S3000x128 FTy.f32 0x00000000#32))
          (broadcastTo S3000x128 v25 broadcasts_S1x128_S3000x128))
        (broadcast S3000x128 (FloatOps.ofBits FTy.f32 0x00000000#32)) (ix2 p k)
      = relu ((∑ j : Fin 256, x (ix2 p j) * v22 (ix2 j k)) + v25 (ix2 0 k)) := by
  rw [maximumf_apply, addf_apply, mm3000b, bcastRow3000', broadcast_apply, zero32]
  rfl

/-- The three-layer perceptron's output before its bias, at (p, 0). -/
theorem k5_pay2_entry (v0 : Vec Ideal S3000x256 .f32) (v3 : Vec Ideal S256x256 .f32) (v7 : Vec Ideal S3000x256 .f32)
    (v10 : Vec Ideal S256x256 .f32) (v15 : Vec Ideal S1x256 .f32) (v22 : Vec Ideal S256x128 .f32) (v25 : Vec Ideal S1x128 .f32)
    (v32 : Vec Ideal S128x1 .f32) (p : Fin 3000) :
    k5_pay2 (F := Ideal) v0 v3 v7 v10 v15 v22 v25 v32 (ix2 p 0)
      = ∑ k : Fin 128, relu ((∑ j : Fin 256,
          relu ((∑ i : Fin 256, v0 (ix2 p i) * v3 (ix2 i j)) + (∑ i : Fin 256, v7 (ix2 p i) * v10 (ix2 i j)) + v15 (ix2 0 j))
            * v22 (ix2 j k)) + v25 (ix2 0 k)) * v32 (ix2 k 0) := by
  unfold k5_pay2
  simp only [shapeCast_self]
  rw [mm3000c]
  simp only [truncf_apply, out_hidden2, out_hidden1]

/-- The stored value at (p, 0) in terms of the perceptron's last product: plus the last bias, times the [3000,1] factor. -/
theorem k5_pay1_entry (v34 : FVec Ideal S3000x1 .f32) (v35 : Vec Ideal S1x1 .f32) (v39 : Vec Ideal S3000x1 .f32) (p : Fin 3000) :
    k5_pay1 (F := Ideal) v34 v35 v39 (ix2 p 0) = (v34 (ix2 p 0) + v35 (ix2 0 0)) * v39 (ix2 p 0) := by
  unfold k5_pay1
  simp only [shapeCast_self]
  rw [mulf_apply, addf_apply, bcastOne3000]

/-- The output kernel's stored entry at (p, 0): the row function of the three-layer perceptron, times the [3000,1]
    factor, in the body's order of the product. -/
theorem out_row (v0 : Vec Ideal S3000x256 .f32) (v3 : Vec Ideal S256x256 .f32) (v7 : Vec Ideal S3000x256 .f32)
    (v10 : Vec Ideal S256x256 .f32) (v15 : Vec Ideal S1x256 .f32) (v22 : Vec Ideal S256x128 .f32) (v25 : Vec Ideal S1x128 .f32)
    (v32 : Vec Ideal S128x1 .f32) (v35 : Vec Ideal S1x1 .f32) (v39 : Vec Ideal S3000x1 .f32) (p : Fin 3000) :
    k5_pay1 (F := Ideal) (k5_pay2 (F := Ideal) v0 v3 v7 v10 v15 v22 v25 v32) v35 v39 (ix2 p 0)
      = rowOut (fun i => v0 (ix2 p i)) (fun i => v7 (ix2 p i)) (fun i j => v3 (ix2 i j)) (fun i j => v10 (ix2 i j))
          (fun j => v15 (ix2 0 j)) (fun j k => v22 (ix2 j k)) (fun k => v25 (ix2 0 k)) (fun k => v32 (ix2 k 0)) (v35 (ix2 0 0))
        * v39 (ix2 p 0) := by
  rw [k5_pay1_entry, k5_pay2_entry]
  rfl

end Cert.KerRows

end
-- ==== Proof.Edge.lean ====
/-
  The edge-feature kernel, from blocks to the whole array.

  The kernel walks the edge array in 75 blocks of 4000 rows. At a block it reads the same 4000 rows of the two-column
  array (edge length, time embedding) and of the bond embeddings, and the perceptron's weights and biases whole; it
  writes the same 4000 rows of the fused feature. A row of the result depends only on that row of the two edge arrays,
  so each block is the restriction of one whole-array function and the 75 blocks tile the 300000 rows.
-/
import proofs.«143893_j1065151889700_2_alg».proof.Proof.Gen.KernelIdeal.Frame
import proofs.«143893_j1065151889700_2_alg».proof.Proof.KerRows
import Idealize.ShloMosaic.Lib.Pipeline.Value
import Idealize.ShloMosaic.Lib.ValueIdx

set_option maxRecDepth 16384

noncomputable section

namespace Cert.KernelIdeal.Edge

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl

/-- The whole-array fused feature: at edge `i 0`, column `i 1`, the per-row function of that edge's two scalars and bond row. -/
def G (c : Dev nD) : S300000x256.Idx → EReal := fun i =>
  RowSpec.rowEdge (V c main_v50 (ix2 (i 0) 0)) (V c main_v50 (ix2 (i 0) 1)) (fun k => V c main_arg8 (ix2 0 k)) (fun k => V c main_v51 (ix2 0 k))
    (fun k c' => V c main_arg10 (ix2 k c')) (fun c' => V c main_v52 (ix2 0 c')) (fun c' => V c main_v49 (ix2 (i 0) c')) (i 1)

/-- The index maps over the 75 grid points: a row-blocked window and the result's block sit at the point's own row
    block, column block 0; a window over a whole small array at block (0, 0). -/
theorem idx_facts : ∀ t : Fin cfg0.N,
    win0_0.index t (0 : Fin 2) = win0_6.index t (0 : Fin 2)
    ∧ win0_0.index t (1 : Fin 2) = 0
    ∧ win0_1.index t (0 : Fin 2) = win0_6.index t (0 : Fin 2)
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (1 : Fin 2) = 0
    ∧ win0_6.index t (0 : Fin 2) ≤ 74 :=
  (by decide +kernel : ∀ t : Fin grid0.N, _)

theorem row_le : ∀ t : Fin cfg0.N, win0_6.index t (0 : Fin 2) ≤ 74 :=
  (by decide +kernel : ∀ t : Fin grid0.N, _)

/-- Every row block is some point's. -/
theorem idx_onto : ∀ q0 : Fin 75, ∃ t : Fin cfg0.N, win0_6.index t = ![q0.val, 0] :=
  (by decide +kernel : ∀ q0 : Fin 75, ∃ t : Fin grid0.N, win0_6.index t = ![q0.val, 0])

/-- The global row that row `p` of point `t`'s block is. -/
def grow (t : Fin cfg0.N) (p : Fin 4000) : Fin 300000 :=
  ⟨win0_6.index t (0 : Fin 2) * 4000 + p.val, by have h1 := row_le t; have h2 := p.isLt; omega⟩

/-- An entry of the result's block at a point sits at the point's global row, same column. -/
theorem emb_out (t : Fin cfg0.N) (p : Fin 4000) (q : Fin 256) :
    ((cfg0.win 6).blk t).view.emb (ix2 p q) = ix2 (grow t p) q := by
  obtain ⟨e00, e01, e10, e11, e20, e21, e30, e31, e40, e41, e50, e51, eo1, eob⟩ := idx_facts t
  funext a; apply Fin.ext
  match a with
  | ⟨0, _⟩ => show win0_6.index t (0 : Fin 2) * 4000 + 1 * p.val = win0_6.index t (0 : Fin 2) * 4000 + p.val; omega
  | ⟨1, _⟩ => show win0_6.index t (1 : Fin 2) * 256 + 1 * q.val = q.val; omega

/-! The input windows' blocks at a point, read off the arrays the region finds. -/

theorem blk0 (c : Dev nD) (t : Fin cfg0.N) (p : Fin 4000) (j : Fin 2) :
    iblk0 V c 0 t (ix2 p j) = V c main_v50 (ix2 (grow t p) j) := by
  obtain ⟨e00, e01, e10, e11, e20, e21, e30, e31, e40, e41, e50, e51, eo1, eob⟩ := idx_facts t
  show V c main_v50 (((cfg0.win 0).blk t).view.emb (ix2 p j)) = _
  congr 1; funext a; apply Fin.ext
  match a with
  | ⟨0, _⟩ => show win0_0.index t (0 : Fin 2) * 4000 + 1 * p.val = win0_6.index t (0 : Fin 2) * 4000 + p.val; omega
  | ⟨1, _⟩ => show win0_0.index t (1 : Fin 2) * 2 + 1 * j.val = j.val; omega

theorem blk1 (c : Dev nD) (t : Fin cfg0.N) (p : Fin 4000) (j : Fin 256) :
    iblk0 V c 1 t (ix2 p j) = V c main_v49 (ix2 (grow t p) j) := by
  obtain ⟨e00, e01, e10, e11, e20, e21, e30, e31, e40, e41, e50, e51, eo1, eob⟩ := idx_facts t
  show V c main_v49 (((cfg0.win 1).blk t).view.emb (ix2 p j)) = _
  congr 1; funext a; apply Fin.ext
  match a with
  | ⟨0, _⟩ => show win0_1.index t (0 : Fin 2) * 4000 + 1 * p.val = win0_6.index t (0 : Fin 2) * 4000 + p.val; omega
  | ⟨1, _⟩ => show win0_1.index t (1 : Fin 2) * 256 + 1 * j.val = j.val; omega

theorem blk2 (c : Dev nD) (t : Fin cfg0.N) (j : Fin 1) (k : Fin 256) :
    iblk0 V c 2 t (ix2 j k) = V c main_arg8 (ix2 j k) := by
  obtain ⟨e00, e01, e10, e11, e20, e21, e30, e31, e40, e41, e50, e51, eo1, eob⟩ := idx_facts t
  show V c main_arg8 (((cfg0.win 2).blk t).view.emb (ix2 j k)) = _
  congr 1; funext a; apply Fin.ext
  match a with
  | ⟨0, _⟩ => show win0_2.index t (0 : Fin 2) * 1 + 1 * j.val = j.val; omega
  | ⟨1, _⟩ => show win0_2.index t (1 : Fin 2) * 256 + 1 * k.val = k.val; omega

theorem blk3 (c : Dev nD) (t : Fin cfg0.N) (j : Fin 1) (k : Fin 256) :
    iblk0 V c 3 t (ix2 j k) = V c main_v51 (ix2 j k) := by
  obtain ⟨e00, e01, e10, e11, e20, e21, e30, e31, e40, e41, e50, e51, eo1, eob⟩ := idx_facts t
  show V c main_v51 (((cfg0.win 3).blk t).view.emb (ix2 j k)) = _
  congr 1; funext a; apply Fin.ext
  match a with
  | ⟨0, _⟩ => show win0_3.index t (0 : Fin 2) * 1 + 1 * j.val = j.val; omega
  | ⟨1, _⟩ => show win0_3.index t (1 : Fin 2) * 256 + 1 * k.val = k.val; omega

theorem blk4 (c : Dev nD) (t : Fin cfg0.N) (j : Fin 256) (k : Fin 256) :
    iblk0 V c 4 t (ix2 j k) = V c main_arg10 (ix2 j k) := by
  obtain ⟨e00, e01, e10, e11, e20, e21, e30, e31, e40, e41, e50, e51, eo1, eob⟩ := idx_facts t
  show V c main_arg10 (((cfg0.win 4).blk t).view.emb (ix2 j k)) = _
  congr 1; funext a; apply Fin.ext
  match a with
  | ⟨0, _⟩ => show win0_4.index t (0 : Fin 2) * 256 + 1 * j.val = j.val; omega
  | ⟨1, _⟩ => show win0_4.index t (1 : Fin 2) * 256 + 1 * k.val = k.val; omega

theorem blk5 (c : Dev nD) (t : Fin cfg0.N) (j : Fin 1) (k : Fin 256) :
    iblk0 V c 5 t (ix2 j k) = V c main_v52 (ix2 j k) := by
  obtain ⟨e00, e01, e10, e11, e20, e21, e30, e31, e40, e41, e50, e51, eo1, eob⟩ := idx_facts t
  show V c main_v52 (((cfg0.win 5).blk t).view.emb (ix2 j k)) = _
  congr 1; funext a; apply Fin.ext
  match a with
  | ⟨0, _⟩ => show win0_5.index t (0 : Fin 2) * 1 + 1 * j.val = j.val; omega
  | ⟨1, _⟩ => show win0_5.index t (1 : Fin 2) * 256 + 1 * k.val = k.val; omega

/-- The body's value at local row `p`, column `q` of point `t`'s blocks is the whole-array function at that global row. -/
theorem pay_eq (c : Dev nD) (t : Fin cfg0.N) (p : Fin 4000) (q : Fin 256) :
    k0_pay1 (F := Ideal) (iblk0 V c 0 t) (iblk0 V c 2 t) (iblk0 V c 3 t) (iblk0 V c 4 t) (iblk0 V c 5 t) (iblk0 V c 1 t) (ix2 p q)
      = G V c (ix2 (grow t p) q) :=
  (Cert.KerRows.edge_row (iblk0 V c 0 t) (iblk0 V c 2 t) (iblk0 V c 3 t) (iblk0 V c 4 t) (iblk0 V c 5 t) (iblk0 V c 1 t) p q).trans
    (RowSpec.rowEdge_congr q (blk0 V c t p 0) (blk0 V c t p 1) (blk2 V c t 0) (blk3 V c t 0) (blk4 V c t) (blk5 V c t 0) (blk1 V c t p))

set_option maxHeartbeats 2000000 in
/-- What point `t` writes back is block `t` of the whole-array function. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S4000x2) hz, View.ld_unit_zero (S := S4000x256) hz, View.ld_unit_zero (S := S1x256) hz, View.ld_unit_zero (S := S256x256) hz]
  funext y
  obtain ⟨p, q, rfl⟩ : ∃ (p : Fin 4000) (q : Fin 256), y = ix2 p q := ⟨y 0, y 1, eq_ix2 y⟩
  rw [View.read_apply, emb_out t p q]
  exact pay_eq V c t p q

/-- An index of the array is in point `t`'s block iff its row is in the block's 4000 rows. -/
theorem mem_blk (t : Fin cfg0.N) (i : S300000x256.Idx) :
    i ∈ ((cfg0.win 6).blk t).view.set ↔ ∀ a : Fin 2, win0_6.index t a * S4000x256.size a ≤ (i a).val ∧ (i a).val < win0_6.index t a * S4000x256.size a + S4000x256.size a := by
  show i ∈ ((View.whole main_v53).slice (win0_6.rect t)).set ↔ _
  rw [View.set_slice_whole, Rect.mem_set_unit]
  exact Iff.rfl

/-- The 75 blocks tile the array. -/
theorem cover (i : S300000x256.Idx) : ∃ t : Fin cfg0.N, (cfg0.win 6).flush t = true ∧ i ∈ ((cfg0.win 6).blk t).view.set := by
  have hi0 : (i 0).val < 300000 := (i 0).isLt
  have hi1 : (i 1).val < 256 := (i 1).isLt
  obtain ⟨t, ht⟩ := idx_onto ⟨(i 0).val / 4000, by omega⟩
  have q0 : win0_6.index t (0 : Fin 2) = (i 0).val / 4000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 256 ≤ (i 1).val ∧ (i 1).val < win0_6.index t (1 : Fin 2) * 256 + 256; omega

/-- The result array after the region: the whole-array function of the arrays the region found. -/
theorem final (c : Dev nD) : (dat0 V c).arrAt 6 cfg0.N = G V c :=
  (dat0 V c).arrAt_eq_of_cover 6 (G V c) (fun t _ => flushed_eq V c t) cover

end Cert.KernelIdeal.Edge

end
-- ==== Proof.Layer1.lean ====
/-
  Graph-convolution update 1, from blocks to the whole array.

  The update kernel walks the node array in 25 blocks of 2000 rows. At a block it reads the same 2000 rows of the state
  and of the aggregated messages, and the two weight matrices and two bias rows whole; it writes the same 2000 rows of
  the result. Since a row of the result depends only on that row of the two activations, the block written at a point is
  the restriction of ONE whole-array function (the per-row update applied at every row), and the 25 blocks tile the
  50000 rows: the result array ends holding that function.
-/
import proofs.«143893_j1065151889700_2_alg».proof.Proof.Gen.KernelIdeal.Frame
import proofs.«143893_j1065151889700_2_alg».proof.Proof.KerRows
import Idealize.ShloMosaic.Lib.Pipeline.Value
import Idealize.ShloMosaic.Lib.ValueIdx

set_option maxRecDepth 16384

noncomputable section

namespace Cert.KernelIdeal.Layer1

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl

/-- The whole-array update: at node `i 0`, column `i 1`, the per-row update of that node's state and message rows. -/
def G (c : Dev nD) : S50000x256.Idx → EReal := fun i =>
  RowSpec.rowLayer true (fun j => V c main_v42 (ix2 (i 0) j)) (fun j => V c main_v65 (ix2 (i 0) j))
    (fun j k => V c main_v67 (ix2 j k)) (fun k => V c main_v74 (ix2 0 k))
    (fun k c' => V c main_v71 (ix2 k c')) (fun c' => V c main_v75 (ix2 0 c')) (i 1)

/-- The index maps over the 25 grid points: a row-blocked window and the result's block sit at the point's own row
    block, column block 0; a window over a whole small array at block (0, 0). -/
theorem idx_facts : ∀ t : Fin cfg1.N,
    win1_0.index t (0 : Fin 2) = win1_6.index t (0 : Fin 2)
    ∧ win1_0.index t (1 : Fin 2) = 0
    ∧ win1_1.index t (0 : Fin 2) = win1_6.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (1 : Fin 2) = 0
    ∧ win1_6.index t (0 : Fin 2) ≤ 24 :=
  (by decide +kernel : ∀ t : Fin grid1.N, _)

theorem row_le : ∀ t : Fin cfg1.N, win1_6.index t (0 : Fin 2) ≤ 24 :=
  (by decide +kernel : ∀ t : Fin grid1.N, _)

/-- Every row block is some point's. -/
theorem idx_onto : ∀ q0 : Fin 25, ∃ t : Fin cfg1.N, win1_6.index t = ![q0.val, 0] :=
  (by decide +kernel : ∀ q0 : Fin 25, ∃ t : Fin grid1.N, win1_6.index t = ![q0.val, 0])

/-- The global row that row `p` of point `t`'s block is. -/
def grow (t : Fin cfg1.N) (p : Fin 2000) : Fin 50000 :=
  ⟨win1_6.index t (0 : Fin 2) * 2000 + p.val, by have h1 := row_le t; have h2 := p.isLt; omega⟩

/-- An entry of the result's block at a point sits at the point's global row, same column. -/
theorem emb_out (t : Fin cfg1.N) (p : Fin 2000) (q : Fin 256) :
    ((cfg1.win 6).blk t).view.emb (ix2 p q) = ix2 (grow t p) q := by
  obtain ⟨e00, e01, e10, e11, e20, e21, e30, e31, e40, e41, e50, e51, eo1, eob⟩ := idx_facts t
  funext a; apply Fin.ext
  match a with
  | ⟨0, _⟩ => show win1_6.index t (0 : Fin 2) * 2000 + 1 * p.val = win1_6.index t (0 : Fin 2) * 2000 + p.val; omega
  | ⟨1, _⟩ => show win1_6.index t (1 : Fin 2) * 256 + 1 * q.val = q.val; omega

/-! The input windows' blocks at a point, read off the arrays the region finds. -/

theorem blk0 (c : Dev nD) (t : Fin cfg1.N) (p : Fin 2000) (j : Fin 256) :
    iblk1 V c 0 t (ix2 p j) = V c main_v42 (ix2 (grow t p) j) := by
  obtain ⟨e00, e01, e10, e11, e20, e21, e30, e31, e40, e41, e50, e51, eo1, eob⟩ := idx_facts t
  show V c main_v42 (((cfg1.win 0).blk t).view.emb (ix2 p j)) = _
  congr 1; funext a; apply Fin.ext
  match a with
  | ⟨0, _⟩ => show win1_0.index t (0 : Fin 2) * 2000 + 1 * p.val = win1_6.index t (0 : Fin 2) * 2000 + p.val; omega
  | ⟨1, _⟩ => show win1_0.index t (1 : Fin 2) * 256 + 1 * j.val = j.val; omega

theorem blk1 (c : Dev nD) (t : Fin cfg1.N) (p : Fin 2000) (j : Fin 256) :
    iblk1 V c 1 t (ix2 p j) = V c main_v65 (ix2 (grow t p) j) := by
  obtain ⟨e00, e01, e10, e11, e20, e21, e30, e31, e40, e41, e50, e51, eo1, eob⟩ := idx_facts t
  show V c main_v65 (((cfg1.win 1).blk t).view.emb (ix2 p j)) = _
  congr 1; funext a; apply Fin.ext
  match a with
  | ⟨0, _⟩ => show win1_1.index t (0 : Fin 2) * 2000 + 1 * p.val = win1_6.index t (0 : Fin 2) * 2000 + p.val; omega
  | ⟨1, _⟩ => show win1_1.index t (1 : Fin 2) * 256 + 1 * j.val = j.val; omega

theorem blk2 (c : Dev nD) (t : Fin cfg1.N) (j : Fin 256) (k : Fin 256) :
    iblk1 V c 2 t (ix2 j k) = V c main_v67 (ix2 j k) := by
  obtain ⟨e00, e01, e10, e11, e20, e21, e30, e31, e40, e41, e50, e51, eo1, eob⟩ := idx_facts t
  show V c main_v67 (((cfg1.win 2).blk t).view.emb (ix2 j k)) = _
  congr 1; funext a; apply Fin.ext
  match a with
  | ⟨0, _⟩ => show win1_2.index t (0 : Fin 2) * 256 + 1 * j.val = j.val; omega
  | ⟨1, _⟩ => show win1_2.index t (1 : Fin 2) * 256 + 1 * k.val = k.val; omega

theorem blk3 (c : Dev nD) (t : Fin cfg1.N) (j : Fin 1) (k : Fin 256) :
    iblk1 V c 3 t (ix2 j k) = V c main_v74 (ix2 j k) := by
  obtain ⟨e00, e01, e10, e11, e20, e21, e30, e31, e40, e41, e50, e51, eo1, eob⟩ := idx_facts t
  show V c main_v74 (((cfg1.win 3).blk t).view.emb (ix2 j k)) = _
  congr 1; funext a; apply Fin.ext
  match a with
  | ⟨0, _⟩ => show win1_3.index t (0 : Fin 2) * 1 + 1 * j.val = j.val; omega
  | ⟨1, _⟩ => show win1_3.index t (1 : Fin 2) * 256 + 1 * k.val = k.val; omega

theorem blk4 (c : Dev nD) (t : Fin cfg1.N) (j : Fin 256) (k : Fin 256) :
    iblk1 V c 4 t (ix2 j k) = V c main_v71 (ix2 j k) := by
  obtain ⟨e00, e01, e10, e11, e20, e21, e30, e31, e40, e41, e50, e51, eo1, eob⟩ := idx_facts t
  show V c main_v71 (((cfg1.win 4).blk t).view.emb (ix2 j k)) = _
  congr 1; funext a; apply Fin.ext
  match a with
  | ⟨0, _⟩ => show win1_4.index t (0 : Fin 2) * 256 + 1 * j.val = j.val; omega
  | ⟨1, _⟩ => show win1_4.index t (1 : Fin 2) * 256 + 1 * k.val = k.val; omega

theorem blk5 (c : Dev nD) (t : Fin cfg1.N) (j : Fin 1) (k : Fin 256) :
    iblk1 V c 5 t (ix2 j k) = V c main_v75 (ix2 j k) := by
  obtain ⟨e00, e01, e10, e11, e20, e21, e30, e31, e40, e41, e50, e51, eo1, eob⟩ := idx_facts t
  show V c main_v75 (((cfg1.win 5).blk t).view.emb (ix2 j k)) = _
  congr 1; funext a; apply Fin.ext
  match a with
  | ⟨0, _⟩ => show win1_5.index t (0 : Fin 2) * 1 + 1 * j.val = j.val; omega
  | ⟨1, _⟩ => show win1_5.index t (1 : Fin 2) * 256 + 1 * k.val = k.val; omega

/-- The body's value at local row `p`, column `q` of point `t`'s blocks is the whole-array function at that global row. -/
theorem pay_eq (c : Dev nD) (t : Fin cfg1.N) (p : Fin 2000) (q : Fin 256) :
    k1_pay1 (F := Ideal) (iblk1 V c 0 t) (iblk1 V c 1 t) (iblk1 V c 2 t) (iblk1 V c 3 t) (iblk1 V c 4 t) (iblk1 V c 5 t) (iblk1 V c 0 t) (ix2 p q)
      = G V c (ix2 (grow t p) q) :=
  (Cert.KerRows.layer1_row (iblk1 V c 0 t) (iblk1 V c 1 t) (iblk1 V c 2 t) (iblk1 V c 3 t) (iblk1 V c 4 t) (iblk1 V c 5 t) p q).trans
    (RowSpec.rowLayer_congr q (blk0 V c t p) (blk1 V c t p) (blk2 V c t) (blk3 V c t 0) (blk4 V c t) (blk5 V c t 0))

set_option maxHeartbeats 2000000 in
/-- What point `t` writes back is block `t` of the whole-array function. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S2000x256) hz, View.ld_unit_zero (S := S256x256) hz, View.ld_unit_zero (S := S1x256) hz]
  funext y
  obtain ⟨p, q, rfl⟩ : ∃ (p : Fin 2000) (q : Fin 256), y = ix2 p q := ⟨y 0, y 1, eq_ix2 y⟩
  rw [View.read_apply, emb_out t p q]
  exact pay_eq V c t p q

/-- An index of the array is in point `t`'s block iff its row is in the block's 2000 rows. -/
theorem mem_blk (t : Fin cfg1.N) (i : S50000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v76).slice (win1_6.rect t)).set ↔ _
  rw [View.set_slice_whole, Rect.mem_set_unit]
  exact Iff.rfl

/-- The 25 blocks tile the array. -/
theorem cover (i : S50000x256.Idx) : ∃ t : Fin cfg1.N, (cfg1.win 6).flush t = true ∧ i ∈ ((cfg1.win 6).blk t).view.set := by
  have hi0 : (i 0).val < 50000 := (i 0).isLt
  have hi1 : (i 1).val < 256 := (i 1).isLt
  obtain ⟨t, ht⟩ := idx_onto ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 256 ≤ (i 1).val ∧ (i 1).val < win1_6.index t (1 : Fin 2) * 256 + 256; omega

/-- The result array after the region: the whole-array function of the arrays the region found. -/
theorem final (c : Dev nD) : (dat1 V c).arrAt 6 cfg1.N = G V c :=
  (dat1 V c).arrAt_eq_of_cover 6 (G V c) (fun t _ => flushed_eq V c t) cover

end Cert.KernelIdeal.Layer1

end
-- ==== Proof.Layer2.lean ====
/-
  Graph-convolution update 2, from blocks to the whole array.

  The update kernel walks the node array in 25 blocks of 2000 rows. At a block it reads the same 2000 rows of the state
  and of the aggregated messages, and the two weight matrices and two bias rows whole; it writes the same 2000 rows of
  the result. Since a row of the result depends only on that row of the two activations, the block written at a point is
  the restriction of ONE whole-array function (the per-row update applied at every row), and the 25 blocks tile the
  50000 rows: the result array ends holding that function.
-/
import proofs.«143893_j1065151889700_2_alg».proof.Proof.Gen.KernelIdeal.Frame
import proofs.«143893_j1065151889700_2_alg».proof.Proof.KerRows
import Idealize.ShloMosaic.Lib.Pipeline.Value
import Idealize.ShloMosaic.Lib.ValueIdx

set_option maxRecDepth 16384

noncomputable section

namespace Cert.KernelIdeal.Layer2

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl

/-- The whole-array update: at node `i 0`, column `i 1`, the per-row update of that node's state and message rows. -/
def G (c : Dev nD) : S50000x256.Idx → EReal := fun i =>
  RowSpec.rowLayer true (fun j => V c main_v76 (ix2 (i 0) j)) (fun j => V c main_v88 (ix2 (i 0) j))
    (fun j k => V c main_v90 (ix2 j k)) (fun k => V c main_v97 (ix2 0 k))
    (fun k c' => V c main_v94 (ix2 k c')) (fun c' => V c main_v98 (ix2 0 c')) (i 1)

/-- The index maps over the 25 grid points: a row-blocked window and the result's block sit at the point's own row
    block, column block 0; a window over a whole small array at block (0, 0). -/
theorem idx_facts : ∀ t : Fin cfg2.N,
    win2_0.index t (0 : Fin 2) = win2_6.index t (0 : Fin 2)
    ∧ win2_0.index t (1 : Fin 2) = 0
    ∧ win2_1.index t (0 : Fin 2) = win2_6.index t (0 : Fin 2)
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (1 : Fin 2) = 0
    ∧ win2_6.index t (0 : Fin 2) ≤ 24 :=
  (by decide +kernel : ∀ t : Fin grid2.N, _)

theorem row_le : ∀ t : Fin cfg2.N, win2_6.index t (0 : Fin 2) ≤ 24 :=
  (by decide +kernel : ∀ t : Fin grid2.N, _)

/-- Every row block is some point's. -/
theorem idx_onto : ∀ q0 : Fin 25, ∃ t : Fin cfg2.N, win2_6.index t = ![q0.val, 0] :=
  (by decide +kernel : ∀ q0 : Fin 25, ∃ t : Fin grid2.N, win2_6.index t = ![q0.val, 0])

/-- The global row that row `p` of point `t`'s block is. -/
def grow (t : Fin cfg2.N) (p : Fin 2000) : Fin 50000 :=
  ⟨win2_6.index t (0 : Fin 2) * 2000 + p.val, by have h1 := row_le t; have h2 := p.isLt; omega⟩

/-- An entry of the result's block at a point sits at the point's global row, same column. -/
theorem emb_out (t : Fin cfg2.N) (p : Fin 2000) (q : Fin 256) :
    ((cfg2.win 6).blk t).view.emb (ix2 p q) = ix2 (grow t p) q := by
  obtain ⟨e00, e01, e10, e11, e20, e21, e30, e31, e40, e41, e50, e51, eo1, eob⟩ := idx_facts t
  funext a; apply Fin.ext
  match a with
  | ⟨0, _⟩ => show win2_6.index t (0 : Fin 2) * 2000 + 1 * p.val = win2_6.index t (0 : Fin 2) * 2000 + p.val; omega
  | ⟨1, _⟩ => show win2_6.index t (1 : Fin 2) * 256 + 1 * q.val = q.val; omega

/-! The input windows' blocks at a point, read off the arrays the region finds. -/

theorem blk0 (c : Dev nD) (t : Fin cfg2.N) (p : Fin 2000) (j : Fin 256) :
    iblk2 V c 0 t (ix2 p j) = V c main_v76 (ix2 (grow t p) j) := by
  obtain ⟨e00, e01, e10, e11, e20, e21, e30, e31, e40, e41, e50, e51, eo1, eob⟩ := idx_facts t
  show V c main_v76 (((cfg2.win 0).blk t).view.emb (ix2 p j)) = _
  congr 1; funext a; apply Fin.ext
  match a with
  | ⟨0, _⟩ => show win2_0.index t (0 : Fin 2) * 2000 + 1 * p.val = win2_6.index t (0 : Fin 2) * 2000 + p.val; omega
  | ⟨1, _⟩ => show win2_0.index t (1 : Fin 2) * 256 + 1 * j.val = j.val; omega

theorem blk1 (c : Dev nD) (t : Fin cfg2.N) (p : Fin 2000) (j : Fin 256) :
    iblk2 V c 1 t (ix2 p j) = V c main_v88 (ix2 (grow t p) j) := by
  obtain ⟨e00, e01, e10, e11, e20, e21, e30, e31, e40, e41, e50, e51, eo1, eob⟩ := idx_facts t
  show V c main_v88 (((cfg2.win 1).blk t).view.emb (ix2 p j)) = _
  congr 1; funext a; apply Fin.ext
  match a with
  | ⟨0, _⟩ => show win2_1.index t (0 : Fin 2) * 2000 + 1 * p.val = win2_6.index t (0 : Fin 2) * 2000 + p.val; omega
  | ⟨1, _⟩ => show win2_1.index t (1 : Fin 2) * 256 + 1 * j.val = j.val; omega

theorem blk2 (c : Dev nD) (t : Fin cfg2.N) (j : Fin 256) (k : Fin 256) :
    iblk2 V c 2 t (ix2 j k) = V c main_v90 (ix2 j k) := by
  obtain ⟨e00, e01, e10, e11, e20, e21, e30, e31, e40, e41, e50, e51, eo1, eob⟩ := idx_facts t
  show V c main_v90 (((cfg2.win 2).blk t).view.emb (ix2 j k)) = _
  congr 1; funext a; apply Fin.ext
  match a with
  | ⟨0, _⟩ => show win2_2.index t (0 : Fin 2) * 256 + 1 * j.val = j.val; omega
  | ⟨1, _⟩ => show win2_2.index t (1 : Fin 2) * 256 + 1 * k.val = k.val; omega

theorem blk3 (c : Dev nD) (t : Fin cfg2.N) (j : Fin 1) (k : Fin 256) :
    iblk2 V c 3 t (ix2 j k) = V c main_v97 (ix2 j k) := by
  obtain ⟨e00, e01, e10, e11, e20, e21, e30, e31, e40, e41, e50, e51, eo1, eob⟩ := idx_facts t
  show V c main_v97 (((cfg2.win 3).blk t).view.emb (ix2 j k)) = _
  congr 1; funext a; apply Fin.ext
  match a with
  | ⟨0, _⟩ => show win2_3.index t (0 : Fin 2) * 1 + 1 * j.val = j.val; omega
  | ⟨1, _⟩ => show win2_3.index t (1 : Fin 2) * 256 + 1 * k.val = k.val; omega

theorem blk4 (c : Dev nD) (t : Fin cfg2.N) (j : Fin 256) (k : Fin 256) :
    iblk2 V c 4 t (ix2 j k) = V c main_v94 (ix2 j k) := by
  obtain ⟨e00, e01, e10, e11, e20, e21, e30, e31, e40, e41, e50, e51, eo1, eob⟩ := idx_facts t
  show V c main_v94 (((cfg2.win 4).blk t).view.emb (ix2 j k)) = _
  congr 1; funext a; apply Fin.ext
  match a with
  | ⟨0, _⟩ => show win2_4.index t (0 : Fin 2) * 256 + 1 * j.val = j.val; omega
  | ⟨1, _⟩ => show win2_4.index t (1 : Fin 2) * 256 + 1 * k.val = k.val; omega

theorem blk5 (c : Dev nD) (t : Fin cfg2.N) (j : Fin 1) (k : Fin 256) :
    iblk2 V c 5 t (ix2 j k) = V c main_v98 (ix2 j k) := by
  obtain ⟨e00, e01, e10, e11, e20, e21, e30, e31, e40, e41, e50, e51, eo1, eob⟩ := idx_facts t
  show V c main_v98 (((cfg2.win 5).blk t).view.emb (ix2 j k)) = _
  congr 1; funext a; apply Fin.ext
  match a with
  | ⟨0, _⟩ => show win2_5.index t (0 : Fin 2) * 1 + 1 * j.val = j.val; omega
  | ⟨1, _⟩ => show win2_5.index t (1 : Fin 2) * 256 + 1 * k.val = k.val; omega

/-- The body's value at local row `p`, column `q` of point `t`'s blocks is the whole-array function at that global row. -/
theorem pay_eq (c : Dev nD) (t : Fin cfg2.N) (p : Fin 2000) (q : Fin 256) :
    k2_pay1 (F := Ideal) (iblk2 V c 0 t) (iblk2 V c 1 t) (iblk2 V c 2 t) (iblk2 V c 3 t) (iblk2 V c 4 t) (iblk2 V c 5 t) (iblk2 V c 0 t) (ix2 p q)
      = G V c (ix2 (grow t p) q) :=
  (Cert.KerRows.layer2_row (iblk2 V c 0 t) (iblk2 V c 1 t) (iblk2 V c 2 t) (iblk2 V c 3 t) (iblk2 V c 4 t) (iblk2 V c 5 t) p q).trans
    (RowSpec.rowLayer_congr q (blk0 V c t p) (blk1 V c t p) (blk2 V c t) (blk3 V c t 0) (blk4 V c t) (blk5 V c t 0))

set_option maxHeartbeats 2000000 in
/-- What point `t` writes back is block `t` of the whole-array function. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S2000x256) hz, View.ld_unit_zero (S := S256x256) hz, View.ld_unit_zero (S := S1x256) hz]
  funext y
  obtain ⟨p, q, rfl⟩ : ∃ (p : Fin 2000) (q : Fin 256), y = ix2 p q := ⟨y 0, y 1, eq_ix2 y⟩
  rw [View.read_apply, emb_out t p q]
  exact pay_eq V c t p q

/-- An index of the array is in point `t`'s block iff its row is in the block's 2000 rows. -/
theorem mem_blk (t : Fin cfg2.N) (i : S50000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v99).slice (win2_6.rect t)).set ↔ _
  rw [View.set_slice_whole, Rect.mem_set_unit]
  exact Iff.rfl

/-- The 25 blocks tile the array. -/
theorem cover (i : S50000x256.Idx) : ∃ t : Fin cfg2.N, (cfg2.win 6).flush t = true ∧ i ∈ ((cfg2.win 6).blk t).view.set := by
  have hi0 : (i 0).val < 50000 := (i 0).isLt
  have hi1 : (i 1).val < 256 := (i 1).isLt
  obtain ⟨t, ht⟩ := idx_onto ⟨(i 0).val / 2000, by omega⟩
  have q0 : win2_6.index t (0 : Fin 2) = (i 0).val / 2000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 256 ≤ (i 1).val ∧ (i 1).val < win2_6.index t (1 : Fin 2) * 256 + 256; omega

/-- The result array after the region: the whole-array function of the arrays the region found. -/
theorem final (c : Dev nD) : (dat2 V c).arrAt 6 cfg2.N = G V c :=
  (dat2 V c).arrAt_eq_of_cover 6 (G V c) (fun t _ => flushed_eq V c t) cover

end Cert.KernelIdeal.Layer2

end
-- ==== Proof.Layer3.lean ====
/-
  Graph-convolution update 3, from blocks to the whole array.

  The update kernel walks the node array in 25 blocks of 2000 rows. At a block it reads the same 2000 rows of the state
  and of the aggregated messages, and the two weight matrices and two bias rows whole; it writes the same 2000 rows of
  the result. Since a row of the result depends only on that row of the two activations, the block written at a point is
  the restriction of ONE whole-array function (the per-row update applied at every row), and the 25 blocks tile the
  50000 rows: the result array ends holding that function.
-/
import proofs.«143893_j1065151889700_2_alg».proof.Proof.Gen.KernelIdeal.Frame
import proofs.«143893_j1065151889700_2_alg».proof.Proof.KerRows
import Idealize.ShloMosaic.Lib.Pipeline.Value
import Idealize.ShloMosaic.Lib.ValueIdx

set_option maxRecDepth 16384

noncomputable section

namespace Cert.KernelIdeal.Layer3

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl

/-- The whole-array update: at node `i 0`, column `i 1`, the per-row update of that node's state and message rows. -/
def G (c : Dev nD) : S50000x256.Idx → EReal := fun i =>
  RowSpec.rowLayer true (fun j => V c main_v99 (ix2 (i 0) j)) (fun j => V c main_v111 (ix2 (i 0) j))
    (fun j k => V c main_v113 (ix2 j k)) (fun k => V c main_v120 (ix2 0 k))
    (fun k c' => V c main_v117 (ix2 k c')) (fun c' => V c main_v121 (ix2 0 c')) (i 1)

/-- The index maps over the 25 grid points: a row-blocked window and the result's block sit at the point's own row
    block, column block 0; a window over a whole small array at block (0, 0). -/
theorem idx_facts : ∀ t : Fin cfg3.N,
    win3_0.index t (0 : Fin 2) = win3_6.index t (0 : Fin 2)
    ∧ win3_0.index t (1 : Fin 2) = 0
    ∧ win3_1.index t (0 : Fin 2) = win3_6.index t (0 : Fin 2)
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (1 : Fin 2) = 0
    ∧ win3_6.index t (0 : Fin 2) ≤ 24 :=
  (by decide +kernel : ∀ t : Fin grid3.N, _)

theorem row_le : ∀ t : Fin cfg3.N, win3_6.index t (0 : Fin 2) ≤ 24 :=
  (by decide +kernel : ∀ t : Fin grid3.N, _)

/-- Every row block is some point's. -/
theorem idx_onto : ∀ q0 : Fin 25, ∃ t : Fin cfg3.N, win3_6.index t = ![q0.val, 0] :=
  (by decide +kernel : ∀ q0 : Fin 25, ∃ t : Fin grid3.N, win3_6.index t = ![q0.val, 0])

/-- The global row that row `p` of point `t`'s block is. -/
def grow (t : Fin cfg3.N) (p : Fin 2000) : Fin 50000 :=
  ⟨win3_6.index t (0 : Fin 2) * 2000 + p.val, by have h1 := row_le t; have h2 := p.isLt; omega⟩

/-- An entry of the result's block at a point sits at the point's global row, same column. -/
theorem emb_out (t : Fin cfg3.N) (p : Fin 2000) (q : Fin 256) :
    ((cfg3.win 6).blk t).view.emb (ix2 p q) = ix2 (grow t p) q := by
  obtain ⟨e00, e01, e10, e11, e20, e21, e30, e31, e40, e41, e50, e51, eo1, eob⟩ := idx_facts t
  funext a; apply Fin.ext
  match a with
  | ⟨0, _⟩ => show win3_6.index t (0 : Fin 2) * 2000 + 1 * p.val = win3_6.index t (0 : Fin 2) * 2000 + p.val; omega
  | ⟨1, _⟩ => show win3_6.index t (1 : Fin 2) * 256 + 1 * q.val = q.val; omega

/-! The input windows' blocks at a point, read off the arrays the region finds. -/

theorem blk0 (c : Dev nD) (t : Fin cfg3.N) (p : Fin 2000) (j : Fin 256) :
    iblk3 V c 0 t (ix2 p j) = V c main_v99 (ix2 (grow t p) j) := by
  obtain ⟨e00, e01, e10, e11, e20, e21, e30, e31, e40, e41, e50, e51, eo1, eob⟩ := idx_facts t
  show V c main_v99 (((cfg3.win 0).blk t).view.emb (ix2 p j)) = _
  congr 1; funext a; apply Fin.ext
  match a with
  | ⟨0, _⟩ => show win3_0.index t (0 : Fin 2) * 2000 + 1 * p.val = win3_6.index t (0 : Fin 2) * 2000 + p.val; omega
  | ⟨1, _⟩ => show win3_0.index t (1 : Fin 2) * 256 + 1 * j.val = j.val; omega

theorem blk1 (c : Dev nD) (t : Fin cfg3.N) (p : Fin 2000) (j : Fin 256) :
    iblk3 V c 1 t (ix2 p j) = V c main_v111 (ix2 (grow t p) j) := by
  obtain ⟨e00, e01, e10, e11, e20, e21, e30, e31, e40, e41, e50, e51, eo1, eob⟩ := idx_facts t
  show V c main_v111 (((cfg3.win 1).blk t).view.emb (ix2 p j)) = _
  congr 1; funext a; apply Fin.ext
  match a with
  | ⟨0, _⟩ => show win3_1.index t (0 : Fin 2) * 2000 + 1 * p.val = win3_6.index t (0 : Fin 2) * 2000 + p.val; omega
  | ⟨1, _⟩ => show win3_1.index t (1 : Fin 2) * 256 + 1 * j.val = j.val; omega

theorem blk2 (c : Dev nD) (t : Fin cfg3.N) (j : Fin 256) (k : Fin 256) :
    iblk3 V c 2 t (ix2 j k) = V c main_v113 (ix2 j k) := by
  obtain ⟨e00, e01, e10, e11, e20, e21, e30, e31, e40, e41, e50, e51, eo1, eob⟩ := idx_facts t
  show V c main_v113 (((cfg3.win 2).blk t).view.emb (ix2 j k)) = _
  congr 1; funext a; apply Fin.ext
  match a with
  | ⟨0, _⟩ => show win3_2.index t (0 : Fin 2) * 256 + 1 * j.val = j.val; omega
  | ⟨1, _⟩ => show win3_2.index t (1 : Fin 2) * 256 + 1 * k.val = k.val; omega

theorem blk3 (c : Dev nD) (t : Fin cfg3.N) (j : Fin 1) (k : Fin 256) :
    iblk3 V c 3 t (ix2 j k) = V c main_v120 (ix2 j k) := by
  obtain ⟨e00, e01, e10, e11, e20, e21, e30, e31, e40, e41, e50, e51, eo1, eob⟩ := idx_facts t
  show V c main_v120 (((cfg3.win 3).blk t).view.emb (ix2 j k)) = _
  congr 1; funext a; apply Fin.ext
  match a with
  | ⟨0, _⟩ => show win3_3.index t (0 : Fin 2) * 1 + 1 * j.val = j.val; omega
  | ⟨1, _⟩ => show win3_3.index t (1 : Fin 2) * 256 + 1 * k.val = k.val; omega

theorem blk4 (c : Dev nD) (t : Fin cfg3.N) (j : Fin 256) (k : Fin 256) :
    iblk3 V c 4 t (ix2 j k) = V c main_v117 (ix2 j k) := by
  obtain ⟨e00, e01, e10, e11, e20, e21, e30, e31, e40, e41, e50, e51, eo1, eob⟩ := idx_facts t
  show V c main_v117 (((cfg3.win 4).blk t).view.emb (ix2 j k)) = _
  congr 1; funext a; apply Fin.ext
  match a with
  | ⟨0, _⟩ => show win3_4.index t (0 : Fin 2) * 256 + 1 * j.val = j.val; omega
  | ⟨1, _⟩ => show win3_4.index t (1 : Fin 2) * 256 + 1 * k.val = k.val; omega

theorem blk5 (c : Dev nD) (t : Fin cfg3.N) (j : Fin 1) (k : Fin 256) :
    iblk3 V c 5 t (ix2 j k) = V c main_v121 (ix2 j k) := by
  obtain ⟨e00, e01, e10, e11, e20, e21, e30, e31, e40, e41, e50, e51, eo1, eob⟩ := idx_facts t
  show V c main_v121 (((cfg3.win 5).blk t).view.emb (ix2 j k)) = _
  congr 1; funext a; apply Fin.ext
  match a with
  | ⟨0, _⟩ => show win3_5.index t (0 : Fin 2) * 1 + 1 * j.val = j.val; omega
  | ⟨1, _⟩ => show win3_5.index t (1 : Fin 2) * 256 + 1 * k.val = k.val; omega

/-- The body's value at local row `p`, column `q` of point `t`'s blocks is the whole-array function at that global row. -/
theorem pay_eq (c : Dev nD) (t : Fin cfg3.N) (p : Fin 2000) (q : Fin 256) :
    k3_pay1 (F := Ideal) (iblk3 V c 0 t) (iblk3 V c 1 t) (iblk3 V c 2 t) (iblk3 V c 3 t) (iblk3 V c 4 t) (iblk3 V c 5 t) (iblk3 V c 0 t) (ix2 p q)
      = G V c (ix2 (grow t p) q) :=
  (Cert.KerRows.layer3_row (iblk3 V c 0 t) (iblk3 V c 1 t) (iblk3 V c 2 t) (iblk3 V c 3 t) (iblk3 V c 4 t) (iblk3 V c 5 t) p q).trans
    (RowSpec.rowLayer_congr q (blk0 V c t p) (blk1 V c t p) (blk2 V c t) (blk3 V c t 0) (blk4 V c t) (blk5 V c t 0))

set_option maxHeartbeats 2000000 in
/-- What point `t` writes back is block `t` of the whole-array function. -/
theorem flushed_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S2000x256) hz, View.ld_unit_zero (S := S256x256) hz, View.ld_unit_zero (S := S1x256) hz]
  funext y
  obtain ⟨p, q, rfl⟩ : ∃ (p : Fin 2000) (q : Fin 256), y = ix2 p q := ⟨y 0, y 1, eq_ix2 y⟩
  rw [View.read_apply, emb_out t p q]
  exact pay_eq V c t p q

/-- An index of the array is in point `t`'s block iff its row is in the block's 2000 rows. -/
theorem mem_blk (t : Fin cfg3.N) (i : S50000x256.Idx) :
    i ∈ ((cfg3.win 6).blk t).view.set ↔ ∀ a : Fin 2, win3_6.index t a * S2000x256.size a ≤ (i a).val ∧ (i a).val < win3_6.index t a * S2000x256.size a + S2000x256.size a := by
  show i ∈ ((View.whole main_v122).slice (win3_6.rect t)).set ↔ _
  rw [View.set_slice_whole, Rect.mem_set_unit]
  exact Iff.rfl

/-- The 25 blocks tile the array. -/
theorem cover (i : S50000x256.Idx) : ∃ t : Fin cfg3.N, (cfg3.win 6).flush t = true ∧ i ∈ ((cfg3.win 6).blk t).view.set := by
  have hi0 : (i 0).val < 50000 := (i 0).isLt
  have hi1 : (i 1).val < 256 := (i 1).isLt
  obtain ⟨t, ht⟩ := idx_onto ⟨(i 0).val / 2000, by omega⟩
  have q0 : win3_6.index t (0 : Fin 2) = (i 0).val / 2000 := congrFun ht 0
  have q1 : win3_6.index t (1 : Fin 2) = 0 := congrFun ht 1
  refine ⟨t, flush3_6 t, ?_⟩
  rw [mem_blk]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 256 ≤ (i 1).val ∧ (i 1).val < win3_6.index t (1 : Fin 2) * 256 + 256; omega

/-- The result array after the region: the whole-array function of the arrays the region found. -/
theorem final (c : Dev nD) : (dat3 V c).arrAt 6 cfg3.N = G V c :=
  (dat3 V c).arrAt_eq_of_cover 6 (G V c) (fun t _ => flushed_eq V c t) cover

end Cert.KernelIdeal.Layer3

end
-- ==== Proof.Layer4.lean ====
/-
  Graph-convolution update 4, from blocks to the whole array.

  The update kernel walks the node array in 25 blocks of 2000 rows. At a block it reads the same 2000 rows of the state
  and of the aggregated messages, and the two weight matrices and two bias rows whole; it writes the same 2000 rows of
  the result. Since a row of the result depends only on that row of the two activations, the block written at a point is
  the restriction of ONE whole-array function (the per-row update applied at every row), and the 25 blocks tile the
  50000 rows: the result array ends holding that function.
-/
import proofs.«143893_j1065151889700_2_alg».proof.Proof.Gen.KernelIdeal.Frame
import proofs.«143893_j1065151889700_2_alg».proof.Proof.KerRows
import Idealize.ShloMosaic.Lib.Pipeline.Value
import Idealize.ShloMosaic.Lib.ValueIdx

set_option maxRecDepth 16384

noncomputable section

namespace Cert.KernelIdeal.Layer4

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl

/-- The whole-array update: at node `i 0`, column `i 1`, the per-row update of that node's state and message rows. -/
def G (c : Dev nD) : S50000x256.Idx → EReal := fun i =>
  RowSpec.rowLayer false (fun j => V c main_v122 (ix2 (i 0) j)) (fun j => V c main_v134 (ix2 (i 0) j))
    (fun j k => V c main_v136 (ix2 j k)) (fun k => V c main_v143 (ix2 0 k))
    (fun k c' => V c main_v140 (ix2 k c')) (fun c' => V c main_v144 (ix2 0 c')) (i 1)

/-- The index maps over the 25 grid points: a row-blocked window and the result's block sit at the point's own row
    block, column block 0; a window over a whole small array at block (0, 0). -/
theorem idx_facts : ∀ t : Fin cfg4.N,
    win4_0.index t (0 : Fin 2) = win4_6.index t (0 : Fin 2)
    ∧ win4_0.index t (1 : Fin 2) = 0
    ∧ win4_1.index t (0 : Fin 2) = win4_6.index t (0 : Fin 2)
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (1 : Fin 2) = 0
    ∧ win4_6.index t (0 : Fin 2) ≤ 24 :=
  (by decide +kernel : ∀ t : Fin grid4.N, _)

theorem row_le : ∀ t : Fin cfg4.N, win4_6.index t (0 : Fin 2) ≤ 24 :=
  (by decide +kernel : ∀ t : Fin grid4.N, _)

/-- Every row block is some point's. -/
theorem idx_onto : ∀ q0 : Fin 25, ∃ t : Fin cfg4.N, win4_6.index t = ![q0.val, 0] :=
  (by decide +kernel : ∀ q0 : Fin 25, ∃ t : Fin grid4.N, win4_6.index t = ![q0.val, 0])

/-- The global row that row `p` of point `t`'s block is. -/
def grow (t : Fin cfg4.N) (p : Fin 2000) : Fin 50000 :=
  ⟨win4_6.index t (0 : Fin 2) * 2000 + p.val, by have h1 := row_le t; have h2 := p.isLt; omega⟩

/-- An entry of the result's block at a point sits at the point's global row, same column. -/
theorem emb_out (t : Fin cfg4.N) (p : Fin 2000) (q : Fin 256) :
    ((cfg4.win 6).blk t).view.emb (ix2 p q) = ix2 (grow t p) q := by
  obtain ⟨e00, e01, e10, e11, e20, e21, e30, e31, e40, e41, e50, e51, eo1, eob⟩ := idx_facts t
  funext a; apply Fin.ext
  match a with
  | ⟨0, _⟩ => show win4_6.index t (0 : Fin 2) * 2000 + 1 * p.val = win4_6.index t (0 : Fin 2) * 2000 + p.val; omega
  | ⟨1, _⟩ => show win4_6.index t (1 : Fin 2) * 256 + 1 * q.val = q.val; omega

/-! The input windows' blocks at a point, read off the arrays the region finds. -/

theorem blk0 (c : Dev nD) (t : Fin cfg4.N) (p : Fin 2000) (j : Fin 256) :
    iblk4 V c 0 t (ix2 p j) = V c main_v122 (ix2 (grow t p) j) := by
  obtain ⟨e00, e01, e10, e11, e20, e21, e30, e31, e40, e41, e50, e51, eo1, eob⟩ := idx_facts t
  show V c main_v122 (((cfg4.win 0).blk t).view.emb (ix2 p j)) = _
  congr 1; funext a; apply Fin.ext
  match a with
  | ⟨0, _⟩ => show win4_0.index t (0 : Fin 2) * 2000 + 1 * p.val = win4_6.index t (0 : Fin 2) * 2000 + p.val; omega
  | ⟨1, _⟩ => show win4_0.index t (1 : Fin 2) * 256 + 1 * j.val = j.val; omega

theorem blk1 (c : Dev nD) (t : Fin cfg4.N) (p : Fin 2000) (j : Fin 256) :
    iblk4 V c 1 t (ix2 p j) = V c main_v134 (ix2 (grow t p) j) := by
  obtain ⟨e00, e01, e10, e11, e20, e21, e30, e31, e40, e41, e50, e51, eo1, eob⟩ := idx_facts t
  show V c main_v134 (((cfg4.win 1).blk t).view.emb (ix2 p j)) = _
  congr 1; funext a; apply Fin.ext
  match a with
  | ⟨0, _⟩ => show win4_1.index t (0 : Fin 2) * 2000 + 1 * p.val = win4_6.index t (0 : Fin 2) * 2000 + p.val; omega
  | ⟨1, _⟩ => show win4_1.index t (1 : Fin 2) * 256 + 1 * j.val = j.val; omega

theorem blk2 (c : Dev nD) (t : Fin cfg4.N) (j : Fin 256) (k : Fin 256) :
    iblk4 V c 2 t (ix2 j k) = V c main_v136 (ix2 j k) := by
  obtain ⟨e00, e01, e10, e11, e20, e21, e30, e31, e40, e41, e50, e51, eo1, eob⟩ := idx_facts t
  show V c main_v136 (((cfg4.win 2).blk t).view.emb (ix2 j k)) = _
  congr 1; funext a; apply Fin.ext
  match a with
  | ⟨0, _⟩ => show win4_2.index t (0 : Fin 2) * 256 + 1 * j.val = j.val; omega
  | ⟨1, _⟩ => show win4_2.index t (1 : Fin 2) * 256 + 1 * k.val = k.val; omega

theorem blk3 (c : Dev nD) (t : Fin cfg4.N) (j : Fin 1) (k : Fin 256) :
    iblk4 V c 3 t (ix2 j k) = V c main_v143 (ix2 j k) := by
  obtain ⟨e00, e01, e10, e11, e20, e21, e30, e31, e40, e41, e50, e51, eo1, eob⟩ := idx_facts t
  show V c main_v143 (((cfg4.win 3).blk t).view.emb (ix2 j k)) = _
  congr 1; funext a; apply Fin.ext
  match a with
  | ⟨0, _⟩ => show win4_3.index t (0 : Fin 2) * 1 + 1 * j.val = j.val; omega
  | ⟨1, _⟩ => show win4_3.index t (1 : Fin 2) * 256 + 1 * k.val = k.val; omega

theorem blk4 (c : Dev nD) (t : Fin cfg4.N) (j : Fin 256) (k : Fin 256) :
    iblk4 V c 4 t (ix2 j k) = V c main_v140 (ix2 j k) := by
  obtain ⟨e00, e01, e10, e11, e20, e21, e30, e31, e40, e41, e50, e51, eo1, eob⟩ := idx_facts t
  show V c main_v140 (((cfg4.win 4).blk t).view.emb (ix2 j k)) = _
  congr 1; funext a; apply Fin.ext
  match a with
  | ⟨0, _⟩ => show win4_4.index t (0 : Fin 2) * 256 + 1 * j.val = j.val; omega
  | ⟨1, _⟩ => show win4_4.index t (1 : Fin 2) * 256 + 1 * k.val = k.val; omega

theorem blk5 (c : Dev nD) (t : Fin cfg4.N) (j : Fin 1) (k : Fin 256) :
    iblk4 V c 5 t (ix2 j k) = V c main_v144 (ix2 j k) := by
  obtain ⟨e00, e01, e10, e11, e20, e21, e30, e31, e40, e41, e50, e51, eo1, eob⟩ := idx_facts t
  show V c main_v144 (((cfg4.win 5).blk t).view.emb (ix2 j k)) = _
  congr 1; funext a; apply Fin.ext
  match a with
  | ⟨0, _⟩ => show win4_5.index t (0 : Fin 2) * 1 + 1 * j.val = j.val; omega
  | ⟨1, _⟩ => show win4_5.index t (1 : Fin 2) * 256 + 1 * k.val = k.val; omega

/-- The body's value at local row `p`, column `q` of point `t`'s blocks is the whole-array function at that global row. -/
theorem pay_eq (c : Dev nD) (t : Fin cfg4.N) (p : Fin 2000) (q : Fin 256) :
    k4_pay1 (F := Ideal) (iblk4 V c 0 t) (iblk4 V c 1 t) (iblk4 V c 2 t) (iblk4 V c 3 t) (iblk4 V c 4 t) (iblk4 V c 5 t) (iblk4 V c 0 t) (ix2 p q)
      = G V c (ix2 (grow t p) q) :=
  (Cert.KerRows.layer4_row (iblk4 V c 0 t) (iblk4 V c 1 t) (iblk4 V c 2 t) (iblk4 V c 3 t) (iblk4 V c 4 t) (iblk4 V c 5 t) p q).trans
    (RowSpec.rowLayer_congr q (blk0 V c t p) (blk1 V c t p) (blk2 V c t) (blk3 V c t 0) (blk4 V c t) (blk5 V c t 0))

set_option maxHeartbeats 2000000 in
/-- What point `t` writes back is block `t` of the whole-array function. -/
theorem flushed_eq (c : Dev nD) (t : Fin cfg4.N) :
    (dat4 V c).flushed 6 t = ((cfg4.win 6).blk t).view.read (Elt Ideal) (G V c) := by
  show (cfg4.win 6).cut (grid4.coords t) ((dat4 V c).after 6 t) = _
  rw [after4_6]
  unfold out4_6
  rw [View.canon_unit_zero hz]
  simp only [View.ld_unit_zero (S := S2000x256) hz, View.ld_unit_zero (S := S256x256) hz, View.ld_unit_zero (S := S1x256) hz]
  funext y
  obtain ⟨p, q, rfl⟩ : ∃ (p : Fin 2000) (q : Fin 256), y = ix2 p q := ⟨y 0, y 1, eq_ix2 y⟩
  rw [View.read_apply, emb_out t p q]
  exact pay_eq V c t p q

/-- An index of the array is in point `t`'s block iff its row is in the block's 2000 rows. -/
theorem mem_blk (t : Fin cfg4.N) (i : S50000x256.Idx) :
    i ∈ ((cfg4.win 6).blk t).view.set ↔ ∀ a : Fin 2, win4_6.index t a * S2000x256.size a ≤ (i a).val ∧ (i a).val < win4_6.index t a * S2000x256.size a + S2000x256.size a := by
  show i ∈ ((View.whole main_v145).slice (win4_6.rect t)).set ↔ _
  rw [View.set_slice_whole, Rect.mem_set_unit]
  exact Iff.rfl

/-- The 25 blocks tile the array. -/
theorem cover (i : S50000x256.Idx) : ∃ t : Fin cfg4.N, (cfg4.win 6).flush t = true ∧ i ∈ ((cfg4.win 6).blk t).view.set := by
  have hi0 : (i 0).val < 50000 := (i 0).isLt
  have hi1 : (i 1).val < 256 := (i 1).isLt
  obtain ⟨t, ht⟩ := idx_onto ⟨(i 0).val / 2000, by omega⟩
  have q0 : win4_6.index t (0 : Fin 2) = (i 0).val / 2000 := congrFun ht 0
  have q1 : win4_6.index t (1 : Fin 2) = 0 := congrFun ht 1
  refine ⟨t, flush4_6 t, ?_⟩
  rw [mem_blk]
  intro a
  match a with
  | ⟨0, _⟩ => show win4_6.index t (0 : Fin 2) * 2000 ≤ (i 0).val ∧ (i 0).val < win4_6.index t (0 : Fin 2) * 2000 + 2000; omega
  | ⟨1, _⟩ => show win4_6.index t (1 : Fin 2) * 256 ≤ (i 1).val ∧ (i 1).val < win4_6.index t (1 : Fin 2) * 256 + 256; omega

/-- The result array after the region: the whole-array function of the arrays the region found. -/
theorem final (c : Dev nD) : (dat4 V c).arrAt 6 cfg4.N = G V c :=
  (dat4 V c).arrAt_eq_of_cover 6 (G V c) (fun t _ => flushed_eq V c t) cover

end Cert.KernelIdeal.Layer4

end
-- ==== Proof.Score.lean ====
/-
  The output kernel, from blocks to the whole array.

  The kernel walks the edge array in 100 blocks of 3000 rows. At a block it reads the same 3000 rows of the endpoint
  products, of the fused edge features and of the one-column array of reciprocal standard deviations, and the output
  perceptron's weights and biases whole; it writes the same 3000 rows of the one-column result. A row of the result
  depends only on that row of the three edge arrays, so each block is the restriction of one whole-array function and the
  100 blocks tile the 300000 rows.
-/
import proofs.«143893_j1065151889700_2_alg».proof.Proof.Gen.KernelIdeal.Frame
import proofs.«143893_j1065151889700_2_alg».proof.Proof.KerRows
import Idealize.ShloMosaic.Lib.Pipeline.Value
import Idealize.ShloMosaic.Lib.ValueIdx

set_option maxRecDepth 16384

noncomputable section

namespace Cert.KernelIdeal.Score

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl

/-- The whole-array result: at edge `i 0`, the edge's score times its reciprocal standard deviation. -/
def G (c : Dev nD) : S300000x1.Idx → EReal := fun i =>
  RowSpec.rowOut (fun a => V c main_v160 (ix2 (i 0) a)) (fun a => V c main_v53 (ix2 (i 0) a)) (fun a j => V c main_v181 (ix2 a j)) (fun a j => V c main_v182 (ix2 a j))
      (fun j => V c main_v183 (ix2 0 j)) (fun j k => V c main_arg23 (ix2 j k)) (fun k => V c main_v184 (ix2 0 k)) (fun k => V c main_arg25 (ix2 k 0)) (V c main_v185 (ix2 0 0))
    * V c main_v180 (ix2 (i 0) 0)

/-- The index maps over the 100 grid points: a row-blocked window and the result's block sit at the point's own row
    block, column block 0; a window over a whole small array at block (0, 0). -/
theorem idx_facts : ∀ t : Fin cfg5.N,
    win5_0.index t (0 : Fin 2) = win5_10.index t (0 : Fin 2)
    ∧ win5_0.index t (1 : Fin 2) = 0
    ∧ win5_1.index t (0 : Fin 2) = win5_10.index t (0 : Fin 2)
    ∧ win5_1.index t (1 : Fin 2) = 0
    ∧ win5_2.index t (0 : Fin 2) = win5_10.index t (0 : Fin 2)
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = 0
    ∧ win5_6.index t (1 : Fin 2) = 0
    ∧ win5_7.index t (0 : Fin 2) = 0
    ∧ win5_7.index t (1 : Fin 2) = 0
    ∧ win5_8.index t (0 : Fin 2) = 0
    ∧ win5_8.index t (1 : Fin 2) = 0
    ∧ win5_9.index t (0 : Fin 2) = 0
    ∧ win5_9.index t (1 : Fin 2) = 0
    ∧ win5_10.index t (1 : Fin 2) = 0
    ∧ win5_10.index t (0 : Fin 2) ≤ 99 :=
  (by decide +kernel : ∀ t : Fin grid5.N, _)

theorem row_le : ∀ t : Fin cfg5.N, win5_10.index t (0 : Fin 2) ≤ 99 :=
  (by decide +kernel : ∀ t : Fin grid5.N, _)

/-- Every row block is some point's. -/
theorem idx_onto : ∀ q0 : Fin 100, ∃ t : Fin cfg5.N, win5_10.index t = ![q0.val, 0] :=
  (by decide +kernel : ∀ q0 : Fin 100, ∃ t : Fin grid5.N, win5_10.index t = ![q0.val, 0])

/-- The global row that row `p` of point `t`'s block is. -/
def grow (t : Fin cfg5.N) (p : Fin 3000) : Fin 300000 :=
  ⟨win5_10.index t (0 : Fin 2) * 3000 + p.val, by have h1 := row_le t; have h2 := p.isLt; omega⟩

/-- An entry of the result's block at a point sits at the point's global row, same column. -/
theorem emb_out (t : Fin cfg5.N) (p : Fin 3000) (q : Fin 1) :
    ((cfg5.win 10).blk t).view.emb (ix2 p q) = ix2 (grow t p) q := by
  obtain ⟨e00, e01, e10, e11, e20, e21, e30, e31, e40, e41, e50, e51, e60, e61, e70, e71, e80, e81, e90, e91, eo1, eob⟩ := idx_facts t
  funext a; apply Fin.ext
  match a with
  | ⟨0, _⟩ => show win5_10.index t (0 : Fin 2) * 3000 + 1 * p.val = win5_10.index t (0 : Fin 2) * 3000 + p.val; omega
  | ⟨1, _⟩ => show win5_10.index t (1 : Fin 2) * 1 + 1 * q.val = q.val; omega

/-! The input windows' blocks at a point, read off the arrays the region finds. -/

theorem blk0 (c : Dev nD) (t : Fin cfg5.N) (p : Fin 3000) (j : Fin 256) :
    iblk5 V c 0 t (ix2 p j) = V c main_v160 (ix2 (grow t p) j) := by
  obtain ⟨e00, e01, e10, e11, e20, e21, e30, e31, e40, e41, e50, e51, e60, e61, e70, e71, e80, e81, e90, e91, eo1, eob⟩ := idx_facts t
  show V c main_v160 (((cfg5.win 0).blk t).view.emb (ix2 p j)) = _
  congr 1; funext a; apply Fin.ext
  match a with
  | ⟨0, _⟩ => show win5_0.index t (0 : Fin 2) * 3000 + 1 * p.val = win5_10.index t (0 : Fin 2) * 3000 + p.val; omega
  | ⟨1, _⟩ => show win5_0.index t (1 : Fin 2) * 256 + 1 * j.val = j.val; omega

theorem blk1 (c : Dev nD) (t : Fin cfg5.N) (p : Fin 3000) (j : Fin 256) :
    iblk5 V c 1 t (ix2 p j) = V c main_v53 (ix2 (grow t p) j) := by
  obtain ⟨e00, e01, e10, e11, e20, e21, e30, e31, e40, e41, e50, e51, e60, e61, e70, e71, e80, e81, e90, e91, eo1, eob⟩ := idx_facts t
  show V c main_v53 (((cfg5.win 1).blk t).view.emb (ix2 p j)) = _
  congr 1; funext a; apply Fin.ext
  match a with
  | ⟨0, _⟩ => show win5_1.index t (0 : Fin 2) * 3000 + 1 * p.val = win5_10.index t (0 : Fin 2) * 3000 + p.val; omega
  | ⟨1, _⟩ => show win5_1.index t (1 : Fin 2) * 256 + 1 * j.val = j.val; omega

theorem blk2 (c : Dev nD) (t : Fin cfg5.N) (p : Fin 3000) (j : Fin 1) :
    iblk5 V c 2 t (ix2 p j) = V c main_v180 (ix2 (grow t p) j) := by
  obtain ⟨e00, e01, e10, e11, e20, e21, e30, e31, e40, e41, e50, e51, e60, e61, e70, e71, e80, e81, e90, e91, eo1, eob⟩ := idx_facts t
  show V c main_v180 (((cfg5.win 2).blk t).view.emb (ix2 p j)) = _
  congr 1; funext a; apply Fin.ext
  match a with
  | ⟨0, _⟩ => show win5_2.index t (0 : Fin 2) * 3000 + 1 * p.val = win5_10.index t (0 : Fin 2) * 3000 + p.val; omega
  | ⟨1, _⟩ => show win5_2.index t (1 : Fin 2) * 1 + 1 * j.val = j.val; omega

theorem blk3 (c : Dev nD) (t : Fin cfg5.N) (j : Fin 256) (k : Fin 256) :
    iblk5 V c 3 t (ix2 j k) = V c main_v181 (ix2 j k) := by
  obtain ⟨e00, e01, e10, e11, e20, e21, e30, e31, e40, e41, e50, e51, e60, e61, e70, e71, e80, e81, e90, e91, eo1, eob⟩ := idx_facts t
  show V c main_v181 (((cfg5.win 3).blk t).view.emb (ix2 j k)) = _
  congr 1; funext a; apply Fin.ext
  match a with
  | ⟨0, _⟩ => show win5_3.index t (0 : Fin 2) * 256 + 1 * j.val = j.val; omega
  | ⟨1, _⟩ => show win5_3.index t (1 : Fin 2) * 256 + 1 * k.val = k.val; omega

theorem blk4 (c : Dev nD) (t : Fin cfg5.N) (j : Fin 256) (k : Fin 256) :
    iblk5 V c 4 t (ix2 j k) = V c main_v182 (ix2 j k) := by
  obtain ⟨e00, e01, e10, e11, e20, e21, e30, e31, e40, e41, e50, e51, e60, e61, e70, e71, e80, e81, e90, e91, eo1, eob⟩ := idx_facts t
  show V c main_v182 (((cfg5.win 4).blk t).view.emb (ix2 j k)) = _
  congr 1; funext a; apply Fin.ext
  match a with
  | ⟨0, _⟩ => show win5_4.index t (0 : Fin 2) * 256 + 1 * j.val = j.val; omega
  | ⟨1, _⟩ => show win5_4.index t (1 : Fin 2) * 256 + 1 * k.val = k.val; omega

theorem blk5 (c : Dev nD) (t : Fin cfg5.N) (j : Fin 1) (k : Fin 256) :
    iblk5 V c 5 t (ix2 j k) = V c main_v183 (ix2 j k) := by
  obtain ⟨e00, e01, e10, e11, e20, e21, e30, e31, e40, e41, e50, e51, e60, e61, e70, e71, e80, e81, e90, e91, eo1, eob⟩ := idx_facts t
  show V c main_v183 (((cfg5.win 5).blk t).view.emb (ix2 j k)) = _
  congr 1; funext a; apply Fin.ext
  match a with
  | ⟨0, _⟩ => show win5_5.index t (0 : Fin 2) * 1 + 1 * j.val = j.val; omega
  | ⟨1, _⟩ => show win5_5.index t (1 : Fin 2) * 256 + 1 * k.val = k.val; omega

theorem blk6 (c : Dev nD) (t : Fin cfg5.N) (j : Fin 256) (k : Fin 128) :
    iblk5 V c 6 t (ix2 j k) = V c main_arg23 (ix2 j k) := by
  obtain ⟨e00, e01, e10, e11, e20, e21, e30, e31, e40, e41, e50, e51, e60, e61, e70, e71, e80, e81, e90, e91, eo1, eob⟩ := idx_facts t
  show V c main_arg23 (((cfg5.win 6).blk t).view.emb (ix2 j k)) = _
  congr 1; funext a; apply Fin.ext
  match a with
  | ⟨0, _⟩ => show win5_6.index t (0 : Fin 2) * 256 + 1 * j.val = j.val; omega
  | ⟨1, _⟩ => show win5_6.index t (1 : Fin 2) * 128 + 1 * k.val = k.val; omega

theorem blk7 (c : Dev nD) (t : Fin cfg5.N) (j : Fin 1) (k : Fin 128) :
    iblk5 V c 7 t (ix2 j k) = V c main_v184 (ix2 j k) := by
  obtain ⟨e00, e01, e10, e11, e20, e21, e30, e31, e40, e41, e50, e51, e60, e61, e70, e71, e80, e81, e90, e91, eo1, eob⟩ := idx_facts t
  show V c main_v184 (((cfg5.win 7).blk t).view.emb (ix2 j k)) = _
  congr 1; funext a; apply Fin.ext
  match a with
  | ⟨0, _⟩ => show win5_7.index t (0 : Fin 2) * 1 + 1 * j.val = j.val; omega
  | ⟨1, _⟩ => show win5_7.index t (1 : Fin 2) * 128 + 1 * k.val = k.val; omega

theorem blk8 (c : Dev nD) (t : Fin cfg5.N) (j : Fin 128) (k : Fin 1) :
    iblk5 V c 8 t (ix2 j k) = V c main_arg25 (ix2 j k) := by
  obtain ⟨e00, e01, e10, e11, e20, e21, e30, e31, e40, e41, e50, e51, e60, e61, e70, e71, e80, e81, e90, e91, eo1, eob⟩ := idx_facts t
  show V c main_arg25 (((cfg5.win 8).blk t).view.emb (ix2 j k)) = _
  congr 1; funext a; apply Fin.ext
  match a with
  | ⟨0, _⟩ => show win5_8.index t (0 : Fin 2) * 128 + 1 * j.val = j.val; omega
  | ⟨1, _⟩ => show win5_8.index t (1 : Fin 2) * 1 + 1 * k.val = k.val; omega

theorem blk9 (c : Dev nD) (t : Fin cfg5.N) (j : Fin 1) (k : Fin 1) :
    iblk5 V c 9 t (ix2 j k) = V c main_v185 (ix2 j k) := by
  obtain ⟨e00, e01, e10, e11, e20, e21, e30, e31, e40, e41, e50, e51, e60, e61, e70, e71, e80, e81, e90, e91, eo1, eob⟩ := idx_facts t
  show V c main_v185 (((cfg5.win 9).blk t).view.emb (ix2 j k)) = _
  congr 1; funext a; apply Fin.ext
  match a with
  | ⟨0, _⟩ => show win5_9.index t (0 : Fin 2) * 1 + 1 * j.val = j.val; omega
  | ⟨1, _⟩ => show win5_9.index t (1 : Fin 2) * 1 + 1 * k.val = k.val; omega

/-- The body's value at local row `p`, column `q` of point `t`'s blocks is the whole-array function at that global row. -/
theorem pay_eq (c : Dev nD) (t : Fin cfg5.N) (p : Fin 3000) (q : Fin 1) :
    k5_pay1 (F := Ideal) (k5_pay2 (F := Ideal) (iblk5 V c 0 t) (iblk5 V c 3 t) (iblk5 V c 1 t) (iblk5 V c 4 t) (iblk5 V c 5 t) (iblk5 V c 6 t) (iblk5 V c 7 t) (iblk5 V c 8 t)) (iblk5 V c 9 t) (iblk5 V c 2 t) (ix2 p q)
      = G V c (ix2 (grow t p) q) :=
  by
    obtain rfl : q = 0 := Subsingleton.elim _ _
    exact (Cert.KerRows.out_row (iblk5 V c 0 t) (iblk5 V c 3 t) (iblk5 V c 1 t) (iblk5 V c 4 t) (iblk5 V c 5 t) (iblk5 V c 6 t) (iblk5 V c 7 t) (iblk5 V c 8 t) (iblk5 V c 9 t) (iblk5 V c 2 t) p).trans
      (congrArg₂ (· * ·) (RowSpec.rowOut_congr (blk0 V c t p) (blk1 V c t p) (blk3 V c t) (blk4 V c t) (blk5 V c t 0) (blk6 V c t) (blk7 V c t 0)
        (fun k => blk8 V c t k 0) (blk9 V c t 0 0)) (blk2 V c t p 0))

set_option maxHeartbeats 2000000 in
/-- What point `t` writes back is block `t` of the whole-array function. -/
theorem flushed_eq (c : Dev nD) (t : Fin cfg5.N) :
    (dat5 V c).flushed 10 t = ((cfg5.win 10).blk t).view.read (Elt Ideal) (G V c) := by
  show (cfg5.win 10).cut (grid5.coords t) ((dat5 V c).after 10 t) = _
  rw [after5_10]
  unfold out5_10
  rw [View.canon_unit_zero hz]
  simp only [View.ld_unit_zero (S := S3000x256) hz, View.ld_unit_zero (S := S256x256) hz, View.ld_unit_zero (S := S1x256) hz, View.ld_unit_zero (S := S256x128) hz, View.ld_unit_zero (S := S1x128) hz, View.ld_unit_zero (S := S128x1) hz, View.ld_unit_zero (S := S1x1) hz, View.ld_unit_zero (S := S3000x1) hz]
  funext y
  obtain ⟨p, q, rfl⟩ : ∃ (p : Fin 3000) (q : Fin 1), y = ix2 p q := ⟨y 0, y 1, eq_ix2 y⟩
  rw [View.read_apply, emb_out t p q]
  exact pay_eq V c t p q

/-- An index of the array is in point `t`'s block iff its row is in the block's 3000 rows. -/
theorem mem_blk (t : Fin cfg5.N) (i : S300000x1.Idx) :
    i ∈ ((cfg5.win 10).blk t).view.set ↔ ∀ a : Fin 2, win5_10.index t a * S3000x1.size a ≤ (i a).val ∧ (i a).val < win5_10.index t a * S3000x1.size a + S3000x1.size a := by
  show i ∈ ((View.whole main_v186).slice (win5_10.rect t)).set ↔ _
  rw [View.set_slice_whole, Rect.mem_set_unit]
  exact Iff.rfl

/-- The 100 blocks tile the array. -/
theorem cover (i : S300000x1.Idx) : ∃ t : Fin cfg5.N, (cfg5.win 10).flush t = true ∧ i ∈ ((cfg5.win 10).blk t).view.set := by
  have hi0 : (i 0).val < 300000 := (i 0).isLt
  have hi1 : (i 1).val < 1 := (i 1).isLt
  obtain ⟨t, ht⟩ := idx_onto ⟨(i 0).val / 3000, by omega⟩
  have q0 : win5_10.index t (0 : Fin 2) = (i 0).val / 3000 := congrFun ht 0
  have q1 : win5_10.index t (1 : Fin 2) = 0 := congrFun ht 1
  refine ⟨t, flush5_10 t, ?_⟩
  rw [mem_blk]
  intro a
  match a with
  | ⟨0, _⟩ => show win5_10.index t (0 : Fin 2) * 3000 ≤ (i 0).val ∧ (i 0).val < win5_10.index t (0 : Fin 2) * 3000 + 3000; omega
  | ⟨1, _⟩ => show win5_10.index t (1 : Fin 2) * 1 ≤ (i 1).val ∧ (i 1).val < win5_10.index t (1 : Fin 2) * 1 + 1; omega

/-- The result array after the region: the whole-array function of the arrays the region found. -/
theorem final (c : Dev nD) : (dat5 V c).arrAt 10 cfg5.N = G V c :=
  (dat5 V c).arrAt_eq_of_cover 10 (G V c) (fun t _ => flushed_eq V c t) cover

end Cert.KernelIdeal.Score

end
-- ==== Proof.RefRows.lean ====
/-
  The reference network's dense stages, one row at a time.

  Each dense stage of the reference program (the edge feature fusion, the four graph-convolution updates, the output
  perceptron) is a chain of elementwise operations, broadcasts of bias rows, slices of the stacked weights and plain
  matrix products. Read at one entry (r, c) of its result, such a chain only ever touches row r of the activations: a
  matrix product's entry is a sum over the shared axis of row r of the left factor times column c of the weights, a
  bias broadcast reads the bias at c, a rectifier is the maximum with the zero constant. Unfolding the chain entry by
  entry therefore gives the row functions of `RowSpec` applied to row r of the stage's inputs. The gathers and the
  scatter-adds that feed the stages are left as opaque arrays here.
-/
import proofs.«143893_j1065151889700_2_alg».proof.Proof.RefReadP
import proofs.«143893_j1065151889700_2_alg».proof.Proof.RowSpec

noncomputable section

open scoped BigOperators

namespace Cert.RefRows

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S50000, .i32⟩ : BufTy).Contents (Elt Ideal)) (x1 : (⟨S300000, .i32⟩ : BufTy).Contents (Elt Ideal))
  (x2 : (⟨S2x300000, .i32⟩ : BufTy).Contents (Elt Ideal)) (x3 : (⟨S50000, .i32⟩ : BufTy).Contents (Elt Ideal))
  (x4 : (⟨S300000x1, .f32⟩ : BufTy).Contents (Elt Ideal)) (x5 : (⟨S1024, .f32⟩ : BufTy).Contents (Elt Ideal))
  (x6 x7 : (⟨S100x256, .f32⟩ : BufTy).Contents (Elt Ideal)) (x8 : (⟨S1x256, .f32⟩ : BufTy).Contents (Elt Ideal))
  (x9 : (⟨S256, .f32⟩ : BufTy).Contents (Elt Ideal)) (x10 : (⟨S256x256, .f32⟩ : BufTy).Contents (Elt Ideal))
  (x11 : (⟨S256, .f32⟩ : BufTy).Contents (Elt Ideal)) (x12 : (⟨S128, .f32⟩ : BufTy).Contents (Elt Ideal))
  (x13 : (⟨S256x256, .f32⟩ : BufTy).Contents (Elt Ideal)) (x14 : (⟨S256, .f32⟩ : BufTy).Contents (Elt Ideal))
  (x15 : (⟨S256x1, .f32⟩ : BufTy).Contents (Elt Ideal)) (x16 : (⟨S1, .f32⟩ : BufTy).Contents (Elt Ideal))
  (x17 : (⟨S4x256x256, .f32⟩ : BufTy).Contents (Elt Ideal)) (x18 : (⟨S4x256, .f32⟩ : BufTy).Contents (Elt Ideal))
  (x19 : (⟨S4x256x256, .f32⟩ : BufTy).Contents (Elt Ideal)) (x20 : (⟨S4x256, .f32⟩ : BufTy).Contents (Elt Ideal))
  (x21 : (⟨S512x256, .f32⟩ : BufTy).Contents (Elt Ideal)) (x22 : (⟨S256, .f32⟩ : BufTy).Contents (Elt Ideal))
  (x23 : (⟨S256x128, .f32⟩ : BufTy).Contents (Elt Ideal)) (x24 : (⟨S128, .f32⟩ : BufTy).Contents (Elt Ideal))
  (x25 : (⟨S128x1, .f32⟩ : BufTy).Contents (Elt Ideal)) (x26 : (⟨S1, .f32⟩ : BufTy).Contents (Elt Ideal))

/-! ## Layer 1 -/

/-- The first layer's first weight matrix is slice 0 of the stacked first weights. -/
theorem w1_layer1 (j k : Fin 256) : val_main_v76 (F := Ideal) x17 (ix2 j k) = x17 (ix3 0 j k) := by
  rw [val_main_v76_apply, val_main_v75_apply]
  congr 1
  funext a
  match a with
  | ⟨0, _⟩ => rfl
  | ⟨1, _⟩ => exact Fin.ext (by show (j.val * 256 + k.val) / 256 % 256 = j.val; omega)
  | ⟨2, _⟩ => exact Fin.ext (by show (j.val * 256 + k.val) % 256 = k.val; omega)

/-- The first layer's second weight matrix is slice 0 of the stacked second weights. -/
theorem w2_layer1 (j k : Fin 256) : val_main_v78 (F := Ideal) x19 (ix2 j k) = x19 (ix3 0 j k) := by
  rw [val_main_v78_apply, val_main_v77_apply]
  congr 1
  funext a
  match a with
  | ⟨0, _⟩ => rfl
  | ⟨1, _⟩ => exact Fin.ext (by show (j.val * 256 + k.val) / 256 % 256 = j.val; omega)
  | ⟨2, _⟩ => exact Fin.ext (by show (j.val * 256 + k.val) % 256 = k.val; omega)

/-- The first layer's first bias, broadcast along the rows, is row 0 of the stacked first biases. -/
theorem b1_layer1 (r : Fin 50000) (k : Fin 256) : val_main_v85 (F := Ideal) x18 (ix2 r k) = x18 (ix2 0 k) := by
  rw [val_main_v85_apply, val_main_v84_apply, val_main_v80_apply, val_main_v79_apply]
  congr 1
  funext a
  match a with
  | ⟨0, _⟩ => rfl
  | ⟨1, _⟩ => exact Fin.ext (by show k.val % 256 = k.val; omega)

/-- The first layer's second bias, broadcast along the rows, is row 0 of the stacked second biases. -/
theorem b2_layer1 (r : Fin 50000) (k : Fin 256) : val_main_v90 (F := Ideal) x20 (ix2 r k) = x20 (ix2 0 k) := by
  rw [val_main_v90_apply, val_main_v89_apply, val_main_v82_apply, val_main_v81_apply]
  congr 1
  funext a
  match a with
  | ⟨0, _⟩ => rfl
  | ⟨1, _⟩ => exact Fin.ext (by show k.val % 256 = k.val; omega)

/-- The zero the first layer's first rectifier compares with. -/
theorem zero_call2 (i : S50000x256.Idx) : val_main_call2_v0 (F := Ideal) i = 0 := by
  rw [val_main_call2_v0_apply, val_main_call2_cst_apply]
  exact Ideal.ofBits_zero_f32

/-- The zero the first layer's second rectifier compares with. -/
theorem zero_call3 (i : S50000x256.Idx) : val_main_call3_v0 (F := Ideal) i = 0 := by
  rw [val_main_call3_v0_apply, val_main_call3_cst_apply]
  exact Ideal.ofBits_zero_f32

/-- Entry (r, k) of the first layer's hidden activation: the rectified first perceptron layer of row r of
    (state + aggregated messages). -/
theorem hid_layer1 (r : Fin 50000) (k : Fin 256) :
    val_main_v87 (F := Ideal) x0 x1 x2 x3 x4 x5 x6 x7 x8 x9 x10 x11 x12 x13 x14 x15 x16 x17 x18 (ix2 r k) =
      RowSpec.relu ((∑ j : Fin 256, (val_main_v35 (F := Ideal) x0 x6 (ix2 r j) + val_main_v73 (F := Ideal) x0 x1 x2 x3 x4 x5 x6 x7 x8 x9 x10 x11 x12 x13 x14 x15 x16 (ix2 r j)) * x17 (ix3 0 j k)) + x18 (ix2 0 k)) := by
  rw [val_main_v87_apply, val_main_v86_apply, val_main_v83_apply, zero_call2, b1_layer1]
  have hs : (∑ j : Fin 256, val_main_v74 (F := Ideal) x0 x1 x2 x3 x4 x5 x6 x7 x8 x9 x10 x11 x12 x13 x14 x15 x16 (lidx_main_v83 (ix2 r k) j) * val_main_v76 (F := Ideal) x17 (ridx_main_v83 (ix2 r k) j)) =
      ∑ j : Fin 256, (val_main_v35 (F := Ideal) x0 x6 (ix2 r j) + val_main_v73 (F := Ideal) x0 x1 x2 x3 x4 x5 x6 x7 x8 x9 x10 x11 x12 x13 x14 x15 x16 (ix2 r j)) * x17 (ix3 0 j k) := by
    refine Finset.sum_congr rfl fun j _ => ?_
    have el : lidx_main_v83 (ix2 r k) j = ix2 r j := by
      funext a; match a with | ⟨0, _⟩ => rfl | ⟨1, _⟩ => rfl
    have er : ridx_main_v83 (ix2 r k) j = ix2 j k := by
      funext a; match a with | ⟨0, _⟩ => rfl | ⟨1, _⟩ => rfl
    rw [el, er, w1_layer1]
    rfl
  rw [hs]
  rfl

/-- THE FIRST LAYER, one entry: row r of the new state is the row update of row r of the old state and of the
    aggregated messages. -/
theorem layer1 (r : Fin 50000) (c : Fin 256) :
    val_main_v93 (F := Ideal) x0 x1 x2 x3 x4 x5 x6 x7 x8 x9 x10 x11 x12 x13 x14 x15 x16 x17 x18 x19 x20 (ix2 r c) =
      RowSpec.rowLayer true (fun j => val_main_v35 (F := Ideal) x0 x6 (ix2 r j)) (fun j => val_main_v73 (F := Ideal) x0 x1 x2 x3 x4 x5 x6 x7 x8 x9 x10 x11 x12 x13 x14 x15 x16 (ix2 r j))
        (fun j k => x17 (ix3 0 j k)) (fun k => x18 (ix2 0 k)) (fun k c' => x19 (ix3 0 k c')) (fun c' => x20 (ix2 0 c')) c := by
  rw [val_main_v93_apply, val_main_v92_apply, val_main_v91_apply, val_main_v88_apply, zero_call3, b2_layer1]
  have hs : (∑ k : Fin 256, val_main_v87 (F := Ideal) x0 x1 x2 x3 x4 x5 x6 x7 x8 x9 x10 x11 x12 x13 x14 x15 x16 x17 x18 (lidx_main_v88 (ix2 r c) k) * val_main_v78 (F := Ideal) x19 (ridx_main_v88 (ix2 r c) k)) =
      ∑ k : Fin 256, RowSpec.relu ((∑ j : Fin 256, (val_main_v35 (F := Ideal) x0 x6 (ix2 r j) + val_main_v73 (F := Ideal) x0 x1 x2 x3 x4 x5 x6 x7 x8 x9 x10 x11 x12 x13 x14 x15 x16 (ix2 r j)) * x17 (ix3 0 j k)) + x18 (ix2 0 k)) * x19 (ix3 0 k c) := by
    refine Finset.sum_congr rfl fun k _ => ?_
    have el : lidx_main_v88 (ix2 r c) k = ix2 r k := by
      funext a; match a with | ⟨0, _⟩ => rfl | ⟨1, _⟩ => rfl
    have er : ridx_main_v88 (ix2 r c) k = ix2 k c := by
      funext a; match a with | ⟨0, _⟩ => rfl | ⟨1, _⟩ => rfl
    rw [el, er, w2_layer1, hid_layer1]
  rw [hs]
  rfl

/-! ## Layer 2 -/

/-- The second layer's first weight matrix is slice 1 of the stacked first weights. -/
theorem w1_layer2 (j k : Fin 256) : val_main_v108 (F := Ideal) x17 (ix2 j k) = x17 (ix3 1 j k) := by
  rw [val_main_v108_apply, val_main_v107_apply]
  congr 1
  funext a
  match a with
  | ⟨0, _⟩ => rfl
  | ⟨1, _⟩ => exact Fin.ext (by show (j.val * 256 + k.val) / 256 % 256 = j.val; omega)
  | ⟨2, _⟩ => exact Fin.ext (by show (j.val * 256 + k.val) % 256 = k.val; omega)

/-- The second layer's second weight matrix is slice 1 of the stacked second weights. -/
theorem w2_layer2 (j k : Fin 256) : val_main_v110 (F := Ideal) x19 (ix2 j k) = x19 (ix3 1 j k) := by
  rw [val_main_v110_apply, val_main_v109_apply]
  congr 1
  funext a
  match a with
  | ⟨0, _⟩ => rfl
  | ⟨1, _⟩ => exact Fin.ext (by show (j.val * 256 + k.val) / 256 % 256 = j.val; omega)
  | ⟨2, _⟩ => exact Fin.ext (by show (j.val * 256 + k.val) % 256 = k.val; omega)

/-- The second layer's first bias, broadcast along the rows, is row 1 of the stacked first biases. -/
theorem b1_layer2 (r : Fin 50000) (k : Fin 256) : val_main_v117 (F := Ideal) x18 (ix2 r k) = x18 (ix2 1 k) := by
  rw [val_main_v117_apply, val_main_v116_apply, val_main_v112_apply, val_main_v111_apply]
  congr 1
  funext a
  match a with
  | ⟨0, _⟩ => rfl
  | ⟨1, _⟩ => exact Fin.ext (by show k.val % 256 = k.val; omega)

/-- The second layer's second bias, broadcast along the rows, is row 1 of the stacked second biases. -/
theorem b2_layer2 (r : Fin 50000) (k : Fin 256) : val_main_v122 (F := Ideal) x20 (ix2 r k) = x20 (ix2 1 k) := by
  rw [val_main_v122_apply, val_main_v121_apply, val_main_v114_apply, val_main_v113_apply]
  congr 1
  funext a
  match a with
  | ⟨0, _⟩ => rfl
  | ⟨1, _⟩ => exact Fin.ext (by show k.val % 256 = k.val; omega)

/-- The zero the second layer's first rectifier compares with. -/
theorem zero_call5 (i : S50000x256.Idx) : val_main_call5_v0 (F := Ideal) i = 0 := by
  rw [val_main_call5_v0_apply, val_main_call5_cst_apply]
  exact Ideal.ofBits_zero_f32

/-- The zero the second layer's second rectifier compares with. -/
theorem zero_call6 (i : S50000x256.Idx) : val_main_call6_v0 (F := Ideal) i = 0 := by
  rw [val_main_call6_v0_apply, val_main_call6_cst_apply]
  exact Ideal.ofBits_zero_f32

/-- Entry (r, k) of the second layer's hidden activation: the rectified first perceptron layer of row r of
    (state + aggregated messages). -/
theorem hid_layer2 (r : Fin 50000) (k : Fin 256) :
    val_main_v119 (F := Ideal) x0 x1 x2 x3 x4 x5 x6 x7 x8 x9 x10 x11 x12 x13 x14 x15 x16 x17 x18 x19 x20 (ix2 r k) =
      RowSpec.relu ((∑ j : Fin 256, (val_main_v93 (F := Ideal) x0 x1 x2 x3 x4 x5 x6 x7 x8 x9 x10 x11 x12 x13 x14 x15 x16 x17 x18 x19 x20 (ix2 r j) + val_main_v105 (F := Ideal) x0 x1 x2 x3 x4 x5 x6 x7 x8 x9 x10 x11 x12 x13 x14 x15 x16 x17 x18 x19 x20 (ix2 r j)) * x17 (ix3 1 j k)) + x18 (ix2 1 k)) := by
  rw [val_main_v119_apply, val_main_v118_apply, val_main_v115_apply, zero_call5, b1_layer2]
  have hs : (∑ j : Fin 256, val_main_v106 (F := Ideal) x0 x1 x2 x3 x4 x5 x6 x7 x8 x9 x10 x11 x12 x13 x14 x15 x16 x17 x18 x19 x20 (lidx_main_v115 (ix2 r k) j) * val_main_v108 (F := Ideal) x17 (ridx_main_v115 (ix2 r k) j)) =
      ∑ j : Fin 256, (val_main_v93 (F := Ideal) x0 x1 x2 x3 x4 x5 x6 x7 x8 x9 x10 x11 x12 x13 x14 x15 x16 x17 x18 x19 x20 (ix2 r j) + val_main_v105 (F := Ideal) x0 x1 x2 x3 x4 x5 x6 x7 x8 x9 x10 x11 x12 x13 x14 x15 x16 x17 x18 x19 x20 (ix2 r j)) * x17 (ix3 1 j k) := by
    refine Finset.sum_congr rfl fun j _ => ?_
    have el : lidx_main_v115 (ix2 r k) j = ix2 r j := by
      funext a; match a with | ⟨0, _⟩ => rfl | ⟨1, _⟩ => rfl
    have er : ridx_main_v115 (ix2 r k) j = ix2 j k := by
      funext a; match a with | ⟨0, _⟩ => rfl | ⟨1, _⟩ => rfl
    rw [el, er, w1_layer2]
    rfl
  rw [hs]
  rfl

/-- THE SECOND LAYER, one entry: row r of the new state is the row update of row r of the old state and of the
    aggregated messages. -/
theorem layer2 (r : Fin 50000) (c : Fin 256) :
    val_main_v125 (F := Ideal) x0 x1 x2 x3 x4 x5 x6 x7 x8 x9 x10 x11 x12 x13 x14 x15 x16 x17 x18 x19 x20 (ix2 r c) =
      RowSpec.rowLayer true (fun j => val_main_v93 (F := Ideal) x0 x1 x2 x3 x4 x5 x6 x7 x8 x9 x10 x11 x12 x13 x14 x15 x16 x17 x18 x19 x20 (ix2 r j)) (fun j => val_main_v105 (F := Ideal) x0 x1 x2 x3 x4 x5 x6 x7 x8 x9 x10 x11 x12 x13 x14 x15 x16 x17 x18 x19 x20 (ix2 r j))
        (fun j k => x17 (ix3 1 j k)) (fun k => x18 (ix2 1 k)) (fun k c' => x19 (ix3 1 k c')) (fun c' => x20 (ix2 1 c')) c := by
  rw [val_main_v125_apply, val_main_v124_apply, val_main_v123_apply, val_main_v120_apply, zero_call6, b2_layer2]
  have hs : (∑ k : Fin 256, val_main_v119 (F := Ideal) x0 x1 x2 x3 x4 x5 x6 x7 x8 x9 x10 x11 x12 x13 x14 x15 x16 x17 x18 x19 x20 (lidx_main_v120 (ix2 r c) k) * val_main_v110 (F := Ideal) x19 (ridx_main_v120 (ix2 r c) k)) =
      ∑ k : Fin 256, RowSpec.relu ((∑ j : Fin 256, (val_main_v93 (F := Ideal) x0 x1 x2 x3 x4 x5 x6 x7 x8 x9 x10 x11 x12 x13 x14 x15 x16 x17 x18 x19 x20 (ix2 r j) + val_main_v105 (F := Ideal) x0 x1 x2 x3 x4 x5 x6 x7 x8 x9 x10 x11 x12 x13 x14 x15 x16 x17 x18 x19 x20 (ix2 r j)) * x17 (ix3 1 j k)) + x18 (ix2 1 k)) * x19 (ix3 1 k c) := by
    refine Finset.sum_congr rfl fun k _ => ?_
    have el : lidx_main_v120 (ix2 r c) k = ix2 r k := by
      funext a; match a with | ⟨0, _⟩ => rfl | ⟨1, _⟩ => rfl
    have er : ridx_main_v120 (ix2 r c) k = ix2 k c := by
      funext a; match a with | ⟨0, _⟩ => rfl | ⟨1, _⟩ => rfl
    rw [el, er, w2_layer2, hid_layer2]
  rw [hs]
  rfl

/-! ## Layer 3 -/

/-- The third layer's first weight matrix is slice 2 of the stacked first weights. -/
theorem w1_layer3 (j k : Fin 256) : val_main_v140 (F := Ideal) x17 (ix2 j k) = x17 (ix3 2 j k) := by
  rw [val_main_v140_apply, val_main_v139_apply]
  congr 1
  funext a
  match a with
  | ⟨0, _⟩ => rfl
  | ⟨1, _⟩ => exact Fin.ext (by show (j.val * 256 + k.val) / 256 % 256 = j.val; omega)
  | ⟨2, _⟩ => exact Fin.ext (by show (j.val * 256 + k.val) % 256 = k.val; omega)

/-- The third layer's second weight matrix is slice 2 of the stacked second weights. -/
theorem w2_layer3 (j k : Fin 256) : val_main_v142 (F := Ideal) x19 (ix2 j k) = x19 (ix3 2 j k) := by
  rw [val_main_v142_apply, val_main_v141_apply]
  congr 1
  funext a
  match a with
  | ⟨0, _⟩ => rfl
  | ⟨1, _⟩ => exact Fin.ext (by show (j.val * 256 + k.val) / 256 % 256 = j.val; omega)
  | ⟨2, _⟩ => exact Fin.ext (by show (j.val * 256 + k.val) % 256 = k.val; omega)

/-- The third layer's first bias, broadcast along the rows, is row 2 of the stacked first biases. -/
theorem b1_layer3 (r : Fin 50000) (k : Fin 256) : val_main_v149 (F := Ideal) x18 (ix2 r k) = x18 (ix2 2 k) := by
  rw [val_main_v149_apply, val_main_v148_apply, val_main_v144_apply, val_main_v143_apply]
  congr 1
  funext a
  match a with
  | ⟨0, _⟩ => rfl
  | ⟨1, _⟩ => exact Fin.ext (by show k.val % 256 = k.val; omega)

/-- The third layer's second bias, broadcast along the rows, is row 2 of the stacked second biases. -/
theorem b2_layer3 (r : Fin 50000) (k : Fin 256) : val_main_v154 (F := Ideal) x20 (ix2 r k) = x20 (ix2 2 k) := by
  rw [val_main_v154_apply, val_main_v153_apply, val_main_v146_apply, val_main_v145_apply]
  congr 1
  funext a
  match a with
  | ⟨0, _⟩ => rfl
  | ⟨1, _⟩ => exact Fin.ext (by show k.val % 256 = k.val; omega)

/-- The zero the third layer's first rectifier compares with. -/
theorem zero_call8 (i : S50000x256.Idx) : val_main_call8_v0 (F := Ideal) i = 0 := by
  rw [val_main_call8_v0_apply, val_main_call8_cst_apply]
  exact Ideal.ofBits_zero_f32

/-- The zero the third layer's second rectifier compares with. -/
theorem zero_call9 (i : S50000x256.Idx) : val_main_call9_v0 (F := Ideal) i = 0 := by
  rw [val_main_call9_v0_apply, val_main_call9_cst_apply]
  exact Ideal.ofBits_zero_f32

/-- Entry (r, k) of the third layer's hidden activation: the rectified first perceptron layer of row r of
    (state + aggregated messages). -/
theorem hid_layer3 (r : Fin 50000) (k : Fin 256) :
    val_main_v151 (F := Ideal) x0 x1 x2 x3 x4 x5 x6 x7 x8 x9 x10 x11 x12 x13 x14 x15 x16 x17 x18 x19 x20 (ix2 r k) =
      RowSpec.relu ((∑ j : Fin 256, (val_main_v125 (F := Ideal) x0 x1 x2 x3 x4 x5 x6 x7 x8 x9 x10 x11 x12 x13 x14 x15 x16 x17 x18 x19 x20 (ix2 r j) + val_main_v137 (F := Ideal) x0 x1 x2 x3 x4 x5 x6 x7 x8 x9 x10 x11 x12 x13 x14 x15 x16 x17 x18 x19 x20 (ix2 r j)) * x17 (ix3 2 j k)) + x18 (ix2 2 k)) := by
  rw [val_main_v151_apply, val_main_v150_apply, val_main_v147_apply, zero_call8, b1_layer3]
  have hs : (∑ j : Fin 256, val_main_v138 (F := Ideal) x0 x1 x2 x3 x4 x5 x6 x7 x8 x9 x10 x11 x12 x13 x14 x15 x16 x17 x18 x19 x20 (lidx_main_v147 (ix2 r k) j) * val_main_v140 (F := Ideal) x17 (ridx_main_v147 (ix2 r k) j)) =
      ∑ j : Fin 256, (val_main_v125 (F := Ideal) x0 x1 x2 x3 x4 x5 x6 x7 x8 x9 x10 x11 x12 x13 x14 x15 x16 x17 x18 x19 x20 (ix2 r j) + val_main_v137 (F := Ideal) x0 x1 x2 x3 x4 x5 x6 x7 x8 x9 x10 x11 x12 x13 x14 x15 x16 x17 x18 x19 x20 (ix2 r j)) * x17 (ix3 2 j k) := by
    refine Finset.sum_congr rfl fun j _ => ?_
    have el : lidx_main_v147 (ix2 r k) j = ix2 r j := by
      funext a; match a with | ⟨0, _⟩ => rfl | ⟨1, _⟩ => rfl
    have er : ridx_main_v147 (ix2 r k) j = ix2 j k := by
      funext a; match a with | ⟨0, _⟩ => rfl | ⟨1, _⟩ => rfl
    rw [el, er, w1_layer3]
    rfl
  rw [hs]
  rfl

/-- THE THIRD LAYER, one entry: row r of the new state is the row update of row r of the old state and of the
    aggregated messages. -/
theorem layer3 (r : Fin 50000) (c : Fin 256) :
    val_main_v157 (F := Ideal) x0 x1 x2 x3 x4 x5 x6 x7 x8 x9 x10 x11 x12 x13 x14 x15 x16 x17 x18 x19 x20 (ix2 r c) =
      RowSpec.rowLayer true (fun j => val_main_v125 (F := Ideal) x0 x1 x2 x3 x4 x5 x6 x7 x8 x9 x10 x11 x12 x13 x14 x15 x16 x17 x18 x19 x20 (ix2 r j)) (fun j => val_main_v137 (F := Ideal) x0 x1 x2 x3 x4 x5 x6 x7 x8 x9 x10 x11 x12 x13 x14 x15 x16 x17 x18 x19 x20 (ix2 r j))
        (fun j k => x17 (ix3 2 j k)) (fun k => x18 (ix2 2 k)) (fun k c' => x19 (ix3 2 k c')) (fun c' => x20 (ix2 2 c')) c := by
  rw [val_main_v157_apply, val_main_v156_apply, val_main_v155_apply, val_main_v152_apply, zero_call9, b2_layer3]
  have hs : (∑ k : Fin 256, val_main_v151 (F := Ideal) x0 x1 x2 x3 x4 x5 x6 x7 x8 x9 x10 x11 x12 x13 x14 x15 x16 x17 x18 x19 x20 (lidx_main_v152 (ix2 r c) k) * val_main_v142 (F := Ideal) x19 (ridx_main_v152 (ix2 r c) k)) =
      ∑ k : Fin 256, RowSpec.relu ((∑ j : Fin 256, (val_main_v125 (F := Ideal) x0 x1 x2 x3 x4 x5 x6 x7 x8 x9 x10 x11 x12 x13 x14 x15 x16 x17 x18 x19 x20 (ix2 r j) + val_main_v137 (F := Ideal) x0 x1 x2 x3 x4 x5 x6 x7 x8 x9 x10 x11 x12 x13 x14 x15 x16 x17 x18 x19 x20 (ix2 r j)) * x17 (ix3 2 j k)) + x18 (ix2 2 k)) * x19 (ix3 2 k c) := by
    refine Finset.sum_congr rfl fun k _ => ?_
    have el : lidx_main_v152 (ix2 r c) k = ix2 r k := by
      funext a; match a with | ⟨0, _⟩ => rfl | ⟨1, _⟩ => rfl
    have er : ridx_main_v152 (ix2 r c) k = ix2 k c := by
      funext a; match a with | ⟨0, _⟩ => rfl | ⟨1, _⟩ => rfl
    rw [el, er, w2_layer3, hid_layer3]
  rw [hs]
  rfl

/-! ## Layer 4 -/

/-- The fourth layer's first weight matrix is slice 3 of the stacked first weights. -/
theorem w1_layer4 (j k : Fin 256) : val_main_v172 (F := Ideal) x17 (ix2 j k) = x17 (ix3 3 j k) := by
  rw [val_main_v172_apply, val_main_v171_apply]
  congr 1
  funext a
  match a with
  | ⟨0, _⟩ => rfl
  | ⟨1, _⟩ => exact Fin.ext (by show (j.val * 256 + k.val) / 256 % 256 = j.val; omega)
  | ⟨2, _⟩ => exact Fin.ext (by show (j.val * 256 + k.val) % 256 = k.val; omega)

/-- The fourth layer's second weight matrix is slice 3 of the stacked second weights. -/
theorem w2_layer4 (j k : Fin 256) : val_main_v174 (F := Ideal) x19 (ix2 j k) = x19 (ix3 3 j k) := by
  rw [val_main_v174_apply, val_main_v173_apply]
  congr 1
  funext a
  match a with
  | ⟨0, _⟩ => rfl
  | ⟨1, _⟩ => exact Fin.ext (by show (j.val * 256 + k.val) / 256 % 256 = j.val; omega)
  | ⟨2, _⟩ => exact Fin.ext (by show (j.val * 256 + k.val) % 256 = k.val; omega)

/-- The fourth layer's first bias, broadcast along the rows, is row 3 of the stacked first biases. -/
theorem b1_layer4 (r : Fin 50000) (k : Fin 256) : val_main_v181 (F := Ideal) x18 (ix2 r k) = x18 (ix2 3 k) := by
  rw [val_main_v181_apply, val_main_v180_apply, val_main_v176_apply, val_main_v175_apply]
  congr 1
  funext a
  match a with
  | ⟨0, _⟩ => rfl
  | ⟨1, _⟩ => exact Fin.ext (by show k.val % 256 = k.val; omega)

/-- The fourth layer's second bias, broadcast along the rows, is row 3 of the stacked second biases. -/
theorem b2_layer4 (r : Fin 50000) (k : Fin 256) : val_main_v186 (F := Ideal) x20 (ix2 r k) = x20 (ix2 3 k) := by
  rw [val_main_v186_apply, val_main_v185_apply, val_main_v178_apply, val_main_v177_apply]
  congr 1
  funext a
  match a with
  | ⟨0, _⟩ => rfl
  | ⟨1, _⟩ => exact Fin.ext (by show k.val % 256 = k.val; omega)

/-- The zero the fourth layer's first rectifier compares with. -/
theorem zero_call11 (i : S50000x256.Idx) : val_main_call11_v0 (F := Ideal) i = 0 := by
  rw [val_main_call11_v0_apply, val_main_call11_cst_apply]
  exact Ideal.ofBits_zero_f32

/-- Entry (r, k) of the fourth layer's hidden activation: the rectified first perceptron layer of row r of
    (state + aggregated messages). -/
theorem hid_layer4 (r : Fin 50000) (k : Fin 256) :
    val_main_v183 (F := Ideal) x0 x1 x2 x3 x4 x5 x6 x7 x8 x9 x10 x11 x12 x13 x14 x15 x16 x17 x18 x19 x20 (ix2 r k) =
      RowSpec.relu ((∑ j : Fin 256, (val_main_v157 (F := Ideal) x0 x1 x2 x3 x4 x5 x6 x7 x8 x9 x10 x11 x12 x13 x14 x15 x16 x17 x18 x19 x20 (ix2 r j) + val_main_v169 (F := Ideal) x0 x1 x2 x3 x4 x5 x6 x7 x8 x9 x10 x11 x12 x13 x14 x15 x16 x17 x18 x19 x20 (ix2 r j)) * x17 (ix3 3 j k)) + x18 (ix2 3 k)) := by
  rw [val_main_v183_apply, val_main_v182_apply, val_main_v179_apply, zero_call11, b1_layer4]
  have hs : (∑ j : Fin 256, val_main_v170 (F := Ideal) x0 x1 x2 x3 x4 x5 x6 x7 x8 x9 x10 x11 x12 x13 x14 x15 x16 x17 x18 x19 x20 (lidx_main_v179 (ix2 r k) j) * val_main_v172 (F := Ideal) x17 (ridx_main_v179 (ix2 r k) j)) =
      ∑ j : Fin 256, (val_main_v157 (F := Ideal) x0 x1 x2 x3 x4 x5 x6 x7 x8 x9 x10 x11 x12 x13 x14 x15 x16 x17 x18 x19 x20 (ix2 r j) + val_main_v169 (F := Ideal) x0 x1 x2 x3 x4 x5 x6 x7 x8 x9 x10 x11 x12 x13 x14 x15 x16 x17 x18 x19 x20 (ix2 r j)) * x17 (ix3 3 j k) := by
    refine Finset.sum_congr rfl fun j _ => ?_
    have el : lidx_main_v179 (ix2 r k) j = ix2 r j := by
      funext a; match a with | ⟨0, _⟩ => rfl | ⟨1, _⟩ => rfl
    have er : ridx_main_v179 (ix2 r k) j = ix2 j k := by
      funext a; match a with | ⟨0, _⟩ => rfl | ⟨1, _⟩ => rfl
    rw [el, er, w1_layer4]
    rfl
  rw [hs]
  rfl

/-- THE FOURTH LAYER, one entry: row r of the new state is the row update of row r of the old state and of the
    aggregated messages. -/
theorem layer4 (r : Fin 50000) (c : Fin 256) :
    val_main_v188 (F := Ideal) x0 x1 x2 x3 x4 x5 x6 x7 x8 x9 x10 x11 x12 x13 x14 x15 x16 x17 x18 x19 x20 (ix2 r c) =
      RowSpec.rowLayer false (fun j => val_main_v157 (F := Ideal) x0 x1 x2 x3 x4 x5 x6 x7 x8 x9 x10 x11 x12 x13 x14 x15 x16 x17 x18 x19 x20 (ix2 r j)) (fun j => val_main_v169 (F := Ideal) x0 x1 x2 x3 x4 x5 x6 x7 x8 x9 x10 x11 x12 x13 x14 x15 x16 x17 x18 x19 x20 (ix2 r j))
        (fun j k => x17 (ix3 3 j k)) (fun k => x18 (ix2 3 k)) (fun k c' => x19 (ix3 3 k c')) (fun c' => x20 (ix2 3 c')) c := by
  rw [val_main_v188_apply, val_main_v187_apply, val_main_v184_apply, b2_layer4]
  have hs : (∑ k : Fin 256, val_main_v183 (F := Ideal) x0 x1 x2 x3 x4 x5 x6 x7 x8 x9 x10 x11 x12 x13 x14 x15 x16 x17 x18 x19 x20 (lidx_main_v184 (ix2 r c) k) * val_main_v174 (F := Ideal) x19 (ridx_main_v184 (ix2 r c) k)) =
      ∑ k : Fin 256, RowSpec.relu ((∑ j : Fin 256, (val_main_v157 (F := Ideal) x0 x1 x2 x3 x4 x5 x6 x7 x8 x9 x10 x11 x12 x13 x14 x15 x16 x17 x18 x19 x20 (ix2 r j) + val_main_v169 (F := Ideal) x0 x1 x2 x3 x4 x5 x6 x7 x8 x9 x10 x11 x12 x13 x14 x15 x16 x17 x18 x19 x20 (ix2 r j)) * x17 (ix3 3 j k)) + x18 (ix2 3 k)) * x19 (ix3 3 k c) := by
    refine Finset.sum_congr rfl fun k _ => ?_
    have el : lidx_main_v184 (ix2 r c) k = ix2 r k := by
      funext a; match a with | ⟨0, _⟩ => rfl | ⟨1, _⟩ => rfl
    have er : ridx_main_v184 (ix2 r c) k = ix2 k c := by
      funext a; match a with | ⟨0, _⟩ => rfl | ⟨1, _⟩ => rfl
    rw [el, er, w2_layer4, hid_layer4]
  rw [hs]
  rfl

/-! ## The edge feature fusion -/

/-- The zero the edge perceptron's rectifier compares with. -/
theorem zero_call0 (i : S300000x256.Idx) : val_main_call0_v0 (F := Ideal) i = 0 := by
  rw [val_main_call0_v0_apply, val_main_call0_cst_apply]
  exact Ideal.ofBits_zero_f32

/-- Entry (r, k) of the edge perceptron's hidden activation. Its first layer has a single input, the edge length, so
    the product over the one shared coordinate is the edge length times entry k of the one weight row. -/
theorem hid_edge (r : Fin 300000) (k : Fin 256) :
    val_main_v47 (F := Ideal) x4 x8 x9 (ix2 r k) = RowSpec.relu (x4 (ix2 r 0) * x8 (ix2 0 k) + x9 (ix1 k)) := by
  rw [val_main_v47_apply, val_main_v46_apply, val_main_v43_apply, zero_call0, val_main_v45_apply, val_main_v44_apply,
    Fin.sum_univ_one]
  have el : lidx_main_v43 (ix2 r k) 0 = ix2 r 0 := by
    funext a; match a with | ⟨0, _⟩ => rfl | ⟨1, _⟩ => rfl
  have er : ridx_main_v43 (ix2 r k) 0 = ix2 0 k := by
    funext a; match a with | ⟨0, _⟩ => rfl | ⟨1, _⟩ => rfl
  have eb : idx_main_v44 (idx_main_v45 (ix2 r k)) = ix1 k := by
    funext a; match a with | ⟨0, _⟩ => rfl
  rw [el, er, eb]
  rfl

/-- THE EDGE FEATURE FUSION, one entry: row r of the fused feature is the row function of edge r's length, time
    embedding and bond embedding row. -/
theorem edge (r : Fin 300000) (c : Fin 256) :
    val_main_v61 (F := Ideal) x1 x2 x3 x4 x5 x7 x8 x9 x10 x11 x12 x13 x14 x15 x16 (ix2 r c) =
      RowSpec.rowEdge (x4 (ix2 r 0)) (val_main_v58 (F := Ideal) x2 x3 x5 x12 x13 x14 x15 x16 (ix2 r 0)) (fun k => x8 (ix2 0 k)) (fun k => x9 (ix1 k))
        (fun k c' => x10 (ix2 k c')) (fun c' => x11 (ix1 c')) (fun c' => val_main_v42 (F := Ideal) x1 x7 (ix2 r c')) c := by
  rw [val_main_v61_apply, val_main_v60_apply, val_main_v51_apply, val_main_v48_apply, val_main_v50_apply, val_main_v49_apply,
    val_main_v59_apply]
  have hs : (∑ k : Fin 256, val_main_v47 (F := Ideal) x4 x8 x9 (lidx_main_v48 (ix2 r c) k) * x10 (ridx_main_v48 (ix2 r c) k)) =
      ∑ k : Fin 256, RowSpec.relu (x4 (ix2 r 0) * x8 (ix2 0 k) + x9 (ix1 k)) * x10 (ix2 k c) := by
    refine Finset.sum_congr rfl fun k _ => ?_
    have el : lidx_main_v48 (ix2 r c) k = ix2 r k := by
      funext a; match a with | ⟨0, _⟩ => rfl | ⟨1, _⟩ => rfl
    have er : ridx_main_v48 (ix2 r c) k = ix2 k c := by
      funext a; match a with | ⟨0, _⟩ => rfl | ⟨1, _⟩ => rfl
    rw [el, er, hid_edge]
  have eb : idx_main_v49 (idx_main_v50 (ix2 r c)) = ix1 c := by
    funext a; match a with | ⟨0, _⟩ => rfl
  have et : idx_main_v59 (ix2 r c) = ix2 r 0 := by
    funext a; match a with | ⟨0, _⟩ => rfl | ⟨1, _⟩ => rfl
  rw [hs, eb, et]
  rfl

/-! ## The output perceptron -/

/-- The zero the output perceptron's first rectifier compares with. -/
theorem zero_call12 (i : S300000x256.Idx) : val_main_call12_v0 (F := Ideal) i = 0 := by
  rw [val_main_call12_v0_apply, val_main_call12_cst_apply]
  exact Ideal.ofBits_zero_f32

/-- The zero the output perceptron's second rectifier compares with. -/
theorem zero_call13 (i : S300000x128.Idx) : val_main_call13_v0 (F := Ideal) i = 0 := by
  rw [val_main_call13_v0_apply, val_main_call13_cst_apply]
  exact Ideal.ofBits_zero_f32

/-- The 512 features of edge r: the first 256 are the product of its endpoints' states … -/
theorem cat_left (r : Fin 300000) (i : Fin 256) :
    val_main_v204 (F := Ideal) x0 x1 x2 x3 x4 x5 x6 x7 x8 x9 x10 x11 x12 x13 x14 x15 x16 x17 x18 x19 x20 (ix2 r ⟨i.val, by omega⟩) = val_main_v203 (F := Ideal) x0 x1 x2 x3 x4 x5 x6 x7 x8 x9 x10 x11 x12 x13 x14 x15 x16 x17 x18 x19 x20 (ix2 r i) := by
  unfold val_main_v204
  exact concatenate_pair_apply_left (1 : Fin S300000x512.rank) _ _ concatenates_S300000x256_S300000x256_S300000x512_d1
    (ix2 r ⟨i.val, by omega⟩) rfl (ix2 r i) (fun b => match b with | ⟨0, _⟩ => rfl | ⟨1, _⟩ => rfl)

/-- … and the last 256 are its fused edge feature. -/
theorem cat_right (r : Fin 300000) (i : Fin 256) :
    val_main_v204 (F := Ideal) x0 x1 x2 x3 x4 x5 x6 x7 x8 x9 x10 x11 x12 x13 x14 x15 x16 x17 x18 x19 x20 (ix2 r ⟨256 + i.val, by omega⟩) = val_main_v61 (F := Ideal) x1 x2 x3 x4 x5 x7 x8 x9 x10 x11 x12 x13 x14 x15 x16 (ix2 r i) := by
  unfold val_main_v204
  exact concatenate_pair_apply_right (1 : Fin S300000x512.rank) _ _ concatenates_S300000x256_S300000x256_S300000x512_d1
    (ix2 r ⟨256 + i.val, by omega⟩) rfl rfl (ix2 r i)
    (fun b hb => match b, hb with | ⟨0, _⟩, _ => rfl | ⟨1, _⟩, hb => (hb rfl).elim)
    (by show i.val + 256 = 256 + i.val; omega)

/-- Entry (r, j) of the output perceptron's first hidden activation: the 512-term product with the first weight matrix
    is the sum of its two 256-term halves, one per block of features. -/
theorem hid1_out (r : Fin 300000) (j : Fin 256) :
    val_main_v209 (F := Ideal) x0 x1 x2 x3 x4 x5 x6 x7 x8 x9 x10 x11 x12 x13 x14 x15 x16 x17 x18 x19 x20 x21 x22 (ix2 r j) =
      RowSpec.relu ((∑ i : Fin 256, val_main_v203 (F := Ideal) x0 x1 x2 x3 x4 x5 x6 x7 x8 x9 x10 x11 x12 x13 x14 x15 x16 x17 x18 x19 x20 (ix2 r i) * x21 (ix2 ⟨i.val, by omega⟩ j)) +
        (∑ i : Fin 256, val_main_v61 (F := Ideal) x1 x2 x3 x4 x5 x7 x8 x9 x10 x11 x12 x13 x14 x15 x16 (ix2 r i) * x21 (ix2 ⟨256 + i.val, by omega⟩ j)) + x22 (ix1 j)) := by
  rw [val_main_v209_apply, val_main_v208_apply, val_main_v205_apply, zero_call12, val_main_v207_apply, val_main_v206_apply,
    RowSpec.sum_halves]
  have h1 : (∑ i : Fin 256, val_main_v204 (F := Ideal) x0 x1 x2 x3 x4 x5 x6 x7 x8 x9 x10 x11 x12 x13 x14 x15 x16 x17 x18 x19 x20 (lidx_main_v205 (ix2 r j) ⟨i.val, by omega⟩) * x21 (ridx_main_v205 (ix2 r j) ⟨i.val, by omega⟩)) =
      ∑ i : Fin 256, val_main_v203 (F := Ideal) x0 x1 x2 x3 x4 x5 x6 x7 x8 x9 x10 x11 x12 x13 x14 x15 x16 x17 x18 x19 x20 (ix2 r i) * x21 (ix2 ⟨i.val, by omega⟩ j) := by
    refine Finset.sum_congr rfl fun i _ => ?_
    have el : lidx_main_v205 (ix2 r j) ⟨i.val, by omega⟩ = ix2 r ⟨i.val, by omega⟩ := by
      funext a; match a with | ⟨0, _⟩ => rfl | ⟨1, _⟩ => rfl
    have er : ridx_main_v205 (ix2 r j) ⟨i.val, by omega⟩ = ix2 ⟨i.val, by omega⟩ j := by
      funext a; match a with | ⟨0, _⟩ => rfl | ⟨1, _⟩ => rfl
    rw [el, er, cat_left]
  have h2 : (∑ i : Fin 256, val_main_v204 (F := Ideal) x0 x1 x2 x3 x4 x5 x6 x7 x8 x9 x10 x11 x12 x13 x14 x15 x16 x17 x18 x19 x20 (lidx_main_v205 (ix2 r j) ⟨256 + i.val, by omega⟩) * x21 (ridx_main_v205 (ix2 r j) ⟨256 + i.val, by omega⟩)) =
      ∑ i : Fin 256, val_main_v61 (F := Ideal) x1 x2 x3 x4 x5 x7 x8 x9 x10 x11 x12 x13 x14 x15 x16 (ix2 r i) * x21 (ix2 ⟨256 + i.val, by omega⟩ j) := by
    refine Finset.sum_congr rfl fun i _ => ?_
    have el : lidx_main_v205 (ix2 r j) ⟨256 + i.val, by omega⟩ = ix2 r ⟨256 + i.val, by omega⟩ := by
      funext a; match a with | ⟨0, _⟩ => rfl | ⟨1, _⟩ => rfl
    have er : ridx_main_v205 (ix2 r j) ⟨256 + i.val, by omega⟩ = ix2 ⟨256 + i.val, by omega⟩ j := by
      funext a; match a with | ⟨0, _⟩ => rfl | ⟨1, _⟩ => rfl
    rw [el, er, cat_right]
  have eb : idx_main_v206 (idx_main_v207 (ix2 r j)) = ix1 j := by
    funext a; match a with | ⟨0, _⟩ => rfl
  rw [h1, h2, eb]
  rfl

/-- Entry (r, k) of the output perceptron's second hidden activation. -/
theorem hid2_out (r : Fin 300000) (k : Fin 128) :
    val_main_v214 (F := Ideal) x0 x1 x2 x3 x4 x5 x6 x7 x8 x9 x10 x11 x12 x13 x14 x15 x16 x17 x18 x19 x20 x21 x22 x23 x24 (ix2 r k) =
      RowSpec.relu ((∑ j : Fin 256,
        RowSpec.relu ((∑ i : Fin 256, val_main_v203 (F := Ideal) x0 x1 x2 x3 x4 x5 x6 x7 x8 x9 x10 x11 x12 x13 x14 x15 x16 x17 x18 x19 x20 (ix2 r i) * x21 (ix2 ⟨i.val, by omega⟩ j)) +
          (∑ i : Fin 256, val_main_v61 (F := Ideal) x1 x2 x3 x4 x5 x7 x8 x9 x10 x11 x12 x13 x14 x15 x16 (ix2 r i) * x21 (ix2 ⟨256 + i.val, by omega⟩ j)) + x22 (ix1 j)) * x23 (ix2 j k)) + x24 (ix1 k)) := by
  rw [val_main_v214_apply, val_main_v213_apply, val_main_v210_apply, zero_call13, val_main_v212_apply, val_main_v211_apply]
  have hs : (∑ j : Fin 256, val_main_v209 (F := Ideal) x0 x1 x2 x3 x4 x5 x6 x7 x8 x9 x10 x11 x12 x13 x14 x15 x16 x17 x18 x19 x20 x21 x22 (lidx_main_v210 (ix2 r k) j) * x23 (ridx_main_v210 (ix2 r k) j)) =
      ∑ j : Fin 256, RowSpec.relu ((∑ i : Fin 256, val_main_v203 (F := Ideal) x0 x1 x2 x3 x4 x5 x6 x7 x8 x9 x10 x11 x12 x13 x14 x15 x16 x17 x18 x19 x20 (ix2 r i) * x21 (ix2 ⟨i.val, by omega⟩ j)) +
          (∑ i : Fin 256, val_main_v61 (F := Ideal) x1 x2 x3 x4 x5 x7 x8 x9 x10 x11 x12 x13 x14 x15 x16 (ix2 r i) * x21 (ix2 ⟨256 + i.val, by omega⟩ j)) + x22 (ix1 j)) * x23 (ix2 j k) := by
    refine Finset.sum_congr rfl fun j _ => ?_
    have el : lidx_main_v210 (ix2 r k) j = ix2 r j := by
      funext a; match a with | ⟨0, _⟩ => rfl | ⟨1, _⟩ => rfl
    have er : ridx_main_v210 (ix2 r k) j = ix2 j k := by
      funext a; match a with | ⟨0, _⟩ => rfl | ⟨1, _⟩ => rfl
    rw [el, er, hid1_out]
  have eb : idx_main_v211 (idx_main_v212 (ix2 r k)) = ix1 k := by
    funext a; match a with | ⟨0, _⟩ => rfl
  rw [hs, eb]
  rfl

/-- THE OUTPUT PERCEPTRON, one entry: edge r's score before normalisation is the row function of its two feature
    blocks. -/
theorem out (r : Fin 300000) :
    val_main_v218 (F := Ideal) x0 x1 x2 x3 x4 x5 x6 x7 x8 x9 x10 x11 x12 x13 x14 x15 x16 x17 x18 x19 x20 x21 x22 x23 x24 x25 x26 (ix2 r 0) =
      RowSpec.rowOut (fun i => val_main_v203 (F := Ideal) x0 x1 x2 x3 x4 x5 x6 x7 x8 x9 x10 x11 x12 x13 x14 x15 x16 x17 x18 x19 x20 (ix2 r i)) (fun i => val_main_v61 (F := Ideal) x1 x2 x3 x4 x5 x7 x8 x9 x10 x11 x12 x13 x14 x15 x16 (ix2 r i))
        (fun i j => x21 (ix2 ⟨i.val, by omega⟩ j)) (fun i j => x21 (ix2 ⟨256 + i.val, by omega⟩ j)) (fun j => x22 (ix1 j))
        (fun j k => x23 (ix2 j k)) (fun k => x24 (ix1 k)) (fun k => x25 (ix2 k 0)) (x26 (ix1 0)) := by
  rw [val_main_v218_apply, val_main_v215_apply, val_main_v217_apply, val_main_v216_apply]
  have hs : (∑ k : Fin 128, val_main_v214 (F := Ideal) x0 x1 x2 x3 x4 x5 x6 x7 x8 x9 x10 x11 x12 x13 x14 x15 x16 x17 x18 x19 x20 x21 x22 x23 x24 (lidx_main_v215 (ix2 r 0) k) * x25 (ridx_main_v215 (ix2 r 0) k)) =
      ∑ k : Fin 128, RowSpec.relu ((∑ j : Fin 256,
        RowSpec.relu ((∑ i : Fin 256, val_main_v203 (F := Ideal) x0 x1 x2 x3 x4 x5 x6 x7 x8 x9 x10 x11 x12 x13 x14 x15 x16 x17 x18 x19 x20 (ix2 r i) * x21 (ix2 ⟨i.val, by omega⟩ j)) +
          (∑ i : Fin 256, val_main_v61 (F := Ideal) x1 x2 x3 x4 x5 x7 x8 x9 x10 x11 x12 x13 x14 x15 x16 (ix2 r i) * x21 (ix2 ⟨256 + i.val, by omega⟩ j)) + x22 (ix1 j)) * x23 (ix2 j k)) + x24 (ix1 k)) * x25 (ix2 k 0) := by
    refine Finset.sum_congr rfl fun k _ => ?_
    have el : lidx_main_v215 (ix2 r 0) k = ix2 r k := by
      funext a; match a with | ⟨0, _⟩ => rfl | ⟨1, _⟩ => rfl
    have er : ridx_main_v215 (ix2 r 0) k = ix2 k 0 := by
      funext a; match a with | ⟨0, _⟩ => rfl | ⟨1, _⟩ => rfl
    rw [el, er, hid2_out]
  have eb : idx_main_v216 (idx_main_v217 (ix2 r 0)) = ix1 0 := by
    funext a; match a with | ⟨0, _⟩ => rfl
  rw [hs, eb]
  rfl

/-! ## The biases before their broadcasts, and the flattened score -/

/-- The first layer's first bias as a vector is row 0 of the stacked first biases. -/
theorem b1raw_layer1 (k : Fin 256) : val_main_v80 (F := Ideal) x18 (ix1 k) = x18 (ix2 0 k) := by
  rw [val_main_v80_apply, val_main_v79_apply]
  congr 1
  funext a
  match a with
  | ⟨0, _⟩ => rfl
  | ⟨1, _⟩ => exact Fin.ext (by show k.val % 256 = k.val; omega)

/-- The first layer's second bias as a vector is row 0 of the stacked second biases. -/
theorem b2raw_layer1 (k : Fin 256) : val_main_v82 (F := Ideal) x20 (ix1 k) = x20 (ix2 0 k) := by
  rw [val_main_v82_apply, val_main_v81_apply]
  congr 1
  funext a
  match a with
  | ⟨0, _⟩ => rfl
  | ⟨1, _⟩ => exact Fin.ext (by show k.val % 256 = k.val; omega)

/-- The second layer's first bias as a vector is row 1 of the stacked first biases. -/
theorem b1raw_layer2 (k : Fin 256) : val_main_v112 (F := Ideal) x18 (ix1 k) = x18 (ix2 1 k) := by
  rw [val_main_v112_apply, val_main_v111_apply]
  congr 1
  funext a
  match a with
  | ⟨0, _⟩ => rfl
  | ⟨1, _⟩ => exact Fin.ext (by show k.val % 256 = k.val; omega)

/-- The second layer's second bias as a vector is row 1 of the stacked second biases. -/
theorem b2raw_layer2 (k : Fin 256) : val_main_v114 (F := Ideal) x20 (ix1 k) = x20 (ix2 1 k) := by
  rw [val_main_v114_apply, val_main_v113_apply]
  congr 1
  funext a
  match a with
  | ⟨0, _⟩ => rfl
  | ⟨1, _⟩ => exact Fin.ext (by show k.val % 256 = k.val; omega)

/-- The third layer's first bias as a vector is row 2 of the stacked first biases. -/
theorem b1raw_layer3 (k : Fin 256) : val_main_v144 (F := Ideal) x18 (ix1 k) = x18 (ix2 2 k) := by
  rw [val_main_v144_apply, val_main_v143_apply]
  congr 1
  funext a
  match a with
  | ⟨0, _⟩ => rfl
  | ⟨1, _⟩ => exact Fin.ext (by show k.val % 256 = k.val; omega)

/-- The third layer's second bias as a vector is row 2 of the stacked second biases. -/
theorem b2raw_layer3 (k : Fin 256) : val_main_v146 (F := Ideal) x20 (ix1 k) = x20 (ix2 2 k) := by
  rw [val_main_v146_apply, val_main_v145_apply]
  congr 1
  funext a
  match a with
  | ⟨0, _⟩ => rfl
  | ⟨1, _⟩ => exact Fin.ext (by show k.val % 256 = k.val; omega)

/-- The fourth layer's first bias as a vector is row 3 of the stacked first biases. -/
theorem b1raw_layer4 (k : Fin 256) : val_main_v176 (F := Ideal) x18 (ix1 k) = x18 (ix2 3 k) := by
  rw [val_main_v176_apply, val_main_v175_apply]
  congr 1
  funext a
  match a with
  | ⟨0, _⟩ => rfl
  | ⟨1, _⟩ => exact Fin.ext (by show k.val % 256 = k.val; omega)

/-- The fourth layer's second bias as a vector is row 3 of the stacked second biases. -/
theorem b2raw_layer4 (k : Fin 256) : val_main_v178 (F := Ideal) x20 (ix1 k) = x20 (ix2 3 k) := by
  rw [val_main_v178_apply, val_main_v177_apply]
  congr 1
  funext a
  match a with
  | ⟨0, _⟩ => rfl
  | ⟨1, _⟩ => exact Fin.ext (by show k.val % 256 = k.val; omega)

/-- The score as a vector: entry r of the flattened score is entry (r, 0) of the one-column score. -/
theorem score_flat (r : Fin 300000) : val_main_v219 (F := Ideal) x0 x1 x2 x3 x4 x5 x6 x7 x8 x9 x10 x11 x12 x13 x14 x15 x16 x17 x18 x19 x20 x21 x22 x23 x24 x25 x26 (ix1 r) = val_main_v218 (F := Ideal) x0 x1 x2 x3 x4 x5 x6 x7 x8 x9 x10 x11 x12 x13 x14 x15 x16 x17 x18 x19 x20 x21 x22 x23 x24 x25 x26 (ix2 r 0) := by
  rw [val_main_v219_apply]
  congr 1
  funext a
  match a with
  | ⟨0, _⟩ => exact Fin.ext (by show r.val / 1 = r.val; omega)
  | ⟨1, _⟩ => rfl

end Cert.RefRows

end
-- ==== Proof.LibEdgeGather.lean ====
/-
  A gather through a column of start indices, read at an index.

  What `x[idx]` lowers to when `idx` is a vector of E integers: a `stablehlo.gather` whose start indices are an E×1
  column, the one component of each start index naming a position on the operand's first axis. The start index is read
  as a signed integer and clamped into 0 … N − 1 (a negative one reads position 0, one past the end reads position N − 1).
  * Of a flat operand of N entries the result is a vector of E entries: entry e is the operand at that position.
  * Of an N×C operand, whole rows are taken: entry (e, c) is the operand at (that position, c).
-/
import Idealize.ShloMosaic.PureOps
import Idealize.ShloMosaic.Lib.ValueIdx

noncomputable section

namespace Cert.Lib.EdgeGather

open Idealize.ShloMosaic Idealize.ShloMosaic.ValueIdx

variable {α : Type} {N E C w : Nat}

/-- The position a start index names: read signed, clamped into 0 … N − 1. -/
def pos (N : Nat) (hN : 0 < N) (b : BitVec w) : Fin N := ⟨min b.toInt.toNat (N - 1), by omega⟩

/-- Dimension numbers of a gather of single entries of a flat operand through an E×1 column of start indices. -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Dimension numbers of a gather of whole rows of an N×C operand through an E×1 column of start indices. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry e of the flat gather: the operand at the position start index e names. -/
theorem flat_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatDims N E wf) x idx (ix1 e) = x (ix1 (pos N hN (idx (ix2 e (0 : Fin 1))))) := by
  unfold Host.gather
  congr 1
  funext a
  obtain rfl : a = 0 := Subsingleton.elim _ _
  refine Fin.ext ?_
  show (flatDims N E wf).start (ix1 e) idx 0 + (flatDims N E wf).batchCoord (ix1 e) 0 + (flatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx (ix1 e) ⟨List.idxOf (0 : Fin 1) (flatDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Entry (e, c) of the row gather: the operand at (the position start index e names, c). -/
theorem row_apply (hN : 0 < N) (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N E C wf) x idx (ix2 e c) = x (ix2 (pos N hN (idx (ix2 e (0 : Fin 1)))) c) := by
  unfold Host.gather
  congr 1
  funext a
  refine Fin.ext ?_
  match a with
  | ⟨0, _⟩ =>
    show (rowDims N E C wf).start (ix2 e c) idx 0 + (rowDims N E C wf).batchCoord (ix2 e c) 0
      + (rowDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e c) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e c) idx 1 + (rowDims N E C wf).batchCoord (ix2 e c) 1
      + (rowDims N E C wf).offCoord (ix2 e c) 1 = c.val
    rw [GatherDims.batchCoord_eq_zero _ _ _ List.not_mem_nil]
    have hs : (rowDims N E C wf).start (ix2 e c) idx 1 = 0 := by
      unfold GatherDims.start
      rw [dif_neg (fun h => absurd (congrArg Fin.val (List.mem_singleton.mp h)) Nat.one_ne_zero)]
    have ho : (rowDims N E C wf).offCoord (ix2 e c) 1 = c.val := by
      unfold GatherDims.offCoord
      rw [dif_pos (by simp [GatherDims.sKept, Shape.kept])]
      rfl
    rw [hs, ho]
    omega

end Cert.Lib.EdgeGather

end
-- ==== Proof.StdNonzero.lean ====
/-
  The reference's marginal standard deviation is never zero.

  For an edge e the reference computes std = sqrt((exp(2 · t · c) − 1) / d), where t is the diffusion time of the graph
  the edge belongs to (an entry of the time vector, picked by a gather) and c, d are two positive constants. When every
  diffusion time is a positive real, 2 · t · c is a positive real, so its exponential exceeds 1; the difference
  exp(2 · t · c) − 1 is a positive real, and so is its quotient by d; the square root of a positive real is positive.
  In particular the extended real the reference holds is not 0, so the division of the score by it is the real division.
-/
import proofs.«143893_j1065151889700_2_alg».proof.Proof.RefReadP
import proofs.«143893_j1065151889700_2_alg».proof.Proof.LibEdgeGather

noncomputable section

namespace Cert.StdNonzero

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The four constants -/

/-- The word 0x40000000 is 2. -/
theorem lit_two : Ideal.ofBits .f32 0x40000000#32 = ((2 : ℝ) : EReal) := by
  simp [Ideal.ofBits, Ideal.ieee]
  rw [← EReal.coe_mul]
  exact congrArg _ (by norm_num)

/-- The word 0x3F800000 is 1. -/
theorem lit_one : Ideal.ofBits .f32 0x3F800000#32 = ((1 : ℝ) : EReal) := by
  simp [Ideal.ofBits, Ideal.ieee]
  exact_mod_cast (show (8388608 : ℝ) * (2 ^ 23)⁻¹ = 1 by norm_num)

/-- The word 0x404E0210 (the constant c, about 3.2189) is a positive real. -/
theorem lit_c : ∃ q : ℝ, 0 < q ∧ Ideal.ofBits .f32 0x404E0210#32 = (q : EReal) := by
  simp [Ideal.ofBits, Ideal.ieee]
  exact ⟨13500944 * (2 ^ 22)⁻¹, by positivity, (EReal.coe_mul _ _).symm⟩

/-- The word 0x40CE0210 (the constant d, about 6.4378) is a positive real. -/
theorem lit_d : ∃ q : ℝ, 0 < q ∧ Ideal.ofBits .f32 0x40CE0210#32 = (q : EReal) := by
  simp [Ideal.ofBits, Ideal.ieee]
  exact ⟨13500944 * (2 ^ 21)⁻¹, by positivity, (EReal.coe_mul _ _).symm⟩

/-! ## The formula on positive reals -/

/-- sqrt((exp(2 t c) − 1) / d) is not zero for positive reals t, c, d. -/
theorem core (t c d : ℝ) (ht : 0 < t) (hc : 0 < c) (hd : 0 < d) :
    Ideal.sqrt (Ideal.div (Ideal.exp (((2 : ℝ) : EReal) * (t : EReal) * (c : EReal)) - ((1 : ℝ) : EReal)) (d : EReal)) ≠ 0 := by
  have hpos : 0 < (Real.exp (2 * t * c) - 1) * (1 / d) := by
    have h1 : 1 < Real.exp (2 * t * c) := Real.one_lt_exp_iff.2 (by positivity)
    have : 0 < Real.exp (2 * t * c) - 1 := by linarith
    positivity
  rw [← EReal.coe_mul, ← EReal.coe_mul, Ideal.exp_coe, ← EReal.coe_sub, Ideal.div_coe (ne_of_gt hd), ← EReal.coe_mul,
    Ideal.sqrt_coe, if_neg (not_lt.2 hpos.le)]
  exact_mod_cast (Real.sqrt_pos.2 hpos).ne'

/-! ## The reference's stages -/

variable (x2 : (⟨S2x300000, .i32⟩ : BufTy).Contents (Elt Ideal)) (x3 : (⟨S50000, .i32⟩ : BufTy).Contents (Elt Ideal))
  (x5 : (⟨S1024, .f32⟩ : BufTy).Contents (Elt Ideal))

/-- An edge's diffusion time is some entry of the time vector: the gather reads the vector at a position clamped into
    its range. -/
theorem te_entry (e : Fin 300000) : ∃ g : Fin 1024, val_main_v226 (F := Ideal) x2 x3 x5 (ix1 e) = x5 (ix1 g) := by
  unfold val_main_v226
  exact ⟨_, Cert.Lib.EdgeGather.flat_apply (N := 1024) (E := 300000) (by norm_num) _ x5 _ e⟩

/-- THE STANDARD DEVIATION IS NOT ZERO, at every edge, when every diffusion time is a positive real. -/
theorem std_ne_zero (ht : ∀ g : Fin 1024, ∃ r : ℝ, 0 < r ∧ x5 (ix1 g) = (r : EReal)) (e : Fin 300000) :
    val_main_v236 (F := Ideal) x2 x3 x5 (ix1 e) ≠ 0 := by
  obtain ⟨g, hg⟩ := te_entry x2 x3 x5 e
  obtain ⟨t, ht0, hte⟩ := ht g
  obtain ⟨c, hc0, hc⟩ := lit_c
  obtain ⟨d, hd0, hd⟩ := lit_d
  rw [val_main_v236_apply, val_main_v235_apply, val_main_v234_apply, val_main_cst_28_apply, val_main_v233_apply,
    val_main_v232_apply, val_main_cst_27_apply, val_main_v231_apply, val_main_v230_apply, val_main_v229_apply,
    val_main_cst_26_apply, val_main_v228_apply, val_main_v227_apply, val_main_cst_25_apply, hg, hte]
  show Ideal.sqrt (Ideal.div (Ideal.exp (Ideal.ofBits .f32 0x40000000#32 * (t : EReal) * Ideal.ofBits .f32 0x404E0210#32)
    - Ideal.ofBits .f32 0x3F800000#32) (Ideal.ofBits .f32 0x40CE0210#32)) ≠ 0
  rw [lit_two, hc, lit_one, hd]
  exact core t c d ht0 hc0 hd0

end Cert.StdNonzero

end
-- ==== Proof.Glue.lean ====
/-
  Each launch's result is the reference's stage.

  A launch leaves its output array at one whole-array function of the arrays it finds (the per-row function applied at
  every row). When those arrays hold the reference's corresponding stages — the activations whole, the weights entry by
  entry — that function is, index by index, the reference's next stage: both are the same per-row function of the same
  rows and weights.
-/
import proofs.«143893_j1065151889700_2_alg».proof.Proof.Edge
import proofs.«143893_j1065151889700_2_alg».proof.Proof.Layer1
import proofs.«143893_j1065151889700_2_alg».proof.Proof.Layer2
import proofs.«143893_j1065151889700_2_alg».proof.Proof.Layer3
import proofs.«143893_j1065151889700_2_alg».proof.Proof.Layer4
import proofs.«143893_j1065151889700_2_alg».proof.Proof.Score
import proofs.«143893_j1065151889700_2_alg».proof.Proof.RefRows
import proofs.«143893_j1065151889700_2_alg».proof.Proof.StdNonzero

set_option maxRecDepth 16384

noncomputable section

namespace Cert.Glue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The fused edge feature. -/
theorem edge_val (c : Dev nD) (x1 : (⟨Cert.ReferenceIdeal.S300000, .i32⟩ : BufTy).Contents (Elt Ideal)) (x2 : (⟨Cert.ReferenceIdeal.S2x300000, .i32⟩ : BufTy).Contents (Elt Ideal)) (x3 : (⟨Cert.ReferenceIdeal.S50000, .i32⟩ : BufTy).Contents (Elt Ideal)) (x4 : (⟨Cert.ReferenceIdeal.S300000x1, .f32⟩ : BufTy).Contents (Elt Ideal)) (x5 : (⟨Cert.ReferenceIdeal.S1024, .f32⟩ : BufTy).Contents (Elt Ideal)) (x7 : (⟨Cert.ReferenceIdeal.S100x256, .f32⟩ : BufTy).Contents (Elt Ideal)) (x8 : (⟨Cert.ReferenceIdeal.S1x256, .f32⟩ : BufTy).Contents (Elt Ideal)) (x9 : (⟨Cert.ReferenceIdeal.S256, .f32⟩ : BufTy).Contents (Elt Ideal)) (x10 : (⟨Cert.ReferenceIdeal.S256x256, .f32⟩ : BufTy).Contents (Elt Ideal)) (x11 : (⟨Cert.ReferenceIdeal.S256, .f32⟩ : BufTy).Contents (Elt Ideal)) (x12 : (⟨Cert.ReferenceIdeal.S128, .f32⟩ : BufTy).Contents (Elt Ideal)) (x13 : (⟨Cert.ReferenceIdeal.S256x256, .f32⟩ : BufTy).Contents (Elt Ideal)) (x14 : (⟨Cert.ReferenceIdeal.S256, .f32⟩ : BufTy).Contents (Elt Ideal)) (x15 : (⟨Cert.ReferenceIdeal.S256x1, .f32⟩ : BufTy).Contents (Elt Ideal)) (x16 : (⟨Cert.ReferenceIdeal.S1, .f32⟩ : BufTy).Contents (Elt Ideal))
    (e0 : ∀ r : Fin 300000, V c main_v50 (ix2 r 0) = x4 (ix2 r 0))
    (e1 : ∀ r : Fin 300000, V c main_v50 (ix2 r 1) = Cert.ReferenceIdeal.Read.val_main_v58 (F := Ideal) x2 x3 x5 x12 x13 x14 x15 x16 (ix2 r 0))
    (e2 : ∀ k : Fin 256, V c main_arg8 (ix2 0 k) = x8 (ix2 0 k)) (e3 : ∀ k : Fin 256, V c main_v51 (ix2 0 k) = x9 (ix1 k))
    (e4 : ∀ (k c' : Fin 256), V c main_arg10 (ix2 k c') = x10 (ix2 k c')) (e5 : ∀ c' : Fin 256, V c main_v52 (ix2 0 c') = x11 (ix1 c'))
    (e6 : V c main_v49 = Cert.ReferenceIdeal.Read.val_main_v42 (F := Ideal) x1 x7) :
    Cert.KernelIdeal.Edge.G V c = Cert.ReferenceIdeal.Read.val_main_v61 (F := Ideal) x1 x2 x3 x4 x5 x7 x8 x9 x10 x11 x12 x13 x14 x15 x16 := by
  funext i
  obtain ⟨r, q, rfl⟩ : ∃ (r : Fin 300000) (q : Fin 256), i = ix2 r q := ⟨i 0, i 1, eq_ix2 i⟩
  refine Eq.trans ?_ (Cert.RefRows.edge x1 x2 x3 x4 x5 x7 x8 x9 x10 x11 x12 x13 x14 x15 x16 r q).symm
  unfold Cert.KernelIdeal.Edge.G
  exact RowSpec.rowEdge_congr q (e0 r) (e1 r) e2 e3 e4 e5 (fun c' => by rw [e6])

/-- Layer 1: the whole-array update of the arrays the region finds is the reference's state after layer 1. -/
theorem layer1_val (c : Dev nD) (x0 : (⟨Cert.ReferenceIdeal.S50000, .i32⟩ : BufTy).Contents (Elt Ideal)) (x1 : (⟨Cert.ReferenceIdeal.S300000, .i32⟩ : BufTy).Contents (Elt Ideal)) (x2 : (⟨Cert.ReferenceIdeal.S2x300000, .i32⟩ : BufTy).Contents (Elt Ideal)) (x3 : (⟨Cert.ReferenceIdeal.S50000, .i32⟩ : BufTy).Contents (Elt Ideal)) (x4 : (⟨Cert.ReferenceIdeal.S300000x1, .f32⟩ : BufTy).Contents (Elt Ideal)) (x5 : (⟨Cert.ReferenceIdeal.S1024, .f32⟩ : BufTy).Contents (Elt Ideal)) (x6 : (⟨Cert.ReferenceIdeal.S100x256, .f32⟩ : BufTy).Contents (Elt Ideal)) (x7 : (⟨Cert.ReferenceIdeal.S100x256, .f32⟩ : BufTy).Contents (Elt Ideal)) (x8 : (⟨Cert.ReferenceIdeal.S1x256, .f32⟩ : BufTy).Contents (Elt Ideal)) (x9 : (⟨Cert.ReferenceIdeal.S256, .f32⟩ : BufTy).Contents (Elt Ideal)) (x10 : (⟨Cert.ReferenceIdeal.S256x256, .f32⟩ : BufTy).Contents (Elt Ideal)) (x11 : (⟨Cert.ReferenceIdeal.S256, .f32⟩ : BufTy).Contents (Elt Ideal)) (x12 : (⟨Cert.ReferenceIdeal.S128, .f32⟩ : BufTy).Contents (Elt Ideal)) (x13 : (⟨Cert.ReferenceIdeal.S256x256, .f32⟩ : BufTy).Contents (Elt Ideal)) (x14 : (⟨Cert.ReferenceIdeal.S256, .f32⟩ : BufTy).Contents (Elt Ideal)) (x15 : (⟨Cert.ReferenceIdeal.S256x1, .f32⟩ : BufTy).Contents (Elt Ideal)) (x16 : (⟨Cert.ReferenceIdeal.S1, .f32⟩ : BufTy).Contents (Elt Ideal)) (x17 : (⟨Cert.ReferenceIdeal.S4x256x256, .f32⟩ : BufTy).Contents (Elt Ideal)) (x18 : (⟨Cert.ReferenceIdeal.S4x256, .f32⟩ : BufTy).Contents (Elt Ideal)) (x19 : (⟨Cert.ReferenceIdeal.S4x256x256, .f32⟩ : BufTy).Contents (Elt Ideal)) (x20 : (⟨Cert.ReferenceIdeal.S4x256, .f32⟩ : BufTy).Contents (Elt Ideal))
    (e0 : V c main_v42 = Cert.ReferenceIdeal.Read.val_main_v35 (F := Ideal) x0 x6) (e1 : V c main_v65 = Cert.ReferenceIdeal.Read.val_main_v73 (F := Ideal) x0 x1 x2 x3 x4 x5 x6 x7 x8 x9 x10 x11 x12 x13 x14 x15 x16)
    (e2 : ∀ (j k : Fin 256), V c main_v67 (ix2 j k) = x17 (ix3 0 j k)) (e3 : ∀ k : Fin 256, V c main_v74 (ix2 0 k) = x18 (ix2 0 k))
    (e4 : ∀ (k c' : Fin 256), V c main_v71 (ix2 k c') = x19 (ix3 0 k c')) (e5 : ∀ c' : Fin 256, V c main_v75 (ix2 0 c') = x20 (ix2 0 c')) :
    Cert.KernelIdeal.Layer1.G V c = Cert.ReferenceIdeal.Read.val_main_v93 (F := Ideal) x0 x1 x2 x3 x4 x5 x6 x7 x8 x9 x10 x11 x12 x13 x14 x15 x16 x17 x18 x19 x20 := by
  funext i
  obtain ⟨r, q, rfl⟩ : ∃ (r : Fin 50000) (q : Fin 256), i = ix2 r q := ⟨i 0, i 1, eq_ix2 i⟩
  refine Eq.trans ?_ (Cert.RefRows.layer1 x0 x1 x2 x3 x4 x5 x6 x7 x8 x9 x10 x11 x12 x13 x14 x15 x16 x17 x18 x19 x20 r q).symm
  unfold Cert.KernelIdeal.Layer1.G
  exact RowSpec.rowLayer_congr q (fun j => by rw [e0]) (fun j => by rw [e1]) e2 e3 e4 e5

/-- Layer 2: the whole-array update of the arrays the region finds is the reference's state after layer 2. -/
theorem layer2_val (c : Dev nD) (x0 : (⟨Cert.ReferenceIdeal.S50000, .i32⟩ : BufTy).Contents (Elt Ideal)) (x1 : (⟨Cert.ReferenceIdeal.S300000, .i32⟩ : BufTy).Contents (Elt Ideal)) (x2 : (⟨Cert.ReferenceIdeal.S2x300000, .i32⟩ : BufTy).Contents (Elt Ideal)) (x3 : (⟨Cert.ReferenceIdeal.S50000, .i32⟩ : BufTy).Contents (Elt Ideal)) (x4 : (⟨Cert.ReferenceIdeal.S300000x1, .f32⟩ : BufTy).Contents (Elt Ideal)) (x5 : (⟨Cert.ReferenceIdeal.S1024, .f32⟩ : BufTy).Contents (Elt Ideal)) (x6 : (⟨Cert.ReferenceIdeal.S100x256, .f32⟩ : BufTy).Contents (Elt Ideal)) (x7 : (⟨Cert.ReferenceIdeal.S100x256, .f32⟩ : BufTy).Contents (Elt Ideal)) (x8 : (⟨Cert.ReferenceIdeal.S1x256, .f32⟩ : BufTy).Contents (Elt Ideal)) (x9 : (⟨Cert.ReferenceIdeal.S256, .f32⟩ : BufTy).Contents (Elt Ideal)) (x10 : (⟨Cert.ReferenceIdeal.S256x256, .f32⟩ : BufTy).Contents (Elt Ideal)) (x11 : (⟨Cert.ReferenceIdeal.S256, .f32⟩ : BufTy).Contents (Elt Ideal)) (x12 : (⟨Cert.ReferenceIdeal.S128, .f32⟩ : BufTy).Contents (Elt Ideal)) (x13 : (⟨Cert.ReferenceIdeal.S256x256, .f32⟩ : BufTy).Contents (Elt Ideal)) (x14 : (⟨Cert.ReferenceIdeal.S256, .f32⟩ : BufTy).Contents (Elt Ideal)) (x15 : (⟨Cert.ReferenceIdeal.S256x1, .f32⟩ : BufTy).Contents (Elt Ideal)) (x16 : (⟨Cert.ReferenceIdeal.S1, .f32⟩ : BufTy).Contents (Elt Ideal)) (x17 : (⟨Cert.ReferenceIdeal.S4x256x256, .f32⟩ : BufTy).Contents (Elt Ideal)) (x18 : (⟨Cert.ReferenceIdeal.S4x256, .f32⟩ : BufTy).Contents (Elt Ideal)) (x19 : (⟨Cert.ReferenceIdeal.S4x256x256, .f32⟩ : BufTy).Contents (Elt Ideal)) (x20 : (⟨Cert.ReferenceIdeal.S4x256, .f32⟩ : BufTy).Contents (Elt Ideal))
    (e0 : V c main_v76 = Cert.ReferenceIdeal.Read.val_main_v93 (F := Ideal) x0 x1 x2 x3 x4 x5 x6 x7 x8 x9 x10 x11 x12 x13 x14 x15 x16 x17 x18 x19 x20) (e1 : V c main_v88 = Cert.ReferenceIdeal.Read.val_main_v105 (F := Ideal) x0 x1 x2 x3 x4 x5 x6 x7 x8 x9 x10 x11 x12 x13 x14 x15 x16 x17 x18 x19 x20)
    (e2 : ∀ (j k : Fin 256), V c main_v90 (ix2 j k) = x17 (ix3 1 j k)) (e3 : ∀ k : Fin 256, V c main_v97 (ix2 0 k) = x18 (ix2 1 k))
    (e4 : ∀ (k c' : Fin 256), V c main_v94 (ix2 k c') = x19 (ix3 1 k c')) (e5 : ∀ c' : Fin 256, V c main_v98 (ix2 0 c') = x20 (ix2 1 c')) :
    Cert.KernelIdeal.Layer2.G V c = Cert.ReferenceIdeal.Read.val_main_v125 (F := Ideal) x0 x1 x2 x3 x4 x5 x6 x7 x8 x9 x10 x11 x12 x13 x14 x15 x16 x17 x18 x19 x20 := by
  funext i
  obtain ⟨r, q, rfl⟩ : ∃ (r : Fin 50000) (q : Fin 256), i = ix2 r q := ⟨i 0, i 1, eq_ix2 i⟩
  refine Eq.trans ?_ (Cert.RefRows.layer2 x0 x1 x2 x3 x4 x5 x6 x7 x8 x9 x10 x11 x12 x13 x14 x15 x16 x17 x18 x19 x20 r q).symm
  unfold Cert.KernelIdeal.Layer2.G
  exact RowSpec.rowLayer_congr q (fun j => by rw [e0]) (fun j => by rw [e1]) e2 e3 e4 e5

/-- Layer 3: the whole-array update of the arrays the region finds is the reference's state after layer 3. -/
theorem layer3_val (c : Dev nD) (x0 : (⟨Cert.ReferenceIdeal.S50000, .i32⟩ : BufTy).Contents (Elt Ideal)) (x1 : (⟨Cert.ReferenceIdeal.S300000, .i32⟩ : BufTy).Contents (Elt Ideal)) (x2 : (⟨Cert.ReferenceIdeal.S2x300000, .i32⟩ : BufTy).Contents (Elt Ideal)) (x3 : (⟨Cert.ReferenceIdeal.S50000, .i32⟩ : BufTy).Contents (Elt Ideal)) (x4 : (⟨Cert.ReferenceIdeal.S300000x1, .f32⟩ : BufTy).Contents (Elt Ideal)) (x5 : (⟨Cert.ReferenceIdeal.S1024, .f32⟩ : BufTy).Contents (Elt Ideal)) (x6 : (⟨Cert.ReferenceIdeal.S100x256, .f32⟩ : BufTy).Contents (Elt Ideal)) (x7 : (⟨Cert.ReferenceIdeal.S100x256, .f32⟩ : BufTy).Contents (Elt Ideal)) (x8 : (⟨Cert.ReferenceIdeal.S1x256, .f32⟩ : BufTy).Contents (Elt Ideal)) (x9 : (⟨Cert.ReferenceIdeal.S256, .f32⟩ : BufTy).Contents (Elt Ideal)) (x10 : (⟨Cert.ReferenceIdeal.S256x256, .f32⟩ : BufTy).Contents (Elt Ideal)) (x11 : (⟨Cert.ReferenceIdeal.S256, .f32⟩ : BufTy).Contents (Elt Ideal)) (x12 : (⟨Cert.ReferenceIdeal.S128, .f32⟩ : BufTy).Contents (Elt Ideal)) (x13 : (⟨Cert.ReferenceIdeal.S256x256, .f32⟩ : BufTy).Contents (Elt Ideal)) (x14 : (⟨Cert.ReferenceIdeal.S256, .f32⟩ : BufTy).Contents (Elt Ideal)) (x15 : (⟨Cert.ReferenceIdeal.S256x1, .f32⟩ : BufTy).Contents (Elt Ideal)) (x16 : (⟨Cert.ReferenceIdeal.S1, .f32⟩ : BufTy).Contents (Elt Ideal)) (x17 : (⟨Cert.ReferenceIdeal.S4x256x256, .f32⟩ : BufTy).Contents (Elt Ideal)) (x18 : (⟨Cert.ReferenceIdeal.S4x256, .f32⟩ : BufTy).Contents (Elt Ideal)) (x19 : (⟨Cert.ReferenceIdeal.S4x256x256, .f32⟩ : BufTy).Contents (Elt Ideal)) (x20 : (⟨Cert.ReferenceIdeal.S4x256, .f32⟩ : BufTy).Contents (Elt Ideal))
    (e0 : V c main_v99 = Cert.ReferenceIdeal.Read.val_main_v125 (F := Ideal) x0 x1 x2 x3 x4 x5 x6 x7 x8 x9 x10 x11 x12 x13 x14 x15 x16 x17 x18 x19 x20) (e1 : V c main_v111 = Cert.ReferenceIdeal.Read.val_main_v137 (F := Ideal) x0 x1 x2 x3 x4 x5 x6 x7 x8 x9 x10 x11 x12 x13 x14 x15 x16 x17 x18 x19 x20)
    (e2 : ∀ (j k : Fin 256), V c main_v113 (ix2 j k) = x17 (ix3 2 j k)) (e3 : ∀ k : Fin 256, V c main_v120 (ix2 0 k) = x18 (ix2 2 k))
    (e4 : ∀ (k c' : Fin 256), V c main_v117 (ix2 k c') = x19 (ix3 2 k c')) (e5 : ∀ c' : Fin 256, V c main_v121 (ix2 0 c') = x20 (ix2 2 c')) :
    Cert.KernelIdeal.Layer3.G V c = Cert.ReferenceIdeal.Read.val_main_v157 (F := Ideal) x0 x1 x2 x3 x4 x5 x6 x7 x8 x9 x10 x11 x12 x13 x14 x15 x16 x17 x18 x19 x20 := by
  funext i
  obtain ⟨r, q, rfl⟩ : ∃ (r : Fin 50000) (q : Fin 256), i = ix2 r q := ⟨i 0, i 1, eq_ix2 i⟩
  refine Eq.trans ?_ (Cert.RefRows.layer3 x0 x1 x2 x3 x4 x5 x6 x7 x8 x9 x10 x11 x12 x13 x14 x15 x16 x17 x18 x19 x20 r q).symm
  unfold Cert.KernelIdeal.Layer3.G
  exact RowSpec.rowLayer_congr q (fun j => by rw [e0]) (fun j => by rw [e1]) e2 e3 e4 e5

/-- Layer 4: the whole-array update of the arrays the region finds is the reference's state after layer 4. -/
theorem layer4_val (c : Dev nD) (x0 : (⟨Cert.ReferenceIdeal.S50000, .i32⟩ : BufTy).Contents (Elt Ideal)) (x1 : (⟨Cert.ReferenceIdeal.S300000, .i32⟩ : BufTy).Contents (Elt Ideal)) (x2 : (⟨Cert.ReferenceIdeal.S2x300000, .i32⟩ : BufTy).Contents (Elt Ideal)) (x3 : (⟨Cert.ReferenceIdeal.S50000, .i32⟩ : BufTy).Contents (Elt Ideal)) (x4 : (⟨Cert.ReferenceIdeal.S300000x1, .f32⟩ : BufTy).Contents (Elt Ideal)) (x5 : (⟨Cert.ReferenceIdeal.S1024, .f32⟩ : BufTy).Contents (Elt Ideal)) (x6 : (⟨Cert.ReferenceIdeal.S100x256, .f32⟩ : BufTy).Contents (Elt Ideal)) (x7 : (⟨Cert.ReferenceIdeal.S100x256, .f32⟩ : BufTy).Contents (Elt Ideal)) (x8 : (⟨Cert.ReferenceIdeal.S1x256, .f32⟩ : BufTy).Contents (Elt Ideal)) (x9 : (⟨Cert.ReferenceIdeal.S256, .f32⟩ : BufTy).Contents (Elt Ideal)) (x10 : (⟨Cert.ReferenceIdeal.S256x256, .f32⟩ : BufTy).Contents (Elt Ideal)) (x11 : (⟨Cert.ReferenceIdeal.S256, .f32⟩ : BufTy).Contents (Elt Ideal)) (x12 : (⟨Cert.ReferenceIdeal.S128, .f32⟩ : BufTy).Contents (Elt Ideal)) (x13 : (⟨Cert.ReferenceIdeal.S256x256, .f32⟩ : BufTy).Contents (Elt Ideal)) (x14 : (⟨Cert.ReferenceIdeal.S256, .f32⟩ : BufTy).Contents (Elt Ideal)) (x15 : (⟨Cert.ReferenceIdeal.S256x1, .f32⟩ : BufTy).Contents (Elt Ideal)) (x16 : (⟨Cert.ReferenceIdeal.S1, .f32⟩ : BufTy).Contents (Elt Ideal)) (x17 : (⟨Cert.ReferenceIdeal.S4x256x256, .f32⟩ : BufTy).Contents (Elt Ideal)) (x18 : (⟨Cert.ReferenceIdeal.S4x256, .f32⟩ : BufTy).Contents (Elt Ideal)) (x19 : (⟨Cert.ReferenceIdeal.S4x256x256, .f32⟩ : BufTy).Contents (Elt Ideal)) (x20 : (⟨Cert.ReferenceIdeal.S4x256, .f32⟩ : BufTy).Contents (Elt Ideal))
    (e0 : V c main_v122 = Cert.ReferenceIdeal.Read.val_main_v157 (F := Ideal) x0 x1 x2 x3 x4 x5 x6 x7 x8 x9 x10 x11 x12 x13 x14 x15 x16 x17 x18 x19 x20) (e1 : V c main_v134 = Cert.ReferenceIdeal.Read.val_main_v169 (F := Ideal) x0 x1 x2 x3 x4 x5 x6 x7 x8 x9 x10 x11 x12 x13 x14 x15 x16 x17 x18 x19 x20)
    (e2 : ∀ (j k : Fin 256), V c main_v136 (ix2 j k) = x17 (ix3 3 j k)) (e3 : ∀ k : Fin 256, V c main_v143 (ix2 0 k) = x18 (ix2 3 k))
    (e4 : ∀ (k c' : Fin 256), V c main_v140 (ix2 k c') = x19 (ix3 3 k c')) (e5 : ∀ c' : Fin 256, V c main_v144 (ix2 0 c') = x20 (ix2 3 c')) :
    Cert.KernelIdeal.Layer4.G V c = Cert.ReferenceIdeal.Read.val_main_v188 (F := Ideal) x0 x1 x2 x3 x4 x5 x6 x7 x8 x9 x10 x11 x12 x13 x14 x15 x16 x17 x18 x19 x20 := by
  funext i
  obtain ⟨r, q, rfl⟩ : ∃ (r : Fin 50000) (q : Fin 256), i = ix2 r q := ⟨i 0, i 1, eq_ix2 i⟩
  refine Eq.trans ?_ (Cert.RefRows.layer4 x0 x1 x2 x3 x4 x5 x6 x7 x8 x9 x10 x11 x12 x13 x14 x15 x16 x17 x18 x19 x20 r q).symm
  unfold Cert.KernelIdeal.Layer4.G
  exact RowSpec.rowLayer_congr q (fun j => by rw [e0]) (fun j => by rw [e1]) e2 e3 e4 e5

/-- The result: the score times the reciprocal standard deviation is the reference's quotient, where the standard
    deviation is not zero. -/
theorem score_val (c : Dev nD) (x0 : (⟨Cert.ReferenceIdeal.S50000, .i32⟩ : BufTy).Contents (Elt Ideal)) (x1 : (⟨Cert.ReferenceIdeal.S300000, .i32⟩ : BufTy).Contents (Elt Ideal)) (x2 : (⟨Cert.ReferenceIdeal.S2x300000, .i32⟩ : BufTy).Contents (Elt Ideal)) (x3 : (⟨Cert.ReferenceIdeal.S50000, .i32⟩ : BufTy).Contents (Elt Ideal)) (x4 : (⟨Cert.ReferenceIdeal.S300000x1, .f32⟩ : BufTy).Contents (Elt Ideal)) (x5 : (⟨Cert.ReferenceIdeal.S1024, .f32⟩ : BufTy).Contents (Elt Ideal)) (x6 : (⟨Cert.ReferenceIdeal.S100x256, .f32⟩ : BufTy).Contents (Elt Ideal)) (x7 : (⟨Cert.ReferenceIdeal.S100x256, .f32⟩ : BufTy).Contents (Elt Ideal)) (x8 : (⟨Cert.ReferenceIdeal.S1x256, .f32⟩ : BufTy).Contents (Elt Ideal)) (x9 : (⟨Cert.ReferenceIdeal.S256, .f32⟩ : BufTy).Contents (Elt Ideal)) (x10 : (⟨Cert.ReferenceIdeal.S256x256, .f32⟩ : BufTy).Contents (Elt Ideal)) (x11 : (⟨Cert.ReferenceIdeal.S256, .f32⟩ : BufTy).Contents (Elt Ideal)) (x12 : (⟨Cert.ReferenceIdeal.S128, .f32⟩ : BufTy).Contents (Elt Ideal)) (x13 : (⟨Cert.ReferenceIdeal.S256x256, .f32⟩ : BufTy).Contents (Elt Ideal)) (x14 : (⟨Cert.ReferenceIdeal.S256, .f32⟩ : BufTy).Contents (Elt Ideal)) (x15 : (⟨Cert.ReferenceIdeal.S256x1, .f32⟩ : BufTy).Contents (Elt Ideal)) (x16 : (⟨Cert.ReferenceIdeal.S1, .f32⟩ : BufTy).Contents (Elt Ideal)) (x17 : (⟨Cert.ReferenceIdeal.S4x256x256, .f32⟩ : BufTy).Contents (Elt Ideal)) (x18 : (⟨Cert.ReferenceIdeal.S4x256, .f32⟩ : BufTy).Contents (Elt Ideal)) (x19 : (⟨Cert.ReferenceIdeal.S4x256x256, .f32⟩ : BufTy).Contents (Elt Ideal)) (x20 : (⟨Cert.ReferenceIdeal.S4x256, .f32⟩ : BufTy).Contents (Elt Ideal)) (x21 : (⟨Cert.ReferenceIdeal.S512x256, .f32⟩ : BufTy).Contents (Elt Ideal)) (x22 : (⟨Cert.ReferenceIdeal.S256, .f32⟩ : BufTy).Contents (Elt Ideal)) (x23 : (⟨Cert.ReferenceIdeal.S256x128, .f32⟩ : BufTy).Contents (Elt Ideal)) (x24 : (⟨Cert.ReferenceIdeal.S128, .f32⟩ : BufTy).Contents (Elt Ideal)) (x25 : (⟨Cert.ReferenceIdeal.S128x1, .f32⟩ : BufTy).Contents (Elt Ideal)) (x26 : (⟨Cert.ReferenceIdeal.S1, .f32⟩ : BufTy).Contents (Elt Ideal))
    (ht : ∀ g : Fin 1024, ∃ r : ℝ, 0 < r ∧ x5 (ix1 g) = (r : EReal))
    (e0 : V c main_v160 = Cert.ReferenceIdeal.Read.val_main_v203 (F := Ideal) x0 x1 x2 x3 x4 x5 x6 x7 x8 x9 x10 x11 x12 x13 x14 x15 x16 x17 x18 x19 x20) (e1 : V c main_v53 = Cert.ReferenceIdeal.Read.val_main_v61 (F := Ideal) x1 x2 x3 x4 x5 x7 x8 x9 x10 x11 x12 x13 x14 x15 x16)
    (e2 : ∀ r : Fin 300000, V c main_v180 (ix2 r 0) = Ideal.div 1 (Cert.ReferenceIdeal.Read.val_main_v236 (F := Ideal) x2 x3 x5 (ix1 r)))
    (e3 : ∀ (i j : Fin 256), V c main_v181 (ix2 i j) = x21 (ix2 ⟨i.val, by omega⟩ j))
    (e4 : ∀ (i j : Fin 256), V c main_v182 (ix2 i j) = x21 (ix2 ⟨256 + i.val, by omega⟩ j))
    (e5 : ∀ j : Fin 256, V c main_v183 (ix2 0 j) = x22 (ix1 j)) (e6 : ∀ (j : Fin 256) (k : Fin 128), V c main_arg23 (ix2 j k) = x23 (ix2 j k))
    (e7 : ∀ k : Fin 128, V c main_v184 (ix2 0 k) = x24 (ix1 k)) (e8 : ∀ k : Fin 128, V c main_arg25 (ix2 k 0) = x25 (ix2 k 0))
    (e9 : V c main_v185 (ix2 0 0) = x26 (ix1 0)) (r : Fin 300000) :
    Cert.KernelIdeal.Score.G V c (ix2 r 0) = Cert.ReferenceIdeal.Read.val_main_v237 (F := Ideal) x0 x1 x2 x3 x4 x5 x6 x7 x8 x9 x10 x11 x12 x13 x14 x15 x16 x17 x18 x19 x20 x21 x22 x23 x24 x25 x26 (ix1 r) := by
  rw [Cert.ReferenceIdeal.Read.val_main_v237_apply, Cert.RefRows.score_flat x0 x1 x2 x3 x4 x5 x6 x7 x8 x9 x10 x11 x12 x13 x14 x15 x16 x17 x18 x19 x20 x21 x22 x23 x24 x25 x26 r, Cert.RefRows.out x0 x1 x2 x3 x4 x5 x6 x7 x8 x9 x10 x11 x12 x13 x14 x15 x16 x17 x18 x19 x20 x21 x22 x23 x24 x25 x26 r]
  unfold Cert.KernelIdeal.Score.G
  rw [e2 r]
  have hs := Cert.StdNonzero.std_ne_zero x2 x3 x5 ht r
  refine Eq.trans ?_ (RowSpec.mul_one_div hs)
  refine congrArg₂ (· * ·) ?_ rfl
  exact RowSpec.rowOut_congr (fun a => by rw [e0]) (fun a => by rw [e1]) e3 e4 e5 e6 e7 e8 e9

end Cert.Glue

end
-- ==== Proof.KerThread.lean ====
/-
  The kernel program's host stretches, read.

  Between its launches the kernel program runs the same array operations as the reference: index arithmetic, gathers of
  node rows to edges, the scatter-add of messages to nodes, slices of the stacked weights, reshapes. From ANY contents V of
  the device's buffers, the contents after a stretch are a fold of its operations over V; read at one buffer that fold is
  a term in the operations' functions over V at the stretch's inputs. Where the inputs hold the reference's stage values,
  so do the outputs: the two programs' operations are the same functions, and their shape and record constants are equal
  literals under two names.
-/
import proofs.«143893_j1065151889700_2_alg».proof.Proof.Gen.KernelIdeal.Launch
import proofs.«143893_j1065151889700_2_alg».proof.Proof.RefReadP
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KerThread

open Cert.KernelIdeal Cert.KernelIdeal.Gen
open Idealize.ShloMosaic Idealize.ShloMosaic.TcCoe Idealize.SL.Sem Idealize.ShloMosaic.StableHlo Idealize.ShloMosaic.ValueIdx

variable (V : Valuation τ sig (Elt Ideal))

/-! ## Slices of the stacked weights, reshaped -/

/-- Matrix s of a stack of four 256×256 matrices, cut out as a [1,256,256] slice and reshaped to [256,256], at (j, k). -/
theorem sliceMat {α : Type} (x : S4x256x256.Idx → α) (off : Fin 3 → Nat) (s : Fin 4) (h0 : off 0 = s.val) (h1 : off 1 = 0)
    (h2 : off 2 = 0) (h : S4x256x256.Slices off S1x256x256) (hc : S1x256x256.ShapeCasts S256x256) (j k : Fin 256) :
    shapeCast S256x256 (extractStridedSlice S1x256x256 off x h) hc (ix2 j k) = x (ix3 s j k) := by
  refine (shapeCast_apply _ hc (ix2 j k) (ix3 0 j k) ?_).trans ?_
  · rw [Shape.rowMajor_val_three, Shape.rowMajor_val_two]
    show (0 * 256 + j.val) * 256 + k.val = j.val * 256 + k.val
    omega
  · exact extractStridedSlice_apply off x h (ix3 0 j k) (ix3 s j k) (fun a => by
      match a with
      | ⟨0, _⟩ => show s.val = off 0 + 0; omega
      | ⟨1, _⟩ => show j.val = off 1 + j.val; omega
      | ⟨2, _⟩ => show k.val = off 2 + k.val; omega)

/-- Row s of a stack of four rows of 256, cut out as a [1,256] slice, flattened to [256] and reshaped to [1,256], at (0, k). -/
theorem sliceRow {α : Type} (x : S4x256.Idx → α) (off : Fin 2 → Nat) (s : Fin 4) (h0 : off 0 = s.val) (h1 : off 1 = 0)
    (h : S4x256.Slices off S1x256) (hc : S1x256.ShapeCasts S256) (hc' : S256.ShapeCasts S1x256) (k : Fin 256) :
    shapeCast S1x256 (fun i => shapeCast S256 (extractStridedSlice S1x256 off x h) hc i) hc' (ix2 0 k) = x (ix2 s k) := by
  refine (shapeCast_apply _ hc' (ix2 0 k) (ix1 k) ?_).trans ?_
  · rw [Shape.rowMajor_val_one, Shape.rowMajor_val_two]
    show k.val = 0 * 256 + k.val
    omega
  refine (shapeCast_apply _ hc (ix1 k) (ix2 0 k) ?_).trans ?_
  · rw [Shape.rowMajor_val_one, Shape.rowMajor_val_two]
    show 0 * 256 + k.val = k.val
    omega
  · exact extractStridedSlice_apply off x h (ix2 0 k) (ix2 s k) (fun a => by
      match a with
      | ⟨0, _⟩ => show s.val = off 0 + 0; omega
      | ⟨1, _⟩ => show k.val = off 1 + k.val; omega)

/-! ## Before launch 0: the first host stretch -/

/-- The buffers after the first host stretch. -/
abbrev V0 : Valuation τ sig (Elt Ideal) := after hostOps0 V

/-- The edges' source indices. -/
theorem s0_v1 : V0 V main_v1 = Cert.ReferenceIdeal.Read.val_main_v1 (F := Ideal) (V main_arg2) := by
  unfold V0
  after_results_simp
  rfl

/-- The edges' destination indices. -/
theorem s0_v3 : V0 V main_v3 = Cert.ReferenceIdeal.Read.val_main_v3 (F := Ideal) (V main_arg2) := by
  unfold V0
  after_results_simp
  rfl

/-- The graph of every edge's source node. -/
theorem s0_v10 : V0 V main_v10 = Cert.ReferenceIdeal.Read.val_main_v10 (F := Ideal) (V main_arg2) (V main_arg3) := by
  unfold V0
  after_results_simp
  rfl

/-- The node embeddings. -/
theorem s0_v42 : V0 V main_v42 = Cert.ReferenceIdeal.Read.val_main_v35 (F := Ideal) (V main_arg0) (V main_arg6) := by
  unfold V0
  after_results_simp
  rfl

/-- The bond embeddings. -/
theorem s0_v49 : V0 V main_v49 = Cert.ReferenceIdeal.Read.val_main_v42 (F := Ideal) (V main_arg1) (V main_arg7) := by
  unfold V0
  after_results_simp
  rfl

/-- Column 0 of the edge kernel's two-column input is the edge length. -/
theorem s0_v50_0 (r : Fin 300000) : V0 V main_v50 (ix2 r 0) = (V main_arg4) (ix2 r 0) := by
  unfold V0
  after_results_simp
  exact concatenate_pair_apply_left (t := S300000x2) (s₁ := S300000x1) (s₂ := S300000x1) 1 _ _ _ (ix2 r (0 : Fin 2)) rfl (ix2 r (0 : Fin 1)) (fun b => by
    match b with
    | ⟨0, _⟩ => rfl
    | ⟨1, _⟩ => rfl)

/-- Column 1 is the edge's time embedding, gathered from its graph's. -/
theorem s0_v50_1 (r : Fin 300000) :
    V0 V main_v50 (ix2 r 1) = Cert.ReferenceIdeal.Read.val_main_v58 (F := Ideal) (V main_arg2) (V main_arg3) (V main_arg5) (V main_arg12) (V main_arg13) (V main_arg14) (V main_arg15) (V main_arg16) (ix2 r 0) := by
  unfold V0
  after_results_simp
  refine (concatenate_pair_apply_right (t := S300000x2) (s₁ := S300000x1) (s₂ := S300000x1) 1 _ _ _ (ix2 r (1 : Fin 2)) rfl rfl (ix2 r (0 : Fin 1)) (fun b hb => by
    match b with
    | ⟨0, _⟩ => rfl
    | ⟨1, _⟩ => exact absurd rfl hb) rfl).trans ?_
  rfl

/-- The first layer's bias of the edge perceptron as a one-row block. -/
theorem s0_v51 (k : Fin 256) : V0 V main_v51 (ix2 0 k) = (V main_arg9) (ix1 k) := by
  unfold V0
  after_results_simp
  refine shapeCast_apply _ _ (ix2 0 k) (ix1 k) ?_
  rw [Shape.rowMajor_val_one, Shape.rowMajor_val_two]
  show k.val = 0 * 256 + k.val
  omega

/-- Its second layer's bias as a one-row block. -/
theorem s0_v52 (k : Fin 256) : V0 V main_v52 (ix2 0 k) = (V main_arg11) (ix1 k) := by
  unfold V0
  after_results_simp
  refine shapeCast_apply _ _ (ix2 0 k) (ix1 k) ?_
  rw [Shape.rowMajor_val_one, Shape.rowMajor_val_two]
  show k.val = 0 * 256 + k.val
  omega

/-! ## Before launch 1: the first layer's host stretch -/

/-- The buffers after the first layer's host stretch. -/
abbrev V1 : Valuation τ sig (Elt Ideal) := after hostOps1_2 (after hostOps1_1 (after hostOps1 V))

/-- The first layer's aggregated messages: where the state, the edge features and the two index arrays hold the
    reference's values, the scatter-add's result is the reference's. -/
theorem s1_aggr (x0 : (⟨S50000, .i32⟩ : BufTy).Contents (Elt Ideal)) (x1 : (⟨S300000, .i32⟩ : BufTy).Contents (Elt Ideal)) (x2 : (⟨S2x300000, .i32⟩ : BufTy).Contents (Elt Ideal)) (x3 : (⟨S50000, .i32⟩ : BufTy).Contents (Elt Ideal)) (x4 : (⟨S300000x1, .f32⟩ : BufTy).Contents (Elt Ideal)) (x5 : (⟨S1024, .f32⟩ : BufTy).Contents (Elt Ideal)) (x6 : (⟨S100x256, .f32⟩ : BufTy).Contents (Elt Ideal)) (x7 : (⟨S100x256, .f32⟩ : BufTy).Contents (Elt Ideal)) (x8 : (⟨S1x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S128, .f32⟩ : BufTy).Contents (Elt Ideal)) (x13 : (⟨S256x256, .f32⟩ : BufTy).Contents (Elt Ideal)) (x14 : (⟨S256, .f32⟩ : BufTy).Contents (Elt Ideal)) (x15 : (⟨S256x1, .f32⟩ : BufTy).Contents (Elt Ideal)) (x16 : (⟨S1, .f32⟩ : BufTy).Contents (Elt Ideal))
    (hH : V main_v42 = Cert.ReferenceIdeal.Read.val_main_v35 (F := Ideal) x0 x6)
    (h53 : V main_v53 = Cert.ReferenceIdeal.Read.val_main_v61 (F := Ideal) x1 x2 x3 x4 x5 x7 x8 x9 x10 x11 x12 x13 x14 x15 x16)
    (h1 : V main_v1 = Cert.ReferenceIdeal.Read.val_main_v1 (F := Ideal) x2) (h3 : V main_v3 = Cert.ReferenceIdeal.Read.val_main_v3 (F := Ideal) x2) :
    V1 V main_v65 = Cert.ReferenceIdeal.Read.val_main_v73 (F := Ideal) x0 x1 x2 x3 x4 x5 x6 x7 x8 x9 x10 x11 x12 x13 x14 x15 x16 := by
  unfold V1
  after_results_simp
  rw [hH, h53, h1, h3]
  rfl

/-- The layer's first weight matrix is matrix 0 of the stack. -/
theorem s1_W1 (j k : Fin 256) : V1 V main_v67 (ix2 j k) = (V main_arg17) (ix3 0 j k) := by
  unfold V1
  after_results_simp
  exact sliceMat _ _ 0 rfl rfl rfl _ _ j k

/-- Its first bias is row 0 of the stack. -/
theorem s1_b1 (k : Fin 256) : V1 V main_v74 (ix2 0 k) = (V main_arg18) (ix2 0 k) := by
  unfold V1
  after_results_simp
  exact sliceRow _ _ 0 rfl rfl _ _ _ k

/-- Its second weight matrix is matrix 0 of the stack. -/
theorem s1_W2 (k c : Fin 256) : V1 V main_v71 (ix2 k c) = (V main_arg19) (ix3 0 k c) := by
  unfold V1
  after_results_simp
  exact sliceMat _ _ 0 rfl rfl rfl _ _ k c

/-- Its second bias is row 0 of the stack. -/
theorem s1_b2 (c : Fin 256) : V1 V main_v75 (ix2 0 c) = (V main_arg20) (ix2 0 c) := by
  unfold V1
  after_results_simp
  exact sliceRow _ _ 0 rfl rfl _ _ _ c

/-! ## Before launch 2: the second layer's host stretch -/

/-- The buffers after the second layer's host stretch. -/
abbrev V2 : Valuation τ sig (Elt Ideal) := after hostOps2_2 (after hostOps2_1 (after hostOps2 V))

/-- The second layer's aggregated messages: where the state, the edge features and the two index arrays hold the
    reference's values, the scatter-add's result is the reference's. -/
theorem s2_aggr (x0 : (⟨S50000, .i32⟩ : BufTy).Contents (Elt Ideal)) (x1 : (⟨S300000, .i32⟩ : BufTy).Contents (Elt Ideal)) (x2 : (⟨S2x300000, .i32⟩ : BufTy).Contents (Elt Ideal)) (x3 : (⟨S50000, .i32⟩ : BufTy).Contents (Elt Ideal)) (x4 : (⟨S300000x1, .f32⟩ : BufTy).Contents (Elt Ideal)) (x5 : (⟨S1024, .f32⟩ : BufTy).Contents (Elt Ideal)) (x6 : (⟨S100x256, .f32⟩ : BufTy).Contents (Elt Ideal)) (x7 : (⟨S100x256, .f32⟩ : BufTy).Contents (Elt Ideal)) (x8 : (⟨S1x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S128, .f32⟩ : BufTy).Contents (Elt Ideal)) (x13 : (⟨S256x256, .f32⟩ : BufTy).Contents (Elt Ideal)) (x14 : (⟨S256, .f32⟩ : BufTy).Contents (Elt Ideal)) (x15 : (⟨S256x1, .f32⟩ : BufTy).Contents (Elt Ideal)) (x16 : (⟨S1, .f32⟩ : BufTy).Contents (Elt Ideal)) (x17 : (⟨S4x256x256, .f32⟩ : BufTy).Contents (Elt Ideal)) (x18 : (⟨S4x256, .f32⟩ : BufTy).Contents (Elt Ideal)) (x19 : (⟨S4x256x256, .f32⟩ : BufTy).Contents (Elt Ideal)) (x20 : (⟨S4x256, .f32⟩ : BufTy).Contents (Elt Ideal))
    (hH : V main_v76 = Cert.ReferenceIdeal.Read.val_main_v93 (F := Ideal) x0 x1 x2 x3 x4 x5 x6 x7 x8 x9 x10 x11 x12 x13 x14 x15 x16 x17 x18 x19 x20)
    (h53 : V main_v53 = Cert.ReferenceIdeal.Read.val_main_v61 (F := Ideal) x1 x2 x3 x4 x5 x7 x8 x9 x10 x11 x12 x13 x14 x15 x16)
    (h1 : V main_v1 = Cert.ReferenceIdeal.Read.val_main_v1 (F := Ideal) x2) (h3 : V main_v3 = Cert.ReferenceIdeal.Read.val_main_v3 (F := Ideal) x2) :
    V2 V main_v88 = Cert.ReferenceIdeal.Read.val_main_v105 (F := Ideal) x0 x1 x2 x3 x4 x5 x6 x7 x8 x9 x10 x11 x12 x13 x14 x15 x16 x17 x18 x19 x20 := by
  unfold V2
  after_results_simp
  rw [hH, h53, h1, h3]
  rfl

/-- The layer's first weight matrix is matrix 1 of the stack. -/
theorem s2_W1 (j k : Fin 256) : V2 V main_v90 (ix2 j k) = (V main_arg17) (ix3 1 j k) := by
  unfold V2
  after_results_simp
  exact sliceMat _ _ 1 rfl rfl rfl _ _ j k

/-- Its first bias is row 1 of the stack. -/
theorem s2_b1 (k : Fin 256) : V2 V main_v97 (ix2 0 k) = (V main_arg18) (ix2 1 k) := by
  unfold V2
  after_results_simp
  exact sliceRow _ _ 1 rfl rfl _ _ _ k

/-- Its second weight matrix is matrix 1 of the stack. -/
theorem s2_W2 (k c : Fin 256) : V2 V main_v94 (ix2 k c) = (V main_arg19) (ix3 1 k c) := by
  unfold V2
  after_results_simp
  exact sliceMat _ _ 1 rfl rfl rfl _ _ k c

/-- Its second bias is row 1 of the stack. -/
theorem s2_b2 (c : Fin 256) : V2 V main_v98 (ix2 0 c) = (V main_arg20) (ix2 1 c) := by
  unfold V2
  after_results_simp
  exact sliceRow _ _ 1 rfl rfl _ _ _ c

/-! ## Before launch 3: the third layer's host stretch -/

/-- The buffers after the third layer's host stretch. -/
abbrev V3 : Valuation τ sig (Elt Ideal) := after hostOps3_2 (after hostOps3_1 (after hostOps3 V))

/-- The third layer's aggregated messages: where the state, the edge features and the two index arrays hold the
    reference's values, the scatter-add's result is the reference's. -/
theorem s3_aggr (x0 : (⟨S50000, .i32⟩ : BufTy).Contents (Elt Ideal)) (x1 : (⟨S300000, .i32⟩ : BufTy).Contents (Elt Ideal)) (x2 : (⟨S2x300000, .i32⟩ : BufTy).Contents (Elt Ideal)) (x3 : (⟨S50000, .i32⟩ : BufTy).Contents (Elt Ideal)) (x4 : (⟨S300000x1, .f32⟩ : BufTy).Contents (Elt Ideal)) (x5 : (⟨S1024, .f32⟩ : BufTy).Contents (Elt Ideal)) (x6 : (⟨S100x256, .f32⟩ : BufTy).Contents (Elt Ideal)) (x7 : (⟨S100x256, .f32⟩ : BufTy).Contents (Elt Ideal)) (x8 : (⟨S1x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S128, .f32⟩ : BufTy).Contents (Elt Ideal)) (x13 : (⟨S256x256, .f32⟩ : BufTy).Contents (Elt Ideal)) (x14 : (⟨S256, .f32⟩ : BufTy).Contents (Elt Ideal)) (x15 : (⟨S256x1, .f32⟩ : BufTy).Contents (Elt Ideal)) (x16 : (⟨S1, .f32⟩ : BufTy).Contents (Elt Ideal)) (x17 : (⟨S4x256x256, .f32⟩ : BufTy).Contents (Elt Ideal)) (x18 : (⟨S4x256, .f32⟩ : BufTy).Contents (Elt Ideal)) (x19 : (⟨S4x256x256, .f32⟩ : BufTy).Contents (Elt Ideal)) (x20 : (⟨S4x256, .f32⟩ : BufTy).Contents (Elt Ideal))
    (hH : V main_v99 = Cert.ReferenceIdeal.Read.val_main_v125 (F := Ideal) x0 x1 x2 x3 x4 x5 x6 x7 x8 x9 x10 x11 x12 x13 x14 x15 x16 x17 x18 x19 x20)
    (h53 : V main_v53 = Cert.ReferenceIdeal.Read.val_main_v61 (F := Ideal) x1 x2 x3 x4 x5 x7 x8 x9 x10 x11 x12 x13 x14 x15 x16)
    (h1 : V main_v1 = Cert.ReferenceIdeal.Read.val_main_v1 (F := Ideal) x2) (h3 : V main_v3 = Cert.ReferenceIdeal.Read.val_main_v3 (F := Ideal) x2) :
    V3 V main_v111 = Cert.ReferenceIdeal.Read.val_main_v137 (F := Ideal) x0 x1 x2 x3 x4 x5 x6 x7 x8 x9 x10 x11 x12 x13 x14 x15 x16 x17 x18 x19 x20 := by
  unfold V3
  after_results_simp
  rw [hH, h53, h1, h3]
  rfl

/-- The layer's first weight matrix is matrix 2 of the stack. -/
theorem s3_W1 (j k : Fin 256) : V3 V main_v113 (ix2 j k) = (V main_arg17) (ix3 2 j k) := by
  unfold V3
  after_results_simp
  exact sliceMat _ _ 2 rfl rfl rfl _ _ j k

/-- Its first bias is row 2 of the stack. -/
theorem s3_b1 (k : Fin 256) : V3 V main_v120 (ix2 0 k) = (V main_arg18) (ix2 2 k) := by
  unfold V3
  after_results_simp
  exact sliceRow _ _ 2 rfl rfl _ _ _ k

/-- Its second weight matrix is matrix 2 of the stack. -/
theorem s3_W2 (k c : Fin 256) : V3 V main_v117 (ix2 k c) = (V main_arg19) (ix3 2 k c) := by
  unfold V3
  after_results_simp
  exact sliceMat _ _ 2 rfl rfl rfl _ _ k c

/-- Its second bias is row 2 of the stack. -/
theorem s3_b2 (c : Fin 256) : V3 V main_v121 (ix2 0 c) = (V main_arg20) (ix2 2 c) := by
  unfold V3
  after_results_simp
  exact sliceRow _ _ 2 rfl rfl _ _ _ c

/-! ## Before launch 4: the fourth layer's host stretch -/

/-- The buffers after the fourth layer's host stretch. -/
abbrev V4 : Valuation τ sig (Elt Ideal) := after hostOps4_2 (after hostOps4_1 (after hostOps4 V))

/-- The fourth layer's aggregated messages: where the state, the edge features and the two index arrays hold the
    reference's values, the scatter-add's result is the reference's. -/
theorem s4_aggr (x0 : (⟨S50000, .i32⟩ : BufTy).Contents (Elt Ideal)) (x1 : (⟨S300000, .i32⟩ : BufTy).Contents (Elt Ideal)) (x2 : (⟨S2x300000, .i32⟩ : BufTy).Contents (Elt Ideal)) (x3 : (⟨S50000, .i32⟩ : BufTy).Contents (Elt Ideal)) (x4 : (⟨S300000x1, .f32⟩ : BufTy).Contents (Elt Ideal)) (x5 : (⟨S1024, .f32⟩ : BufTy).Contents (Elt Ideal)) (x6 : (⟨S100x256, .f32⟩ : BufTy).Contents (Elt Ideal)) (x7 : (⟨S100x256, .f32⟩ : BufTy).Contents (Elt Ideal)) (x8 : (⟨S1x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S128, .f32⟩ : BufTy).Contents (Elt Ideal)) (x13 : (⟨S256x256, .f32⟩ : BufTy).Contents (Elt Ideal)) (x14 : (⟨S256, .f32⟩ : BufTy).Contents (Elt Ideal)) (x15 : (⟨S256x1, .f32⟩ : BufTy).Contents (Elt Ideal)) (x16 : (⟨S1, .f32⟩ : BufTy).Contents (Elt Ideal)) (x17 : (⟨S4x256x256, .f32⟩ : BufTy).Contents (Elt Ideal)) (x18 : (⟨S4x256, .f32⟩ : BufTy).Contents (Elt Ideal)) (x19 : (⟨S4x256x256, .f32⟩ : BufTy).Contents (Elt Ideal)) (x20 : (⟨S4x256, .f32⟩ : BufTy).Contents (Elt Ideal))
    (hH : V main_v122 = Cert.ReferenceIdeal.Read.val_main_v157 (F := Ideal) x0 x1 x2 x3 x4 x5 x6 x7 x8 x9 x10 x11 x12 x13 x14 x15 x16 x17 x18 x19 x20)
    (h53 : V main_v53 = Cert.ReferenceIdeal.Read.val_main_v61 (F := Ideal) x1 x2 x3 x4 x5 x7 x8 x9 x10 x11 x12 x13 x14 x15 x16)
    (h1 : V main_v1 = Cert.ReferenceIdeal.Read.val_main_v1 (F := Ideal) x2) (h3 : V main_v3 = Cert.ReferenceIdeal.Read.val_main_v3 (F := Ideal) x2) :
    V4 V main_v134 = Cert.ReferenceIdeal.Read.val_main_v169 (F := Ideal) x0 x1 x2 x3 x4 x5 x6 x7 x8 x9 x10 x11 x12 x13 x14 x15 x16 x17 x18 x19 x20 := by
  unfold V4
  after_results_simp
  rw [hH, h53, h1, h3]
  rfl

/-- The layer's first weight matrix is matrix 3 of the stack. -/
theorem s4_W1 (j k : Fin 256) : V4 V main_v136 (ix2 j k) = (V main_arg17) (ix3 3 j k) := by
  unfold V4
  after_results_simp
  exact sliceMat _ _ 3 rfl rfl rfl _ _ j k

/-- Its first bias is row 3 of the stack. -/
theorem s4_b1 (k : Fin 256) : V4 V main_v143 (ix2 0 k) = (V main_arg18) (ix2 3 k) := by
  unfold V4
  after_results_simp
  exact sliceRow _ _ 3 rfl rfl _ _ _ k

/-- Its second weight matrix is matrix 3 of the stack. -/
theorem s4_W2 (k c : Fin 256) : V4 V main_v140 (ix2 k c) = (V main_arg19) (ix3 3 k c) := by
  unfold V4
  after_results_simp
  exact sliceMat _ _ 3 rfl rfl rfl _ _ k c

/-- Its second bias is row 3 of the stack. -/
theorem s4_b2 (c : Fin 256) : V4 V main_v144 (ix2 0 c) = (V main_arg20) (ix2 3 c) := by
  unfold V4
  after_results_simp
  exact sliceRow _ _ 3 rfl rfl _ _ _ c

/-! ## Before launch 5: the output kernel's host stretch -/

/-- The buffers after the output kernel's host stretch. -/
abbrev V5 : Valuation τ sig (Elt Ideal) := after hostOps5 V

/-- The literal 1.0. -/
theorem one32 : Ideal.ofBits .f32 0x3F800000#32 = (1 : EReal) := by
  simp [Ideal.ofBits, Ideal.ieee, -EReal.coe_mul]; norm_num

/-- The product of the two endpoint states of every edge: where the final node states and the two index arrays hold the
    reference's values, it is the reference's. -/
theorem s5_prod (x0 : (⟨S50000, .i32⟩ : BufTy).Contents (Elt Ideal)) (x1 : (⟨S300000, .i32⟩ : BufTy).Contents (Elt Ideal)) (x2 : (⟨S2x300000, .i32⟩ : BufTy).Contents (Elt Ideal)) (x3 : (⟨S50000, .i32⟩ : BufTy).Contents (Elt Ideal)) (x4 : (⟨S300000x1, .f32⟩ : BufTy).Contents (Elt Ideal)) (x5 : (⟨S1024, .f32⟩ : BufTy).Contents (Elt Ideal)) (x6 : (⟨S100x256, .f32⟩ : BufTy).Contents (Elt Ideal)) (x7 : (⟨S100x256, .f32⟩ : BufTy).Contents (Elt Ideal)) (x8 : (⟨S1x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S128, .f32⟩ : BufTy).Contents (Elt Ideal)) (x13 : (⟨S256x256, .f32⟩ : BufTy).Contents (Elt Ideal)) (x14 : (⟨S256, .f32⟩ : BufTy).Contents (Elt Ideal)) (x15 : (⟨S256x1, .f32⟩ : BufTy).Contents (Elt Ideal)) (x16 : (⟨S1, .f32⟩ : BufTy).Contents (Elt Ideal)) (x17 : (⟨S4x256x256, .f32⟩ : BufTy).Contents (Elt Ideal)) (x18 : (⟨S4x256, .f32⟩ : BufTy).Contents (Elt Ideal)) (x19 : (⟨S4x256x256, .f32⟩ : BufTy).Contents (Elt Ideal)) (x20 : (⟨S4x256, .f32⟩ : BufTy).Contents (Elt Ideal))
    (hH : V main_v145 = Cert.ReferenceIdeal.Read.val_main_v188 (F := Ideal) x0 x1 x2 x3 x4 x5 x6 x7 x8 x9 x10 x11 x12 x13 x14 x15 x16 x17 x18 x19 x20)
    (h1 : V main_v1 = Cert.ReferenceIdeal.Read.val_main_v1 (F := Ideal) x2) (h3 : V main_v3 = Cert.ReferenceIdeal.Read.val_main_v3 (F := Ideal) x2) :
    V5 V main_v160 = Cert.ReferenceIdeal.Read.val_main_v203 (F := Ideal) x0 x1 x2 x3 x4 x5 x6 x7 x8 x9 x10 x11 x12 x13 x14 x15 x16 x17 x18 x19 x20 := by
  unfold V5
  after_results_simp
  rw [hH, h1, h3]
  rfl

/-- The reciprocal of the noise scale of every edge's graph, as a column. -/
theorem s5_sinv (x2 : (⟨S2x300000, .i32⟩ : BufTy).Contents (Elt Ideal)) (x3 : (⟨S50000, .i32⟩ : BufTy).Contents (Elt Ideal)) (x5 : (⟨S1024, .f32⟩ : BufTy).Contents (Elt Ideal))
    (h10 : V main_v10 = Cert.ReferenceIdeal.Read.val_main_v10 (F := Ideal) x2 x3) (a5 : V main_arg5 = x5) (r : Fin 300000) :
    V5 V main_v180 (ix2 r 0) = Ideal.div 1 (Cert.ReferenceIdeal.Read.val_main_v236 (F := Ideal) x2 x3 x5 (ix1 r)) := by
  unfold V5
  after_results_simp
  rw [h10, a5]
  refine (shapeCast_apply _ _ (ix2 r 0) (ix1 r) ?_).trans ?_
  · rw [Shape.rowMajor_val_one, Shape.rowMajor_val_two]
    show r.val = r.val * 1 + 0
    omega
  · show Ideal.div (Ideal.ofBits .f32 0x3F800000#32) _ = _
    rw [one32]
    rfl

/-- The upper half of the first weight matrix of the output perceptron. -/
theorem s5_W1a (i j : Fin 256) : V5 V main_v181 (ix2 i j) = (V main_arg21) (ix2 ⟨i.val, by omega⟩ j) := by
  unfold V5
  after_results_simp
  exact extractStridedSlice_apply _ _ _ (ix2 i j) (ix2 ⟨i.val, by omega⟩ j) (fun a => by
    match a with
    | ⟨0, _⟩ => show i.val = 0 + i.val; omega
    | ⟨1, _⟩ => show j.val = 0 + j.val; omega)

/-- Its lower half. -/
theorem s5_W1b (i j : Fin 256) : V5 V main_v182 (ix2 i j) = (V main_arg21) (ix2 ⟨256 + i.val, by omega⟩ j) := by
  unfold V5
  after_results_simp
  exact extractStridedSlice_apply _ _ _ (ix2 i j) (ix2 ⟨256 + i.val, by omega⟩ j) (fun a => by
    match a with
    | ⟨0, _⟩ => show 256 + i.val = 256 + i.val; rfl
    | ⟨1, _⟩ => show j.val = 0 + j.val; omega)

/-- The first bias as a one-row block. -/
theorem s5_b1 (j : Fin 256) : V5 V main_v183 (ix2 0 j) = (V main_arg22) (ix1 j) := by
  unfold V5
  after_results_simp
  refine shapeCast_apply _ _ (ix2 0 j) (ix1 j) ?_
  rw [Shape.rowMajor_val_one, Shape.rowMajor_val_two]
  show j.val = 0 * 256 + j.val
  omega

/-- The second bias as a one-row block. -/
theorem s5_b2 (k : Fin 128) : V5 V main_v184 (ix2 0 k) = (V main_arg24) (ix1 k) := by
  unfold V5
  after_results_simp
  refine shapeCast_apply _ _ (ix2 0 k) (ix1 k) ?_
  rw [Shape.rowMajor_val_one, Shape.rowMajor_val_two]
  show k.val = 0 * 128 + k.val
  omega

/-- The last bias as a one-entry block. -/
theorem s5_b3 : V5 V main_v185 (ix2 0 0) = (V main_arg26) (ix1 0) := by
  unfold V5
  after_results_simp
  refine shapeCast_apply _ _ (ix2 0 0) (ix1 0) ?_
  rw [Shape.rowMajor_val_one, Shape.rowMajor_val_two]
  rfl

/-! ## After launch 5: the result flattened -/

/-- The program's result is the output kernel's column, flattened. -/
theorem s6_out (r : Fin 300000) : after hostOps6 V main_v187 (ix1 r) = (V main_v186) (ix2 r 0) := by
  after_results_simp
  refine shapeCast_apply _ _ (ix1 r) (ix2 r 0) ?_
  rw [Shape.rowMajor_val_one, Shape.rowMajor_val_two]
  show r.val * 1 + 0 = r.val
  omega

end Cert.KerThread

end
-- ==== Proof.Chain.lean ====
/-
  The kernel program, boundary by boundary.

  Between launches the host operations are the reference's own (the same gathers, scatter-adds, slices and reshapes), and
  each launch leaves the reference's next stage (the glue lemmas). So at every boundary of the kernel program the buffers
  that later segments read hold the reference's stages of the SAME argument arrays: the two index vectors and the
  edge-to-graph vector, the fused edge feature, the node state after each layer, and the arguments themselves (which
  nothing writes). This file carries that correspondence from the launch memory to the result buffer.
-/
import proofs.«143893_j1065151889700_2_alg».proof.Proof.Glue
import proofs.«143893_j1065151889700_2_alg».proof.Proof.KerThread
import Idealize.ShloMosaic.Lib.StableHlo.Run

set_option maxRecDepth 16384

noncomputable section

namespace Cert.Chain

open Cert.KernelIdeal Cert.KernelIdeal.Gen Idealize.ShloMosaic Idealize.ShloMosaic.TcCoe Idealize.ShloMosaic.ValueIdx
open Idealize.SL.Sem Idealize.ShloMosaic.StableHlo

/-- What every later segment may read of the early host stretch and of the arguments: the source and destination index
    vectors, the edge-to-graph vector, and the arguments used after the first launch. -/
structure Live (W : Valuation τ sig (Elt Ideal)) (a0 : (⟨Cert.ReferenceIdeal.S50000, .i32⟩ : BufTy).Contents (Elt Ideal)) (a1 : (⟨Cert.ReferenceIdeal.S300000, .i32⟩ : BufTy).Contents (Elt Ideal)) (a2 : (⟨Cert.ReferenceIdeal.S2x300000, .i32⟩ : BufTy).Contents (Elt Ideal)) (a3 : (⟨Cert.ReferenceIdeal.S50000, .i32⟩ : BufTy).Contents (Elt Ideal)) (a4 : (⟨Cert.ReferenceIdeal.S300000x1, .f32⟩ : BufTy).Contents (Elt Ideal)) (a5 : (⟨Cert.ReferenceIdeal.S1024, .f32⟩ : BufTy).Contents (Elt Ideal)) (a6 : (⟨Cert.ReferenceIdeal.S100x256, .f32⟩ : BufTy).Contents (Elt Ideal)) (a7 : (⟨Cert.ReferenceIdeal.S100x256, .f32⟩ : BufTy).Contents (Elt Ideal)) (a8 : (⟨Cert.ReferenceIdeal.S1x256, .f32⟩ : BufTy).Contents (Elt Ideal)) (a9 : (⟨Cert.ReferenceIdeal.S256, .f32⟩ : BufTy).Contents (Elt Ideal)) (a10 : (⟨Cert.ReferenceIdeal.S256x256, .f32⟩ : BufTy).Contents (Elt Ideal)) (a11 : (⟨Cert.ReferenceIdeal.S256, .f32⟩ : BufTy).Contents (Elt Ideal)) (a12 : (⟨Cert.ReferenceIdeal.S128, .f32⟩ : BufTy).Contents (Elt Ideal)) (a13 : (⟨Cert.ReferenceIdeal.S256x256, .f32⟩ : BufTy).Contents (Elt Ideal)) (a14 : (⟨Cert.ReferenceIdeal.S256, .f32⟩ : BufTy).Contents (Elt Ideal)) (a15 : (⟨Cert.ReferenceIdeal.S256x1, .f32⟩ : BufTy).Contents (Elt Ideal)) (a16 : (⟨Cert.ReferenceIdeal.S1, .f32⟩ : BufTy).Contents (Elt Ideal)) (a17 : (⟨Cert.ReferenceIdeal.S4x256x256, .f32⟩ : BufTy).Contents (Elt Ideal)) (a18 : (⟨Cert.ReferenceIdeal.S4x256, .f32⟩ : BufTy).Contents (Elt Ideal)) (a19 : (⟨Cert.ReferenceIdeal.S4x256x256, .f32⟩ : BufTy).Contents (Elt Ideal)) (a20 : (⟨Cert.ReferenceIdeal.S4x256, .f32⟩ : BufTy).Contents (Elt Ideal)) (a21 : (⟨Cert.ReferenceIdeal.S512x256, .f32⟩ : BufTy).Contents (Elt Ideal)) (a22 : (⟨Cert.ReferenceIdeal.S256, .f32⟩ : BufTy).Contents (Elt Ideal)) (a23 : (⟨Cert.ReferenceIdeal.S256x128, .f32⟩ : BufTy).Contents (Elt Ideal)) (a24 : (⟨Cert.ReferenceIdeal.S128, .f32⟩ : BufTy).Contents (Elt Ideal)) (a25 : (⟨Cert.ReferenceIdeal.S128x1, .f32⟩ : BufTy).Contents (Elt Ideal)) (a26 : (⟨Cert.ReferenceIdeal.S1, .f32⟩ : BufTy).Contents (Elt Ideal)) : Prop where
  v1 : W (Proc.devRef .tc main_v1) = Cert.ReferenceIdeal.Read.val_main_v1 (F := Ideal) a2
  v3 : W (Proc.devRef .tc main_v3) = Cert.ReferenceIdeal.Read.val_main_v3 (F := Ideal) a2
  v10 : W (Proc.devRef .tc main_v10) = Cert.ReferenceIdeal.Read.val_main_v10 (F := Ideal) a2 a3
  arg5 : W (Proc.devRef .tc main_arg5) = a5
  arg17 : W (Proc.devRef .tc main_arg17) = a17
  arg18 : W (Proc.devRef .tc main_arg18) = a18
  arg19 : W (Proc.devRef .tc main_arg19) = a19
  arg20 : W (Proc.devRef .tc main_arg20) = a20
  arg21 : W (Proc.devRef .tc main_arg21) = a21
  arg22 : W (Proc.devRef .tc main_arg22) = a22
  arg23 : W (Proc.devRef .tc main_arg23) = a23
  arg24 : W (Proc.devRef .tc main_arg24) = a24
  arg25 : W (Proc.devRef .tc main_arg25) = a25
  arg26 : W (Proc.devRef .tc main_arg26) = a26

/-- The references a `Live` bundle speaks of. -/
abbrev liveRefs : List (Ref sig .tc) := [main_v1, main_v3, main_v10, main_arg5, main_arg17, main_arg18, main_arg19, main_arg20, main_arg21, main_arg22, main_arg23, main_arg24, main_arg25, main_arg26]

/-- A host stretch that writes none of them carries the bundle. -/
theorem Live.host {W : Valuation τ sig (Elt Ideal)} {a0 : (⟨Cert.ReferenceIdeal.S50000, .i32⟩ : BufTy).Contents (Elt Ideal)} {a1 : (⟨Cert.ReferenceIdeal.S300000, .i32⟩ : BufTy).Contents (Elt Ideal)} {a2 : (⟨Cert.ReferenceIdeal.S2x300000, .i32⟩ : BufTy).Contents (Elt Ideal)} {a3 : (⟨Cert.ReferenceIdeal.S50000, .i32⟩ : BufTy).Contents (Elt Ideal)} {a4 : (⟨Cert.ReferenceIdeal.S300000x1, .f32⟩ : BufTy).Contents (Elt Ideal)} {a5 : (⟨Cert.ReferenceIdeal.S1024, .f32⟩ : BufTy).Contents (Elt Ideal)} {a6 : (⟨Cert.ReferenceIdeal.S100x256, .f32⟩ : BufTy).Contents (Elt Ideal)} {a7 : (⟨Cert.ReferenceIdeal.S100x256, .f32⟩ : BufTy).Contents (Elt Ideal)} {a8 : (⟨Cert.ReferenceIdeal.S1x256, .f32⟩ : BufTy).Contents (Elt Ideal)} {a9 : (⟨Cert.ReferenceIdeal.S256, .f32⟩ : BufTy).Contents (Elt Ideal)} {a10 : (⟨Cert.ReferenceIdeal.S256x256, .f32⟩ : BufTy).Contents (Elt Ideal)} {a11 : (⟨Cert.ReferenceIdeal.S256, .f32⟩ : BufTy).Contents (Elt Ideal)} {a12 : (⟨Cert.ReferenceIdeal.S128, .f32⟩ : BufTy).Contents (Elt Ideal)} {a13 : (⟨Cert.ReferenceIdeal.S256x256, .f32⟩ : BufTy).Contents (Elt Ideal)} {a14 : (⟨Cert.ReferenceIdeal.S256, .f32⟩ : BufTy).Contents (Elt Ideal)} {a15 : (⟨Cert.ReferenceIdeal.S256x1, .f32⟩ : BufTy).Contents (Elt Ideal)} {a16 : (⟨Cert.ReferenceIdeal.S1, .f32⟩ : BufTy).Contents (Elt Ideal)} {a17 : (⟨Cert.ReferenceIdeal.S4x256x256, .f32⟩ : BufTy).Contents (Elt Ideal)} {a18 : (⟨Cert.ReferenceIdeal.S4x256, .f32⟩ : BufTy).Contents (Elt Ideal)} {a19 : (⟨Cert.ReferenceIdeal.S4x256x256, .f32⟩ : BufTy).Contents (Elt Ideal)} {a20 : (⟨Cert.ReferenceIdeal.S4x256, .f32⟩ : BufTy).Contents (Elt Ideal)} {a21 : (⟨Cert.ReferenceIdeal.S512x256, .f32⟩ : BufTy).Contents (Elt Ideal)} {a22 : (⟨Cert.ReferenceIdeal.S256, .f32⟩ : BufTy).Contents (Elt Ideal)} {a23 : (⟨Cert.ReferenceIdeal.S256x128, .f32⟩ : BufTy).Contents (Elt Ideal)} {a24 : (⟨Cert.ReferenceIdeal.S128, .f32⟩ : BufTy).Contents (Elt Ideal)} {a25 : (⟨Cert.ReferenceIdeal.S128x1, .f32⟩ : BufTy).Contents (Elt Ideal)} {a26 : (⟨Cert.ReferenceIdeal.S1, .f32⟩ : BufTy).Contents (Elt Ideal)}
    (h : Live W a0 a1 a2 a3 a4 a5 a6 a7 a8 a9 a10 a11 a12 a13 a14 a15 a16 a17 a18 a19 a20 a21 a22 a23 a24 a25 a26) (ops : List (HloOp τ sig (Elt Ideal)))
    (hk : ∀ op ∈ ops, ∀ b ∈ liveRefs, (Proc.devRef .tc b : DevRef τ sig) ∉ op.writes) : Live (after ops W) a0 a1 a2 a3 a4 a5 a6 a7 a8 a9 a10 a11 a12 a13 a14 a15 a16 a17 a18 a19 a20 a21 a22 a23 a24 a25 a26 where
  v1 := (after_of_forall_not_mem ops W fun op ho => hk op ho main_v1 (by simp [liveRefs])).trans h.v1
  v3 := (after_of_forall_not_mem ops W fun op ho => hk op ho main_v3 (by simp [liveRefs])).trans h.v3
  v10 := (after_of_forall_not_mem ops W fun op ho => hk op ho main_v10 (by simp [liveRefs])).trans h.v10
  arg5 := (after_of_forall_not_mem ops W fun op ho => hk op ho main_arg5 (by simp [liveRefs])).trans h.arg5
  arg17 := (after_of_forall_not_mem ops W fun op ho => hk op ho main_arg17 (by simp [liveRefs])).trans h.arg17
  arg18 := (after_of_forall_not_mem ops W fun op ho => hk op ho main_arg18 (by simp [liveRefs])).trans h.arg18
  arg19 := (after_of_forall_not_mem ops W fun op ho => hk op ho main_arg19 (by simp [liveRefs])).trans h.arg19
  arg20 := (after_of_forall_not_mem ops W fun op ho => hk op ho main_arg20 (by simp [liveRefs])).trans h.arg20
  arg21 := (after_of_forall_not_mem ops W fun op ho => hk op ho main_arg21 (by simp [liveRefs])).trans h.arg21
  arg22 := (after_of_forall_not_mem ops W fun op ho => hk op ho main_arg22 (by simp [liveRefs])).trans h.arg22
  arg23 := (after_of_forall_not_mem ops W fun op ho => hk op ho main_arg23 (by simp [liveRefs])).trans h.arg23
  arg24 := (after_of_forall_not_mem ops W fun op ho => hk op ho main_arg24 (by simp [liveRefs])).trans h.arg24
  arg25 := (after_of_forall_not_mem ops W fun op ho => hk op ho main_arg25 (by simp [liveRefs])).trans h.arg25
  arg26 := (after_of_forall_not_mem ops W fun op ho => hk op ho main_arg26 (by simp [liveRefs])).trans h.arg26

variable (m : (ℓ : Loc nD τ sig) → Buf (Elt Ideal) ℓ) (ρ : Dev nD → PrngReg) (c : Dev nD)

/-- Through layer 1: host stretch, launch 1. -/
theorem step_layer1 (a0 : (⟨Cert.ReferenceIdeal.S50000, .i32⟩ : BufTy).Contents (Elt Ideal)) (a1 : (⟨Cert.ReferenceIdeal.S300000, .i32⟩ : BufTy).Contents (Elt Ideal)) (a2 : (⟨Cert.ReferenceIdeal.S2x300000, .i32⟩ : BufTy).Contents (Elt Ideal)) (a3 : (⟨Cert.ReferenceIdeal.S50000, .i32⟩ : BufTy).Contents (Elt Ideal)) (a4 : (⟨Cert.ReferenceIdeal.S300000x1, .f32⟩ : BufTy).Contents (Elt Ideal)) (a5 : (⟨Cert.ReferenceIdeal.S1024, .f32⟩ : BufTy).Contents (Elt Ideal)) (a6 : (⟨Cert.ReferenceIdeal.S100x256, .f32⟩ : BufTy).Contents (Elt Ideal)) (a7 : (⟨Cert.ReferenceIdeal.S100x256, .f32⟩ : BufTy).Contents (Elt Ideal)) (a8 : (⟨Cert.ReferenceIdeal.S1x256, .f32⟩ : BufTy).Contents (Elt Ideal)) (a9 : (⟨Cert.ReferenceIdeal.S256, .f32⟩ : BufTy).Contents (Elt Ideal)) (a10 : (⟨Cert.ReferenceIdeal.S256x256, .f32⟩ : BufTy).Contents (Elt Ideal)) (a11 : (⟨Cert.ReferenceIdeal.S256, .f32⟩ : BufTy).Contents (Elt Ideal)) (a12 : (⟨Cert.ReferenceIdeal.S128, .f32⟩ : BufTy).Contents (Elt Ideal)) (a13 : (⟨Cert.ReferenceIdeal.S256x256, .f32⟩ : BufTy).Contents (Elt Ideal)) (a14 : (⟨Cert.ReferenceIdeal.S256, .f32⟩ : BufTy).Contents (Elt Ideal)) (a15 : (⟨Cert.ReferenceIdeal.S256x1, .f32⟩ : BufTy).Contents (Elt Ideal)) (a16 : (⟨Cert.ReferenceIdeal.S1, .f32⟩ : BufTy).Contents (Elt Ideal)) (a17 : (⟨Cert.ReferenceIdeal.S4x256x256, .f32⟩ : BufTy).Contents (Elt Ideal)) (a18 : (⟨Cert.ReferenceIdeal.S4x256, .f32⟩ : BufTy).Contents (Elt Ideal)) (a19 : (⟨Cert.ReferenceIdeal.S4x256x256, .f32⟩ : BufTy).Contents (Elt Ideal)) (a20 : (⟨Cert.ReferenceIdeal.S4x256, .f32⟩ : BufTy).Contents (Elt Ideal)) (a21 : (⟨Cert.ReferenceIdeal.S512x256, .f32⟩ : BufTy).Contents (Elt Ideal)) (a22 : (⟨Cert.ReferenceIdeal.S256, .f32⟩ : BufTy).Contents (Elt Ideal)) (a23 : (⟨Cert.ReferenceIdeal.S256x128, .f32⟩ : BufTy).Contents (Elt Ideal)) (a24 : (⟨Cert.ReferenceIdeal.S128, .f32⟩ : BufTy).Contents (Elt Ideal)) (a25 : (⟨Cert.ReferenceIdeal.S128x1, .f32⟩ : BufTy).Contents (Elt Ideal)) (a26 : (⟨Cert.ReferenceIdeal.S1, .f32⟩ : BufTy).Contents (Elt Ideal))
    (hl : Live (W2 m ρ c) a0 a1 a2 a3 a4 a5 a6 a7 a8 a9 a10 a11 a12 a13 a14 a15 a16 a17 a18 a19 a20 a21 a22 a23 a24 a25 a26)
    (h53 : W2 m ρ c (Proc.devRef .tc main_v53) = Cert.ReferenceIdeal.Read.val_main_v61 (F := Ideal) a1 a2 a3 a4 a5 a7 a8 a9 a10 a11 a12 a13 a14 a15 a16)
    (hh : W2 m ρ c (Proc.devRef .tc main_v42) = Cert.ReferenceIdeal.Read.val_main_v35 (F := Ideal) a0 a6) :
    Live (W6 m ρ c) a0 a1 a2 a3 a4 a5 a6 a7 a8 a9 a10 a11 a12 a13 a14 a15 a16 a17 a18 a19 a20 a21 a22 a23 a24 a25 a26
      ∧ W6 m ρ c (Proc.devRef .tc main_v53) = Cert.ReferenceIdeal.Read.val_main_v61 (F := Ideal) a1 a2 a3 a4 a5 a7 a8 a9 a10 a11 a12 a13 a14 a15 a16
      ∧ W6 m ρ c (Proc.devRef .tc main_v76) = Cert.ReferenceIdeal.Read.val_main_v93 (F := Ideal) a0 a1 a2 a3 a4 a5 a6 a7 a8 a9 a10 a11 a12 a13 a14 a15 a16 a17 a18 a19 a20 := by
  have l5 : Live (after hostOps1_2 (after hostOps1_1 (after hostOps1 (W2 m ρ c)))) a0 a1 a2 a3 a4 a5 a6 a7 a8 a9 a10 a11 a12 a13 a14 a15 a16 a17 a18 a19 a20 a21 a22 a23 a24 a25 a26 :=
    ((hl.host hostOps1 (by decide +kernel)).host hostOps1_1 (by decide +kernel)).host hostOps1_2 (by decide +kernel)
  have k53 : after hostOps1_2 (after hostOps1_1 (after hostOps1 (W2 m ρ c))) (Proc.devRef .tc main_v53) = Cert.ReferenceIdeal.Read.val_main_v61 (F := Ideal) a1 a2 a3 a4 a5 a7 a8 a9 a10 a11 a12 a13 a14 a15 a16 :=
    ((after_of_forall_not_mem hostOps1_2 _ (by decide +kernel)).trans ((after_of_forall_not_mem hostOps1_1 _ (by decide +kernel)).trans (after_of_forall_not_mem hostOps1 _ (by decide +kernel)))).trans h53
  have e0 : V5 m ρ c main_v42 = Cert.ReferenceIdeal.Read.val_main_v35 (F := Ideal) a0 a6 :=
    ((after_of_forall_not_mem hostOps1_2 _ (by decide +kernel)).trans ((after_of_forall_not_mem hostOps1_1 _ (by decide +kernel)).trans (after_of_forall_not_mem hostOps1 _ (by decide +kernel)))).trans hh
  have e1 : V5 m ρ c main_v65 = Cert.ReferenceIdeal.Read.val_main_v73 (F := Ideal) a0 a1 a2 a3 a4 a5 a6 a7 a8 a9 a10 a11 a12 a13 a14 a15 a16 :=
    Cert.KerThread.s1_aggr (W2 m ρ c) a0 a1 a2 a3 a4 a5 a6 a7 a8 a9 a10 a11 a12 a13 a14 a15 a16 hh h53 hl.v1 hl.v3
  have e2 : ∀ (j k : Fin 256), V5 m ρ c main_v67 (ix2 j k) = a17 (ix3 0 j k) := fun j k =>
    (Cert.KerThread.s1_W1 (W2 m ρ c) j k).trans (by rw [hl.arg17])
  have e3 : ∀ k : Fin 256, V5 m ρ c main_v74 (ix2 0 k) = a18 (ix2 0 k) := fun k =>
    (Cert.KerThread.s1_b1 (W2 m ρ c) k).trans (by rw [hl.arg18])
  have e4 : ∀ (k c' : Fin 256), V5 m ρ c main_v71 (ix2 k c') = a19 (ix3 0 k c') := fun k c' =>
    (Cert.KerThread.s1_W2 (W2 m ρ c) k c').trans (by rw [hl.arg19])
  have e5 : ∀ c' : Fin 256, V5 m ρ c main_v75 (ix2 0 c') = a20 (ix2 0 c') := fun c' =>
    (Cert.KerThread.s1_b2 (W2 m ρ c) c').trans (by rw [hl.arg20])
  have out : W6 m ρ c (Proc.devRef .tc main_v76) = Cert.ReferenceIdeal.Read.val_main_v93 (F := Ideal) a0 a1 a2 a3 a4 a5 a6 a7 a8 a9 a10 a11 a12 a13 a14 a15 a16 a17 a18 a19 a20 :=
    (W6_arr m ρ c 6).trans ((Cert.KernelIdeal.Layer1.final (V5 m ρ) c).trans
      (Cert.Glue.layer1_val (V5 m ρ) c a0 a1 a2 a3 a4 a5 a6 a7 a8 a9 a10 a11 a12 a13 a14 a15 a16 a17 a18 a19 a20 e0 e1 e2 e3 e4 e5))
  exact ⟨⟨(W6_of_ne m ρ c main_v1 (by decide)).trans l5.v1,
    (W6_of_ne m ρ c main_v3 (by decide)).trans l5.v3,
    (W6_of_ne m ρ c main_v10 (by decide)).trans l5.v10,
    (W6_of_ne m ρ c main_arg5 (by decide)).trans l5.arg5,
    (W6_of_ne m ρ c main_arg17 (by decide)).trans l5.arg17,
    (W6_of_ne m ρ c main_arg18 (by decide)).trans l5.arg18,
    (W6_of_ne m ρ c main_arg19 (by decide)).trans l5.arg19,
    (W6_of_ne m ρ c main_arg20 (by decide)).trans l5.arg20,
    (W6_of_ne m ρ c main_arg21 (by decide)).trans l5.arg21,
    (W6_of_ne m ρ c main_arg22 (by decide)).trans l5.arg22,
    (W6_of_ne m ρ c main_arg23 (by decide)).trans l5.arg23,
    (W6_of_ne m ρ c main_arg24 (by decide)).trans l5.arg24,
    (W6_of_ne m ρ c main_arg25 (by decide)).trans l5.arg25,
    (W6_of_ne m ρ c main_arg26 (by decide)).trans l5.arg26⟩,
    (W6_of_ne m ρ c main_v53 (by decide)).trans k53, out⟩

/-- Through layer 2: host stretch, launch 2. -/
theorem step_layer2 (a0 : (⟨Cert.ReferenceIdeal.S50000, .i32⟩ : BufTy).Contents (Elt Ideal)) (a1 : (⟨Cert.ReferenceIdeal.S300000, .i32⟩ : BufTy).Contents (Elt Ideal)) (a2 : (⟨Cert.ReferenceIdeal.S2x300000, .i32⟩ : BufTy).Contents (Elt Ideal)) (a3 : (⟨Cert.ReferenceIdeal.S50000, .i32⟩ : BufTy).Contents (Elt Ideal)) (a4 : (⟨Cert.ReferenceIdeal.S300000x1, .f32⟩ : BufTy).Contents (Elt Ideal)) (a5 : (⟨Cert.ReferenceIdeal.S1024, .f32⟩ : BufTy).Contents (Elt Ideal)) (a6 : (⟨Cert.ReferenceIdeal.S100x256, .f32⟩ : BufTy).Contents (Elt Ideal)) (a7 : (⟨Cert.ReferenceIdeal.S100x256, .f32⟩ : BufTy).Contents (Elt Ideal)) (a8 : (⟨Cert.ReferenceIdeal.S1x256, .f32⟩ : BufTy).Contents (Elt Ideal)) (a9 : (⟨Cert.ReferenceIdeal.S256, .f32⟩ : BufTy).Contents (Elt Ideal)) (a10 : (⟨Cert.ReferenceIdeal.S256x256, .f32⟩ : BufTy).Contents (Elt Ideal)) (a11 : (⟨Cert.ReferenceIdeal.S256, .f32⟩ : BufTy).Contents (Elt Ideal)) (a12 : (⟨Cert.ReferenceIdeal.S128, .f32⟩ : BufTy).Contents (Elt Ideal)) (a13 : (⟨Cert.ReferenceIdeal.S256x256, .f32⟩ : BufTy).Contents (Elt Ideal)) (a14 : (⟨Cert.ReferenceIdeal.S256, .f32⟩ : BufTy).Contents (Elt Ideal)) (a15 : (⟨Cert.ReferenceIdeal.S256x1, .f32⟩ : BufTy).Contents (Elt Ideal)) (a16 : (⟨Cert.ReferenceIdeal.S1, .f32⟩ : BufTy).Contents (Elt Ideal)) (a17 : (⟨Cert.ReferenceIdeal.S4x256x256, .f32⟩ : BufTy).Contents (Elt Ideal)) (a18 : (⟨Cert.ReferenceIdeal.S4x256, .f32⟩ : BufTy).Contents (Elt Ideal)) (a19 : (⟨Cert.ReferenceIdeal.S4x256x256, .f32⟩ : BufTy).Contents (Elt Ideal)) (a20 : (⟨Cert.ReferenceIdeal.S4x256, .f32⟩ : BufTy).Contents (Elt Ideal)) (a21 : (⟨Cert.ReferenceIdeal.S512x256, .f32⟩ : BufTy).Contents (Elt Ideal)) (a22 : (⟨Cert.ReferenceIdeal.S256, .f32⟩ : BufTy).Contents (Elt Ideal)) (a23 : (⟨Cert.ReferenceIdeal.S256x128, .f32⟩ : BufTy).Contents (Elt Ideal)) (a24 : (⟨Cert.ReferenceIdeal.S128, .f32⟩ : BufTy).Contents (Elt Ideal)) (a25 : (⟨Cert.ReferenceIdeal.S128x1, .f32⟩ : BufTy).Contents (Elt Ideal)) (a26 : (⟨Cert.ReferenceIdeal.S1, .f32⟩ : BufTy).Contents (Elt Ideal))
    (hl : Live (W6 m ρ c) a0 a1 a2 a3 a4 a5 a6 a7 a8 a9 a10 a11 a12 a13 a14 a15 a16 a17 a18 a19 a20 a21 a22 a23 a24 a25 a26)
    (h53 : W6 m ρ c (Proc.devRef .tc main_v53) = Cert.ReferenceIdeal.Read.val_main_v61 (F := Ideal) a1 a2 a3 a4 a5 a7 a8 a9 a10 a11 a12 a13 a14 a15 a16)
    (hh : W6 m ρ c (Proc.devRef .tc main_v76) = Cert.ReferenceIdeal.Read.val_main_v93 (F := Ideal) a0 a1 a2 a3 a4 a5 a6 a7 a8 a9 a10 a11 a12 a13 a14 a15 a16 a17 a18 a19 a20) :
    Live (W10 m ρ c) a0 a1 a2 a3 a4 a5 a6 a7 a8 a9 a10 a11 a12 a13 a14 a15 a16 a17 a18 a19 a20 a21 a22 a23 a24 a25 a26
      ∧ W10 m ρ c (Proc.devRef .tc main_v53) = Cert.ReferenceIdeal.Read.val_main_v61 (F := Ideal) a1 a2 a3 a4 a5 a7 a8 a9 a10 a11 a12 a13 a14 a15 a16
      ∧ W10 m ρ c (Proc.devRef .tc main_v99) = Cert.ReferenceIdeal.Read.val_main_v125 (F := Ideal) a0 a1 a2 a3 a4 a5 a6 a7 a8 a9 a10 a11 a12 a13 a14 a15 a16 a17 a18 a19 a20 := by
  have l5 : Live (after hostOps2_2 (after hostOps2_1 (after hostOps2 (W6 m ρ c)))) a0 a1 a2 a3 a4 a5 a6 a7 a8 a9 a10 a11 a12 a13 a14 a15 a16 a17 a18 a19 a20 a21 a22 a23 a24 a25 a26 :=
    ((hl.host hostOps2 (by decide +kernel)).host hostOps2_1 (by decide +kernel)).host hostOps2_2 (by decide +kernel)
  have k53 : after hostOps2_2 (after hostOps2_1 (after hostOps2 (W6 m ρ c))) (Proc.devRef .tc main_v53) = Cert.ReferenceIdeal.Read.val_main_v61 (F := Ideal) a1 a2 a3 a4 a5 a7 a8 a9 a10 a11 a12 a13 a14 a15 a16 :=
    ((after_of_forall_not_mem hostOps2_2 _ (by decide +kernel)).trans ((after_of_forall_not_mem hostOps2_1 _ (by decide +kernel)).trans (after_of_forall_not_mem hostOps2 _ (by decide +kernel)))).trans h53
  have e0 : V9 m ρ c main_v76 = Cert.ReferenceIdeal.Read.val_main_v93 (F := Ideal) a0 a1 a2 a3 a4 a5 a6 a7 a8 a9 a10 a11 a12 a13 a14 a15 a16 a17 a18 a19 a20 :=
    ((after_of_forall_not_mem hostOps2_2 _ (by decide +kernel)).trans ((after_of_forall_not_mem hostOps2_1 _ (by decide +kernel)).trans (after_of_forall_not_mem hostOps2 _ (by decide +kernel)))).trans hh
  have e1 : V9 m ρ c main_v88 = Cert.ReferenceIdeal.Read.val_main_v105 (F := Ideal) a0 a1 a2 a3 a4 a5 a6 a7 a8 a9 a10 a11 a12 a13 a14 a15 a16 a17 a18 a19 a20 :=
    Cert.KerThread.s2_aggr (W6 m ρ c) a0 a1 a2 a3 a4 a5 a6 a7 a8 a9 a10 a11 a12 a13 a14 a15 a16 a17 a18 a19 a20 hh h53 hl.v1 hl.v3
  have e2 : ∀ (j k : Fin 256), V9 m ρ c main_v90 (ix2 j k) = a17 (ix3 1 j k) := fun j k =>
    (Cert.KerThread.s2_W1 (W6 m ρ c) j k).trans (by rw [hl.arg17])
  have e3 : ∀ k : Fin 256, V9 m ρ c main_v97 (ix2 0 k) = a18 (ix2 1 k) := fun k =>
    (Cert.KerThread.s2_b1 (W6 m ρ c) k).trans (by rw [hl.arg18])
  have e4 : ∀ (k c' : Fin 256), V9 m ρ c main_v94 (ix2 k c') = a19 (ix3 1 k c') := fun k c' =>
    (Cert.KerThread.s2_W2 (W6 m ρ c) k c').trans (by rw [hl.arg19])
  have e5 : ∀ c' : Fin 256, V9 m ρ c main_v98 (ix2 0 c') = a20 (ix2 1 c') := fun c' =>
    (Cert.KerThread.s2_b2 (W6 m ρ c) c').trans (by rw [hl.arg20])
  have out : W10 m ρ c (Proc.devRef .tc main_v99) = Cert.ReferenceIdeal.Read.val_main_v125 (F := Ideal) a0 a1 a2 a3 a4 a5 a6 a7 a8 a9 a10 a11 a12 a13 a14 a15 a16 a17 a18 a19 a20 :=
    (W10_arr m ρ c 6).trans ((Cert.KernelIdeal.Layer2.final (V9 m ρ) c).trans
      (Cert.Glue.layer2_val (V9 m ρ) c a0 a1 a2 a3 a4 a5 a6 a7 a8 a9 a10 a11 a12 a13 a14 a15 a16 a17 a18 a19 a20 e0 e1 e2 e3 e4 e5))
  exact ⟨⟨(W10_of_ne m ρ c main_v1 (by decide)).trans l5.v1,
    (W10_of_ne m ρ c main_v3 (by decide)).trans l5.v3,
    (W10_of_ne m ρ c main_v10 (by decide)).trans l5.v10,
    (W10_of_ne m ρ c main_arg5 (by decide)).trans l5.arg5,
    (W10_of_ne m ρ c main_arg17 (by decide)).trans l5.arg17,
    (W10_of_ne m ρ c main_arg18 (by decide)).trans l5.arg18,
    (W10_of_ne m ρ c main_arg19 (by decide)).trans l5.arg19,
    (W10_of_ne m ρ c main_arg20 (by decide)).trans l5.arg20,
    (W10_of_ne m ρ c main_arg21 (by decide)).trans l5.arg21,
    (W10_of_ne m ρ c main_arg22 (by decide)).trans l5.arg22,
    (W10_of_ne m ρ c main_arg23 (by decide)).trans l5.arg23,
    (W10_of_ne m ρ c main_arg24 (by decide)).trans l5.arg24,
    (W10_of_ne m ρ c main_arg25 (by decide)).trans l5.arg25,
    (W10_of_ne m ρ c main_arg26 (by decide)).trans l5.arg26⟩,
    (W10_of_ne m ρ c main_v53 (by decide)).trans k53, out⟩

/-- Through layer 3: host stretch, launch 3. -/
theorem step_layer3 (a0 : (⟨Cert.ReferenceIdeal.S50000, .i32⟩ : BufTy).Contents (Elt Ideal)) (a1 : (⟨Cert.ReferenceIdeal.S300000, .i32⟩ : BufTy).Contents (Elt Ideal)) (a2 : (⟨Cert.ReferenceIdeal.S2x300000, .i32⟩ : BufTy).Contents (Elt Ideal)) (a3 : (⟨Cert.ReferenceIdeal.S50000, .i32⟩ : BufTy).Contents (Elt Ideal)) (a4 : (⟨Cert.ReferenceIdeal.S300000x1, .f32⟩ : BufTy).Contents (Elt Ideal)) (a5 : (⟨Cert.ReferenceIdeal.S1024, .f32⟩ : BufTy).Contents (Elt Ideal)) (a6 : (⟨Cert.ReferenceIdeal.S100x256, .f32⟩ : BufTy).Contents (Elt Ideal)) (a7 : (⟨Cert.ReferenceIdeal.S100x256, .f32⟩ : BufTy).Contents (Elt Ideal)) (a8 : (⟨Cert.ReferenceIdeal.S1x256, .f32⟩ : BufTy).Contents (Elt Ideal)) (a9 : (⟨Cert.ReferenceIdeal.S256, .f32⟩ : BufTy).Contents (Elt Ideal)) (a10 : (⟨Cert.ReferenceIdeal.S256x256, .f32⟩ : BufTy).Contents (Elt Ideal)) (a11 : (⟨Cert.ReferenceIdeal.S256, .f32⟩ : BufTy).Contents (Elt Ideal)) (a12 : (⟨Cert.ReferenceIdeal.S128, .f32⟩ : BufTy).Contents (Elt Ideal)) (a13 : (⟨Cert.ReferenceIdeal.S256x256, .f32⟩ : BufTy).Contents (Elt Ideal)) (a14 : (⟨Cert.ReferenceIdeal.S256, .f32⟩ : BufTy).Contents (Elt Ideal)) (a15 : (⟨Cert.ReferenceIdeal.S256x1, .f32⟩ : BufTy).Contents (Elt Ideal)) (a16 : (⟨Cert.ReferenceIdeal.S1, .f32⟩ : BufTy).Contents (Elt Ideal)) (a17 : (⟨Cert.ReferenceIdeal.S4x256x256, .f32⟩ : BufTy).Contents (Elt Ideal)) (a18 : (⟨Cert.ReferenceIdeal.S4x256, .f32⟩ : BufTy).Contents (Elt Ideal)) (a19 : (⟨Cert.ReferenceIdeal.S4x256x256, .f32⟩ : BufTy).Contents (Elt Ideal)) (a20 : (⟨Cert.ReferenceIdeal.S4x256, .f32⟩ : BufTy).Contents (Elt Ideal)) (a21 : (⟨Cert.ReferenceIdeal.S512x256, .f32⟩ : BufTy).Contents (Elt Ideal)) (a22 : (⟨Cert.ReferenceIdeal.S256, .f32⟩ : BufTy).Contents (Elt Ideal)) (a23 : (⟨Cert.ReferenceIdeal.S256x128, .f32⟩ : BufTy).Contents (Elt Ideal)) (a24 : (⟨Cert.ReferenceIdeal.S128, .f32⟩ : BufTy).Contents (Elt Ideal)) (a25 : (⟨Cert.ReferenceIdeal.S128x1, .f32⟩ : BufTy).Contents (Elt Ideal)) (a26 : (⟨Cert.ReferenceIdeal.S1, .f32⟩ : BufTy).Contents (Elt Ideal))
    (hl : Live (W10 m ρ c) a0 a1 a2 a3 a4 a5 a6 a7 a8 a9 a10 a11 a12 a13 a14 a15 a16 a17 a18 a19 a20 a21 a22 a23 a24 a25 a26)
    (h53 : W10 m ρ c (Proc.devRef .tc main_v53) = Cert.ReferenceIdeal.Read.val_main_v61 (F := Ideal) a1 a2 a3 a4 a5 a7 a8 a9 a10 a11 a12 a13 a14 a15 a16)
    (hh : W10 m ρ c (Proc.devRef .tc main_v99) = Cert.ReferenceIdeal.Read.val_main_v125 (F := Ideal) a0 a1 a2 a3 a4 a5 a6 a7 a8 a9 a10 a11 a12 a13 a14 a15 a16 a17 a18 a19 a20) :
    Live (W14 m ρ c) a0 a1 a2 a3 a4 a5 a6 a7 a8 a9 a10 a11 a12 a13 a14 a15 a16 a17 a18 a19 a20 a21 a22 a23 a24 a25 a26
      ∧ W14 m ρ c (Proc.devRef .tc main_v53) = Cert.ReferenceIdeal.Read.val_main_v61 (F := Ideal) a1 a2 a3 a4 a5 a7 a8 a9 a10 a11 a12 a13 a14 a15 a16
      ∧ W14 m ρ c (Proc.devRef .tc main_v122) = Cert.ReferenceIdeal.Read.val_main_v157 (F := Ideal) a0 a1 a2 a3 a4 a5 a6 a7 a8 a9 a10 a11 a12 a13 a14 a15 a16 a17 a18 a19 a20 := by
  have l5 : Live (after hostOps3_2 (after hostOps3_1 (after hostOps3 (W10 m ρ c)))) a0 a1 a2 a3 a4 a5 a6 a7 a8 a9 a10 a11 a12 a13 a14 a15 a16 a17 a18 a19 a20 a21 a22 a23 a24 a25 a26 :=
    ((hl.host hostOps3 (by decide +kernel)).host hostOps3_1 (by decide +kernel)).host hostOps3_2 (by decide +kernel)
  have k53 : after hostOps3_2 (after hostOps3_1 (after hostOps3 (W10 m ρ c))) (Proc.devRef .tc main_v53) = Cert.ReferenceIdeal.Read.val_main_v61 (F := Ideal) a1 a2 a3 a4 a5 a7 a8 a9 a10 a11 a12 a13 a14 a15 a16 :=
    ((after_of_forall_not_mem hostOps3_2 _ (by decide +kernel)).trans ((after_of_forall_not_mem hostOps3_1 _ (by decide +kernel)).trans (after_of_forall_not_mem hostOps3 _ (by decide +kernel)))).trans h53
  have e0 : V13 m ρ c main_v99 = Cert.ReferenceIdeal.Read.val_main_v125 (F := Ideal) a0 a1 a2 a3 a4 a5 a6 a7 a8 a9 a10 a11 a12 a13 a14 a15 a16 a17 a18 a19 a20 :=
    ((after_of_forall_not_mem hostOps3_2 _ (by decide +kernel)).trans ((after_of_forall_not_mem hostOps3_1 _ (by decide +kernel)).trans (after_of_forall_not_mem hostOps3 _ (by decide +kernel)))).trans hh
  have e1 : V13 m ρ c main_v111 = Cert.ReferenceIdeal.Read.val_main_v137 (F := Ideal) a0 a1 a2 a3 a4 a5 a6 a7 a8 a9 a10 a11 a12 a13 a14 a15 a16 a17 a18 a19 a20 :=
    Cert.KerThread.s3_aggr (W10 m ρ c) a0 a1 a2 a3 a4 a5 a6 a7 a8 a9 a10 a11 a12 a13 a14 a15 a16 a17 a18 a19 a20 hh h53 hl.v1 hl.v3
  have e2 : ∀ (j k : Fin 256), V13 m ρ c main_v113 (ix2 j k) = a17 (ix3 2 j k) := fun j k =>
    (Cert.KerThread.s3_W1 (W10 m ρ c) j k).trans (by rw [hl.arg17])
  have e3 : ∀ k : Fin 256, V13 m ρ c main_v120 (ix2 0 k) = a18 (ix2 2 k) := fun k =>
    (Cert.KerThread.s3_b1 (W10 m ρ c) k).trans (by rw [hl.arg18])
  have e4 : ∀ (k c' : Fin 256), V13 m ρ c main_v117 (ix2 k c') = a19 (ix3 2 k c') := fun k c' =>
    (Cert.KerThread.s3_W2 (W10 m ρ c) k c').trans (by rw [hl.arg19])
  have e5 : ∀ c' : Fin 256, V13 m ρ c main_v121 (ix2 0 c') = a20 (ix2 2 c') := fun c' =>
    (Cert.KerThread.s3_b2 (W10 m ρ c) c').trans (by rw [hl.arg20])
  have out : W14 m ρ c (Proc.devRef .tc main_v122) = Cert.ReferenceIdeal.Read.val_main_v157 (F := Ideal) a0 a1 a2 a3 a4 a5 a6 a7 a8 a9 a10 a11 a12 a13 a14 a15 a16 a17 a18 a19 a20 :=
    (W14_arr m ρ c 6).trans ((Cert.KernelIdeal.Layer3.final (V13 m ρ) c).trans
      (Cert.Glue.layer3_val (V13 m ρ) c a0 a1 a2 a3 a4 a5 a6 a7 a8 a9 a10 a11 a12 a13 a14 a15 a16 a17 a18 a19 a20 e0 e1 e2 e3 e4 e5))
  exact ⟨⟨(W14_of_ne m ρ c main_v1 (by decide)).trans l5.v1,
    (W14_of_ne m ρ c main_v3 (by decide)).trans l5.v3,
    (W14_of_ne m ρ c main_v10 (by decide)).trans l5.v10,
    (W14_of_ne m ρ c main_arg5 (by decide)).trans l5.arg5,
    (W14_of_ne m ρ c main_arg17 (by decide)).trans l5.arg17,
    (W14_of_ne m ρ c main_arg18 (by decide)).trans l5.arg18,
    (W14_of_ne m ρ c main_arg19 (by decide)).trans l5.arg19,
    (W14_of_ne m ρ c main_arg20 (by decide)).trans l5.arg20,
    (W14_of_ne m ρ c main_arg21 (by decide)).trans l5.arg21,
    (W14_of_ne m ρ c main_arg22 (by decide)).trans l5.arg22,
    (W14_of_ne m ρ c main_arg23 (by decide)).trans l5.arg23,
    (W14_of_ne m ρ c main_arg24 (by decide)).trans l5.arg24,
    (W14_of_ne m ρ c main_arg25 (by decide)).trans l5.arg25,
    (W14_of_ne m ρ c main_arg26 (by decide)).trans l5.arg26⟩,
    (W14_of_ne m ρ c main_v53 (by decide)).trans k53, out⟩

/-- Through layer 4: host stretch, launch 4. -/
theorem step_layer4 (a0 : (⟨Cert.ReferenceIdeal.S50000, .i32⟩ : BufTy).Contents (Elt Ideal)) (a1 : (⟨Cert.ReferenceIdeal.S300000, .i32⟩ : BufTy).Contents (Elt Ideal)) (a2 : (⟨Cert.ReferenceIdeal.S2x300000, .i32⟩ : BufTy).Contents (Elt Ideal)) (a3 : (⟨Cert.ReferenceIdeal.S50000, .i32⟩ : BufTy).Contents (Elt Ideal)) (a4 : (⟨Cert.ReferenceIdeal.S300000x1, .f32⟩ : BufTy).Contents (Elt Ideal)) (a5 : (⟨Cert.ReferenceIdeal.S1024, .f32⟩ : BufTy).Contents (Elt Ideal)) (a6 : (⟨Cert.ReferenceIdeal.S100x256, .f32⟩ : BufTy).Contents (Elt Ideal)) (a7 : (⟨Cert.ReferenceIdeal.S100x256, .f32⟩ : BufTy).Contents (Elt Ideal)) (a8 : (⟨Cert.ReferenceIdeal.S1x256, .f32⟩ : BufTy).Contents (Elt Ideal)) (a9 : (⟨Cert.ReferenceIdeal.S256, .f32⟩ : BufTy).Contents (Elt Ideal)) (a10 : (⟨Cert.ReferenceIdeal.S256x256, .f32⟩ : BufTy).Contents (Elt Ideal)) (a11 : (⟨Cert.ReferenceIdeal.S256, .f32⟩ : BufTy).Contents (Elt Ideal)) (a12 : (⟨Cert.ReferenceIdeal.S128, .f32⟩ : BufTy).Contents (Elt Ideal)) (a13 : (⟨Cert.ReferenceIdeal.S256x256, .f32⟩ : BufTy).Contents (Elt Ideal)) (a14 : (⟨Cert.ReferenceIdeal.S256, .f32⟩ : BufTy).Contents (Elt Ideal)) (a15 : (⟨Cert.ReferenceIdeal.S256x1, .f32⟩ : BufTy).Contents (Elt Ideal)) (a16 : (⟨Cert.ReferenceIdeal.S1, .f32⟩ : BufTy).Contents (Elt Ideal)) (a17 : (⟨Cert.ReferenceIdeal.S4x256x256, .f32⟩ : BufTy).Contents (Elt Ideal)) (a18 : (⟨Cert.ReferenceIdeal.S4x256, .f32⟩ : BufTy).Contents (Elt Ideal)) (a19 : (⟨Cert.ReferenceIdeal.S4x256x256, .f32⟩ : BufTy).Contents (Elt Ideal)) (a20 : (⟨Cert.ReferenceIdeal.S4x256, .f32⟩ : BufTy).Contents (Elt Ideal)) (a21 : (⟨Cert.ReferenceIdeal.S512x256, .f32⟩ : BufTy).Contents (Elt Ideal)) (a22 : (⟨Cert.ReferenceIdeal.S256, .f32⟩ : BufTy).Contents (Elt Ideal)) (a23 : (⟨Cert.ReferenceIdeal.S256x128, .f32⟩ : BufTy).Contents (Elt Ideal)) (a24 : (⟨Cert.ReferenceIdeal.S128, .f32⟩ : BufTy).Contents (Elt Ideal)) (a25 : (⟨Cert.ReferenceIdeal.S128x1, .f32⟩ : BufTy).Contents (Elt Ideal)) (a26 : (⟨Cert.ReferenceIdeal.S1, .f32⟩ : BufTy).Contents (Elt Ideal))
    (hl : Live (W14 m ρ c) a0 a1 a2 a3 a4 a5 a6 a7 a8 a9 a10 a11 a12 a13 a14 a15 a16 a17 a18 a19 a20 a21 a22 a23 a24 a25 a26)
    (h53 : W14 m ρ c (Proc.devRef .tc main_v53) = Cert.ReferenceIdeal.Read.val_main_v61 (F := Ideal) a1 a2 a3 a4 a5 a7 a8 a9 a10 a11 a12 a13 a14 a15 a16)
    (hh : W14 m ρ c (Proc.devRef .tc main_v122) = Cert.ReferenceIdeal.Read.val_main_v157 (F := Ideal) a0 a1 a2 a3 a4 a5 a6 a7 a8 a9 a10 a11 a12 a13 a14 a15 a16 a17 a18 a19 a20) :
    Live (W18 m ρ c) a0 a1 a2 a3 a4 a5 a6 a7 a8 a9 a10 a11 a12 a13 a14 a15 a16 a17 a18 a19 a20 a21 a22 a23 a24 a25 a26
      ∧ W18 m ρ c (Proc.devRef .tc main_v53) = Cert.ReferenceIdeal.Read.val_main_v61 (F := Ideal) a1 a2 a3 a4 a5 a7 a8 a9 a10 a11 a12 a13 a14 a15 a16
      ∧ W18 m ρ c (Proc.devRef .tc main_v145) = Cert.ReferenceIdeal.Read.val_main_v188 (F := Ideal) a0 a1 a2 a3 a4 a5 a6 a7 a8 a9 a10 a11 a12 a13 a14 a15 a16 a17 a18 a19 a20 := by
  have l5 : Live (after hostOps4_2 (after hostOps4_1 (after hostOps4 (W14 m ρ c)))) a0 a1 a2 a3 a4 a5 a6 a7 a8 a9 a10 a11 a12 a13 a14 a15 a16 a17 a18 a19 a20 a21 a22 a23 a24 a25 a26 :=
    ((hl.host hostOps4 (by decide +kernel)).host hostOps4_1 (by decide +kernel)).host hostOps4_2 (by decide +kernel)
  have k53 : after hostOps4_2 (after hostOps4_1 (after hostOps4 (W14 m ρ c))) (Proc.devRef .tc main_v53) = Cert.ReferenceIdeal.Read.val_main_v61 (F := Ideal) a1 a2 a3 a4 a5 a7 a8 a9 a10 a11 a12 a13 a14 a15 a16 :=
    ((after_of_forall_not_mem hostOps4_2 _ (by decide +kernel)).trans ((after_of_forall_not_mem hostOps4_1 _ (by decide +kernel)).trans (after_of_forall_not_mem hostOps4 _ (by decide +kernel)))).trans h53
  have e0 : V17 m ρ c main_v122 = Cert.ReferenceIdeal.Read.val_main_v157 (F := Ideal) a0 a1 a2 a3 a4 a5 a6 a7 a8 a9 a10 a11 a12 a13 a14 a15 a16 a17 a18 a19 a20 :=
    ((after_of_forall_not_mem hostOps4_2 _ (by decide +kernel)).trans ((after_of_forall_not_mem hostOps4_1 _ (by decide +kernel)).trans (after_of_forall_not_mem hostOps4 _ (by decide +kernel)))).trans hh
  have e1 : V17 m ρ c main_v134 = Cert.ReferenceIdeal.Read.val_main_v169 (F := Ideal) a0 a1 a2 a3 a4 a5 a6 a7 a8 a9 a10 a11 a12 a13 a14 a15 a16 a17 a18 a19 a20 :=
    Cert.KerThread.s4_aggr (W14 m ρ c) a0 a1 a2 a3 a4 a5 a6 a7 a8 a9 a10 a11 a12 a13 a14 a15 a16 a17 a18 a19 a20 hh h53 hl.v1 hl.v3
  have e2 : ∀ (j k : Fin 256), V17 m ρ c main_v136 (ix2 j k) = a17 (ix3 3 j k) := fun j k =>
    (Cert.KerThread.s4_W1 (W14 m ρ c) j k).trans (by rw [hl.arg17])
  have e3 : ∀ k : Fin 256, V17 m ρ c main_v143 (ix2 0 k) = a18 (ix2 3 k) := fun k =>
    (Cert.KerThread.s4_b1 (W14 m ρ c) k).trans (by rw [hl.arg18])
  have e4 : ∀ (k c' : Fin 256), V17 m ρ c main_v140 (ix2 k c') = a19 (ix3 3 k c') := fun k c' =>
    (Cert.KerThread.s4_W2 (W14 m ρ c) k c').trans (by rw [hl.arg19])
  have e5 : ∀ c' : Fin 256, V17 m ρ c main_v144 (ix2 0 c') = a20 (ix2 3 c') := fun c' =>
    (Cert.KerThread.s4_b2 (W14 m ρ c) c').trans (by rw [hl.arg20])
  have out : W18 m ρ c (Proc.devRef .tc main_v145) = Cert.ReferenceIdeal.Read.val_main_v188 (F := Ideal) a0 a1 a2 a3 a4 a5 a6 a7 a8 a9 a10 a11 a12 a13 a14 a15 a16 a17 a18 a19 a20 :=
    (W18_arr m ρ c 6).trans ((Cert.KernelIdeal.Layer4.final (V17 m ρ) c).trans
      (Cert.Glue.layer4_val (V17 m ρ) c a0 a1 a2 a3 a4 a5 a6 a7 a8 a9 a10 a11 a12 a13 a14 a15 a16 a17 a18 a19 a20 e0 e1 e2 e3 e4 e5))
  exact ⟨⟨(W18_of_ne m ρ c main_v1 (by decide)).trans l5.v1,
    (W18_of_ne m ρ c main_v3 (by decide)).trans l5.v3,
    (W18_of_ne m ρ c main_v10 (by decide)).trans l5.v10,
    (W18_of_ne m ρ c main_arg5 (by decide)).trans l5.arg5,
    (W18_of_ne m ρ c main_arg17 (by decide)).trans l5.arg17,
    (W18_of_ne m ρ c main_arg18 (by decide)).trans l5.arg18,
    (W18_of_ne m ρ c main_arg19 (by decide)).trans l5.arg19,
    (W18_of_ne m ρ c main_arg20 (by decide)).trans l5.arg20,
    (W18_of_ne m ρ c main_arg21 (by decide)).trans l5.arg21,
    (W18_of_ne m ρ c main_arg22 (by decide)).trans l5.arg22,
    (W18_of_ne m ρ c main_arg23 (by decide)).trans l5.arg23,
    (W18_of_ne m ρ c main_arg24 (by decide)).trans l5.arg24,
    (W18_of_ne m ρ c main_arg25 (by decide)).trans l5.arg25,
    (W18_of_ne m ρ c main_arg26 (by decide)).trans l5.arg26⟩,
    (W18_of_ne m ρ c main_v53 (by decide)).trans k53, out⟩

/-- Through the last host stretch, the output launch and the final reshape: the result, where every diffusion time is a
    positive real. -/
theorem step_score (a0 : (⟨Cert.ReferenceIdeal.S50000, .i32⟩ : BufTy).Contents (Elt Ideal)) (a1 : (⟨Cert.ReferenceIdeal.S300000, .i32⟩ : BufTy).Contents (Elt Ideal)) (a2 : (⟨Cert.ReferenceIdeal.S2x300000, .i32⟩ : BufTy).Contents (Elt Ideal)) (a3 : (⟨Cert.ReferenceIdeal.S50000, .i32⟩ : BufTy).Contents (Elt Ideal)) (a4 : (⟨Cert.ReferenceIdeal.S300000x1, .f32⟩ : BufTy).Contents (Elt Ideal)) (a5 : (⟨Cert.ReferenceIdeal.S1024, .f32⟩ : BufTy).Contents (Elt Ideal)) (a6 : (⟨Cert.ReferenceIdeal.S100x256, .f32⟩ : BufTy).Contents (Elt Ideal)) (a7 : (⟨Cert.ReferenceIdeal.S100x256, .f32⟩ : BufTy).Contents (Elt Ideal)) (a8 : (⟨Cert.ReferenceIdeal.S1x256, .f32⟩ : BufTy).Contents (Elt Ideal)) (a9 : (⟨Cert.ReferenceIdeal.S256, .f32⟩ : BufTy).Contents (Elt Ideal)) (a10 : (⟨Cert.ReferenceIdeal.S256x256, .f32⟩ : BufTy).Contents (Elt Ideal)) (a11 : (⟨Cert.ReferenceIdeal.S256, .f32⟩ : BufTy).Contents (Elt Ideal)) (a12 : (⟨Cert.ReferenceIdeal.S128, .f32⟩ : BufTy).Contents (Elt Ideal)) (a13 : (⟨Cert.ReferenceIdeal.S256x256, .f32⟩ : BufTy).Contents (Elt Ideal)) (a14 : (⟨Cert.ReferenceIdeal.S256, .f32⟩ : BufTy).Contents (Elt Ideal)) (a15 : (⟨Cert.ReferenceIdeal.S256x1, .f32⟩ : BufTy).Contents (Elt Ideal)) (a16 : (⟨Cert.ReferenceIdeal.S1, .f32⟩ : BufTy).Contents (Elt Ideal)) (a17 : (⟨Cert.ReferenceIdeal.S4x256x256, .f32⟩ : BufTy).Contents (Elt Ideal)) (a18 : (⟨Cert.ReferenceIdeal.S4x256, .f32⟩ : BufTy).Contents (Elt Ideal)) (a19 : (⟨Cert.ReferenceIdeal.S4x256x256, .f32⟩ : BufTy).Contents (Elt Ideal)) (a20 : (⟨Cert.ReferenceIdeal.S4x256, .f32⟩ : BufTy).Contents (Elt Ideal)) (a21 : (⟨Cert.ReferenceIdeal.S512x256, .f32⟩ : BufTy).Contents (Elt Ideal)) (a22 : (⟨Cert.ReferenceIdeal.S256, .f32⟩ : BufTy).Contents (Elt Ideal)) (a23 : (⟨Cert.ReferenceIdeal.S256x128, .f32⟩ : BufTy).Contents (Elt Ideal)) (a24 : (⟨Cert.ReferenceIdeal.S128, .f32⟩ : BufTy).Contents (Elt Ideal)) (a25 : (⟨Cert.ReferenceIdeal.S128x1, .f32⟩ : BufTy).Contents (Elt Ideal)) (a26 : (⟨Cert.ReferenceIdeal.S1, .f32⟩ : BufTy).Contents (Elt Ideal))
    (hl : Live (W18 m ρ c) a0 a1 a2 a3 a4 a5 a6 a7 a8 a9 a10 a11 a12 a13 a14 a15 a16 a17 a18 a19 a20 a21 a22 a23 a24 a25 a26)
    (h53 : W18 m ρ c (Proc.devRef .tc main_v53) = Cert.ReferenceIdeal.Read.val_main_v61 (F := Ideal) a1 a2 a3 a4 a5 a7 a8 a9 a10 a11 a12 a13 a14 a15 a16)
    (hh : W18 m ρ c (Proc.devRef .tc main_v145) = Cert.ReferenceIdeal.Read.val_main_v188 (F := Ideal) a0 a1 a2 a3 a4 a5 a6 a7 a8 a9 a10 a11 a12 a13 a14 a15 a16 a17 a18 a19 a20)
    (ht : ∀ g : Fin 1024, ∃ r : ℝ, 0 < r ∧ a5 (ix1 g) = (r : EReal)) (e : Fin 300000) :
    W21 m ρ c (Proc.devRef .tc main_v187) (ix1 e) = Cert.ReferenceIdeal.Read.val_main_v237 (F := Ideal) a0 a1 a2 a3 a4 a5 a6 a7 a8 a9 a10 a11 a12 a13 a14 a15 a16 a17 a18 a19 a20 a21 a22 a23 a24 a25 a26 (ix1 e) := by
  have k53 : after hostOps5 (W18 m ρ c) (Proc.devRef .tc main_v53) = Cert.ReferenceIdeal.Read.val_main_v61 (F := Ideal) a1 a2 a3 a4 a5 a7 a8 a9 a10 a11 a12 a13 a14 a15 a16 :=
    (after_of_forall_not_mem hostOps5 _ (by decide +kernel)).trans h53
  have e0 : V19 m ρ c main_v160 = Cert.ReferenceIdeal.Read.val_main_v203 (F := Ideal) a0 a1 a2 a3 a4 a5 a6 a7 a8 a9 a10 a11 a12 a13 a14 a15 a16 a17 a18 a19 a20 := Cert.KerThread.s5_prod (W18 m ρ c) a0 a1 a2 a3 a4 a5 a6 a7 a8 a9 a10 a11 a12 a13 a14 a15 a16 a17 a18 a19 a20 hh hl.v1 hl.v3
  have e2 : ∀ r : Fin 300000, V19 m ρ c main_v180 (ix2 r 0) = Ideal.div 1 (Cert.ReferenceIdeal.Read.val_main_v236 (F := Ideal) a2 a3 a5 (ix1 r)) := fun r =>
    Cert.KerThread.s5_sinv (W18 m ρ c) a2 a3 a5 hl.v10 hl.arg5 r
  have e3 : ∀ (i j : Fin 256), V19 m ρ c main_v181 (ix2 i j) = a21 (ix2 ⟨i.val, by omega⟩ j) := fun i j =>
    (Cert.KerThread.s5_W1a (W18 m ρ c) i j).trans (by rw [hl.arg21])
  have e4 : ∀ (i j : Fin 256), V19 m ρ c main_v182 (ix2 i j) = a21 (ix2 ⟨256 + i.val, by omega⟩ j) := fun i j =>
    (Cert.KerThread.s5_W1b (W18 m ρ c) i j).trans (by rw [hl.arg21])
  have e5 : ∀ j : Fin 256, V19 m ρ c main_v183 (ix2 0 j) = a22 (ix1 j) := fun j =>
    (Cert.KerThread.s5_b1 (W18 m ρ c) j).trans (by rw [hl.arg22])
  have e6 : ∀ (j : Fin 256) (k : Fin 128), V19 m ρ c main_arg23 (ix2 j k) = a23 (ix2 j k) := fun j k =>
    congrFun ((after_of_forall_not_mem hostOps5 (W18 m ρ c) (b := (Proc.devRef .tc main_arg23)) (by decide +kernel)).trans hl.arg23) (ix2 j k)
  have e7 : ∀ k : Fin 128, V19 m ρ c main_v184 (ix2 0 k) = a24 (ix1 k) := fun k =>
    (Cert.KerThread.s5_b2 (W18 m ρ c) k).trans (by rw [hl.arg24])
  have e8 : ∀ k : Fin 128, V19 m ρ c main_arg25 (ix2 k 0) = a25 (ix2 k 0) := fun k =>
    congrFun ((after_of_forall_not_mem hostOps5 (W18 m ρ c) (b := (Proc.devRef .tc main_arg25)) (by decide +kernel)).trans hl.arg25) (ix2 k 0)
  have e9 : V19 m ρ c main_v185 (ix2 0 0) = a26 (ix1 0) := (Cert.KerThread.s5_b3 (W18 m ρ c)).trans (by rw [hl.arg26])
  have out : W20 m ρ c (Proc.devRef .tc main_v186) (ix2 e 0) = Cert.ReferenceIdeal.Read.val_main_v237 (F := Ideal) a0 a1 a2 a3 a4 a5 a6 a7 a8 a9 a10 a11 a12 a13 a14 a15 a16 a17 a18 a19 a20 a21 a22 a23 a24 a25 a26 (ix1 e) :=
    (congrFun ((W20_arr m ρ c 10).trans (Cert.KernelIdeal.Score.final (V19 m ρ) c)) (ix2 e 0)).trans
      (Cert.Glue.score_val (V19 m ρ) c a0 a1 a2 a3 a4 a5 a6 a7 a8 a9 a10 a11 a12 a13 a14 a15 a16 a17 a18 a19 a20 a21 a22 a23 a24 a25 a26 ht e0 k53 e2 e3 e4 e5 e6 e7 e8 e9 e)
  exact (Cert.KerThread.s6_out (W20 m ρ c) e).trans out

/-- From the launch memory through the first host stretch and the edge-feature launch. -/
theorem start :
    Live (W2 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))
      ∧ W2 m ρ c (Proc.devRef .tc main_v53) = Cert.ReferenceIdeal.Read.val_main_v61 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ W2 m ρ c (Proc.devRef .tc main_v42) = Cert.ReferenceIdeal.Read.val_main_v35 (F := Ideal) (m ((c : Thread nD τ).loc main_arg0)) (m ((c : Thread nD τ).loc main_arg6)) := by
  have l1 : Live (after hostOps0 (W0 m ρ c)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) :=
    ⟨Cert.KerThread.s0_v1 (W0 m ρ c),
     Cert.KerThread.s0_v3 (W0 m ρ c),
     Cert.KerThread.s0_v10 (W0 m ρ c),
     (after_of_forall_not_mem hostOps0 (W0 m ρ c) (b := (Proc.devRef .tc main_arg5)) (by decide +kernel)),
     (after_of_forall_not_mem hostOps0 (W0 m ρ c) (b := (Proc.devRef .tc main_arg17)) (by decide +kernel)),
     (after_of_forall_not_mem hostOps0 (W0 m ρ c) (b := (Proc.devRef .tc main_arg18)) (by decide +kernel)),
     (after_of_forall_not_mem hostOps0 (W0 m ρ c) (b := (Proc.devRef .tc main_arg19)) (by decide +kernel)),
     (after_of_forall_not_mem hostOps0 (W0 m ρ c) (b := (Proc.devRef .tc main_arg20)) (by decide +kernel)),
     (after_of_forall_not_mem hostOps0 (W0 m ρ c) (b := (Proc.devRef .tc main_arg21)) (by decide +kernel)),
     (after_of_forall_not_mem hostOps0 (W0 m ρ c) (b := (Proc.devRef .tc main_arg22)) (by decide +kernel)),
     (after_of_forall_not_mem hostOps0 (W0 m ρ c) (b := (Proc.devRef .tc main_arg23)) (by decide +kernel)),
     (after_of_forall_not_mem hostOps0 (W0 m ρ c) (b := (Proc.devRef .tc main_arg24)) (by decide +kernel)),
     (after_of_forall_not_mem hostOps0 (W0 m ρ c) (b := (Proc.devRef .tc main_arg25)) (by decide +kernel)),
     (after_of_forall_not_mem hostOps0 (W0 m ρ c) (b := (Proc.devRef .tc main_arg26)) (by decide +kernel))⟩
  have e2 : ∀ k : Fin 256, V1 m ρ c main_arg8 (ix2 0 k) = (m ((c : Thread nD τ).loc main_arg8)) (ix2 0 k) := fun k =>
    congrFun (after_of_forall_not_mem hostOps0 (W0 m ρ c) (b := (Proc.devRef .tc main_arg8)) (by decide +kernel)) (ix2 0 k)
  have e4 : ∀ (k c' : Fin 256), V1 m ρ c main_arg10 (ix2 k c') = (m ((c : Thread nD τ).loc main_arg10)) (ix2 k c') := fun k c' =>
    congrFun (after_of_forall_not_mem hostOps0 (W0 m ρ c) (b := (Proc.devRef .tc main_arg10)) (by decide +kernel)) (ix2 k c')
  have out : W2 m ρ c (Proc.devRef .tc main_v53) = Cert.ReferenceIdeal.Read.val_main_v61 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
    (W2_arr m ρ c 6).trans ((Cert.KernelIdeal.Edge.final (V1 m ρ) c).trans
      (Cert.Glue.edge_val (V1 m ρ) c (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
        (Cert.KerThread.s0_v50_0 (W0 m ρ c)) (Cert.KerThread.s0_v50_1 (W0 m ρ c)) e2 (Cert.KerThread.s0_v51 (W0 m ρ c)) e4 (Cert.KerThread.s0_v52 (W0 m ρ c)) (Cert.KerThread.s0_v49 (W0 m ρ c))))
  exact ⟨⟨(W2_of_ne m ρ c main_v1 (by decide)).trans l1.v1,
    (W2_of_ne m ρ c main_v3 (by decide)).trans l1.v3,
    (W2_of_ne m ρ c main_v10 (by decide)).trans l1.v10,
    (W2_of_ne m ρ c main_arg5 (by decide)).trans l1.arg5,
    (W2_of_ne m ρ c main_arg17 (by decide)).trans l1.arg17,
    (W2_of_ne m ρ c main_arg18 (by decide)).trans l1.arg18,
    (W2_of_ne m ρ c main_arg19 (by decide)).trans l1.arg19,
    (W2_of_ne m ρ c main_arg20 (by decide)).trans l1.arg20,
    (W2_of_ne m ρ c main_arg21 (by decide)).trans l1.arg21,
    (W2_of_ne m ρ c main_arg22 (by decide)).trans l1.arg22,
    (W2_of_ne m ρ c main_arg23 (by decide)).trans l1.arg23,
    (W2_of_ne m ρ c main_arg24 (by decide)).trans l1.arg24,
    (W2_of_ne m ρ c main_arg25 (by decide)).trans l1.arg25,
    (W2_of_ne m ρ c main_arg26 (by decide)).trans l1.arg26⟩,
    out, (W2_of_ne m ρ c main_v42 (by decide)).trans (Cert.KerThread.s0_v42 (W0 m ρ c))⟩

/-- THE KERNEL PROGRAM'S RESULT: where every diffusion time is a positive real, the result buffer ends, entry by entry, at
    the reference's result stage of the launch contents of the arguments. -/
theorem kernel_result
    (ht : ∀ g : Fin 1024, ∃ r : ℝ, 0 < r ∧ (m ((c : Thread nD τ).loc main_arg5)) (ix1 g) = (r : EReal)) (e : Fin 300000) :
    W21 m ρ c (Proc.devRef .tc main_v187) (ix1 e) = Cert.ReferenceIdeal.Read.val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (ix1 e) := by
  obtain ⟨l2, b2, h2⟩ := start m ρ c
  obtain ⟨l6, b6, h6⟩ := step_layer1 m ρ c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) l2 b2 h2
  obtain ⟨l10, b10, h10⟩ := step_layer2 m ρ c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) l6 b6 h6
  obtain ⟨l14, b14, h14⟩ := step_layer3 m ρ c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) l10 b10 h10
  obtain ⟨l18, b18, h18⟩ := step_layer4 m ρ c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) l14 b14 h14
  exact step_score m ρ c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) l18 b18 h18 ht e

end Cert.Chain

end
-- ==== Proof.RefRun.lean ====
/-
  The reference's run, as a fold.

  The reference's @main is a straight line of 297 host operations. They are listed here in six consecutive stretches —
  the edge features, the four graph-convolution layers, the score — so that the buffers' contents can be read stretch by
  stretch: the run of the whole line is the fold of the operations' results over the launch memory, and a fold over a
  concatenation is the fold over the second list of the fold over the first. Every weakly fair execution terminates
  with every buffer at that fold.
-/
import proofs.«143893_j1065151889700_2_alg».proof.Proof.Gen.ReferenceIdeal
import Idealize.ShloMosaic.Lib.StableHlo.Run

noncomputable section

namespace Cert.ReferenceIdeal.FoldRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- 73 operations: the index vectors, the time embedding, the two embedding gathers and the fused edge feature. -/
abbrev opsEdge : List (HloOp τ sig (Elt F)) :=
  [ unary main_arg2 main_v0 ((extractStridedSlice S1x300000 ![0, 0] · slices_S2x300000_S1x300000_0_0) : (⟨S2x300000, .i32⟩ : BufTy).Contents (Elt F) → (⟨S1x300000, .i32⟩ : BufTy).Contents (Elt F)),
    reshape main_v0 main_v1 rfl shapeCasts_S1x300000_S300000,
    unary main_arg2 main_v2 ((extractStridedSlice S1x300000 ![1, 0] · slices_S2x300000_S1x300000_1_0) : (⟨S2x300000, .i32⟩ : BufTy).Contents (Elt F) → (⟨S1x300000, .i32⟩ : BufTy).Contents (Elt F)),
    reshape main_v2 main_v3 rfl shapeCasts_S1x300000_S300000,
    nullary main_c (constantI S_ 32 0#32),
    unary main_c main_v4 (broadcastInDim S300000 ![] bcast_S_S300000 : (⟨S_, .i32⟩ : BufTy).Contents (Elt F) → (⟨S300000, .i32⟩ : BufTy).Contents (Elt F)),
    binary main_v1 main_v4 main_v5 (cmpi .slt : (⟨S300000, .i32⟩ : BufTy).Contents (Elt F) → (⟨S300000, .i32⟩ : BufTy).Contents (Elt F) → (⟨S300000, .i1⟩ : BufTy).Contents (Elt F)),
    nullary main_c_0 (constantI S_ 32 50000#32),
    unary main_c_0 main_v6 (broadcastInDim S300000 ![] bcast_S_S300000 : (⟨S_, .i32⟩ : BufTy).Contents (Elt F) → (⟨S300000, .i32⟩ : BufTy).Contents (Elt F)),
    binary main_v1 main_v6 main_v7 (addi : (⟨S300000, .i32⟩ : BufTy).Contents (Elt F) → (⟨S300000, .i32⟩ : BufTy).Contents (Elt F) → (⟨S300000, .i32⟩ : BufTy).Contents (Elt F)),
    ternary main_v5 main_v7 main_v1 main_v8 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v8 main_v9 (broadcastInDim S300000x1 ![0] bcast_S300000_S300000x1_0 : (⟨S300000, .i32⟩ : BufTy).Contents (Elt F) → (⟨S300000x1, .i32⟩ : BufTy).Contents (Elt F)),
    binary main_arg3 main_v9 main_v10 ((fun x i => Host.gather gather_S50000_S300000x1_S300000_n_0_n_n_0_1_1 x i) : (⟨S50000, .i32⟩ : BufTy).Contents (Elt F) → (⟨S300000x1, .i32⟩ : BufTy).Contents (Elt F) → (⟨S300000, .i32⟩ : BufTy).Contents (Elt F)),
    unary main_arg5 main_v11 (broadcastInDim S1024x1 ![0] bcast_S1024_S1024x1_0 : (⟨S1024, .f32⟩ : BufTy).Contents (Elt F) → (⟨S1024x1, .f32⟩ : BufTy).Contents (Elt F)),
    unary main_arg12 main_v12 (broadcastInDim S1x128 ![1] bcast_S128_S1x128_1 : (⟨S128, .f32⟩ : BufTy).Contents (Elt F) → (⟨S1x128, .f32⟩ : BufTy).Contents (Elt F)),
    unary main_v11 main_v13 (broadcastInDim S1024x128 ![0, 1] bcast_S1024x1_S1024x128_0_1 : (⟨S1024x1, .f32⟩ : BufTy).Contents (Elt F) → (⟨S1024x128, .f32⟩ : BufTy).Contents (Elt F)),
    unary main_v12 main_v14 (broadcastInDim S1024x128 ![0, 1] bcast_S1x128_S1024x128_0_1 : (⟨S1x128, .f32⟩ : BufTy).Contents (Elt F) → (⟨S1024x128, .f32⟩ : BufTy).Contents (Elt F)),
    binary main_v13 main_v14 main_v15 (mulf : (⟨S1024x128, .f32⟩ : BufTy).Contents (Elt F) → (⟨S1024x128, .f32⟩ : BufTy).Contents (Elt F) → (⟨S1024x128, .f32⟩ : BufTy).Contents (Elt F)),
    nullary main_cst (constant S_ .f32 0x40C90FDB#32),
    unary main_cst main_v16 (broadcastInDim S1024x128 ![] bcast_S_S1024x128 : (⟨S_, .f32⟩ : BufTy).Contents (Elt F) → (⟨S1024x128, .f32⟩ : BufTy).Contents (Elt F)),
    binary main_v15 main_v16 main_v17 (mulf : (⟨S1024x128, .f32⟩ : BufTy).Contents (Elt F) → (⟨S1024x128, .f32⟩ : BufTy).Contents (Elt F) → (⟨S1024x128, .f32⟩ : BufTy).Contents (Elt F)),
    unary main_v17 main_v18 (Host.sin : (⟨S1024x128, .f32⟩ : BufTy).Contents (Elt F) → (⟨S1024x128, .f32⟩ : BufTy).Contents (Elt F)),
    unary main_v17 main_v19 (Host.cos : (⟨S1024x128, .f32⟩ : BufTy).Contents (Elt F) → (⟨S1024x128, .f32⟩ : BufTy).Contents (Elt F)),
    binary main_v18 main_v19 main_v20 ((fun a b => concatenate S1024x256 1 [⟨S1024x128, a⟩, ⟨S1024x128, b⟩] concatenates_S1024x128_S1024x128_S1024x256_d1) : (⟨S1024x128, .f32⟩ : BufTy).Contents (Elt F) → (⟨S1024x128, .f32⟩ : BufTy).Contents (Elt F) → (⟨S1024x256, .f32⟩ : BufTy).Contents (Elt F)),
    binary main_v20 main_arg13 main_v21 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    unary main_arg14 main_v22 (broadcastInDim S1x256 ![1] bcast_S256_S1x256_1 : (⟨S256, .f32⟩ : BufTy).Contents (Elt F) → (⟨S1x256, .f32⟩ : BufTy).Contents (Elt F)),
    unary main_v22 main_v23 (broadcastInDim S1024x256 ![0, 1] bcast_S1x256_S1024x256_0_1 : (⟨S1x256, .f32⟩ : BufTy).Contents (Elt F) → (⟨S1024x256, .f32⟩ : BufTy).Contents (Elt F)),
    binary main_v21 main_v23 main_v24 (addf : (⟨S1024x256, .f32⟩ : BufTy).Contents (Elt F) → (⟨S1024x256, .f32⟩ : BufTy).Contents (Elt F) → (⟨S1024x256, .f32⟩ : BufTy).Contents (Elt F)),
    binary main_v24 main_arg15 main_v25 ((fun l r => Host.dotGeneral dot_S1024x256_S256x1_S1024x1_1_0_0_1_n_n none l r) : (⟨S1024x256, .f32⟩ : BufTy).Contents (Elt F) → (⟨S256x1, .f32⟩ : BufTy).Contents (Elt F) → (⟨S1024x1, .f32⟩ : BufTy).Contents (Elt F)),
    unary main_arg16 main_v26 (broadcastInDim S1x1 ![1] bcast_S1_S1x1_1 : (⟨S1, .f32⟩ : BufTy).Contents (Elt F) → (⟨S1x1, .f32⟩ : BufTy).Contents (Elt F)),
    unary main_v26 main_v27 (broadcastInDim S1024x1 ![0, 1] bcast_S1x1_S1024x1_0_1 : (⟨S1x1, .f32⟩ : BufTy).Contents (Elt F) → (⟨S1024x1, .f32⟩ : BufTy).Contents (Elt F)),
    binary main_v25 main_v27 main_v28 (addf : (⟨S1024x1, .f32⟩ : BufTy).Contents (Elt F) → (⟨S1024x1, .f32⟩ : BufTy).Contents (Elt F) → (⟨S1024x1, .f32⟩ : BufTy).Contents (Elt F)),
    nullary main_c_1 (constantI S_ 32 0#32),
    unary main_c_1 main_v29 (broadcastInDim S50000 ![] bcast_S_S50000 : (⟨S_, .i32⟩ : BufTy).Contents (Elt F) → (⟨S50000, .i32⟩ : BufTy).Contents (Elt F)),
    binary main_arg0 main_v29 main_v30 (cmpi .slt : (⟨S50000, .i32⟩ : BufTy).Contents (Elt F) → (⟨S50000, .i32⟩ : BufTy).Contents (Elt F) → (⟨S50000, .i1⟩ : BufTy).Contents (Elt F)),
    nullary main_c_2 (constantI S_ 32 100#32),
    unary main_c_2 main_v31 (broadcastInDim S50000 ![] bcast_S_S50000 : (⟨S_, .i32⟩ : BufTy).Contents (Elt F) → (⟨S50000, .i32⟩ : BufTy).Contents (Elt F)),
    binary main_arg0 main_v31 main_v32 (addi : (⟨S50000, .i32⟩ : BufTy).Contents (Elt F) → (⟨S50000, .i32⟩ : BufTy).Contents (Elt F) → (⟨S50000, .i32⟩ : BufTy).Contents (Elt F)),
    ternary main_v30 main_v32 main_arg0 main_v33 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v33 main_v34 (broadcastInDim S50000x1 ![0] bcast_S50000_S50000x1_0 : (⟨S50000, .i32⟩ : BufTy).Contents (Elt F) → (⟨S50000x1, .i32⟩ : BufTy).Contents (Elt F)),
    binary main_arg6 main_v34 main_v35 ((fun x i => Host.gather gather_S100x256_S50000x1_S50000x256_1_0_n_n_0_1_1256 x i) : (⟨S100x256, .f32⟩ : BufTy).Contents (Elt F) → (⟨S50000x1, .i32⟩ : BufTy).Contents (Elt F) → (⟨S50000x256, .f32⟩ : BufTy).Contents (Elt F)),
    nullary main_c_3 (constantI S_ 32 0#32),
    unary main_c_3 main_v36 (broadcastInDim S300000 ![] bcast_S_S300000 : (⟨S_, .i32⟩ : BufTy).Contents (Elt F) → (⟨S300000, .i32⟩ : BufTy).Contents (Elt F)),
    binary main_arg1 main_v36 main_v37 (cmpi .slt : (⟨S300000, .i32⟩ : BufTy).Contents (Elt F) → (⟨S300000, .i32⟩ : BufTy).Contents (Elt F) → (⟨S300000, .i1⟩ : BufTy).Contents (Elt F)),
    nullary main_c_4 (constantI S_ 32 100#32),
    unary main_c_4 main_v38 (broadcastInDim S300000 ![] bcast_S_S300000 : (⟨S_, .i32⟩ : BufTy).Contents (Elt F) → (⟨S300000, .i32⟩ : BufTy).Contents (Elt F)),
    binary main_arg1 main_v38 main_v39 (addi : (⟨S300000, .i32⟩ : BufTy).Contents (Elt F) → (⟨S300000, .i32⟩ : BufTy).Contents (Elt F) → (⟨S300000, .i32⟩ : BufTy).Contents (Elt F)),
    ternary main_v37 main_v39 main_arg1 main_v40 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v40 main_v41 (broadcastInDim S300000x1 ![0] bcast_S300000_S300000x1_0 : (⟨S300000, .i32⟩ : BufTy).Contents (Elt F) → (⟨S300000x1, .i32⟩ : BufTy).Contents (Elt F)),
    binary main_arg7 main_v41 main_v42 ((fun x i => Host.gather gather_S100x256_S300000x1_S300000x256_1_0_n_n_0_1_1256 x i) : (⟨S100x256, .f32⟩ : BufTy).Contents (Elt F) → (⟨S300000x1, .i32⟩ : BufTy).Contents (Elt F) → (⟨S300000x256, .f32⟩ : BufTy).Contents (Elt F)),
    binary main_arg4 main_arg8 main_v43 ((fun l r => Host.dotGeneral dot_S300000x1_S1x256_S300000x256_1_0_0_1_n_n none l r) : (⟨S300000x1, .f32⟩ : BufTy).Contents (Elt F) → (⟨S1x256, .f32⟩ : BufTy).Contents (Elt F) → (⟨S300000x256, .f32⟩ : BufTy).Contents (Elt F)),
    unary main_arg9 main_v44 (broadcastInDim S1x256 ![1] bcast_S256_S1x256_1 : (⟨S256, .f32⟩ : BufTy).Contents (Elt F) → (⟨S1x256, .f32⟩ : BufTy).Contents (Elt F)),
    unary main_v44 main_v45 (broadcastInDim S300000x256 ![0, 1] bcast_S1x256_S300000x256_0_1 : (⟨S1x256, .f32⟩ : BufTy).Contents (Elt F) → (⟨S300000x256, .f32⟩ : BufTy).Contents (Elt F)),
    binary main_v43 main_v45 main_v46 (addf : (⟨S300000x256, .f32⟩ : BufTy).Contents (Elt F) → (⟨S300000x256, .f32⟩ : BufTy).Contents (Elt F) → (⟨S300000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S300000x256, .f32⟩) main_call0_v0) (broadcastInDim S300000x256 ![] bcast_S_S300000x256),
    TRef.binary (TRef.of (T := ⟨S300000x256, .f32⟩) main_v46) (TRef.of (T := ⟨S300000x256, .f32⟩) main_call0_v0) (TRef.of (T := ⟨S300000x256, .f32⟩) main_v47) maximumf,
    binary main_v47 main_arg10 main_v48 ((fun l r => Host.dotGeneral dot_S300000x256_S256x256_S300000x256_1_0_0_1_n_n none l r) : (⟨S300000x256, .f32⟩ : BufTy).Contents (Elt F) → (⟨S256x256, .f32⟩ : BufTy).Contents (Elt F) → (⟨S300000x256, .f32⟩ : BufTy).Contents (Elt F)),
    unary main_arg11 main_v49 (broadcastInDim S1x256 ![1] bcast_S256_S1x256_1 : (⟨S256, .f32⟩ : BufTy).Contents (Elt F) → (⟨S1x256, .f32⟩ : BufTy).Contents (Elt F)),
    unary main_v49 main_v50 (broadcastInDim S300000x256 ![0, 1] bcast_S1x256_S300000x256_0_1 : (⟨S1x256, .f32⟩ : BufTy).Contents (Elt F) → (⟨S300000x256, .f32⟩ : BufTy).Contents (Elt F)),
    binary main_v48 main_v50 main_v51 (addf : (⟨S300000x256, .f32⟩ : BufTy).Contents (Elt F) → (⟨S300000x256, .f32⟩ : BufTy).Contents (Elt F) → (⟨S300000x256, .f32⟩ : BufTy).Contents (Elt F)),
    nullary main_c_5 (constantI S_ 32 0#32),
    unary main_c_5 main_v52 (broadcastInDim S300000 ![] bcast_S_S300000 : (⟨S_, .i32⟩ : BufTy).Contents (Elt F) → (⟨S300000, .i32⟩ : BufTy).Contents (Elt F)),
    binary main_v10 main_v52 main_v53 (cmpi .slt : (⟨S300000, .i32⟩ : BufTy).Contents (Elt F) → (⟨S300000, .i32⟩ : BufTy).Contents (Elt F) → (⟨S300000, .i1⟩ : BufTy).Contents (Elt F)),
    nullary main_c_6 (constantI S_ 32 1024#32),
    unary main_c_6 main_v54 (broadcastInDim S300000 ![] bcast_S_S300000 : (⟨S_, .i32⟩ : BufTy).Contents (Elt F) → (⟨S300000, .i32⟩ : BufTy).Contents (Elt F)),
    binary main_v10 main_v54 main_v55 (addi : (⟨S300000, .i32⟩ : BufTy).Contents (Elt F) → (⟨S300000, .i32⟩ : BufTy).Contents (Elt F) → (⟨S300000, .i32⟩ : BufTy).Contents (Elt F)),
    ternary main_v53 main_v55 main_v10 main_v56 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v56 main_v57 (broadcastInDim S300000x1 ![0] bcast_S300000_S300000x1_0 : (⟨S300000, .i32⟩ : BufTy).Contents (Elt F) → (⟨S300000x1, .i32⟩ : BufTy).Contents (Elt F)),
    binary main_v28 main_v57 main_v58 ((fun x i => Host.gather gather_S1024x1_S300000x1_S300000x1_1_0_n_n_0_1_11 x i) : (⟨S1024x1, .f32⟩ : BufTy).Contents (Elt F) → (⟨S300000x1, .i32⟩ : BufTy).Contents (Elt F) → (⟨S300000x1, .f32⟩ : BufTy).Contents (Elt F)),
    unary main_v58 main_v59 (broadcastInDim S300000x256 ![0, 1] bcast_S300000x1_S300000x256_0_1 : (⟨S300000x1, .f32⟩ : BufTy).Contents (Elt F) → (⟨S300000x256, .f32⟩ : BufTy).Contents (Elt F)),
    binary main_v51 main_v59 main_v60 (addf : (⟨S300000x256, .f32⟩ : BufTy).Contents (Elt F) → (⟨S300000x256, .f32⟩ : BufTy).Contents (Elt F) → (⟨S300000x256, .f32⟩ : BufTy).Contents (Elt F)),
    binary main_v60 main_v42 main_v61 (mulf : (⟨S300000x256, .f32⟩ : BufTy).Contents (Elt F) → (⟨S300000x256, .f32⟩ : BufTy).Contents (Elt F) → (⟨S300000x256, .f32⟩ : BufTy).Contents (Elt F)) ]

theorem opsEdge_sub : (opsEdge : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub ..⟩

set_option maxHeartbeats 4000000 in
/-- 41 operations: graph-convolution layer 1: messages, their scatter-add, the node update. -/
abbrev opsLayer1 : List (HloOp τ sig (Elt F)) :=
  [ nullary main_c_7 (constantI S_ 32 0#32),
    unary main_c_7 main_v62 (broadcastInDim S300000 ![] bcast_S_S300000 : (⟨S_, .i32⟩ : BufTy).Contents (Elt F) → (⟨S300000, .i32⟩ : BufTy).Contents (Elt F)),
    binary main_v1 main_v62 main_v63 (cmpi .slt : (⟨S300000, .i32⟩ : BufTy).Contents (Elt F) → (⟨S300000, .i32⟩ : BufTy).Contents (Elt F) → (⟨S300000, .i1⟩ : BufTy).Contents (Elt F)),
    nullary main_c_8 (constantI S_ 32 50000#32),
    unary main_c_8 main_v64 (broadcastInDim S300000 ![] bcast_S_S300000 : (⟨S_, .i32⟩ : BufTy).Contents (Elt F) → (⟨S300000, .i32⟩ : BufTy).Contents (Elt F)),
    binary main_v1 main_v64 main_v65 (addi : (⟨S300000, .i32⟩ : BufTy).Contents (Elt F) → (⟨S300000, .i32⟩ : BufTy).Contents (Elt F) → (⟨S300000, .i32⟩ : BufTy).Contents (Elt F)),
    ternary main_v63 main_v65 main_v1 main_v66 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v66 main_v67 (broadcastInDim S300000x1 ![0] bcast_S300000_S300000x1_0 : (⟨S300000, .i32⟩ : BufTy).Contents (Elt F) → (⟨S300000x1, .i32⟩ : BufTy).Contents (Elt F)),
    binary main_v35 main_v67 main_v68 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    binary main_v68 main_v61 main_v69 (addf : (⟨S300000x256, .f32⟩ : BufTy).Contents (Elt F) → (⟨S300000x256, .f32⟩ : BufTy).Contents (Elt F) → (⟨S300000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S300000x256, .f32⟩) main_call1_v0) (broadcastInDim S300000x256 ![] bcast_S_S300000x256),
    TRef.binary (TRef.of (T := ⟨S300000x256, .f32⟩) main_v69) (TRef.of (T := ⟨S300000x256, .f32⟩) main_call1_v0) (TRef.of (T := ⟨S300000x256, .f32⟩) main_v70) maximumf,
    nullary main_cst_9 (constant S_ .f32 0x00000000#32),
    unary main_cst_9 main_v71 (broadcastInDim S50000x256 ![] bcast_S_S50000x256 : (⟨S_, .f32⟩ : BufTy).Contents (Elt F) → (⟨S50000x256, .f32⟩ : BufTy).Contents (Elt F)),
    unary main_v3 main_v72 (broadcastInDim S300000x1 ![0] bcast_S300000_S300000x1_0 : (⟨S300000, .i32⟩ : BufTy).Contents (Elt F) → (⟨S300000x1, .i32⟩ : BufTy).Contents (Elt F)),
    ternary main_v71 main_v72 main_v70 main_v73 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)),
    binary main_v35 main_v73 main_v74 (addf : (⟨S50000x256, .f32⟩ : BufTy).Contents (Elt F) → (⟨S50000x256, .f32⟩ : BufTy).Contents (Elt F) → (⟨S50000x256, .f32⟩ : BufTy).Contents (Elt F)),
    unary main_arg17 main_v75 ((extractStridedSlice S1x256x256 ![0, 0, 0] · slices_S4x256x256_S1x256x256_0_0_0) : (⟨S4x256x256, .f32⟩ : BufTy).Contents (Elt F) → (⟨S1x256x256, .f32⟩ : BufTy).Contents (Elt F)),
    reshape main_v75 main_v76 rfl shapeCasts_S1x256x256_S256x256,
    unary main_arg19 main_v77 ((extractStridedSlice S1x256x256 ![0, 0, 0] · slices_S4x256x256_S1x256x256_0_0_0) : (⟨S4x256x256, .f32⟩ : BufTy).Contents (Elt F) → (⟨S1x256x256, .f32⟩ : BufTy).Contents (Elt F)),
    reshape main_v77 main_v78 rfl shapeCasts_S1x256x256_S256x256,
    unary main_arg18 main_v79 ((extractStridedSlice S1x256 ![0, 0] · slices_S4x256_S1x256_0_0) : (⟨S4x256, .f32⟩ : BufTy).Contents (Elt F) → (⟨S1x256, .f32⟩ : BufTy).Contents (Elt F)),
    reshape main_v79 main_v80 rfl shapeCasts_S1x256_S256,
    unary main_arg20 main_v81 ((extractStridedSlice S1x256 ![0, 0] · slices_S4x256_S1x256_0_0) : (⟨S4x256, .f32⟩ : BufTy).Contents (Elt F) → (⟨S1x256, .f32⟩ : BufTy).Contents (Elt F)),
    reshape main_v81 main_v82 rfl shapeCasts_S1x256_S256,
    binary main_v74 main_v76 main_v83 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v80 main_v84 (broadcastInDim S1x256 ![1] bcast_S256_S1x256_1 : (⟨S256, .f32⟩ : BufTy).Contents (Elt F) → (⟨S1x256, .f32⟩ : BufTy).Contents (Elt F)),
    unary main_v84 main_v85 (broadcastInDim S50000x256 ![0, 1] bcast_S1x256_S50000x256_0_1 : (⟨S1x256, .f32⟩ : BufTy).Contents (Elt F) → (⟨S50000x256, .f32⟩ : BufTy).Contents (Elt F)),
    binary main_v83 main_v85 main_v86 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v86) (TRef.of (T := ⟨S50000x256, .f32⟩) main_call2_v0) (TRef.of (T := ⟨S50000x256, .f32⟩) main_v87) maximumf,
    binary main_v87 main_v78 main_v88 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v82 main_v89 (broadcastInDim S1x256 ![1] bcast_S256_S1x256_1 : (⟨S256, .f32⟩ : BufTy).Contents (Elt F) → (⟨S1x256, .f32⟩ : BufTy).Contents (Elt F)),
    unary main_v89 main_v90 (broadcastInDim S50000x256 ![0, 1] bcast_S1x256_S50000x256_0_1 : (⟨S1x256, .f32⟩ : BufTy).Contents (Elt F) → (⟨S50000x256, .f32⟩ : BufTy).Contents (Elt F)),
    binary main_v88 main_v90 main_v91 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x256, .f32⟩) main_call3_v0) (broadcastInDim S50000x256 ![] bcast_S_S50000x256),
    TRef.binary (TRef.of (T := ⟨S50000x256, .f32⟩) main_v91) (TRef.of (T := ⟨S50000x256, .f32⟩) main_call3_v0) (TRef.of (T := ⟨S50000x256, .f32⟩) main_v92) maximumf,
    binary main_v92 main_v35 main_v93 (addf : (⟨S50000x256, .f32⟩ : BufTy).Contents (Elt F) → (⟨S50000x256, .f32⟩ : BufTy).Contents (Elt F) → (⟨S50000x256, .f32⟩ : BufTy).Contents (Elt F)) ]

theorem opsLayer1_sub : (opsLayer1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub ..⟩

set_option maxHeartbeats 4000000 in
/-- 41 operations: graph-convolution layer 2. -/
abbrev opsLayer2 : List (HloOp τ sig (Elt F)) :=
  [ nullary main_c_10 (constantI S_ 32 0#32),
    unary main_c_10 main_v94 (broadcastInDim S300000 ![] bcast_S_S300000 : (⟨S_, .i32⟩ : BufTy).Contents (Elt F) → (⟨S300000, .i32⟩ : BufTy).Contents (Elt F)),
    binary main_v1 main_v94 main_v95 (cmpi .slt : (⟨S300000, .i32⟩ : BufTy).Contents (Elt F) → (⟨S300000, .i32⟩ : BufTy).Contents (Elt F) → (⟨S300000, .i1⟩ : BufTy).Contents (Elt F)),
    nullary main_c_11 (constantI S_ 32 50000#32),
    unary main_c_11 main_v96 (broadcastInDim S300000 ![] bcast_S_S300000 : (⟨S_, .i32⟩ : BufTy).Contents (Elt F) → (⟨S300000, .i32⟩ : BufTy).Contents (Elt F)),
    binary main_v1 main_v96 main_v97 (addi : (⟨S300000, .i32⟩ : BufTy).Contents (Elt F) → (⟨S300000, .i32⟩ : BufTy).Contents (Elt F) → (⟨S300000, .i32⟩ : BufTy).Contents (Elt F)),
    ternary main_v95 main_v97 main_v1 main_v98 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v98 main_v99 (broadcastInDim S300000x1 ![0] bcast_S300000_S300000x1_0 : (⟨S300000, .i32⟩ : BufTy).Contents (Elt F) → (⟨S300000x1, .i32⟩ : BufTy).Contents (Elt F)),
    binary main_v93 main_v99 main_v100 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    binary main_v100 main_v61 main_v101 (addf : (⟨S300000x256, .f32⟩ : BufTy).Contents (Elt F) → (⟨S300000x256, .f32⟩ : BufTy).Contents (Elt F) → (⟨S300000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S300000x256, .f32⟩) main_call4_v0) (broadcastInDim S300000x256 ![] bcast_S_S300000x256),
    TRef.binary (TRef.of (T := ⟨S300000x256, .f32⟩) main_v101) (TRef.of (T := ⟨S300000x256, .f32⟩) main_call4_v0) (TRef.of (T := ⟨S300000x256, .f32⟩) main_v102) maximumf,
    nullary main_cst_12 (constant S_ .f32 0x00000000#32),
    unary main_cst_12 main_v103 (broadcastInDim S50000x256 ![] bcast_S_S50000x256 : (⟨S_, .f32⟩ : BufTy).Contents (Elt F) → (⟨S50000x256, .f32⟩ : BufTy).Contents (Elt F)),
    unary main_v3 main_v104 (broadcastInDim S300000x1 ![0] bcast_S300000_S300000x1_0 : (⟨S300000, .i32⟩ : BufTy).Contents (Elt F) → (⟨S300000x1, .i32⟩ : BufTy).Contents (Elt F)),
    ternary main_v103 main_v104 main_v102 main_v105 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)),
    binary main_v93 main_v105 main_v106 (addf : (⟨S50000x256, .f32⟩ : BufTy).Contents (Elt F) → (⟨S50000x256, .f32⟩ : BufTy).Contents (Elt F) → (⟨S50000x256, .f32⟩ : BufTy).Contents (Elt F)),
    unary main_arg17 main_v107 ((extractStridedSlice S1x256x256 ![1, 0, 0] · slices_S4x256x256_S1x256x256_1_0_0) : (⟨S4x256x256, .f32⟩ : BufTy).Contents (Elt F) → (⟨S1x256x256, .f32⟩ : BufTy).Contents (Elt F)),
    reshape main_v107 main_v108 rfl shapeCasts_S1x256x256_S256x256,
    unary main_arg19 main_v109 ((extractStridedSlice S1x256x256 ![1, 0, 0] · slices_S4x256x256_S1x256x256_1_0_0) : (⟨S4x256x256, .f32⟩ : BufTy).Contents (Elt F) → (⟨S1x256x256, .f32⟩ : BufTy).Contents (Elt F)),
    reshape main_v109 main_v110 rfl shapeCasts_S1x256x256_S256x256,
    unary main_arg18 main_v111 ((extractStridedSlice S1x256 ![1, 0] · slices_S4x256_S1x256_1_0) : (⟨S4x256, .f32⟩ : BufTy).Contents (Elt F) → (⟨S1x256, .f32⟩ : BufTy).Contents (Elt F)),
    reshape main_v111 main_v112 rfl shapeCasts_S1x256_S256,
    unary main_arg20 main_v113 ((extractStridedSlice S1x256 ![1, 0] · slices_S4x256_S1x256_1_0) : (⟨S4x256, .f32⟩ : BufTy).Contents (Elt F) → (⟨S1x256, .f32⟩ : BufTy).Contents (Elt F)),
    reshape main_v113 main_v114 rfl shapeCasts_S1x256_S256,
    binary main_v106 main_v108 main_v115 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v112 main_v116 (broadcastInDim S1x256 ![1] bcast_S256_S1x256_1 : (⟨S256, .f32⟩ : BufTy).Contents (Elt F) → (⟨S1x256, .f32⟩ : BufTy).Contents (Elt F)),
    unary main_v116 main_v117 (broadcastInDim S50000x256 ![0, 1] bcast_S1x256_S50000x256_0_1 : (⟨S1x256, .f32⟩ : BufTy).Contents (Elt F) → (⟨S50000x256, .f32⟩ : BufTy).Contents (Elt F)),
    binary main_v115 main_v117 main_v118 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x256, .f32⟩) main_call5_v0) (broadcastInDim S50000x256 ![] bcast_S_S50000x256),
    TRef.binary (TRef.of (T := ⟨S50000x256, .f32⟩) main_v118) (TRef.of (T := ⟨S50000x256, .f32⟩) main_call5_v0) (TRef.of (T := ⟨S50000x256, .f32⟩) main_v119) maximumf,
    binary main_v119 main_v110 main_v120 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v114 main_v121 (broadcastInDim S1x256 ![1] bcast_S256_S1x256_1 : (⟨S256, .f32⟩ : BufTy).Contents (Elt F) → (⟨S1x256, .f32⟩ : BufTy).Contents (Elt F)),
    unary main_v121 main_v122 (broadcastInDim S50000x256 ![0, 1] bcast_S1x256_S50000x256_0_1 : (⟨S1x256, .f32⟩ : BufTy).Contents (Elt F) → (⟨S50000x256, .f32⟩ : BufTy).Contents (Elt F)),
    binary main_v120 main_v122 main_v123 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x256, .f32⟩) main_call6_v0) (broadcastInDim S50000x256 ![] bcast_S_S50000x256),
    TRef.binary (TRef.of (T := ⟨S50000x256, .f32⟩) main_v123) (TRef.of (T := ⟨S50000x256, .f32⟩) main_call6_v0) (TRef.of (T := ⟨S50000x256, .f32⟩) main_v124) maximumf,
    binary main_v124 main_v93 main_v125 (addf : (⟨S50000x256, .f32⟩ : BufTy).Contents (Elt F) → (⟨S50000x256, .f32⟩ : BufTy).Contents (Elt F) → (⟨S50000x256, .f32⟩ : BufTy).Contents (Elt F)) ]

theorem opsLayer2_sub : (opsLayer2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub ..⟩

set_option maxHeartbeats 4000000 in
/-- 41 operations: graph-convolution layer 3. -/
abbrev opsLayer3 : List (HloOp τ sig (Elt F)) :=
  [ nullary main_c_13 (constantI S_ 32 0#32),
    unary main_c_13 main_v126 (broadcastInDim S300000 ![] bcast_S_S300000 : (⟨S_, .i32⟩ : BufTy).Contents (Elt F) → (⟨S300000, .i32⟩ : BufTy).Contents (Elt F)),
    binary main_v1 main_v126 main_v127 (cmpi .slt : (⟨S300000, .i32⟩ : BufTy).Contents (Elt F) → (⟨S300000, .i32⟩ : BufTy).Contents (Elt F) → (⟨S300000, .i1⟩ : BufTy).Contents (Elt F)),
    nullary main_c_14 (constantI S_ 32 50000#32),
    unary main_c_14 main_v128 (broadcastInDim S300000 ![] bcast_S_S300000 : (⟨S_, .i32⟩ : BufTy).Contents (Elt F) → (⟨S300000, .i32⟩ : BufTy).Contents (Elt F)),
    binary main_v1 main_v128 main_v129 (addi : (⟨S300000, .i32⟩ : BufTy).Contents (Elt F) → (⟨S300000, .i32⟩ : BufTy).Contents (Elt F) → (⟨S300000, .i32⟩ : BufTy).Contents (Elt F)),
    ternary main_v127 main_v129 main_v1 main_v130 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v130 main_v131 (broadcastInDim S300000x1 ![0] bcast_S300000_S300000x1_0 : (⟨S300000, .i32⟩ : BufTy).Contents (Elt F) → (⟨S300000x1, .i32⟩ : BufTy).Contents (Elt F)),
    binary main_v125 main_v131 main_v132 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    binary main_v132 main_v61 main_v133 (addf : (⟨S300000x256, .f32⟩ : BufTy).Contents (Elt F) → (⟨S300000x256, .f32⟩ : BufTy).Contents (Elt F) → (⟨S300000x256, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S300000x256, .f32⟩) main_call7_v0) (broadcastInDim S300000x256 ![] bcast_S_S300000x256),
    TRef.binary (TRef.of (T := ⟨S300000x256, .f32⟩) main_v133) (TRef.of (T := ⟨S300000x256, .f32⟩) main_call7_v0) (TRef.of (T := ⟨S300000x256, .f32⟩) main_v134) maximumf,
    nullary main_cst_15 (constant S_ .f32 0x00000000#32),
    unary main_cst_15 main_v135 (broadcastInDim S50000x256 ![] bcast_S_S50000x256 : (⟨S_, .f32⟩ : BufTy).Contents (Elt F) → (⟨S50000x256, .f32⟩ : BufTy).Contents (Elt F)),
    unary main_v3 main_v136 (broadcastInDim S300000x1 ![0] bcast_S300000_S300000x1_0 : (⟨S300000, .i32⟩ : BufTy).Contents (Elt F) → (⟨S300000x1, .i32⟩ : BufTy).Contents (Elt F)),
    ternary main_v135 main_v136 main_v134 main_v137 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)),
    binary main_v125 main_v137 main_v138 (addf : (⟨S50000x256, .f32⟩ : BufTy).Contents (Elt F) → (⟨S50000x256, .f32⟩ : BufTy).Contents (Elt F) → (⟨S50000x256, .f32⟩ : BufTy).Contents (Elt F)),
    unary main_arg17 main_v139 ((extractStridedSlice S1x256x256 ![2, 0, 0] · slices_S4x256x256_S1x256x256_2_0_0) : (⟨S4x256x256, .f32⟩ : BufTy).Contents (Elt F) → (⟨S1x256x256, .f32⟩ : BufTy).Contents (Elt F)),
    reshape main_v139 main_v140 rfl shapeCasts_S1x256x256_S256x256,
    unary main_arg19 main_v141 ((extractStridedSlice S1x256x256 ![2, 0, 0] · slices_S4x256x256_S1x256x256_2_0_0) : (⟨S4x256x256, .f32⟩ : BufTy).Contents (Elt F) → (⟨S1x256x256, .f32⟩ : BufTy).Contents (Elt F)),
    reshape main_v141 main_v142 rfl shapeCasts_S1x256x256_S256x256,
    unary main_arg18 main_v143 ((extractStridedSlice S1x256 ![2, 0] · slices_S4x256_S1x256_2_0) : (⟨S4x256, .f32⟩ : BufTy).Contents (Elt F) → (⟨S1x256, .f32⟩ : BufTy).Contents (Elt F)),
    reshape main_v143 main_v144 rfl shapeCasts_S1x256_S256,
    unary main_arg20 main_v145 ((extractStridedSlice S1x256 ![2, 0] · slices_S4x256_S1x256_2_0) : (⟨S4x256, .f32⟩ : BufTy).Contents (Elt F) → (⟨S1x256, .f32⟩ : BufTy).Contents (Elt F)),
    reshape main_v145 main_v146 rfl shapeCasts_S1x256_S256,
    binary main_v138 main_v140 main_v147 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v144 main_v148 (broadcastInDim S1x256 ![1] bcast_S256_S1x256_1 : (⟨S256, .f32⟩ : BufTy).Contents (Elt F) → (⟨S1x256, .f32⟩ : BufTy).Contents (Elt F)),
    unary main_v148 main_v149 (broadcastInDim S50000x256 ![0, 1] bcast_S1x256_S50000x256_0_1 : (⟨S1x256, .f32⟩ : BufTy).Contents (Elt F) → (⟨S50000x256, .f32⟩ : BufTy).Contents (Elt F)),
    binary main_v147 main_v149 main_v150 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S50000x256, .f32⟩) main_call8_v0) (broadcastInDim S50000x256 ![] bcast_S_S50000x256),
    TRef.binary (TRef.of (T := ⟨S50000x256, .f32⟩) main_v150) (TRef.of (T := ⟨S50000x256, .f32⟩) main_call8_v0) (TRef.of (T := ⟨S50000x256, .f32⟩) main_v151) maximumf,
    binary main_v151 main_v142 main_v152 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v146 main_v153 (broadcastInDim S1x256 ![1] bcast_S256_S1x256_1 : (⟨S256, .f32⟩ : BufTy).Contents (Elt F) → (⟨S1x256, .f32⟩ : BufTy).Contents (Elt F)),
    unary main_v153 main_v154 (broadcastInDim S50000x256 ![0, 1] bcast_S1x256_S50000x256_0_1 : (⟨S1x256, .f32⟩ : BufTy).Contents (Elt F) → (⟨S50000x256, .f32⟩ : BufTy).Contents (Elt F)),
    binary main_v152 main_v154 main_v155 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S50000x256, .f32⟩) main_call9_v0) (broadcastInDim S50000x256 ![] bcast_S_S50000x256),
    TRef.binary (TRef.of (T := ⟨S50000x256, .f32⟩) main_v155) (TRef.of (T := ⟨S50000x256, .f32⟩) main_call9_v0) (TRef.of (T := ⟨S50000x256, .f32⟩) main_v156) maximumf,
    binary main_v156 main_v125 main_v157 (addf : (⟨S50000x256, .f32⟩ : BufTy).Contents (Elt F) → (⟨S50000x256, .f32⟩ : BufTy).Contents (Elt F) → (⟨S50000x256, .f32⟩ : BufTy).Contents (Elt F)) ]

theorem opsLayer3_sub : (opsLayer3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub ..⟩

set_option maxHeartbeats 4000000 in
/-- 38 operations: graph-convolution layer 4 (no rectifier after the perceptron). -/
abbrev opsLayer4 : List (HloOp τ sig (Elt F)) :=
  [ nullary main_c_16 (constantI S_ 32 0#32),
    unary main_c_16 main_v158 (broadcastInDim S300000 ![] bcast_S_S300000 : (⟨S_, .i32⟩ : BufTy).Contents (Elt F) → (⟨S300000, .i32⟩ : BufTy).Contents (Elt F)),
    binary main_v1 main_v158 main_v159 (cmpi .slt : (⟨S300000, .i32⟩ : BufTy).Contents (Elt F) → (⟨S300000, .i32⟩ : BufTy).Contents (Elt F) → (⟨S300000, .i1⟩ : BufTy).Contents (Elt F)),
    nullary main_c_17 (constantI S_ 32 50000#32),
    unary main_c_17 main_v160 (broadcastInDim S300000 ![] bcast_S_S300000 : (⟨S_, .i32⟩ : BufTy).Contents (Elt F) → (⟨S300000, .i32⟩ : BufTy).Contents (Elt F)),
    binary main_v1 main_v160 main_v161 (addi : (⟨S300000, .i32⟩ : BufTy).Contents (Elt F) → (⟨S300000, .i32⟩ : BufTy).Contents (Elt F) → (⟨S300000, .i32⟩ : BufTy).Contents (Elt F)),
    ternary main_v159 main_v161 main_v1 main_v162 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v162 main_v163 (broadcastInDim S300000x1 ![0] bcast_S300000_S300000x1_0 : (⟨S300000, .i32⟩ : BufTy).Contents (Elt F) → (⟨S300000x1, .i32⟩ : BufTy).Contents (Elt F)),
    binary main_v157 main_v163 main_v164 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    binary main_v164 main_v61 main_v165 (addf : (⟨S300000x256, .f32⟩ : BufTy).Contents (Elt F) → (⟨S300000x256, .f32⟩ : BufTy).Contents (Elt F) → (⟨S300000x256, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S300000x256, .f32⟩) main_call10_v0) (broadcastInDim S300000x256 ![] bcast_S_S300000x256),
    TRef.binary (TRef.of (T := ⟨S300000x256, .f32⟩) main_v165) (TRef.of (T := ⟨S300000x256, .f32⟩) main_call10_v0) (TRef.of (T := ⟨S300000x256, .f32⟩) main_v166) maximumf,
    nullary main_cst_18 (constant S_ .f32 0x00000000#32),
    unary main_cst_18 main_v167 (broadcastInDim S50000x256 ![] bcast_S_S50000x256 : (⟨S_, .f32⟩ : BufTy).Contents (Elt F) → (⟨S50000x256, .f32⟩ : BufTy).Contents (Elt F)),
    unary main_v3 main_v168 (broadcastInDim S300000x1 ![0] bcast_S300000_S300000x1_0 : (⟨S300000, .i32⟩ : BufTy).Contents (Elt F) → (⟨S300000x1, .i32⟩ : BufTy).Contents (Elt F)),
    ternary main_v167 main_v168 main_v166 main_v169 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)),
    binary main_v157 main_v169 main_v170 (addf : (⟨S50000x256, .f32⟩ : BufTy).Contents (Elt F) → (⟨S50000x256, .f32⟩ : BufTy).Contents (Elt F) → (⟨S50000x256, .f32⟩ : BufTy).Contents (Elt F)),
    unary main_arg17 main_v171 ((extractStridedSlice S1x256x256 ![3, 0, 0] · slices_S4x256x256_S1x256x256_3_0_0) : (⟨S4x256x256, .f32⟩ : BufTy).Contents (Elt F) → (⟨S1x256x256, .f32⟩ : BufTy).Contents (Elt F)),
    reshape main_v171 main_v172 rfl shapeCasts_S1x256x256_S256x256,
    unary main_arg19 main_v173 ((extractStridedSlice S1x256x256 ![3, 0, 0] · slices_S4x256x256_S1x256x256_3_0_0) : (⟨S4x256x256, .f32⟩ : BufTy).Contents (Elt F) → (⟨S1x256x256, .f32⟩ : BufTy).Contents (Elt F)),
    reshape main_v173 main_v174 rfl shapeCasts_S1x256x256_S256x256,
    unary main_arg18 main_v175 ((extractStridedSlice S1x256 ![3, 0] · slices_S4x256_S1x256_3_0) : (⟨S4x256, .f32⟩ : BufTy).Contents (Elt F) → (⟨S1x256, .f32⟩ : BufTy).Contents (Elt F)),
    reshape main_v175 main_v176 rfl shapeCasts_S1x256_S256,
    unary main_arg20 main_v177 ((extractStridedSlice S1x256 ![3, 0] · slices_S4x256_S1x256_3_0) : (⟨S4x256, .f32⟩ : BufTy).Contents (Elt F) → (⟨S1x256, .f32⟩ : BufTy).Contents (Elt F)),
    reshape main_v177 main_v178 rfl shapeCasts_S1x256_S256,
    binary main_v170 main_v172 main_v179 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v176 main_v180 (broadcastInDim S1x256 ![1] bcast_S256_S1x256_1 : (⟨S256, .f32⟩ : BufTy).Contents (Elt F) → (⟨S1x256, .f32⟩ : BufTy).Contents (Elt F)),
    unary main_v180 main_v181 (broadcastInDim S50000x256 ![0, 1] bcast_S1x256_S50000x256_0_1 : (⟨S1x256, .f32⟩ : BufTy).Contents (Elt F) → (⟨S50000x256, .f32⟩ : BufTy).Contents (Elt F)),
    binary main_v179 main_v181 main_v182 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S50000x256, .f32⟩) main_call11_v0) (broadcastInDim S50000x256 ![] bcast_S_S50000x256),
    TRef.binary (TRef.of (T := ⟨S50000x256, .f32⟩) main_v182) (TRef.of (T := ⟨S50000x256, .f32⟩) main_call11_v0) (TRef.of (T := ⟨S50000x256, .f32⟩) main_v183) maximumf,
    binary main_v183 main_v174 main_v184 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v178 main_v185 (broadcastInDim S1x256 ![1] bcast_S256_S1x256_1 : (⟨S256, .f32⟩ : BufTy).Contents (Elt F) → (⟨S1x256, .f32⟩ : BufTy).Contents (Elt F)),
    unary main_v185 main_v186 (broadcastInDim S50000x256 ![0, 1] bcast_S1x256_S50000x256_0_1 : (⟨S1x256, .f32⟩ : BufTy).Contents (Elt F) → (⟨S50000x256, .f32⟩ : BufTy).Contents (Elt F)),
    binary main_v184 main_v186 main_v187 (addf : (⟨S50000x256, .f32⟩ : BufTy).Contents (Elt F) → (⟨S50000x256, .f32⟩ : BufTy).Contents (Elt F) → (⟨S50000x256, .f32⟩ : BufTy).Contents (Elt F)),
    binary main_v187 main_v157 main_v188 (addf : (⟨S50000x256, .f32⟩ : BufTy).Contents (Elt F) → (⟨S50000x256, .f32⟩ : BufTy).Contents (Elt F) → (⟨S50000x256, .f32⟩ : BufTy).Contents (Elt F)) ]

theorem opsLayer4_sub : (opsLayer4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub ..⟩

set_option maxHeartbeats 4000000 in
/-- 63 operations: the endpoint products, the output perceptron, the marginal standard deviation and the quotient. -/
abbrev opsScore : List (HloOp τ sig (Elt F)) :=
  [ nullary main_c_19 (constantI S_ 32 0#32),
    unary main_c_19 main_v189 (broadcastInDim S300000 ![] bcast_S_S300000 : (⟨S_, .i32⟩ : BufTy).Contents (Elt F) → (⟨S300000, .i32⟩ : BufTy).Contents (Elt F)),
    binary main_v1 main_v189 main_v190 (cmpi .slt : (⟨S300000, .i32⟩ : BufTy).Contents (Elt F) → (⟨S300000, .i32⟩ : BufTy).Contents (Elt F) → (⟨S300000, .i1⟩ : BufTy).Contents (Elt F)),
    nullary main_c_20 (constantI S_ 32 50000#32),
    unary main_c_20 main_v191 (broadcastInDim S300000 ![] bcast_S_S300000 : (⟨S_, .i32⟩ : BufTy).Contents (Elt F) → (⟨S300000, .i32⟩ : BufTy).Contents (Elt F)),
    binary main_v1 main_v191 main_v192 (addi : (⟨S300000, .i32⟩ : BufTy).Contents (Elt F) → (⟨S300000, .i32⟩ : BufTy).Contents (Elt F) → (⟨S300000, .i32⟩ : BufTy).Contents (Elt F)),
    ternary main_v190 main_v192 main_v1 main_v193 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v193 main_v194 (broadcastInDim S300000x1 ![0] bcast_S300000_S300000x1_0 : (⟨S300000, .i32⟩ : BufTy).Contents (Elt F) → (⟨S300000x1, .i32⟩ : BufTy).Contents (Elt F)),
    binary main_v188 main_v194 main_v195 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    nullary main_c_21 (constantI S_ 32 0#32),
    unary main_c_21 main_v196 (broadcastInDim S300000 ![] bcast_S_S300000 : (⟨S_, .i32⟩ : BufTy).Contents (Elt F) → (⟨S300000, .i32⟩ : BufTy).Contents (Elt F)),
    binary main_v3 main_v196 main_v197 (cmpi .slt : (⟨S300000, .i32⟩ : BufTy).Contents (Elt F) → (⟨S300000, .i32⟩ : BufTy).Contents (Elt F) → (⟨S300000, .i1⟩ : BufTy).Contents (Elt F)),
    nullary main_c_22 (constantI S_ 32 50000#32),
    unary main_c_22 main_v198 (broadcastInDim S300000 ![] bcast_S_S300000 : (⟨S_, .i32⟩ : BufTy).Contents (Elt F) → (⟨S300000, .i32⟩ : BufTy).Contents (Elt F)),
    binary main_v3 main_v198 main_v199 (addi : (⟨S300000, .i32⟩ : BufTy).Contents (Elt F) → (⟨S300000, .i32⟩ : BufTy).Contents (Elt F) → (⟨S300000, .i32⟩ : BufTy).Contents (Elt F)),
    ternary main_v197 main_v199 main_v3 main_v200 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v200 main_v201 (broadcastInDim S300000x1 ![0] bcast_S300000_S300000x1_0 : (⟨S300000, .i32⟩ : BufTy).Contents (Elt F) → (⟨S300000x1, .i32⟩ : BufTy).Contents (Elt F)),
    binary main_v188 main_v201 main_v202 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    binary main_v195 main_v202 main_v203 (mulf : (⟨S300000x256, .f32⟩ : BufTy).Contents (Elt F) → (⟨S300000x256, .f32⟩ : BufTy).Contents (Elt F) → (⟨S300000x256, .f32⟩ : BufTy).Contents (Elt F)),
    binary main_v203 main_v61 main_v204 ((fun a b => concatenate S300000x512 1 [⟨S300000x256, a⟩, ⟨S300000x256, b⟩] concatenates_S300000x256_S300000x256_S300000x512_d1) : (⟨S300000x256, .f32⟩ : BufTy).Contents (Elt F) → (⟨S300000x256, .f32⟩ : BufTy).Contents (Elt F) → (⟨S300000x512, .f32⟩ : BufTy).Contents (Elt F)),
    binary main_v204 main_arg21 main_v205 ((fun l r => Host.dotGeneral dot_S300000x512_S512x256_S300000x256_1_0_0_1_n_n none l r) : (⟨S300000x512, .f32⟩ : BufTy).Contents (Elt F) → (⟨S512x256, .f32⟩ : BufTy).Contents (Elt F) → (⟨S300000x256, .f32⟩ : BufTy).Contents (Elt F)),
    unary main_arg22 main_v206 (broadcastInDim S1x256 ![1] bcast_S256_S1x256_1 : (⟨S256, .f32⟩ : BufTy).Contents (Elt F) → (⟨S1x256, .f32⟩ : BufTy).Contents (Elt F)),
    unary main_v206 main_v207 (broadcastInDim S300000x256 ![0, 1] bcast_S1x256_S300000x256_0_1 : (⟨S1x256, .f32⟩ : BufTy).Contents (Elt F) → (⟨S300000x256, .f32⟩ : BufTy).Contents (Elt F)),
    binary main_v205 main_v207 main_v208 (addf : (⟨S300000x256, .f32⟩ : BufTy).Contents (Elt F) → (⟨S300000x256, .f32⟩ : BufTy).Contents (Elt F) → (⟨S300000x256, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S300000x256, .f32⟩) main_call12_v0) (broadcastInDim S300000x256 ![] bcast_S_S300000x256),
    TRef.binary (TRef.of (T := ⟨S300000x256, .f32⟩) main_v208) (TRef.of (T := ⟨S300000x256, .f32⟩) main_call12_v0) (TRef.of (T := ⟨S300000x256, .f32⟩) main_v209) maximumf,
    binary main_v209 main_arg23 main_v210 ((fun l r => Host.dotGeneral dot_S300000x256_S256x128_S300000x128_1_0_0_1_n_n none l r) : (⟨S300000x256, .f32⟩ : BufTy).Contents (Elt F) → (⟨S256x128, .f32⟩ : BufTy).Contents (Elt F) → (⟨S300000x128, .f32⟩ : BufTy).Contents (Elt F)),
    unary main_arg24 main_v211 (broadcastInDim S1x128 ![1] bcast_S128_S1x128_1 : (⟨S128, .f32⟩ : BufTy).Contents (Elt F) → (⟨S1x128, .f32⟩ : BufTy).Contents (Elt F)),
    unary main_v211 main_v212 (broadcastInDim S300000x128 ![0, 1] bcast_S1x128_S300000x128_0_1 : (⟨S1x128, .f32⟩ : BufTy).Contents (Elt F) → (⟨S300000x128, .f32⟩ : BufTy).Contents (Elt F)),
    binary main_v210 main_v212 main_v213 (addf : (⟨S300000x128, .f32⟩ : BufTy).Contents (Elt F) → (⟨S300000x128, .f32⟩ : BufTy).Contents (Elt F) → (⟨S300000x128, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S300000x128, .f32⟩) main_call13_v0) (broadcastInDim S300000x128 ![] bcast_S_S300000x128),
    TRef.binary (TRef.of (T := ⟨S300000x128, .f32⟩) main_v213) (TRef.of (T := ⟨S300000x128, .f32⟩) main_call13_v0) (TRef.of (T := ⟨S300000x128, .f32⟩) main_v214) maximumf,
    binary main_v214 main_arg25 main_v215 ((fun l r => Host.dotGeneral dot_S300000x128_S128x1_S300000x1_1_0_0_1_n_n none l r) : (⟨S300000x128, .f32⟩ : BufTy).Contents (Elt F) → (⟨S128x1, .f32⟩ : BufTy).Contents (Elt F) → (⟨S300000x1, .f32⟩ : BufTy).Contents (Elt F)),
    unary main_arg26 main_v216 (broadcastInDim S1x1 ![1] bcast_S1_S1x1_1 : (⟨S1, .f32⟩ : BufTy).Contents (Elt F) → (⟨S1x1, .f32⟩ : BufTy).Contents (Elt F)),
    unary main_v216 main_v217 (broadcastInDim S300000x1 ![0, 1] bcast_S1x1_S300000x1_0_1 : (⟨S1x1, .f32⟩ : BufTy).Contents (Elt F) → (⟨S300000x1, .f32⟩ : BufTy).Contents (Elt F)),
    binary main_v215 main_v217 main_v218 (addf : (⟨S300000x1, .f32⟩ : BufTy).Contents (Elt F) → (⟨S300000x1, .f32⟩ : BufTy).Contents (Elt F) → (⟨S300000x1, .f32⟩ : BufTy).Contents (Elt F)),
    reshape main_v218 main_v219 rfl shapeCasts_S300000x1_S300000,
    nullary main_c_23 (constantI S_ 32 0#32),
    unary main_c_23 main_v220 (broadcastInDim S300000 ![] bcast_S_S300000 : (⟨S_, .i32⟩ : BufTy).Contents (Elt F) → (⟨S300000, .i32⟩ : BufTy).Contents (Elt F)),
    binary main_v10 main_v220 main_v221 (cmpi .slt : (⟨S300000, .i32⟩ : BufTy).Contents (Elt F) → (⟨S300000, .i32⟩ : BufTy).Contents (Elt F) → (⟨S300000, .i1⟩ : BufTy).Contents (Elt F)),
    nullary main_c_24 (constantI S_ 32 1024#32),
    unary main_c_24 main_v222 (broadcastInDim S300000 ![] bcast_S_S300000 : (⟨S_, .i32⟩ : BufTy).Contents (Elt F) → (⟨S300000, .i32⟩ : BufTy).Contents (Elt F)),
    binary main_v10 main_v222 main_v223 (addi : (⟨S300000, .i32⟩ : BufTy).Contents (Elt F) → (⟨S300000, .i32⟩ : BufTy).Contents (Elt F) → (⟨S300000, .i32⟩ : BufTy).Contents (Elt F)),
    ternary main_v221 main_v223 main_v10 main_v224 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v224 main_v225 (broadcastInDim S300000x1 ![0] bcast_S300000_S300000x1_0 : (⟨S300000, .i32⟩ : BufTy).Contents (Elt F) → (⟨S300000x1, .i32⟩ : BufTy).Contents (Elt F)),
    binary main_arg5 main_v225 main_v226 ((fun x i => Host.gather gather_S1024_S300000x1_S300000_n_0_n_n_0_1_1 x i) : (⟨S1024, .f32⟩ : BufTy).Contents (Elt F) → (⟨S300000x1, .i32⟩ : BufTy).Contents (Elt F) → (⟨S300000, .f32⟩ : BufTy).Contents (Elt F)),
    nullary main_cst_25 (constant S_ .f32 0x40000000#32),
    unary main_cst_25 main_v227 (broadcastInDim S300000 ![] bcast_S_S300000 : (⟨S_, .f32⟩ : BufTy).Contents (Elt F) → (⟨S300000, .f32⟩ : BufTy).Contents (Elt F)),
    binary main_v227 main_v226 main_v228 (mulf : (⟨S300000, .f32⟩ : BufTy).Contents (Elt F) → (⟨S300000, .f32⟩ : BufTy).Contents (Elt F) → (⟨S300000, .f32⟩ : BufTy).Contents (Elt F)),
    nullary main_cst_26 (constant S_ .f32 0x404E0210#32),
    unary main_cst_26 main_v229 (broadcastInDim S300000 ![] bcast_S_S300000 : (⟨S_, .f32⟩ : BufTy).Contents (Elt F) → (⟨S300000, .f32⟩ : BufTy).Contents (Elt F)),
    binary main_v228 main_v229 main_v230 (mulf : (⟨S300000, .f32⟩ : BufTy).Contents (Elt F) → (⟨S300000, .f32⟩ : BufTy).Contents (Elt F) → (⟨S300000, .f32⟩ : BufTy).Contents (Elt F)),
    unary main_v230 main_v231 (Host.exp : (⟨S300000, .f32⟩ : BufTy).Contents (Elt F) → (⟨S300000, .f32⟩ : BufTy).Contents (Elt F)),
    nullary main_cst_27 (constant S_ .f32 0x3F800000#32),
    unary main_cst_27 main_v232 (broadcastInDim S300000 ![] bcast_S_S300000 : (⟨S_, .f32⟩ : BufTy).Contents (Elt F) → (⟨S300000, .f32⟩ : BufTy).Contents (Elt F)),
    binary main_v231 main_v232 main_v233 (subf : (⟨S300000, .f32⟩ : BufTy).Contents (Elt F) → (⟨S300000, .f32⟩ : BufTy).Contents (Elt F) → (⟨S300000, .f32⟩ : BufTy).Contents (Elt F)),
    nullary main_cst_28 (constant S_ .f32 0x40CE0210#32),
    unary main_cst_28 main_v234 (broadcastInDim S300000 ![] bcast_S_S300000 : (⟨S_, .f32⟩ : BufTy).Contents (Elt F) → (⟨S300000, .f32⟩ : BufTy).Contents (Elt F)),
    binary main_v233 main_v234 main_v235 (Host.divf : (⟨S300000, .f32⟩ : BufTy).Contents (Elt F) → (⟨S300000, .f32⟩ : BufTy).Contents (Elt F) → (⟨S300000, .f32⟩ : BufTy).Contents (Elt F)),
    unary main_v235 main_v236 (Host.sqrt : (⟨S300000, .f32⟩ : BufTy).Contents (Elt F) → (⟨S300000, .f32⟩ : BufTy).Contents (Elt F)),
    binary main_v219 main_v236 main_v237 (Host.divf : (⟨S300000, .f32⟩ : BufTy).Contents (Elt F) → (⟨S300000, .f32⟩ : BufTy).Contents (Elt F) → (⟨S300000, .f32⟩ : BufTy).Contents (Elt F)) ]

theorem opsScore_sub : (opsScore : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., binary_bufs_sub ..⟩

/-- @main's 297 operations, in order. -/
abbrev ops : List (HloOp τ sig (Elt F)) := opsEdge ++ opsLayer1 ++ opsLayer2 ++ opsLayer3 ++ opsLayer4 ++ opsScore

set_option maxHeartbeats 4000000 in
set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with ((((h | h) | h) | h) | h) | h
    · exact List.forall_iff_forall_mem.mp opsEdge_sub op h
    · exact List.forall_iff_forall_mem.mp opsLayer1_sub op h
    · exact List.forall_iff_forall_mem.mp opsLayer2_sub op h
    · exact List.forall_iff_forall_mem.mp opsLayer3_sub op h
    · exact List.forall_iff_forall_mem.mp opsLayer4_sub op h
    · exact List.forall_iff_forall_mem.mp opsScore_sub op h

/-- A fold over a concatenation is the fold over the second list of the fold over the first. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-- No operation allocates: each determines its results. -/
theorem ops_fresh : ∀ op ∈ (ops : List (HloOp τ sig (Elt F))), op.fresh = ∅ := by
  intro op h
  simp only [ops, List.mem_append] at h
  rcases h with ((((h | h) | h) | h) | h) | h <;>
    · revert h; intro h; (repeat (cases h with | head => rfl | tail _ h => ?_)); exact nomatch h

set_option maxHeartbeats 4000000 in
/-- Every weakly fair execution of the reference terminates with every buffer at the fold of the operations' results
    over its launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.FoldRun

end
-- ==== Proof.RefThread.lean ====
/-
  The reference's result, stretch by stretch.

  The reference's straight line of operations is read in six stretches. For an arbitrary valuation of the buffers, the
  contents a stretch leaves in its last buffer is the corresponding stage function of the contents it reads; a buffer a
  stretch does not write keeps its contents. Chaining the six facts along the fold gives the contents of the result
  buffer after the whole line as the last stage function of the arguments, without ever writing the composed term.
-/
import proofs.«143893_j1065151889700_2_alg».proof.Proof.RefRun
import proofs.«143893_j1065151889700_2_alg».proof.Proof.RefReadP

noncomputable section

namespace Cert.RefThread

open Cert.ReferenceIdeal Cert.ReferenceIdeal.Gen Cert.ReferenceIdeal.Read Cert.ReferenceIdeal.FoldRun Idealize.ShloMosaic
  Idealize.ShloMosaic.TcCoe Idealize.SL.Sem Idealize.ShloMosaic.StableHlo
variable (x0 : (⟨S50000, .i32⟩ : BufTy).Contents (Elt Ideal)) (x1 : (⟨S300000, .i32⟩ : BufTy).Contents (Elt Ideal))
  (x2 : (⟨S2x300000, .i32⟩ : BufTy).Contents (Elt Ideal)) (x3 : (⟨S50000, .i32⟩ : BufTy).Contents (Elt Ideal))
  (x4 : (⟨S300000x1, .f32⟩ : BufTy).Contents (Elt Ideal)) (x5 : (⟨S1024, .f32⟩ : BufTy).Contents (Elt Ideal))
  (x6 x7 : (⟨S100x256, .f32⟩ : BufTy).Contents (Elt Ideal)) (x8 : (⟨S1x256, .f32⟩ : BufTy).Contents (Elt Ideal))
  (x9 : (⟨S256, .f32⟩ : BufTy).Contents (Elt Ideal)) (x10 : (⟨S256x256, .f32⟩ : BufTy).Contents (Elt Ideal))
  (x11 : (⟨S256, .f32⟩ : BufTy).Contents (Elt Ideal)) (x12 : (⟨S128, .f32⟩ : BufTy).Contents (Elt Ideal))
  (x13 : (⟨S256x256, .f32⟩ : BufTy).Contents (Elt Ideal)) (x14 : (⟨S256, .f32⟩ : BufTy).Contents (Elt Ideal))
  (x15 : (⟨S256x1, .f32⟩ : BufTy).Contents (Elt Ideal)) (x16 : (⟨S1, .f32⟩ : BufTy).Contents (Elt Ideal))
  (x17 : (⟨S4x256x256, .f32⟩ : BufTy).Contents (Elt Ideal)) (x18 : (⟨S4x256, .f32⟩ : BufTy).Contents (Elt Ideal))
  (x19 : (⟨S4x256x256, .f32⟩ : BufTy).Contents (Elt Ideal)) (x20 : (⟨S4x256, .f32⟩ : BufTy).Contents (Elt Ideal))
  (x21 : (⟨S512x256, .f32⟩ : BufTy).Contents (Elt Ideal)) (x22 : (⟨S256, .f32⟩ : BufTy).Contents (Elt Ideal))
  (x23 : (⟨S256x128, .f32⟩ : BufTy).Contents (Elt Ideal)) (x24 : (⟨S128, .f32⟩ : BufTy).Contents (Elt Ideal))
  (x25 : (⟨S128x1, .f32⟩ : BufTy).Contents (Elt Ideal)) (x26 : (⟨S1, .f32⟩ : BufTy).Contents (Elt Ideal))

variable (V : Valuation τ sig (Elt Ideal))

/-! ## The first stretch: the edge features, the index vectors and the initial state, from the arguments -/

set_option maxHeartbeats 4000000 in
theorem edge_v61 : after (opsEdge (F := Ideal)) V (Proc.devRef .tc main_v61) = val_main_v61 (F := Ideal) (V (Proc.devRef .tc main_arg1)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  after_results_simp
  rfl

theorem edge_v1 : after (opsEdge (F := Ideal)) V (Proc.devRef .tc main_v1) = val_main_v1 (F := Ideal) (V (Proc.devRef .tc main_arg2)) := by
  after_results_simp
  rfl

theorem edge_v3 : after (opsEdge (F := Ideal)) V (Proc.devRef .tc main_v3) = val_main_v3 (F := Ideal) (V (Proc.devRef .tc main_arg2)) := by
  after_results_simp
  rfl

theorem edge_v10 : after (opsEdge (F := Ideal)) V (Proc.devRef .tc main_v10) = val_main_v10 (F := Ideal) (V (Proc.devRef .tc main_arg2)) (V (Proc.devRef .tc main_arg3)) := by
  after_results_simp
  rfl

theorem edge_v35 : after (opsEdge (F := Ideal)) V (Proc.devRef .tc main_v35) = val_main_v35 (F := Ideal) (V (Proc.devRef .tc main_arg0)) (V (Proc.devRef .tc main_arg6)) := by
  after_results_simp
  rfl

/-! ## What a stretch does not write keeps its contents -/
theorem keep0_arg5 : after (opsEdge (F := Ideal)) V (Proc.devRef .tc main_arg5) = V (Proc.devRef .tc main_arg5) := by after_results_simp
theorem keep0_arg17 : after (opsEdge (F := Ideal)) V (Proc.devRef .tc main_arg17) = V (Proc.devRef .tc main_arg17) := by after_results_simp
theorem keep0_arg18 : after (opsEdge (F := Ideal)) V (Proc.devRef .tc main_arg18) = V (Proc.devRef .tc main_arg18) := by after_results_simp
theorem keep0_arg19 : after (opsEdge (F := Ideal)) V (Proc.devRef .tc main_arg19) = V (Proc.devRef .tc main_arg19) := by after_results_simp
theorem keep0_arg20 : after (opsEdge (F := Ideal)) V (Proc.devRef .tc main_arg20) = V (Proc.devRef .tc main_arg20) := by after_results_simp
theorem keep0_arg21 : after (opsEdge (F := Ideal)) V (Proc.devRef .tc main_arg21) = V (Proc.devRef .tc main_arg21) := by after_results_simp
theorem keep0_arg22 : after (opsEdge (F := Ideal)) V (Proc.devRef .tc main_arg22) = V (Proc.devRef .tc main_arg22) := by after_results_simp
theorem keep0_arg23 : after (opsEdge (F := Ideal)) V (Proc.devRef .tc main_arg23) = V (Proc.devRef .tc main_arg23) := by after_results_simp
theorem keep0_arg24 : after (opsEdge (F := Ideal)) V (Proc.devRef .tc main_arg24) = V (Proc.devRef .tc main_arg24) := by after_results_simp
theorem keep0_arg25 : after (opsEdge (F := Ideal)) V (Proc.devRef .tc main_arg25) = V (Proc.devRef .tc main_arg25) := by after_results_simp
theorem keep0_arg26 : after (opsEdge (F := Ideal)) V (Proc.devRef .tc main_arg26) = V (Proc.devRef .tc main_arg26) := by after_results_simp
theorem keep1_v61 : after (opsLayer1 (F := Ideal)) V (Proc.devRef .tc main_v61) = V (Proc.devRef .tc main_v61) := by after_results_simp
theorem keep1_v1 : after (opsLayer1 (F := Ideal)) V (Proc.devRef .tc main_v1) = V (Proc.devRef .tc main_v1) := by after_results_simp
theorem keep1_v3 : after (opsLayer1 (F := Ideal)) V (Proc.devRef .tc main_v3) = V (Proc.devRef .tc main_v3) := by after_results_simp
theorem keep1_v10 : after (opsLayer1 (F := Ideal)) V (Proc.devRef .tc main_v10) = V (Proc.devRef .tc main_v10) := by after_results_simp
theorem keep1_arg5 : after (opsLayer1 (F := Ideal)) V (Proc.devRef .tc main_arg5) = V (Proc.devRef .tc main_arg5) := by after_results_simp
theorem keep1_arg17 : after (opsLayer1 (F := Ideal)) V (Proc.devRef .tc main_arg17) = V (Proc.devRef .tc main_arg17) := by after_results_simp
theorem keep1_arg18 : after (opsLayer1 (F := Ideal)) V (Proc.devRef .tc main_arg18) = V (Proc.devRef .tc main_arg18) := by after_results_simp
theorem keep1_arg19 : after (opsLayer1 (F := Ideal)) V (Proc.devRef .tc main_arg19) = V (Proc.devRef .tc main_arg19) := by after_results_simp
theorem keep1_arg20 : after (opsLayer1 (F := Ideal)) V (Proc.devRef .tc main_arg20) = V (Proc.devRef .tc main_arg20) := by after_results_simp
theorem keep1_arg21 : after (opsLayer1 (F := Ideal)) V (Proc.devRef .tc main_arg21) = V (Proc.devRef .tc main_arg21) := by after_results_simp
theorem keep1_arg22 : after (opsLayer1 (F := Ideal)) V (Proc.devRef .tc main_arg22) = V (Proc.devRef .tc main_arg22) := by after_results_simp
theorem keep1_arg23 : after (opsLayer1 (F := Ideal)) V (Proc.devRef .tc main_arg23) = V (Proc.devRef .tc main_arg23) := by after_results_simp
theorem keep1_arg24 : after (opsLayer1 (F := Ideal)) V (Proc.devRef .tc main_arg24) = V (Proc.devRef .tc main_arg24) := by after_results_simp
theorem keep1_arg25 : after (opsLayer1 (F := Ideal)) V (Proc.devRef .tc main_arg25) = V (Proc.devRef .tc main_arg25) := by after_results_simp
theorem keep1_arg26 : after (opsLayer1 (F := Ideal)) V (Proc.devRef .tc main_arg26) = V (Proc.devRef .tc main_arg26) := by after_results_simp
theorem keep2_v61 : after (opsLayer2 (F := Ideal)) V (Proc.devRef .tc main_v61) = V (Proc.devRef .tc main_v61) := by after_results_simp
theorem keep2_v1 : after (opsLayer2 (F := Ideal)) V (Proc.devRef .tc main_v1) = V (Proc.devRef .tc main_v1) := by after_results_simp
theorem keep2_v3 : after (opsLayer2 (F := Ideal)) V (Proc.devRef .tc main_v3) = V (Proc.devRef .tc main_v3) := by after_results_simp
theorem keep2_v10 : after (opsLayer2 (F := Ideal)) V (Proc.devRef .tc main_v10) = V (Proc.devRef .tc main_v10) := by after_results_simp
theorem keep2_arg5 : after (opsLayer2 (F := Ideal)) V (Proc.devRef .tc main_arg5) = V (Proc.devRef .tc main_arg5) := by after_results_simp
theorem keep2_arg17 : after (opsLayer2 (F := Ideal)) V (Proc.devRef .tc main_arg17) = V (Proc.devRef .tc main_arg17) := by after_results_simp
theorem keep2_arg18 : after (opsLayer2 (F := Ideal)) V (Proc.devRef .tc main_arg18) = V (Proc.devRef .tc main_arg18) := by after_results_simp
theorem keep2_arg19 : after (opsLayer2 (F := Ideal)) V (Proc.devRef .tc main_arg19) = V (Proc.devRef .tc main_arg19) := by after_results_simp
theorem keep2_arg20 : after (opsLayer2 (F := Ideal)) V (Proc.devRef .tc main_arg20) = V (Proc.devRef .tc main_arg20) := by after_results_simp
theorem keep2_arg21 : after (opsLayer2 (F := Ideal)) V (Proc.devRef .tc main_arg21) = V (Proc.devRef .tc main_arg21) := by after_results_simp
theorem keep2_arg22 : after (opsLayer2 (F := Ideal)) V (Proc.devRef .tc main_arg22) = V (Proc.devRef .tc main_arg22) := by after_results_simp
theorem keep2_arg23 : after (opsLayer2 (F := Ideal)) V (Proc.devRef .tc main_arg23) = V (Proc.devRef .tc main_arg23) := by after_results_simp
theorem keep2_arg24 : after (opsLayer2 (F := Ideal)) V (Proc.devRef .tc main_arg24) = V (Proc.devRef .tc main_arg24) := by after_results_simp
theorem keep2_arg25 : after (opsLayer2 (F := Ideal)) V (Proc.devRef .tc main_arg25) = V (Proc.devRef .tc main_arg25) := by after_results_simp
theorem keep2_arg26 : after (opsLayer2 (F := Ideal)) V (Proc.devRef .tc main_arg26) = V (Proc.devRef .tc main_arg26) := by after_results_simp
theorem keep3_v61 : after (opsLayer3 (F := Ideal)) V (Proc.devRef .tc main_v61) = V (Proc.devRef .tc main_v61) := by after_results_simp
theorem keep3_v1 : after (opsLayer3 (F := Ideal)) V (Proc.devRef .tc main_v1) = V (Proc.devRef .tc main_v1) := by after_results_simp
theorem keep3_v3 : after (opsLayer3 (F := Ideal)) V (Proc.devRef .tc main_v3) = V (Proc.devRef .tc main_v3) := by after_results_simp
theorem keep3_v10 : after (opsLayer3 (F := Ideal)) V (Proc.devRef .tc main_v10) = V (Proc.devRef .tc main_v10) := by after_results_simp
theorem keep3_arg5 : after (opsLayer3 (F := Ideal)) V (Proc.devRef .tc main_arg5) = V (Proc.devRef .tc main_arg5) := by after_results_simp
theorem keep3_arg17 : after (opsLayer3 (F := Ideal)) V (Proc.devRef .tc main_arg17) = V (Proc.devRef .tc main_arg17) := by after_results_simp
theorem keep3_arg18 : after (opsLayer3 (F := Ideal)) V (Proc.devRef .tc main_arg18) = V (Proc.devRef .tc main_arg18) := by after_results_simp
theorem keep3_arg19 : after (opsLayer3 (F := Ideal)) V (Proc.devRef .tc main_arg19) = V (Proc.devRef .tc main_arg19) := by after_results_simp
theorem keep3_arg20 : after (opsLayer3 (F := Ideal)) V (Proc.devRef .tc main_arg20) = V (Proc.devRef .tc main_arg20) := by after_results_simp
theorem keep3_arg21 : after (opsLayer3 (F := Ideal)) V (Proc.devRef .tc main_arg21) = V (Proc.devRef .tc main_arg21) := by after_results_simp
theorem keep3_arg22 : after (opsLayer3 (F := Ideal)) V (Proc.devRef .tc main_arg22) = V (Proc.devRef .tc main_arg22) := by after_results_simp
theorem keep3_arg23 : after (opsLayer3 (F := Ideal)) V (Proc.devRef .tc main_arg23) = V (Proc.devRef .tc main_arg23) := by after_results_simp
theorem keep3_arg24 : after (opsLayer3 (F := Ideal)) V (Proc.devRef .tc main_arg24) = V (Proc.devRef .tc main_arg24) := by after_results_simp
theorem keep3_arg25 : after (opsLayer3 (F := Ideal)) V (Proc.devRef .tc main_arg25) = V (Proc.devRef .tc main_arg25) := by after_results_simp
theorem keep3_arg26 : after (opsLayer3 (F := Ideal)) V (Proc.devRef .tc main_arg26) = V (Proc.devRef .tc main_arg26) := by after_results_simp
theorem keep4_v61 : after (opsLayer4 (F := Ideal)) V (Proc.devRef .tc main_v61) = V (Proc.devRef .tc main_v61) := by after_results_simp
theorem keep4_v1 : after (opsLayer4 (F := Ideal)) V (Proc.devRef .tc main_v1) = V (Proc.devRef .tc main_v1) := by after_results_simp
theorem keep4_v3 : after (opsLayer4 (F := Ideal)) V (Proc.devRef .tc main_v3) = V (Proc.devRef .tc main_v3) := by after_results_simp
theorem keep4_v10 : after (opsLayer4 (F := Ideal)) V (Proc.devRef .tc main_v10) = V (Proc.devRef .tc main_v10) := by after_results_simp
theorem keep4_arg5 : after (opsLayer4 (F := Ideal)) V (Proc.devRef .tc main_arg5) = V (Proc.devRef .tc main_arg5) := by after_results_simp
theorem keep4_arg21 : after (opsLayer4 (F := Ideal)) V (Proc.devRef .tc main_arg21) = V (Proc.devRef .tc main_arg21) := by after_results_simp
theorem keep4_arg22 : after (opsLayer4 (F := Ideal)) V (Proc.devRef .tc main_arg22) = V (Proc.devRef .tc main_arg22) := by after_results_simp
theorem keep4_arg23 : after (opsLayer4 (F := Ideal)) V (Proc.devRef .tc main_arg23) = V (Proc.devRef .tc main_arg23) := by after_results_simp
theorem keep4_arg24 : after (opsLayer4 (F := Ideal)) V (Proc.devRef .tc main_arg24) = V (Proc.devRef .tc main_arg24) := by after_results_simp
theorem keep4_arg25 : after (opsLayer4 (F := Ideal)) V (Proc.devRef .tc main_arg25) = V (Proc.devRef .tc main_arg25) := by after_results_simp
theorem keep4_arg26 : after (opsLayer4 (F := Ideal)) V (Proc.devRef .tc main_arg26) = V (Proc.devRef .tc main_arg26) := by after_results_simp

/-! ## The four layers and the score, each from the contents it reads -/

set_option maxHeartbeats 4000000 in
theorem layer1_out
    (hH : V (Proc.devRef .tc main_v35) = val_main_v35 (F := Ideal) x0 x6)
    (h61 : V (Proc.devRef .tc main_v61) = val_main_v61 (F := Ideal) x1 x2 x3 x4 x5 x7 x8 x9 x10 x11 x12 x13 x14 x15 x16)
    (h1 : V (Proc.devRef .tc main_v1) = val_main_v1 (F := Ideal) x2)
    (h3 : V (Proc.devRef .tc main_v3) = val_main_v3 (F := Ideal) x2)
    (a17 : V (Proc.devRef .tc main_arg17) = x17) (a18 : V (Proc.devRef .tc main_arg18) = x18)
    (a19 : V (Proc.devRef .tc main_arg19) = x19) (a20 : V (Proc.devRef .tc main_arg20) = x20) :
    after (opsLayer1 (F := Ideal)) V (Proc.devRef .tc main_v93) = val_main_v93 (F := Ideal) x0 x1 x2 x3 x4 x5 x6 x7 x8 x9 x10 x11 x12 x13 x14 x15 x16 x17 x18 x19 x20 := by
  after_results_simp
  rw [hH, h61, h1, h3, a17, a18, a19, a20]
  rfl

set_option maxHeartbeats 4000000 in
theorem layer2_out
    (hH : V (Proc.devRef .tc main_v93) = val_main_v93 (F := Ideal) x0 x1 x2 x3 x4 x5 x6 x7 x8 x9 x10 x11 x12 x13 x14 x15 x16 x17 x18 x19 x20)
    (h61 : V (Proc.devRef .tc main_v61) = val_main_v61 (F := Ideal) x1 x2 x3 x4 x5 x7 x8 x9 x10 x11 x12 x13 x14 x15 x16)
    (h1 : V (Proc.devRef .tc main_v1) = val_main_v1 (F := Ideal) x2)
    (h3 : V (Proc.devRef .tc main_v3) = val_main_v3 (F := Ideal) x2)
    (a17 : V (Proc.devRef .tc main_arg17) = x17) (a18 : V (Proc.devRef .tc main_arg18) = x18)
    (a19 : V (Proc.devRef .tc main_arg19) = x19) (a20 : V (Proc.devRef .tc main_arg20) = x20) :
    after (opsLayer2 (F := Ideal)) V (Proc.devRef .tc main_v125) = val_main_v125 (F := Ideal) x0 x1 x2 x3 x4 x5 x6 x7 x8 x9 x10 x11 x12 x13 x14 x15 x16 x17 x18 x19 x20 := by
  after_results_simp
  rw [hH, h61, h1, h3, a17, a18, a19, a20]
  rfl

set_option maxHeartbeats 4000000 in
theorem layer3_out
    (hH : V (Proc.devRef .tc main_v125) = val_main_v125 (F := Ideal) x0 x1 x2 x3 x4 x5 x6 x7 x8 x9 x10 x11 x12 x13 x14 x15 x16 x17 x18 x19 x20)
    (h61 : V (Proc.devRef .tc main_v61) = val_main_v61 (F := Ideal) x1 x2 x3 x4 x5 x7 x8 x9 x10 x11 x12 x13 x14 x15 x16)
    (h1 : V (Proc.devRef .tc main_v1) = val_main_v1 (F := Ideal) x2)
    (h3 : V (Proc.devRef .tc main_v3) = val_main_v3 (F := Ideal) x2)
    (a17 : V (Proc.devRef .tc main_arg17) = x17) (a18 : V (Proc.devRef .tc main_arg18) = x18)
    (a19 : V (Proc.devRef .tc main_arg19) = x19) (a20 : V (Proc.devRef .tc main_arg20) = x20) :
    after (opsLayer3 (F := Ideal)) V (Proc.devRef .tc main_v157) = val_main_v157 (F := Ideal) x0 x1 x2 x3 x4 x5 x6 x7 x8 x9 x10 x11 x12 x13 x14 x15 x16 x17 x18 x19 x20 := by
  after_results_simp
  rw [hH, h61, h1, h3, a17, a18, a19, a20]
  rfl

set_option maxHeartbeats 4000000 in
theorem layer4_out
    (hH : V (Proc.devRef .tc main_v157) = val_main_v157 (F := Ideal) x0 x1 x2 x3 x4 x5 x6 x7 x8 x9 x10 x11 x12 x13 x14 x15 x16 x17 x18 x19 x20)
    (h61 : V (Proc.devRef .tc main_v61) = val_main_v61 (F := Ideal) x1 x2 x3 x4 x5 x7 x8 x9 x10 x11 x12 x13 x14 x15 x16)
    (h1 : V (Proc.devRef .tc main_v1) = val_main_v1 (F := Ideal) x2)
    (h3 : V (Proc.devRef .tc main_v3) = val_main_v3 (F := Ideal) x2)
    (a17 : V (Proc.devRef .tc main_arg17) = x17) (a18 : V (Proc.devRef .tc main_arg18) = x18)
    (a19 : V (Proc.devRef .tc main_arg19) = x19) (a20 : V (Proc.devRef .tc main_arg20) = x20) :
    after (opsLayer4 (F := Ideal)) V (Proc.devRef .tc main_v188) = val_main_v188 (F := Ideal) x0 x1 x2 x3 x4 x5 x6 x7 x8 x9 x10 x11 x12 x13 x14 x15 x16 x17 x18 x19 x20 := by
  after_results_simp
  rw [hH, h61, h1, h3, a17, a18, a19, a20]
  rfl

/-! The last stretch is read in two parts, cut after the product of the endpoint states: the second part begins with the
    join of that product and the fused edge feature into the 512 features. -/

set_option maxHeartbeats 4000000 in
theorem scoreA
    (hH : V (Proc.devRef .tc main_v188) = val_main_v188 (F := Ideal) x0 x1 x2 x3 x4 x5 x6 x7 x8 x9 x10 x11 x12 x13 x14 x15 x16 x17 x18 x19 x20)
    (h1 : V (Proc.devRef .tc main_v1) = val_main_v1 (F := Ideal) x2)
    (h3 : V (Proc.devRef .tc main_v3) = val_main_v3 (F := Ideal) x2) :
    after ((opsScore (F := Ideal)).take 19) V (Proc.devRef .tc main_v203) = val_main_v203 (F := Ideal) x0 x1 x2 x3 x4 x5 x6 x7 x8 x9 x10 x11 x12 x13 x14 x15 x16 x17 x18 x19 x20 := by
  simp only [List.take_succ_cons, List.take_zero]
  after_results_simp
  rw [hH, h1, h3]
  rfl
theorem keepA_v61 : after ((opsScore (F := Ideal)).take 19) V (Proc.devRef .tc main_v61) = V (Proc.devRef .tc main_v61) := by
  simp only [List.take_succ_cons, List.take_zero]
  after_results_simp
theorem keepA_v10 : after ((opsScore (F := Ideal)).take 19) V (Proc.devRef .tc main_v10) = V (Proc.devRef .tc main_v10) := by
  simp only [List.take_succ_cons, List.take_zero]
  after_results_simp
theorem keepA_arg5 : after ((opsScore (F := Ideal)).take 19) V (Proc.devRef .tc main_arg5) = V (Proc.devRef .tc main_arg5) := by
  simp only [List.take_succ_cons, List.take_zero]
  after_results_simp
theorem keepA_arg21 : after ((opsScore (F := Ideal)).take 19) V (Proc.devRef .tc main_arg21) = V (Proc.devRef .tc main_arg21) := by
  simp only [List.take_succ_cons, List.take_zero]
  after_results_simp
theorem keepA_arg22 : after ((opsScore (F := Ideal)).take 19) V (Proc.devRef .tc main_arg22) = V (Proc.devRef .tc main_arg22) := by
  simp only [List.take_succ_cons, List.take_zero]
  after_results_simp
theorem keepA_arg23 : after ((opsScore (F := Ideal)).take 19) V (Proc.devRef .tc main_arg23) = V (Proc.devRef .tc main_arg23) := by
  simp only [List.take_succ_cons, List.take_zero]
  after_results_simp
theorem keepA_arg24 : after ((opsScore (F := Ideal)).take 19) V (Proc.devRef .tc main_arg24) = V (Proc.devRef .tc main_arg24) := by
  simp only [List.take_succ_cons, List.take_zero]
  after_results_simp
theorem keepA_arg25 : after ((opsScore (F := Ideal)).take 19) V (Proc.devRef .tc main_arg25) = V (Proc.devRef .tc main_arg25) := by
  simp only [List.take_succ_cons, List.take_zero]
  after_results_simp
theorem keepA_arg26 : after ((opsScore (F := Ideal)).take 19) V (Proc.devRef .tc main_arg26) = V (Proc.devRef .tc main_arg26) := by
  simp only [List.take_succ_cons, List.take_zero]
  after_results_simp

set_option maxHeartbeats 4000000 in
theorem scoreB
    (h203 : V (Proc.devRef .tc main_v203) = val_main_v203 (F := Ideal) x0 x1 x2 x3 x4 x5 x6 x7 x8 x9 x10 x11 x12 x13 x14 x15 x16 x17 x18 x19 x20)
    (h61 : V (Proc.devRef .tc main_v61) = val_main_v61 (F := Ideal) x1 x2 x3 x4 x5 x7 x8 x9 x10 x11 x12 x13 x14 x15 x16)
    (h10 : V (Proc.devRef .tc main_v10) = val_main_v10 (F := Ideal) x2 x3)
    (a5 : V (Proc.devRef .tc main_arg5) = x5)
    (a21 : V (Proc.devRef .tc main_arg21) = x21) (a22 : V (Proc.devRef .tc main_arg22) = x22) (a23 : V (Proc.devRef .tc main_arg23) = x23)
    (a24 : V (Proc.devRef .tc main_arg24) = x24) (a25 : V (Proc.devRef .tc main_arg25) = x25) (a26 : V (Proc.devRef .tc main_arg26) = x26) :
    after ((opsScore (F := Ideal)).drop 19) V (Proc.devRef .tc main_v237) = val_main_v237 (F := Ideal) x0 x1 x2 x3 x4 x5 x6 x7 x8 x9 x10 x11 x12 x13 x14 x15 x16 x17 x18 x19 x20 x21 x22 x23 x24 x25 x26 := by
  simp only [List.drop_succ_cons, List.drop_zero]
  after_results_simp
  rw [h203, h61, h10, a5, a21, a22, a23, a24, a25, a26]
  rfl

set_option maxHeartbeats 4000000 in
theorem score_out
    (hH : V (Proc.devRef .tc main_v188) = val_main_v188 (F := Ideal) x0 x1 x2 x3 x4 x5 x6 x7 x8 x9 x10 x11 x12 x13 x14 x15 x16 x17 x18 x19 x20)
    (h61 : V (Proc.devRef .tc main_v61) = val_main_v61 (F := Ideal) x1 x2 x3 x4 x5 x7 x8 x9 x10 x11 x12 x13 x14 x15 x16)
    (h1 : V (Proc.devRef .tc main_v1) = val_main_v1 (F := Ideal) x2)
    (h3 : V (Proc.devRef .tc main_v3) = val_main_v3 (F := Ideal) x2)
    (h10 : V (Proc.devRef .tc main_v10) = val_main_v10 (F := Ideal) x2 x3)
    (a5 : V (Proc.devRef .tc main_arg5) = x5)
    (a21 : V (Proc.devRef .tc main_arg21) = x21) (a22 : V (Proc.devRef .tc main_arg22) = x22) (a23 : V (Proc.devRef .tc main_arg23) = x23)
    (a24 : V (Proc.devRef .tc main_arg24) = x24) (a25 : V (Proc.devRef .tc main_arg25) = x25) (a26 : V (Proc.devRef .tc main_arg26) = x26) :
    after (opsScore (F := Ideal)) V (Proc.devRef .tc main_v237) = val_main_v237 (F := Ideal) x0 x1 x2 x3 x4 x5 x6 x7 x8 x9 x10 x11 x12 x13 x14 x15 x16 x17 x18 x19 x20 x21 x22 x23 x24 x25 x26 := by
  rw [← List.take_append_drop 19 (opsScore (F := Ideal)), after_append]
  exact scoreB (V := after ((opsScore (F := Ideal)).take 19) V) (h203 := scoreA (V := V) (hH := hH) (h1 := h1) (h3 := h3))
    (h61 := (keepA_v61 V).trans h61) (h10 := (keepA_v10 V).trans h10) (a5 := (keepA_arg5 V).trans a5)
    (a21 := (keepA_arg21 V).trans a21) (a22 := (keepA_arg22 V).trans a22) (a23 := (keepA_arg23 V).trans a23)
    (a24 := (keepA_arg24 V).trans a24) (a25 := (keepA_arg25 V).trans a25) (a26 := (keepA_arg26 V).trans a26)

/-! ## The whole line -/

set_option maxHeartbeats 4000000 in
/-- THE REFERENCE'S RESULT: after the whole line, from any contents of the buffers, the result buffer holds the last
    stage function of the contents of the twenty-seven argument buffers. -/
theorem ref_result : after (ops (F := Ideal)) V (Proc.devRef .tc main_v237) = val_main_v237 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) := by
  simp only [ops, after_append]
  have f1_v61 := edge_v61 V
  have f1_v1 := edge_v1 V
  have f1_v3 := edge_v3 V
  have f1_v10 := edge_v10 V
  have f1_v35 := edge_v35 V
  have f1_arg5 := keep0_arg5 V
  have f1_arg17 := keep0_arg17 V
  have f1_arg18 := keep0_arg18 V
  have f1_arg19 := keep0_arg19 V
  have f1_arg20 := keep0_arg20 V
  have f1_arg21 := keep0_arg21 V
  have f1_arg22 := keep0_arg22 V
  have f1_arg23 := keep0_arg23 V
  have f1_arg24 := keep0_arg24 V
  have f1_arg25 := keep0_arg25 V
  have f1_arg26 := keep0_arg26 V
  have f2_v93 := layer1_out (V := (after (opsEdge (F := Ideal)) V)) (hH := f1_v35) (h61 := f1_v61) (h1 := f1_v1) (h3 := f1_v3) (a17 := f1_arg17) (a18 := f1_arg18) (a19 := f1_arg19) (a20 := f1_arg20)
  have f2_v61 := (keep1_v61 (after (opsEdge (F := Ideal)) V)).trans f1_v61
  have f2_v1 := (keep1_v1 (after (opsEdge (F := Ideal)) V)).trans f1_v1
  have f2_v3 := (keep1_v3 (after (opsEdge (F := Ideal)) V)).trans f1_v3
  have f2_v10 := (keep1_v10 (after (opsEdge (F := Ideal)) V)).trans f1_v10
  have f2_arg5 := (keep1_arg5 (after (opsEdge (F := Ideal)) V)).trans f1_arg5
  have f2_arg17 := (keep1_arg17 (after (opsEdge (F := Ideal)) V)).trans f1_arg17
  have f2_arg18 := (keep1_arg18 (after (opsEdge (F := Ideal)) V)).trans f1_arg18
  have f2_arg19 := (keep1_arg19 (after (opsEdge (F := Ideal)) V)).trans f1_arg19
  have f2_arg20 := (keep1_arg20 (after (opsEdge (F := Ideal)) V)).trans f1_arg20
  have f2_arg21 := (keep1_arg21 (after (opsEdge (F := Ideal)) V)).trans f1_arg21
  have f2_arg22 := (keep1_arg22 (after (opsEdge (F := Ideal)) V)).trans f1_arg22
  have f2_arg23 := (keep1_arg23 (after (opsEdge (F := Ideal)) V)).trans f1_arg23
  have f2_arg24 := (keep1_arg24 (after (opsEdge (F := Ideal)) V)).trans f1_arg24
  have f2_arg25 := (keep1_arg25 (after (opsEdge (F := Ideal)) V)).trans f1_arg25
  have f2_arg26 := (keep1_arg26 (after (opsEdge (F := Ideal)) V)).trans f1_arg26
  have f3_v125 := layer2_out (V := (after (opsLayer1 (F := Ideal)) (after (opsEdge (F := Ideal)) V))) (hH := f2_v93) (h61 := f2_v61) (h1 := f2_v1) (h3 := f2_v3) (a17 := f2_arg17) (a18 := f2_arg18) (a19 := f2_arg19) (a20 := f2_arg20)
  have f3_v61 := (keep2_v61 (after (opsLayer1 (F := Ideal)) (after (opsEdge (F := Ideal)) V))).trans f2_v61
  have f3_v1 := (keep2_v1 (after (opsLayer1 (F := Ideal)) (after (opsEdge (F := Ideal)) V))).trans f2_v1
  have f3_v3 := (keep2_v3 (after (opsLayer1 (F := Ideal)) (after (opsEdge (F := Ideal)) V))).trans f2_v3
  have f3_v10 := (keep2_v10 (after (opsLayer1 (F := Ideal)) (after (opsEdge (F := Ideal)) V))).trans f2_v10
  have f3_arg5 := (keep2_arg5 (after (opsLayer1 (F := Ideal)) (after (opsEdge (F := Ideal)) V))).trans f2_arg5
  have f3_arg17 := (keep2_arg17 (after (opsLayer1 (F := Ideal)) (after (opsEdge (F := Ideal)) V))).trans f2_arg17
  have f3_arg18 := (keep2_arg18 (after (opsLayer1 (F := Ideal)) (after (opsEdge (F := Ideal)) V))).trans f2_arg18
  have f3_arg19 := (keep2_arg19 (after (opsLayer1 (F := Ideal)) (after (opsEdge (F := Ideal)) V))).trans f2_arg19
  have f3_arg20 := (keep2_arg20 (after (opsLayer1 (F := Ideal)) (after (opsEdge (F := Ideal)) V))).trans f2_arg20
  have f3_arg21 := (keep2_arg21 (after (opsLayer1 (F := Ideal)) (after (opsEdge (F := Ideal)) V))).trans f2_arg21
  have f3_arg22 := (keep2_arg22 (after (opsLayer1 (F := Ideal)) (after (opsEdge (F := Ideal)) V))).trans f2_arg22
  have f3_arg23 := (keep2_arg23 (after (opsLayer1 (F := Ideal)) (after (opsEdge (F := Ideal)) V))).trans f2_arg23
  have f3_arg24 := (keep2_arg24 (after (opsLayer1 (F := Ideal)) (after (opsEdge (F := Ideal)) V))).trans f2_arg24
  have f3_arg25 := (keep2_arg25 (after (opsLayer1 (F := Ideal)) (after (opsEdge (F := Ideal)) V))).trans f2_arg25
  have f3_arg26 := (keep2_arg26 (after (opsLayer1 (F := Ideal)) (after (opsEdge (F := Ideal)) V))).trans f2_arg26
  have f4_v157 := layer3_out (V := (after (opsLayer2 (F := Ideal)) (after (opsLayer1 (F := Ideal)) (after (opsEdge (F := Ideal)) V)))) (hH := f3_v125) (h61 := f3_v61) (h1 := f3_v1) (h3 := f3_v3) (a17 := f3_arg17) (a18 := f3_arg18) (a19 := f3_arg19) (a20 := f3_arg20)
  have f4_v61 := (keep3_v61 (after (opsLayer2 (F := Ideal)) (after (opsLayer1 (F := Ideal)) (after (opsEdge (F := Ideal)) V)))).trans f3_v61
  have f4_v1 := (keep3_v1 (after (opsLayer2 (F := Ideal)) (after (opsLayer1 (F := Ideal)) (after (opsEdge (F := Ideal)) V)))).trans f3_v1
  have f4_v3 := (keep3_v3 (after (opsLayer2 (F := Ideal)) (after (opsLayer1 (F := Ideal)) (after (opsEdge (F := Ideal)) V)))).trans f3_v3
  have f4_v10 := (keep3_v10 (after (opsLayer2 (F := Ideal)) (after (opsLayer1 (F := Ideal)) (after (opsEdge (F := Ideal)) V)))).trans f3_v10
  have f4_arg5 := (keep3_arg5 (after (opsLayer2 (F := Ideal)) (after (opsLayer1 (F := Ideal)) (after (opsEdge (F := Ideal)) V)))).trans f3_arg5
  have f4_arg17 := (keep3_arg17 (after (opsLayer2 (F := Ideal)) (after (opsLayer1 (F := Ideal)) (after (opsEdge (F := Ideal)) V)))).trans f3_arg17
  have f4_arg18 := (keep3_arg18 (after (opsLayer2 (F := Ideal)) (after (opsLayer1 (F := Ideal)) (after (opsEdge (F := Ideal)) V)))).trans f3_arg18
  have f4_arg19 := (keep3_arg19 (after (opsLayer2 (F := Ideal)) (after (opsLayer1 (F := Ideal)) (after (opsEdge (F := Ideal)) V)))).trans f3_arg19
  have f4_arg20 := (keep3_arg20 (after (opsLayer2 (F := Ideal)) (after (opsLayer1 (F := Ideal)) (after (opsEdge (F := Ideal)) V)))).trans f3_arg20
  have f4_arg21 := (keep3_arg21 (after (opsLayer2 (F := Ideal)) (after (opsLayer1 (F := Ideal)) (after (opsEdge (F := Ideal)) V)))).trans f3_arg21
  have f4_arg22 := (keep3_arg22 (after (opsLayer2 (F := Ideal)) (after (opsLayer1 (F := Ideal)) (after (opsEdge (F := Ideal)) V)))).trans f3_arg22
  have f4_arg23 := (keep3_arg23 (after (opsLayer2 (F := Ideal)) (after (opsLayer1 (F := Ideal)) (after (opsEdge (F := Ideal)) V)))).trans f3_arg23
  have f4_arg24 := (keep3_arg24 (after (opsLayer2 (F := Ideal)) (after (opsLayer1 (F := Ideal)) (after (opsEdge (F := Ideal)) V)))).trans f3_arg24
  have f4_arg25 := (keep3_arg25 (after (opsLayer2 (F := Ideal)) (after (opsLayer1 (F := Ideal)) (after (opsEdge (F := Ideal)) V)))).trans f3_arg25
  have f4_arg26 := (keep3_arg26 (after (opsLayer2 (F := Ideal)) (after (opsLayer1 (F := Ideal)) (after (opsEdge (F := Ideal)) V)))).trans f3_arg26
  have f5_v188 := layer4_out (V := (after (opsLayer3 (F := Ideal)) (after (opsLayer2 (F := Ideal)) (after (opsLayer1 (F := Ideal)) (after (opsEdge (F := Ideal)) V))))) (hH := f4_v157) (h61 := f4_v61) (h1 := f4_v1) (h3 := f4_v3) (a17 := f4_arg17) (a18 := f4_arg18) (a19 := f4_arg19) (a20 := f4_arg20)
  have f5_v61 := (keep4_v61 (after (opsLayer3 (F := Ideal)) (after (opsLayer2 (F := Ideal)) (after (opsLayer1 (F := Ideal)) (after (opsEdge (F := Ideal)) V))))).trans f4_v61
  have f5_v1 := (keep4_v1 (after (opsLayer3 (F := Ideal)) (after (opsLayer2 (F := Ideal)) (after (opsLayer1 (F := Ideal)) (after (opsEdge (F := Ideal)) V))))).trans f4_v1
  have f5_v3 := (keep4_v3 (after (opsLayer3 (F := Ideal)) (after (opsLayer2 (F := Ideal)) (after (opsLayer1 (F := Ideal)) (after (opsEdge (F := Ideal)) V))))).trans f4_v3
  have f5_v10 := (keep4_v10 (after (opsLayer3 (F := Ideal)) (after (opsLayer2 (F := Ideal)) (after (opsLayer1 (F := Ideal)) (after (opsEdge (F := Ideal)) V))))).trans f4_v10
  have f5_arg5 := (keep4_arg5 (after (opsLayer3 (F := Ideal)) (after (opsLayer2 (F := Ideal)) (after (opsLayer1 (F := Ideal)) (after (opsEdge (F := Ideal)) V))))).trans f4_arg5
  have f5_arg21 := (keep4_arg21 (after (opsLayer3 (F := Ideal)) (after (opsLayer2 (F := Ideal)) (after (opsLayer1 (F := Ideal)) (after (opsEdge (F := Ideal)) V))))).trans f4_arg21
  have f5_arg22 := (keep4_arg22 (after (opsLayer3 (F := Ideal)) (after (opsLayer2 (F := Ideal)) (after (opsLayer1 (F := Ideal)) (after (opsEdge (F := Ideal)) V))))).trans f4_arg22
  have f5_arg23 := (keep4_arg23 (after (opsLayer3 (F := Ideal)) (after (opsLayer2 (F := Ideal)) (after (opsLayer1 (F := Ideal)) (after (opsEdge (F := Ideal)) V))))).trans f4_arg23
  have f5_arg24 := (keep4_arg24 (after (opsLayer3 (F := Ideal)) (after (opsLayer2 (F := Ideal)) (after (opsLayer1 (F := Ideal)) (after (opsEdge (F := Ideal)) V))))).trans f4_arg24
  have f5_arg25 := (keep4_arg25 (after (opsLayer3 (F := Ideal)) (after (opsLayer2 (F := Ideal)) (after (opsLayer1 (F := Ideal)) (after (opsEdge (F := Ideal)) V))))).trans f4_arg25
  have f5_arg26 := (keep4_arg26 (after (opsLayer3 (F := Ideal)) (after (opsLayer2 (F := Ideal)) (after (opsLayer1 (F := Ideal)) (after (opsEdge (F := Ideal)) V))))).trans f4_arg26
  exact score_out (V := (after (opsLayer4 (F := Ideal)) (after (opsLayer3 (F := Ideal)) (after (opsLayer2 (F := Ideal)) (after (opsLayer1 (F := Ideal)) (after (opsEdge (F := Ideal)) V)))))) (hH := f5_v188) (h61 := f5_v61) (h1 := f5_v1) (h3 := f5_v3) (h10 := f5_v10) (a5 := f5_arg5)
    (a21 := f5_arg21) (a22 := f5_arg22) (a23 := f5_arg23) (a24 := f5_arg24) (a25 := f5_arg25) (a26 := f5_arg26)

end Cert.RefThread

end
-- ==== Proof.RefArgs.lean ====
/-
  The reference leaves its arguments alone.

  None of the 297 operations writes an argument array (each writes its own fresh result buffer), so the fold of the whole
  line, read at an argument, is the launch contents of that argument.
-/
import proofs.«143893_j1065151889700_2_alg».proof.Proof.RefRun
import Idealize.ShloMosaic.PureOps.Ideal

set_option maxRecDepth 16384

noncomputable section

namespace Cert.ReferenceIdeal.FoldRun

open Cert.ReferenceIdeal Cert.ReferenceIdeal.Gen Idealize.ShloMosaic Idealize.ShloMosaic.TcCoe Idealize.SL.Sem Idealize.ShloMosaic.StableHlo

/-- A buffer that none of the six stretches writes keeps its contents through the whole line. -/
theorem keep_of (V : Valuation τ sig (Elt Ideal)) (b : DevRef τ sig)
    (h0 : ∀ op ∈ (opsEdge : List (HloOp τ sig (Elt Ideal))), b ∉ op.writes)
    (h1 : ∀ op ∈ (opsLayer1 : List (HloOp τ sig (Elt Ideal))), b ∉ op.writes)
    (h2 : ∀ op ∈ (opsLayer2 : List (HloOp τ sig (Elt Ideal))), b ∉ op.writes)
    (h3 : ∀ op ∈ (opsLayer3 : List (HloOp τ sig (Elt Ideal))), b ∉ op.writes)
    (h4 : ∀ op ∈ (opsLayer4 : List (HloOp τ sig (Elt Ideal))), b ∉ op.writes)
    (h5 : ∀ op ∈ (opsScore : List (HloOp τ sig (Elt Ideal))), b ∉ op.writes) :
    after ops V b = V b := by
  simp only [ops, after_append]
  rw [after_of_forall_not_mem _ _ h5, after_of_forall_not_mem _ _ h4, after_of_forall_not_mem _ _ h3,
    after_of_forall_not_mem _ _ h2, after_of_forall_not_mem _ _ h1, after_of_forall_not_mem _ _ h0]

theorem kept_arg0 (V : Valuation τ sig (Elt Ideal)) : after ops V (Proc.devRef .tc main_arg0) = V (Proc.devRef .tc main_arg0) :=
  keep_of V _ (by decide +kernel) (by decide +kernel) (by decide +kernel) (by decide +kernel) (by decide +kernel) (by decide +kernel)
theorem kept_arg1 (V : Valuation τ sig (Elt Ideal)) : after ops V (Proc.devRef .tc main_arg1) = V (Proc.devRef .tc main_arg1) :=
  keep_of V _ (by decide +kernel) (by decide +kernel) (by decide +kernel) (by decide +kernel) (by decide +kernel) (by decide +kernel)
theorem kept_arg2 (V : Valuation τ sig (Elt Ideal)) : after ops V (Proc.devRef .tc main_arg2) = V (Proc.devRef .tc main_arg2) :=
  keep_of V _ (by decide +kernel) (by decide +kernel) (by decide +kernel) (by decide +kernel) (by decide +kernel) (by decide +kernel)
theorem kept_arg3 (V : Valuation τ sig (Elt Ideal)) : after ops V (Proc.devRef .tc main_arg3) = V (Proc.devRef .tc main_arg3) :=
  keep_of V _ (by decide +kernel) (by decide +kernel) (by decide +kernel) (by decide +kernel) (by decide +kernel) (by decide +kernel)
theorem kept_arg4 (V : Valuation τ sig (Elt Ideal)) : after ops V (Proc.devRef .tc main_arg4) = V (Proc.devRef .tc main_arg4) :=
  keep_of V _ (by decide +kernel) (by decide +kernel) (by decide +kernel) (by decide +kernel) (by decide +kernel) (by decide +kernel)
theorem kept_arg5 (V : Valuation τ sig (Elt Ideal)) : after ops V (Proc.devRef .tc main_arg5) = V (Proc.devRef .tc main_arg5) :=
  keep_of V _ (by decide +kernel) (by decide +kernel) (by decide +kernel) (by decide +kernel) (by decide +kernel) (by decide +kernel)
theorem kept_arg6 (V : Valuation τ sig (Elt Ideal)) : after ops V (Proc.devRef .tc main_arg6) = V (Proc.devRef .tc main_arg6) :=
  keep_of V _ (by decide +kernel) (by decide +kernel) (by decide +kernel) (by decide +kernel) (by decide +kernel) (by decide +kernel)
theorem kept_arg7 (V : Valuation τ sig (Elt Ideal)) : after ops V (Proc.devRef .tc main_arg7) = V (Proc.devRef .tc main_arg7) :=
  keep_of V _ (by decide +kernel) (by decide +kernel) (by decide +kernel) (by decide +kernel) (by decide +kernel) (by decide +kernel)
theorem kept_arg8 (V : Valuation τ sig (Elt Ideal)) : after ops V (Proc.devRef .tc main_arg8) = V (Proc.devRef .tc main_arg8) :=
  keep_of V _ (by decide +kernel) (by decide +kernel) (by decide +kernel) (by decide +kernel) (by decide +kernel) (by decide +kernel)
theorem kept_arg9 (V : Valuation τ sig (Elt Ideal)) : after ops V (Proc.devRef .tc main_arg9) = V (Proc.devRef .tc main_arg9) :=
  keep_of V _ (by decide +kernel) (by decide +kernel) (by decide +kernel) (by decide +kernel) (by decide +kernel) (by decide +kernel)
theorem kept_arg10 (V : Valuation τ sig (Elt Ideal)) : after ops V (Proc.devRef .tc main_arg10) = V (Proc.devRef .tc main_arg10) :=
  keep_of V _ (by decide +kernel) (by decide +kernel) (by decide +kernel) (by decide +kernel) (by decide +kernel) (by decide +kernel)
theorem kept_arg11 (V : Valuation τ sig (Elt Ideal)) : after ops V (Proc.devRef .tc main_arg11) = V (Proc.devRef .tc main_arg11) :=
  keep_of V _ (by decide +kernel) (by decide +kernel) (by decide +kernel) (by decide +kernel) (by decide +kernel) (by decide +kernel)
theorem kept_arg12 (V : Valuation τ sig (Elt Ideal)) : after ops V (Proc.devRef .tc main_arg12) = V (Proc.devRef .tc main_arg12) :=
  keep_of V _ (by decide +kernel) (by decide +kernel) (by decide +kernel) (by decide +kernel) (by decide +kernel) (by decide +kernel)
theorem kept_arg13 (V : Valuation τ sig (Elt Ideal)) : after ops V (Proc.devRef .tc main_arg13) = V (Proc.devRef .tc main_arg13) :=
  keep_of V _ (by decide +kernel) (by decide +kernel) (by decide +kernel) (by decide +kernel) (by decide +kernel) (by decide +kernel)
theorem kept_arg14 (V : Valuation τ sig (Elt Ideal)) : after ops V (Proc.devRef .tc main_arg14) = V (Proc.devRef .tc main_arg14) :=
  keep_of V _ (by decide +kernel) (by decide +kernel) (by decide +kernel) (by decide +kernel) (by decide +kernel) (by decide +kernel)
theorem kept_arg15 (V : Valuation τ sig (Elt Ideal)) : after ops V (Proc.devRef .tc main_arg15) = V (Proc.devRef .tc main_arg15) :=
  keep_of V _ (by decide +kernel) (by decide +kernel) (by decide +kernel) (by decide +kernel) (by decide +kernel) (by decide +kernel)
theorem kept_arg16 (V : Valuation τ sig (Elt Ideal)) : after ops V (Proc.devRef .tc main_arg16) = V (Proc.devRef .tc main_arg16) :=
  keep_of V _ (by decide +kernel) (by decide +kernel) (by decide +kernel) (by decide +kernel) (by decide +kernel) (by decide +kernel)
theorem kept_arg17 (V : Valuation τ sig (Elt Ideal)) : after ops V (Proc.devRef .tc main_arg17) = V (Proc.devRef .tc main_arg17) :=
  keep_of V _ (by decide +kernel) (by decide +kernel) (by decide +kernel) (by decide +kernel) (by decide +kernel) (by decide +kernel)
theorem kept_arg18 (V : Valuation τ sig (Elt Ideal)) : after ops V (Proc.devRef .tc main_arg18) = V (Proc.devRef .tc main_arg18) :=
  keep_of V _ (by decide +kernel) (by decide +kernel) (by decide +kernel) (by decide +kernel) (by decide +kernel) (by decide +kernel)
theorem kept_arg19 (V : Valuation τ sig (Elt Ideal)) : after ops V (Proc.devRef .tc main_arg19) = V (Proc.devRef .tc main_arg19) :=
  keep_of V _ (by decide +kernel) (by decide +kernel) (by decide +kernel) (by decide +kernel) (by decide +kernel) (by decide +kernel)
theorem kept_arg20 (V : Valuation τ sig (Elt Ideal)) : after ops V (Proc.devRef .tc main_arg20) = V (Proc.devRef .tc main_arg20) :=
  keep_of V _ (by decide +kernel) (by decide +kernel) (by decide +kernel) (by decide +kernel) (by decide +kernel) (by decide +kernel)
theorem kept_arg21 (V : Valuation τ sig (Elt Ideal)) : after ops V (Proc.devRef .tc main_arg21) = V (Proc.devRef .tc main_arg21) :=
  keep_of V _ (by decide +kernel) (by decide +kernel) (by decide +kernel) (by decide +kernel) (by decide +kernel) (by decide +kernel)
theorem kept_arg22 (V : Valuation τ sig (Elt Ideal)) : after ops V (Proc.devRef .tc main_arg22) = V (Proc.devRef .tc main_arg22) :=
  keep_of V _ (by decide +kernel) (by decide +kernel) (by decide +kernel) (by decide +kernel) (by decide +kernel) (by decide +kernel)
theorem kept_arg23 (V : Valuation τ sig (Elt Ideal)) : after ops V (Proc.devRef .tc main_arg23) = V (Proc.devRef .tc main_arg23) :=
  keep_of V _ (by decide +kernel) (by decide +kernel) (by decide +kernel) (by decide +kernel) (by decide +kernel) (by decide +kernel)
theorem kept_arg24 (V : Valuation τ sig (Elt Ideal)) : after ops V (Proc.devRef .tc main_arg24) = V (Proc.devRef .tc main_arg24) :=
  keep_of V _ (by decide +kernel) (by decide +kernel) (by decide +kernel) (by decide +kernel) (by decide +kernel) (by decide +kernel)
theorem kept_arg25 (V : Valuation τ sig (Elt Ideal)) : after ops V (Proc.devRef .tc main_arg25) = V (Proc.devRef .tc main_arg25) :=
  keep_of V _ (by decide +kernel) (by decide +kernel) (by decide +kernel) (by decide +kernel) (by decide +kernel) (by decide +kernel)
theorem kept_arg26 (V : Valuation τ sig (Elt Ideal)) : after ops V (Proc.devRef .tc main_arg26) = V (Proc.devRef .tc main_arg26) :=
  keep_of V _ (by decide +kernel) (by decide +kernel) (by decide +kernel) (by decide +kernel) (by decide +kernel) (by decide +kernel)

end Cert.ReferenceIdeal.FoldRun

end
-- ==== Proof.TimePositive.lean ====
/-
  The diffusion times are positive reals.

  The statement's precondition is a conjunction: for every float argument, all of its entries have absolute value below
  +∞; and, last, every entry of the time argument is greater than zero. An extended real whose absolute value is below +∞
  is neither infinity, so it is a real number; and that real is positive. This is what makes x · (1 / t) = x / t.
-/
import proofs.«143893_j1065151889700_2_alg».proof.Pre_finite_inputs
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

noncomputable section

namespace Cert.TimePositive

open Idealize.ShloMosaic Cert.Pre_finite_inputs

variable [Facts]

/-- The scalar shape has one index. -/
instance : Subsingleton S_.Idx := ⟨fun a b => funext fun d => d.elim0⟩

/-- An extended real that is positive and whose absolute value is below +∞ is a positive real number. -/
theorem pos_real_of (x : EReal) (hfin : max x (-x) < ⊤) (hpos : 0 < x) : ∃ r : ℝ, 0 < r ∧ x = (r : EReal) := by
  induction x using EReal.rec with
  | bot => exact absurd hpos (by simp)
  | coe r => exact ⟨r, by exact_mod_cast hpos, rfl⟩
  | top => exact absurd hfin (by simp)

/-- A one-bit word made from a Boolean is 1 exactly when the Boolean is true. -/
theorem ofBool_eq_one {b : Bool} : BitVec.ofBool b = 1#1 ↔ b = true := by cases b <;> decide

/-- The constant the finiteness tests compare with is +∞. -/
theorem ofBits_inf_f32 : Ideal.ofBits .f32 0x7F800000#32 = (⊤ : EReal) := by simp [Ideal.ofBits, Ideal.ieee]

/-- Under the precondition every diffusion time is a positive real number. -/
theorem t_pos (a0 : IVec S50000 32) (a1 : IVec S300000 32) (a2 : IVec S2x300000 32) (a3 : IVec S50000 32)
    (a4 : FVec Ideal S300000x1 .f32) (a5 : FVec Ideal S1024 .f32) (a6 a7 : FVec Ideal S100x256 .f32) (a8 : FVec Ideal S1x256 .f32)
    (a9 : FVec Ideal S256 .f32) (a10 : FVec Ideal S256x256 .f32) (a11 : FVec Ideal S256 .f32) (a12 : FVec Ideal S128 .f32)
    (a13 : FVec Ideal S256x256 .f32) (a14 : FVec Ideal S256 .f32) (a15 : FVec Ideal S256x1 .f32) (a16 : FVec Ideal S1 .f32)
    (a17 : FVec Ideal S4x256x256 .f32) (a18 : FVec Ideal S4x256 .f32) (a19 : FVec Ideal S4x256x256 .f32) (a20 : FVec Ideal S4x256 .f32)
    (a21 : FVec Ideal S512x256 .f32) (a22 : FVec Ideal S256 .f32) (a23 : FVec Ideal S256x128 .f32) (a24 : FVec Ideal S128 .f32)
    (a25 : FVec Ideal S128x1 .f32) (a26 : FVec Ideal S1 .f32)
    (h : fn (F := Ideal) a0 a1 a2 a3 a4 a5 a6 a7 a8 a9 a10 a11 a12 a13 a14 a15 a16 a17 a18 a19 a20 a21 a22 a23 a24 a25 a26 = fun _ => 1#1)
    (g : Fin 1024) : ∃ r : ℝ, 0 < r ∧ a5 (ValueIdx.ix1 g) = (r : EReal) := by
  have e := congrFun h ValueIdx.ix0
  dsimp only [fn, fn_part1, fn_part2, fn_part3, fn_part4, fn_part5, fn_part6] at e
  simp only [andi, IntOp.andi_eq_one] at e
  -- the last conjunct: every time is greater than zero; the second: every time has absolute value below +∞
  have hpos := Host.reduce_andi_all _ _ _ _ _ e.2 (ValueIdx.ix1 g)
  have hfin := Host.reduce_andi_all _ _ _ _ _ e.1.1.1.1.1.1.1.1.1.1.1.1.1.1.1.1.1.1.1.1.1.1.2 (ValueIdx.ix1 g)
  clear e h
  have hpos' : BitVec.ofBool (decide (Ideal.ofBits .f32 0x00000000#32 < a5 (ValueIdx.ix1 g))) = 1#1 := hpos
  have hfin' : BitVec.ofBool (decide (max (a5 (ValueIdx.ix1 g)) (-(a5 (ValueIdx.ix1 g))) < Ideal.ofBits .f32 0x7F800000#32)) = 1#1 := hfin
  rw [ofBool_eq_one, decide_eq_true_eq, Ideal.ofBits_zero_f32] at hpos'
  rw [ofBool_eq_one, decide_eq_true_eq, ofBits_inf_f32] at hfin'
  exact pos_real_of _ hfin' hpos'

end Cert.TimePositive

end
-- ==== Proof.lean ====
/-
  The certificate: a four-layer message-passing score network, six kernel launches against its plain reference.

  Both programs compute, for every edge, a score from the graph's node and edge features and divide it by the marginal
  standard deviation of the diffusion at the edge's graph time. The kernel program runs the dense stages in six launches
  (the fused edge feature, four graph-convolution updates, the output perceptron) and leaves the gathers and scatter-adds
  on the host, exactly as the reference has them. At the ideal instance a launch's blocks are restrictions of one
  per-row function, a blocked matrix product is the whole product, the output perceptron's first layer over the two
  256-column halves is the product with the 512-row matrix, and multiplying by 1/std is dividing by std wherever std is
  not zero — which the added precondition (every diffusion time positive) guarantees. The three frames are the generated
  ones (the reference's: its run as a fold, the arguments never written); `preserves` has no entry.
-/
import proofs.«143893_j1065151889700_2_alg».proof.Defs
import proofs.«143893_j1065151889700_2_alg».proof.Proof.Gen.Kernel
import proofs.«143893_j1065151889700_2_alg».proof.Proof.Gen.Kernel.Skeleton
import proofs.«143893_j1065151889700_2_alg».proof.Proof.Gen.Kernel.Launch
import proofs.«143893_j1065151889700_2_alg».proof.Proof.Gen.Kernel.Points
import proofs.«143893_j1065151889700_2_alg».proof.Proof.Gen.Kernel.Frame
import proofs.«143893_j1065151889700_2_alg».proof.Proof.Gen.KernelIdeal
import proofs.«143893_j1065151889700_2_alg».proof.Proof.Gen.KernelIdeal.Skeleton
import proofs.«143893_j1065151889700_2_alg».proof.Proof.Gen.KernelIdeal.Launch
import proofs.«143893_j1065151889700_2_alg».proof.Proof.Gen.KernelIdeal.Points
import proofs.«143893_j1065151889700_2_alg».proof.Proof.Gen.KernelIdeal.Frame
import proofs.«143893_j1065151889700_2_alg».proof.Proof.Gen.ReferenceIdeal
import proofs.«143893_j1065151889700_2_alg».proof.Proof.Gen.Pre_finite_inputs
import proofs.«143893_j1065151889700_2_alg».proof.Proof.KRun
import proofs.«143893_j1065151889700_2_alg».proof.Proof.Chain
import proofs.«143893_j1065151889700_2_alg».proof.Proof.RefThread
import proofs.«143893_j1065151889700_2_alg».proof.Proof.RefArgs
import proofs.«143893_j1065151889700_2_alg».proof.Proof.TimePositive
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

attribute [local instance] Cert.Kernel.Gen.facts Cert.KernelIdeal.Gen.facts Cert.ReferenceIdeal.Gen.facts Cert.Pre_finite_inputs.Gen.facts

/-- The reference's run with its arguments read back: none of its operations writes one. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ fun r =>
      ∀ c : Dev Cert.ReferenceIdeal.nD,
        r.2.mem ((c.tc : Thread Cert.ReferenceIdeal.nD Cert.ReferenceIdeal.τ).loc Cert.ReferenceIdeal.main_v237)
          = Cert.ReferenceIdeal.Read.val_main_v237 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
        ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
        ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
        ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
        ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
        ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
        ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
        ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
        ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
        ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
        ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
        ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26) :=
  (θ_run Cert.ReferenceIdeal.defs _ _).mono (fun r h c =>
    ⟨(h c Cert.ReferenceIdeal.main_v237).trans (Cert.RefThread.ref_result _),
     (h c Cert.ReferenceIdeal.main_arg0).trans (Cert.ReferenceIdeal.FoldRun.kept_arg0 _),
     (h c Cert.ReferenceIdeal.main_arg1).trans (Cert.ReferenceIdeal.FoldRun.kept_arg1 _),
     (h c Cert.ReferenceIdeal.main_arg2).trans (Cert.ReferenceIdeal.FoldRun.kept_arg2 _),
     (h c Cert.ReferenceIdeal.main_arg3).trans (Cert.ReferenceIdeal.FoldRun.kept_arg3 _),
     (h c Cert.ReferenceIdeal.main_arg4).trans (Cert.ReferenceIdeal.FoldRun.kept_arg4 _),
     (h c Cert.ReferenceIdeal.main_arg5).trans (Cert.ReferenceIdeal.FoldRun.kept_arg5 _),
     (h c Cert.ReferenceIdeal.main_arg6).trans (Cert.ReferenceIdeal.FoldRun.kept_arg6 _),
     (h c Cert.ReferenceIdeal.main_arg7).trans (Cert.ReferenceIdeal.FoldRun.kept_arg7 _),
     (h c Cert.ReferenceIdeal.main_arg8).trans (Cert.ReferenceIdeal.FoldRun.kept_arg8 _),
     (h c Cert.ReferenceIdeal.main_arg9).trans (Cert.ReferenceIdeal.FoldRun.kept_arg9 _),
     (h c Cert.ReferenceIdeal.main_arg10).trans (Cert.ReferenceIdeal.FoldRun.kept_arg10 _),
     (h c Cert.ReferenceIdeal.main_arg11).trans (Cert.ReferenceIdeal.FoldRun.kept_arg11 _),
     (h c Cert.ReferenceIdeal.main_arg12).trans (Cert.ReferenceIdeal.FoldRun.kept_arg12 _),
     (h c Cert.ReferenceIdeal.main_arg13).trans (Cert.ReferenceIdeal.FoldRun.kept_arg13 _),
     (h c Cert.ReferenceIdeal.main_arg14).trans (Cert.ReferenceIdeal.FoldRun.kept_arg14 _),
     (h c Cert.ReferenceIdeal.main_arg15).trans (Cert.ReferenceIdeal.FoldRun.kept_arg15 _),
     (h c Cert.ReferenceIdeal.main_arg16).trans (Cert.ReferenceIdeal.FoldRun.kept_arg16 _),
     (h c Cert.ReferenceIdeal.main_arg17).trans (Cert.ReferenceIdeal.FoldRun.kept_arg17 _),
     (h c Cert.ReferenceIdeal.main_arg18).trans (Cert.ReferenceIdeal.FoldRun.kept_arg18 _),
     (h c Cert.ReferenceIdeal.main_arg19).trans (Cert.ReferenceIdeal.FoldRun.kept_arg19 _),
     (h c Cert.ReferenceIdeal.main_arg20).trans (Cert.ReferenceIdeal.FoldRun.kept_arg20 _),
     (h c Cert.ReferenceIdeal.main_arg21).trans (Cert.ReferenceIdeal.FoldRun.kept_arg21 _),
     (h c Cert.ReferenceIdeal.main_arg22).trans (Cert.ReferenceIdeal.FoldRun.kept_arg22 _),
     (h c Cert.ReferenceIdeal.main_arg23).trans (Cert.ReferenceIdeal.FoldRun.kept_arg23 _),
     (h c Cert.ReferenceIdeal.main_arg24).trans (Cert.ReferenceIdeal.FoldRun.kept_arg24 _),
     (h c Cert.ReferenceIdeal.main_arg25).trans (Cert.ReferenceIdeal.FoldRun.kept_arg25 _),
     (h c Cert.ReferenceIdeal.main_arg26).trans (Cert.ReferenceIdeal.FoldRun.kept_arg26 _)⟩)
    (Cert.ReferenceIdeal.FoldRun.run_fold (F := Ideal) m' ρ')

theorem frame_reference : Cert.frame_ReferenceIdeal := fun m ρ _ =>
  (θ_run Cert.ReferenceIdeal.defs _ _).mono (fun _ h c => (h c).2) (ref_run m ρ)

/-- Under the precondition every diffusion time is a positive real. -/
theorem times_positive (m : (ℓ : Loc Cert.KernelIdeal.nD Cert.KernelIdeal.τ Cert.KernelIdeal.sig) → Buf (Elt Ideal) ℓ)
    (hpre : Cert.Pre_KernelIdeal m) (c : Dev Cert.KernelIdeal.nD) (g : Fin 1024) :
    ∃ r : ℝ, 0 < r ∧ (m ((c.tc : Thread Cert.KernelIdeal.nD Cert.KernelIdeal.τ).loc Cert.KernelIdeal.main_arg5)) (ValueIdx.ix1 g) = (r : EReal) :=
  Cert.TimePositive.t_pos _ _ _ _ _ _ _ _ _ _ _ _ _ _ _ _ _ _ _ _ _ _ _ _ _ _ _ (hpre c) g

theorem algebraic : Cert.algebraic_KernelIdeal_ReferenceIdeal := by
  intro m ρ m' ρ' hpre hagree
  refine ⟨fun c => Cert.KernelIdeal.Gen.W21 m ρ c (Proc.devRef .tc Cert.KernelIdeal.main_v187), Cert.KernelIdeal.ResultRun.run m ρ, ?_⟩
  refine (θ_run Cert.ReferenceIdeal.defs _ _).mono (fun r h c => ⟨(h c).1.trans ?_, (h c).2⟩) (ref_run m' ρ')
  obtain ⟨g0, g1, g2, g3, g4, g5, g6, g7, g8, g9, g10, g11, g12, g13, g14, g15, g16, g17, g18, g19, g20, g21, g22, g23, g24, g25, g26⟩ := hagree c
  rw [g0, g1, g2, g3, g4, g5, g6, g7, g8, g9, g10, g11, g12, g13, g14, g15, g16, g17, g18, g19, g20, g21, g22, g23, g24, g25, g26]
  funext i
  obtain ⟨e, rfl⟩ : ∃ e : Fin 300000, i = ValueIdx.ix1 e := ⟨i 0, ValueIdx.eq_ix1 i⟩
  exact (Cert.Chain.kernel_result m ρ c (times_positive m hpre c) e).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_reference, trivial, algebraic⟩

end Cert.Proof

end
